-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x77x768 : Shape := ⟨3, ![1024, 77, 768]⟩
abbrev S1024x77 : Shape := ⟨2, ![1024, 77]⟩
abbrev S1x768 : Shape := ⟨2, ![1, 768]⟩
abbrev S1 : Shape := ⟨1, ![1]⟩
abbrev S_ : Shape := ⟨0, ![]⟩

class Facts : Prop where
  bcast_S_S1024x77x768 : S_.BroadcastsInDim S1024x77x768 (![] : Fin 0 → Fin S1024x77x768.rank)
  reducesTo_S1024x77x768_S_d0_1_2 : S1024x77x768.ReducesTo [0, 1, 2] S_
  h_S_ : 0 < S_.numel
  bcast_S_S1024x77 : S_.BroadcastsInDim S1024x77 (![] : Fin 0 → Fin S1024x77.rank)
  reducesTo_S1024x77_S_d0_1 : S1024x77.ReducesTo [0, 1] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : IVec S1024x77 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S1024x77 32 := broadcastInDim S1024x77 ![] bcast_S_S1024x77 main_c_6
  let main_v20 : IVec S1024x77 1 := cmpi .sge main_arg4 main_v19
  let main_c_7 : IVec S_ 32 := constantI S_ 32 49407#32
  let main_v21 : IVec S1024x77 32 := broadcastInDim S1024x77 ![] bcast_S_S1024x77 main_c_7
  let main_v22 : IVec S1024x77 1 := cmpi .sle main_arg4 main_v21
  let main_v23 : IVec S1024x77 1 := andi main_v20 main_v22
  let main_c_8 : IVec S_ 1 := constantI S_ 1 1#1
  let main_v24 : IVec S_ 1 := (fun x v => Host.reduce IntOp.andi x v reducesTo_S1024x77_S_d0_1 h_S_) main_v23 main_c_8
  let main_v25 : IVec S_ 1 := andi main_v18 main_v24
  main_v25

def fn {F : FTy → Type} [FloatOps F] (main_arg0 : FVec F S1024x77x768 .f32) (main_arg1 : FVec F S1024x77 .f32) (main_arg2 : FVec F S1x768 .f32) (main_arg3 : FVec F S1 .f32) (main_arg4 : IVec S1024x77 32) : IVec S_ 1 :=
  let main_v0 : FVec F S1024x77x768 .f32 := Host.absf main_arg0
  let main_cst : FVec F S_ .f32 := constant S_ .f32 0x7F800000#32
  let main_v1 : FVec F S1024x77x768 .f32 := broadcastInDim S1024x77x768 ![] bcast_S_S1024x77x768 main_cst
  let main_v2 : IVec S1024x77x768 1 := cmpf .olt main_v0 main_v1
  let main_c : IVec S_ 1 := constantI S_ 1 1#1
  let main_v3 : IVec S_ 1 := (fun x v => Host.reduce IntOp.andi x v reducesTo_S1024x77x768_S_d0_1_2 h_S_) main_v2 main_c
  let main_v4 : FVec F S1024x77 .f32 := Host.absf main_arg1
  let main_cst_0 : FVec F S_ .f32 := constant S_ .f32 0x7F800000#32
  let main_v5 : FVec F S1024x77 .f32 := broadcastInDim S1024x77 ![] bcast_S_S1024x77 main_cst_0
  let main_v6 : IVec S1024x77 1 := cmpf .olt main_v4 main_v5
  let main_c_1 : IVec S_ 1 := constantI S_ 1 1#1
  let main_v7 : IVec S_ 1 := (fun x v => Host.reduce IntOp.andi x v reducesTo_S1024x77_S_d0_1 h_S_) main_v6 main_c_1
  let main_v8 : IVec S_ 1 := andi main_v3 main_v7
  let main_v9 : FVec F S1x768 .f32 := Host.absf main_arg2
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_c_3 : IVec S_ 1 := constantI S_ 1 1#1
  let main_v12 : IVec S_ 1 := (fun x v => Host.reduce IntOp.andi x v reducesTo_S1x768_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S1024x77x768 : Shape := ⟨3, ![1024, 77, 768]⟩
abbrev S1024x77 : Shape := ⟨2, ![1024, 77]⟩
abbrev S1x768 : Shape := ⟨2, ![1, 768]⟩
abbrev S1 : Shape := ⟨1, ![1]⟩
abbrev S1x1 : Shape := ⟨2, ![1, 1]⟩
abbrev S8x77x768 : Shape := ⟨3, ![8, 77, 768]⟩
abbrev S8x77 : Shape := ⟨2, ![8, 77]⟩
abbrev S1x1x768 : Shape := ⟨3, ![1, 1, 768]⟩
abbrev S8x77x1 : Shape := ⟨3, ![8, 77, 1]⟩
abbrev S8x1x77 : Shape := ⟨3, ![8, 1, 77]⟩
abbrev S8x77x77 : Shape := ⟨3, ![8, 77, 77]⟩
abbrev S_ : Shape := ⟨0, ![]⟩
abbrev S1024x80 : Shape := ⟨2, ![1024, 80]⟩
abbrev S1024x49408 : Shape := ⟨2, ![1024, 49408]⟩
abbrev S49424 : Shape := ⟨1, ![49424]⟩
abbrev S80 : Shape := ⟨1, ![80]⟩
abbrev S16 : Shape := ⟨1, ![16]⟩
abbrev S1x80 : Shape := ⟨2, ![1, 80]⟩
abbrev S49408 : Shape := ⟨1, ![49408]⟩
abbrev S1x49408 : Shape := ⟨2, ![1, 49408]⟩
abbrev S1024 : Shape := ⟨1, ![1024]⟩
abbrev S1024x1 : Shape := ⟨2, ![1024, 1]⟩
abbrev S1024x77x1 : Shape := ⟨3, ![1024, 77, 1]⟩
abbrev S1024x77x2 : Shape := ⟨3, ![1024, 77, 2]⟩

abbrev nBuf : Table → Nat
  | .hbm => 35
  | .local .tc .vmem => 12
  | .local .scVector .vmem => 6
  | _ => 0

abbrev bufTy : (tb : Table) → Fin (nBuf tb) → BufTy
  | .hbm, ⟨0, _⟩ => ⟨S1024x77x768, .f32⟩
  | .hbm, ⟨1, _⟩ => ⟨S1024x77, .f32⟩
  | .hbm, ⟨2, _⟩ => ⟨S1x768, .f32⟩
  | .hbm, ⟨3, _⟩ => ⟨S1, .f32⟩
  | .hbm, ⟨4, _⟩ => ⟨S1024x77, .i32⟩
  | .hbm, ⟨5, _⟩ => ⟨S1x1, .f32⟩
  | .hbm, ⟨6, _⟩ => ⟨S1024x77, .f32⟩
  | .hbm, ⟨7, _⟩ => ⟨S1024x77, .i32⟩
  | .hbm, ⟨8, _⟩ => ⟨S_, .i32⟩
  | .hbm, ⟨9, _⟩ => ⟨S_, .f32⟩
  | .hbm, ⟨10, _⟩ => ⟨S1024x80, .f32⟩
  | .hbm, ⟨11, _⟩ => ⟨S_, .i32⟩
  | .hbm, ⟨12, _⟩ => ⟨S1024x80, .i32⟩
  | .hbm, ⟨13, _⟩ => ⟨S1024x49408, .f32⟩
  | .hbm, ⟨14, _⟩ => ⟨S1024, .i32⟩
  | .hbm, ⟨15, _⟩ => ⟨S1024x1, .i32⟩
  | .hbm, ⟨16, _⟩ => ⟨S1024x77, .i32⟩
  | .hbm, ⟨17, _⟩ => ⟨S_, .i32⟩
  | .hbm, ⟨18, _⟩ => ⟨S1024x77, .i32⟩
  | .hbm, ⟨19, _⟩ => ⟨S1024x77, .i1⟩
  | .hbm, ⟨20, _⟩ => ⟨S_, .i32⟩
  | .hbm, ⟨21, _⟩ => ⟨S1024x77, .i32⟩
  | .hbm, ⟨22, _⟩ => ⟨S1024x77, .i32⟩
  | .hbm, ⟨23, _⟩ => ⟨S1024x77, .i32⟩
  | .hbm, ⟨24, _⟩ => ⟨S_, .i32⟩
  | .hbm, ⟨25, _⟩ => ⟨S1024x77, .i32⟩
  | .hbm, ⟨26, _⟩ => ⟨S1024x77, .i1⟩
  | .hbm, ⟨27, _⟩ => ⟨S_, .i32⟩
  | .hbm, ⟨28, _⟩ => ⟨S1024x77, .i32⟩
  | .hbm, ⟨29, _⟩ => ⟨S1024x77, .i32⟩
  | .hbm, ⟨30, _⟩ => ⟨S1024x77, .i32⟩
  | .hbm, ⟨31, _⟩ => ⟨S1024x77x1, .i32⟩
  | .hbm, ⟨32, _⟩ => ⟨S1024x77x1, .i32⟩
  | .hbm, ⟨33, _⟩ => ⟨S1024x77x2, .i32⟩
  | .hbm, ⟨34, _⟩ => ⟨S1024x49408, .f32⟩
  | .local .tc .vmem, ⟨0, _⟩ => ⟨S8x77x768, .f32⟩
  | .local .tc .vmem, ⟨1, _⟩ => ⟨S8x77x768, .f32⟩
  | .local .tc .vmem, ⟨2, _⟩ => ⟨S8x77, .f32⟩
  | .local .tc .vmem, ⟨3, _⟩ => ⟨S8x77, .f32⟩
  | .local .tc .vmem, ⟨4, _⟩ => ⟨S1x768, .f32⟩
  | .local .tc .vmem, ⟨5, _⟩ => ⟨S1x1, .f32⟩
  | .local .tc .vmem, ⟨6, _⟩ => ⟨S8x77, .i32⟩
  | .local .tc .vmem, ⟨7, _⟩ => ⟨S8x77, .i32⟩
  | .local .tc .vmem, ⟨8, _⟩ => ⟨S8x77, .f32⟩
  | .local .tc .vmem, ⟨9, _⟩ => ⟨S8x77, .f32⟩
  | .local .tc .vmem, ⟨10, _⟩ => ⟨S8x77, .i32⟩
  | .local .tc .vmem, ⟨11, _⟩ => ⟨S8x77, .i32⟩
  | .local .scVector .vmem, ⟨0, _⟩ => ⟨S49424, .f32⟩
  | .local .scVector .vmem, ⟨1, _⟩ => ⟨S49424, .f32⟩
  | .local .scVector .vmem, ⟨2, _⟩ => ⟨S80, .i32⟩
  | .local .scVector .vmem, ⟨3, _⟩ => ⟨S80, .i32⟩
  | .local .scVector .vmem, ⟨4, _⟩ => ⟨S80, .f32⟩
  | .local .scVector .vmem, ⟨5, _⟩ => ⟨S80, .f32⟩
  | _, _ => ⟨S1024x77x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v2_scv : Ref sig .scVector := ⟨.hbm, 10, rfl⟩
abbrev main_v3_scv : Ref sig .scVector := ⟨.hbm, 12, rfl⟩
abbrev main_v4_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x77x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x77 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x77 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x77 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x77 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32 : BitVec 32 := 0#32
  let c3089_i32 : BitVec 32 := 3089#32
  let v5 : BitVec 32 := Scalar.addi c0_i32 c3089_i32
  let c1_i32 : BitVec 32 := 1#32
  ⟨c0_i32, v5, c1_i32⟩
def k1_off1 (k1_t1 : Fin k1_t1_loop.trips) : Fin 1 → Nat :=
  let c0_i32 : BitVec 32 := 0#32
  let c1_i32 : BitVec 32 := 1#32
  let arg13 : BitVec 32 := Scf.iv c0_i32 c1_i32 k1_t1
  let c16_i32 : BitVec 32 := 16#32
  let v105 : BitVec 32 := Scalar.muli arg13 c16_i32
  let v106 : Index := Scalar.indexCast v105
  ![v106.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_58_r0 : BitVec 32 := 0#32
  ![v2.toNat, 0]

def k1_chk1 (v11 : IVec S16 32) : Prop :=
  (∀ a x, ((![v11] : Fin 1 → IVec S16 32) a x).toNat < S49424.size a)
instance k1_chk1.dec : ∀ (v11 : IVec S16 32), Decidable (k1_chk1 v11) := fun v11 => decidable_of_iff' _ (Iff.of_eq (k1_chk1.eq_1 v11))
theorem k1_idx1_inb : ∀ (v11 : IVec S16 32) (k1_hw1 : k1_chk1 v11), ∀ a x, ((![v11] : Fin 1 → IVec S16 32) a x).toNat < S49424.size a := fun v11 k1_hw1 => k1_hw1

def k1_chk2 (v18 : IVec S16 32) : Prop :=
  (∀ a x, ((![v18] : Fin 1 → IVec S16 32) a x).toNat < S49424.size a)
instance k1_chk2.dec : ∀ (v18 : IVec S16 32), Decidable (k1_chk2 v18) := fun v18 => decidable_of_iff' _ (Iff.of_eq (k1_chk2.eq_1 v18))
theorem k1_idx2_inb : ∀ (v18 : IVec S16 32) (k1_hw2 : k1_chk2 v18), ∀ a x, ((![v18] : Fin 1 → IVec S16 32) a x).toNat < S49424.size a := fun v18 k1_hw2 => k1_hw2

def k1_chk3 (v25 : IVec S16 32) : Prop :=
  (∀ a x, ((![v25] : Fin 1 → IVec S16 32) a x).toNat < S49424.size a)
instance k1_chk3.dec : ∀ (v25 : IVec S16 32), Decidable (k1_chk3 v25) := fun v25 => decidable_of_iff' _ (Iff.of_eq (k1_chk3.eq_1 v25))
theorem k1_idx3_inb : ∀ (v25 : IVec S16 32) (k1_hw3 : k1_chk3 v25), ∀ a x, ((![v25] : Fin 1 → IVec S16 32) a x).toNat < S49424.size a := fun v25 k1_hw3 => k1_hw3

def k1_chk4 (v32 : IVec S16 32) : Prop :=
  (∀ a x, ((![v32] : Fin 1 → IVec S16 32) a x).toNat < S49424.size a)
instance k1_chk4.dec : ∀ (v32 : IVec S16 32), Decidable (k1_chk4 v32) := fun v32 => decidable_of_iff' _ (Iff.of_eq (k1_chk4.eq_1 v32))
theorem k1_idx4_inb : ∀ (v32 : IVec S16 32) (k1_hw4 : k1_chk4 v32), ∀ a x, ((![v32] : Fin 1 → IVec S16 32) a x).toNat < S49424.size a := fun v32 k1_hw4 => k1_hw4

def k1_chk5 (v39 : IVec S16 32) : Prop :=
  (∀ a x, ((![v39] : Fin 1 → IVec S16 32) a x).toNat < S49424.size a)
instance k1_chk5.dec : ∀ (v39 : IVec S16 32), Decidable (k1_chk5 v39) := fun v39 => decidable_of_iff' _ (Iff.of_eq (k1_chk5.eq_1 v39))
theorem k1_idx5_inb : ∀ (v39 : IVec S16 32) (k1_hw5 : k1_chk5 v39), ∀ a x, ((![v39] : Fin 1 → IVec S16 32) a x).toNat < S49424.size a := fun v39 k1_hw5 => k1_hw5
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_16 : BitVec 32 := 0#32
  ![v2.toNat, 0]
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_19 : BitVec 32 := 1#32
  let v47 : BitVec 32 := Scalar.addi v2 c1_i32_19
  let c0_i32_58_r2 : BitVec 32 := 0#32
  ![v47.toNat, 0]

def k1_chk6 (v53 : IVec S16 32) : Prop :=
  (∀ a x, ((![v53] : Fin 1 → IVec S16 32) a x).toNat < S49424.size a)
instance k1_chk6.dec : ∀ (v53 : IVec S16 32), Decidable (k1_chk6 v53) := fun v53 => decidable_of_iff' _ (Iff.of_eq (k1_chk6.eq_1 v53))
theorem k1_idx6_inb : ∀ (v53 : IVec S16 32) (k1_hw6 : k1_chk6 v53), ∀ a x, ((![v53] : Fin 1 → IVec S16 32) a x).toNat < S49424.size a := fun v53 k1_hw6 => k1_hw6

def k1_chk7 (v60 : IVec S16 32) : Prop :=
  (∀ a x, ((![v60] : Fin 1 → IVec S16 32) a x).toNat < S49424.size a)
instance k1_chk7.dec : ∀ (v60 : IVec S16 32), Decidable (k1_chk7 v60) := fun v60 => decidable_of_iff' _ (Iff.of_eq (k1_chk7.eq_1 v60))
theorem k1_idx7_inb : ∀ (v60 : IVec S16 32) (k1_hw7 : k1_chk7 v60), ∀ a x, ((![v60] : Fin 1 → IVec S16 32) a x).toNat < S49424.size a := fun v60 k1_hw7 => k1_hw7

def k1_chk8 (v67 : IVec S16 32) : Prop :=
  (∀ a x, ((![v67] : Fin 1 → IVec S16 32) a x).toNat < S49424.size a)
instance k1_chk8.dec : ∀ (v67 : IVec S16 32), Decidable (k1_chk8 v67) := fun v67 => decidable_of_iff' _ (Iff.of_eq (k1_chk8.eq_1 v67))
theorem k1_idx8_inb : ∀ (v67 : IVec S16 32) (k1_hw8 : k1_chk8 v67), ∀ a x, ((![v67] : Fin 1 → IVec S16 32) a x).toNat < S49424.size a := fun v67 k1_hw8 => k1_hw8

def k1_chk9 (v74 : IVec S16 32) : Prop :=
  (∀ a x, ((![v74] : Fin 1 → IVec S16 32) a x).toNat < S49424.size a)
instance k1_chk9.dec : ∀ (v74 : IVec S16 32), Decidable (k1_chk9 v74) := fun v74 => decidable_of_iff' _ (Iff.of_eq (k1_chk9.eq_1 v74))
theorem k1_idx9_inb : ∀ (v74 : IVec S16 32) (k1_hw9 : k1_chk9 v74), ∀ a x, ((![v74] : Fin 1 → IVec S16 32) a x).toNat < S49424.size a := fun v74 k1_hw9 => k1_hw9

def k1_chk10 (v81 : IVec S16 32) : Prop :=
  (∀ a x, ((![v81] : Fin 1 → IVec S16 32) a x).toNat < S49424.size a)
instance k1_chk10.dec : ∀ (v81 : IVec S16 32), Decidable (k1_chk10 v81) := fun v81 => decidable_of_iff' _ (Iff.of_eq (k1_chk10.eq_1 v81))
theorem k1_idx10_inb : ∀ (v81 : IVec S16 32) (k1_hw10 : k1_chk10 v81), ∀ a x, ((![v81] : Fin 1 → IVec S16 32) a x).toNat < S49424.size a := fun v81 k1_hw10 => k1_hw10
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_19 : BitVec 32 := 1#32
  let v47 : BitVec 32 := Scalar.addi v2 c1_i32_19
  let c0_i32_41 : BitVec 32 := 0#32
  ![v47.toNat, 0]
@[reducible] def k1_t2_loop : Scf.Loop 32 :=
  let c1_i32_44 : BitVec 32 := 1#32
  let c15_i32 : BitVec 32 := 15#32
  let v89 : BitVec 32 := Scalar.addi c1_i32_44 c15_i32
  let c1_i32_45 : BitVec 32 := 1#32
  ⟨c1_i32_44, v89, c1_i32_45⟩
def k1_off6 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_58 : BitVec 32 := 2#32
  let c1_i32_44 : BitVec 32 := 1#32
  let c1_i32_45 : BitVec 32 := 1#32
  let arg13 : BitVec 32 := Scf.iv c1_i32_44 c1_i32_45 k1_t2
  let v105 : BitVec 32 := Scalar.muli c2_i32_58 arg13
  let v106 : BitVec 32 := Scalar.addi v2 v105
  let c2_i32_59 : BitVec 32 := 2#32
  let v107 : BitVec 32 := Scalar.subi v106 c2_i32_59
  let c0_i32_61 : BitVec 32 := 0#32
  ![v107.toNat, 0]

def k1_chk11 (v119 : IVec S16 32) : Prop :=
  (∀ a x, ((![v119] : Fin 1 → IVec S16 32) a x).toNat < S49424.size a)
instance k1_chk11.dec : ∀ (v119 : IVec S16 32), Decidable (k1_chk11 v119) := fun v119 => decidable_of_iff' _ (Iff.of_eq (k1_chk11.eq_1 v119))
theorem k1_idx11_inb : ∀ (v119 : IVec S16 32) (k1_hw11 : k1_chk11 v119), ∀ a x, ((![v119] : Fin 1 → IVec S16 32) a x).toNat < S49424.size a := fun v119 k1_hw11 => k1_hw11

def k1_chk12 (v125 : IVec S16 32) : Prop :=
  (∀ a x, ((![v125] : Fin 1 → IVec S16 32) a x).toNat < S49424.size a)
instance k1_chk12.dec : ∀ (v125 : IVec S16 32), Decidable (k1_chk12 v125) := fun v125 => decidable_of_iff' _ (Iff.of_eq (k1_chk12.eq_1 v125))
theorem k1_idx12_inb : ∀ (v125 : IVec S16 32) (k1_hw12 : k1_chk12 v125), ∀ a x, ((![v125] : Fin 1 → IVec S16 32) a x).toNat < S49424.size a := fun v125 k1_hw12 => k1_hw12

def k1_chk13 (v131 : IVec S16 32) : Prop :=
  (∀ a x, ((![v131] : Fin 1 → IVec S16 32) a x).toNat < S49424.size a)
instance k1_chk13.dec : ∀ (v131 : IVec S16 32), Decidable (k1_chk13 v131) := fun v131 => decidable_of_iff' _ (Iff.of_eq (k1_chk13.eq_1 v131))
theorem k1_idx13_inb : ∀ (v131 : IVec S16 32) (k1_hw13 : k1_chk13 v131), ∀ a x, ((![v131] : Fin 1 → IVec S16 32) a x).toNat < S49424.size a := fun v131 k1_hw13 => k1_hw13

def k1_chk14 (v137 : IVec S16 32) : Prop :=
  (∀ a x, ((![v137] : Fin 1 → IVec S16 32) a x).toNat < S49424.size a)
instance k1_chk14.dec : ∀ (v137 : IVec S16 32), Decidable (k1_chk14 v137) := fun v137 => decidable_of_iff' _ (Iff.of_eq (k1_chk14.eq_1 v137))
theorem k1_idx14_inb : ∀ (v137 : IVec S16 32) (k1_hw14 : k1_chk14 v137), ∀ a x, ((![v137] : Fin 1 → IVec S16 32) a x).toNat < S49424.size a := fun v137 k1_hw14 => k1_hw14

def k1_chk15 (v143 : IVec S16 32) : Prop :=
  (∀ a x, ((![v143] : Fin 1 → IVec S16 32) a x).toNat < S49424.size a)
instance k1_chk15.dec : ∀ (v143 : IVec S16 32), Decidable (k1_chk15 v143) := fun v143 => decidable_of_iff' _ (Iff.of_eq (k1_chk15.eq_1 v143))
theorem k1_idx15_inb : ∀ (v143 : IVec S16 32) (k1_hw15 : k1_chk15 v143), ∀ a x, ((![v143] : Fin 1 → IVec S16 32) a x).toNat < S49424.size a := fun v143 k1_hw15 => k1_hw15
def k1_off7 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_58 : BitVec 32 := 2#32
  let c1_i32_44 : BitVec 32 := 1#32
  let c1_i32_45 : BitVec 32 := 1#32
  let arg13 : BitVec 32 := Scf.iv c1_i32_44 c1_i32_45 k1_t2
  let v105 : BitVec 32 := Scalar.muli c2_i32_58 arg13
  let v106 : BitVec 32 := Scalar.addi v2 v105
  let c0_i32_148_r4 : BitVec 32 := 0#32
  ![v106.toNat, 0]

def k1_chk16 (v149 : IVec S16 32) : Prop :=
  (∀ a x, ((![v149] : Fin 1 → IVec S16 32) a x).toNat < S49424.size a)
instance k1_chk16.dec : ∀ (v149 : IVec S16 32), Decidable (k1_chk16 v149) := fun v149 => decidable_of_iff' _ (Iff.of_eq (k1_chk16.eq_1 v149))
theorem k1_idx16_inb : ∀ (v149 : IVec S16 32) (k1_hw16 : k1_chk16 v149), ∀ a x, ((![v149] : Fin 1 → IVec S16 32) a x).toNat < S49424.size a := fun v149 k1_hw16 => k1_hw16

def k1_chk17 (v156 : IVec S16 32) : Prop :=
  (∀ a x, ((![v156] : Fin 1 → IVec S16 32) a x).toNat < S49424.size a)
instance k1_chk17.dec : ∀ (v156 : IVec S16 32), Decidable (k1_chk17 v156) := fun v156 => decidable_of_iff' _ (Iff.of_eq (k1_chk17.eq_1 v156))
theorem k1_idx17_inb : ∀ (v156 : IVec S16 32) (k1_hw17 : k1_chk17 v156), ∀ a x, ((![v156] : Fin 1 → IVec S16 32) a x).toNat < S49424.size a := fun v156 k1_hw17 => k1_hw17

def k1_chk18 (v163 : IVec S16 32) : Prop :=
  (∀ a x, ((![v163] : Fin 1 → IVec S16 32) a x).toNat < S49424.size a)
instance k1_chk18.dec : ∀ (v163 : IVec S16 32), Decidable (k1_chk18 v163) := fun v163 => decidable_of_iff' _ (Iff.of_eq (k1_chk18.eq_1 v163))
theorem k1_idx18_inb : ∀ (v163 : IVec S16 32) (k1_hw18 : k1_chk18 v163), ∀ a x, ((![v163] : Fin 1 → IVec S16 32) a x).toNat < S49424.size a := fun v163 k1_hw18 => k1_hw18

def k1_chk19 (v170 : IVec S16 32) : Prop :=
  (∀ a x, ((![v170] : Fin 1 → IVec S16 32) a x).toNat < S49424.size a)
instance k1_chk19.dec : ∀ (v170 : IVec S16 32), Decidable (k1_chk19 v170) := fun v170 => decidable_of_iff' _ (Iff.of_eq (k1_chk19.eq_1 v170))
theorem k1_idx19_inb : ∀ (v170 : IVec S16 32) (k1_hw19 : k1_chk19 v170), ∀ a x, ((![v170] : Fin 1 → IVec S16 32) a x).toNat < S49424.size a := fun v170 k1_hw19 => k1_hw19

def k1_chk20 (v177 : IVec S16 32) : Prop :=
  (∀ a x, ((![v177] : Fin 1 → IVec S16 32) a x).toNat < S49424.size a)
instance k1_chk20.dec : ∀ (v177 : IVec S16 32), Decidable (k1_chk20 v177) := fun v177 => decidable_of_iff' _ (Iff.of_eq (k1_chk20.eq_1 v177))
theorem k1_idx20_inb : ∀ (v177 : IVec S16 32) (k1_hw20 : k1_chk20 v177), ∀ a x, ((![v177] : Fin 1 → IVec S16 32) a x).toNat < S49424.size a := fun v177 k1_hw20 => k1_hw20
def k1_off8 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_58 : BitVec 32 := 2#32
  let c1_i32_44 : BitVec 32 := 1#32
  let c1_i32_45 : BitVec 32 := 1#32
  let arg13 : BitVec 32 := Scf.iv c1_i32_44 c1_i32_45 k1_t2
  let v105 : BitVec 32 := Scalar.muli c2_i32_58 arg13
  let v106 : BitVec 32 := Scalar.addi v2 v105
  let c0_i32_100 : BitVec 32 := 0#32
  ![v106.toNat, 0]
def k1_off9 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_58 : BitVec 32 := 2#32
  let c1_i32_44 : BitVec 32 := 1#32
  let c1_i32_45 : BitVec 32 := 1#32
  let arg13 : BitVec 32 := Scf.iv c1_i32_44 c1_i32_45 k1_t2
  let v105 : BitVec 32 := Scalar.muli c2_i32_58 arg13
  let v106 : BitVec 32 := Scalar.addi v2 v105
  let c1_i32_103 : BitVec 32 := 1#32
  let v185 : BitVec 32 := Scalar.subi v106 c1_i32_103
  let c0_i32_105 : BitVec 32 := 0#32
  ![v185.toNat, 0]

def k1_chk21 (v197 : IVec S16 32) : Prop :=
  (∀ a x, ((![v197] : Fin 1 → IVec S16 32) a x).toNat < S49424.size a)
instance k1_chk21.dec : ∀ (v197 : IVec S16 32), Decidable (k1_chk21 v197) := fun v197 => decidable_of_iff' _ (Iff.of_eq (k1_chk21.eq_1 v197))
theorem k1_idx21_inb : ∀ (v197 : IVec S16 32) (k1_hw21 : k1_chk21 v197), ∀ a x, ((![v197] : Fin 1 → IVec S16 32) a x).toNat < S49424.size a := fun v197 k1_hw21 => k1_hw21

def k1_chk22 (v203 : IVec S16 32) : Prop :=
  (∀ a x, ((![v203] : Fin 1 → IVec S16 32) a x).toNat < S49424.size a)
instance k1_chk22.dec : ∀ (v203 : IVec S16 32), Decidable (k1_chk22 v203) := fun v203 => decidable_of_iff' _ (Iff.of_eq (k1_chk22.eq_1 v203))
theorem k1_idx22_inb : ∀ (v203 : IVec S16 32) (k1_hw22 : k1_chk22 v203), ∀ a x, ((![v203] : Fin 1 → IVec S16 32) a x).toNat < S49424.size a := fun v203 k1_hw22 => k1_hw22

def k1_chk23 (v209 : IVec S16 32) : Prop :=
  (∀ a x, ((![v209] : Fin 1 → IVec S16 32) a x).toNat < S49424.size a)
instance k1_chk23.dec : ∀ (v209 : IVec S16 32), Decidable (k1_chk23 v209) := fun v209 => decidable_of_iff' _ (Iff.of_eq (k1_chk23.eq_1 v209))
theorem k1_idx23_inb : ∀ (v209 : IVec S16 32) (k1_hw23 : k1_chk23 v209), ∀ a x, ((![v209] : Fin 1 → IVec S16 32) a x).toNat < S49424.size a := fun v209 k1_hw23 => k1_hw23

def k1_chk24 (v215 : IVec S16 32) : Prop :=
  (∀ a x, ((![v215] : Fin 1 → IVec S16 32) a x).toNat < S49424.size a)
instance k1_chk24.dec : ∀ (v215 : IVec S16 32), Decidable (k1_chk24 v215) := fun v215 => decidable_of_iff' _ (Iff.of_eq (k1_chk24.eq_1 v215))
theorem k1_idx24_inb : ∀ (v215 : IVec S16 32) (k1_hw24 : k1_chk24 v215), ∀ a x, ((![v215] : Fin 1 → IVec S16 32) a x).toNat < S49424.size a := fun v215 k1_hw24 => k1_hw24

def k1_chk25 (v221 : IVec S16 32) : Prop :=
  (∀ a x, ((![v221] : Fin 1 → IVec S16 32) a x).toNat < S49424.size a)
instance k1_chk25.dec : ∀ (v221 : IVec S16 32), Decidable (k1_chk25 v221) := fun v221 => decidable_of_iff' _ (Iff.of_eq (k1_chk25.eq_1 v221))
theorem k1_idx25_inb : ∀ (v221 : IVec S16 32) (k1_hw25 : k1_chk25 v221), ∀ a x, ((![v221] : Fin 1 → IVec S16 32) a x).toNat < S49424.size a := fun v221 k1_hw25 => k1_hw25
def k1_off10 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_58 : BitVec 32 := 2#32
  let c1_i32_44 : BitVec 32 := 1#32
  let c1_i32_45 : BitVec 32 := 1#32
  let arg13 : BitVec 32 := Scf.iv c1_i32_44 c1_i32_45 k1_t2
  let v105 : BitVec 32 := Scalar.muli c2_i32_58 arg13
  let v106 : BitVec 32 := Scalar.addi v2 v105
  let c1_i32_123 : BitVec 32 := 1#32
  let v222 : BitVec 32 := Scalar.addi v106 c1_i32_123
  let c0_i32_148_r6 : BitVec 32 := 0#32
  ![v222.toNat, 0]

def k1_chk26 (v228 : IVec S16 32) : Prop :=
  (∀ a x, ((![v228] : Fin 1 → IVec S16 32) a x).toNat < S49424.size a)
instance k1_chk26.dec : ∀ (v228 : IVec S16 32), Decidable (k1_chk26 v228) := fun v228 => decidable_of_iff' _ (Iff.of_eq (k1_chk26.eq_1 v228))
theorem k1_idx26_inb : ∀ (v228 : IVec S16 32) (k1_hw26 : k1_chk26 v228), ∀ a x, ((![v228] : Fin 1 → IVec S16 32) a x).toNat < S49424.size a := fun v228 k1_hw26 => k1_hw26

def k1_chk27 (v235 : IVec S16 32) : Prop :=
  (∀ a x, ((![v235] : Fin 1 → IVec S16 32) a x).toNat < S49424.size a)
instance k1_chk27.dec : ∀ (v235 : IVec S16 32), Decidable (k1_chk27 v235) := fun v235 => decidable_of_iff' _ (Iff.of_eq (k1_chk27.eq_1 v235))
theorem k1_idx27_inb : ∀ (v235 : IVec S16 32) (k1_hw27 : k1_chk27 v235), ∀ a x, ((![v235] : Fin 1 → IVec S16 32) a x).toNat < S49424.size a := fun v235 k1_hw27 => k1_hw27

def k1_chk28 (v242 : IVec S16 32) : Prop :=
  (∀ a x, ((![v242] : Fin 1 → IVec S16 32) a x).toNat < S49424.size a)
instance k1_chk28.dec : ∀ (v242 : IVec S16 32), Decidable (k1_chk28 v242) := fun v242 => decidable_of_iff' _ (Iff.of_eq (k1_chk28.eq_1 v242))
theorem k1_idx28_inb : ∀ (v242 : IVec S16 32) (k1_hw28 : k1_chk28 v242), ∀ a x, ((![v242] : Fin 1 → IVec S16 32) a x).toNat < S49424.size a := fun v242 k1_hw28 => k1_hw28

def k1_chk29 (v249 : IVec S16 32) : Prop :=
  (∀ a x, ((![v249] : Fin 1 → IVec S16 32) a x).toNat < S49424.size a)
instance k1_chk29.dec : ∀ (v249 : IVec S16 32), Decidable (k1_chk29 v249) := fun v249 => decidable_of_iff' _ (Iff.of_eq (k1_chk29.eq_1 v249))
theorem k1_idx29_inb : ∀ (v249 : IVec S16 32) (k1_hw29 : k1_chk29 v249), ∀ a x, ((![v249] : Fin 1 → IVec S16 32) a x).toNat < S49424.size a := fun v249 k1_hw29 => k1_hw29

def k1_chk30 (v256 : IVec S16 32) : Prop :=
  (∀ a x, ((![v256] : Fin 1 → IVec S16 32) a x).toNat < S49424.size a)
instance k1_chk30.dec : ∀ (v256 : IVec S16 32), Decidable (k1_chk30 v256) := fun v256 => decidable_of_iff' _ (Iff.of_eq (k1_chk30.eq_1 v256))
theorem k1_idx30_inb : ∀ (v256 : IVec S16 32) (k1_hw30 : k1_chk30 v256), ∀ a x, ((![v256] : Fin 1 → IVec S16 32) a x).toNat < S49424.size a := fun v256 k1_hw30 => k1_hw30
def k1_off11 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_58 : BitVec 32 := 2#32
  let c1_i32_44 : BitVec 32 := 1#32
  let c1_i32_45 : BitVec 32 := 1#32
  let arg13 : BitVec 32 := Scf.iv c1_i32_44 c1_i32_45 k1_t2
  let v105 : BitVec 32 := Scalar.muli c2_i32_58 arg13
  let v106 : BitVec 32 := Scalar.addi v2 v105
  let c1_i32_123 : BitVec 32 := 1#32
  let v222 : BitVec 32 := Scalar.addi v106 c1_i32_123
  let c0_i32_145 : BitVec 32 := 0#32
  ![v222.toNat, 0]
def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_47 : BitVec 32 := 32#32
  let v90 : BitVec 32 := Scalar.addi v2 c32_i32_47
  let c2_i32_48 : BitVec 32 := 2#32
  let v91 : BitVec 32 := Scalar.subi v90 c2_i32_48
  let c0_i32_50 : BitVec 32 := 0#32
  ![v91.toNat, 0]
def k1_off13 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_47 : BitVec 32 := 32#32
  let v90 : BitVec 32 := Scalar.addi v2 c32_i32_47
  let c2_i32_48 : BitVec 32 := 2#32
  let v91 : BitVec 32 := Scalar.subi v90 c2_i32_48
  let c1_i32_53 : BitVec 32 := 1#32
  let v98 : BitVec 32 := Scalar.addi v91 c1_i32_53
  let c0_i32_55 : BitVec 32 := 0#32
  ![v98.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1_S1x1 : S1.ShapeCasts S1x1
  inb_S8x77x768_S8x77x768_0_0_0 : ∀ a, (![0, 0, 0] : Fin 3 → Nat) a + S8x77x768.size a ≤ S8x77x768.size a
  h_S8x77x768 : 0 < S8x77x768.numel
  inb_S1x768_S1x768_0_0 : ∀ a, (![0, 0] : Fin 2 → Nat) a + S1x768.size a ≤ S1x768.size a
  h_S1x768 : 0 < S1x768.numel
  shapeCasts_S1x768_S1x1x768 : S1x768.ShapeCasts S1x1x768
  broadcasts_S1x1x768_S8x77x768 : S1x1x768.Broadcasts S8x77x768
  reduces_S8x77x768_S8x77 : S8x77x768.Reduces [2] S8x77
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8x77_S8x77_0_0 : ∀ a, (![0, 0] : Fin 2 → Nat) a + S8x77.size a ≤ S8x77.size a
  h_S8x77 : 0 < S8x77.numel
  shapeCasts_S8x77_S8x77x1 : S8x77.ShapeCasts S8x77x1
  shapeCasts_S8x77_S8x1x77 : S8x77.ShapeCasts S8x1x77
  broadcasts_S8x77x1_S8x77x77 : S8x77x1.Broadcasts S8x77x77
  broadcasts_S8x1x77_S8x77x77 : S8x1x77.Broadcasts S8x77x77
  iota_S8x77x77_d2_w32 : S8x77x77.Iotas .tc 32 [2]
  iota_S8x77x77_d1_w32 : S8x77x77.Iotas .tc 32 [1]
  reduces_S8x77x77_S8x77 : S8x77x77.Reduces [2] S8x77
  pads_S1024x77_S1024x80_000_030 : S1024x77.Pads (![0, 0] : Fin 2 → Nat) ![0, 3] ![0, 0] S1024x80
  h_S_ : 0 < S_.numel
  iota_S16_d0_w32_scVector : S16.Iotas .scVector 32 [0]
  h_S16 : 0 < S16.numel
  squeezes_S1x80_S80 : S1x80.Squeezes S80
  inb_S80_S16_0 : ∀ a, (![0] : Fin 1 → Nat) a + S16.size a ≤ S80.size a
  h_S49424 : 0 < S49424.numel
  inb_S80_S16_16 : ∀ a, (![16] : Fin 1 → Nat) a + S16.size a ≤ S80.size a
  inb_S80_S16_32 : ∀ a, (![32] : Fin 1 → Nat) a + S16.size a ≤ S80.size a
  inb_S80_S16_48 : ∀ a, (![48] : Fin 1 → Nat) a + S16.size a ≤ S80.size a
  inb_S80_S16_64 : ∀ a, (![64] : Fin 1 → Nat) a + S16.size a ≤ S80.size a
  inb_S49424_S49408_0 : ∀ a, (![0] : Fin 1 → Nat) a + S49408.size a ≤ S49424.size a
  squeezes_S1x49408_S49408 : S1x49408.Squeezes S49408
  bcast_S1024_S1024x1_0 : S1024.BroadcastsInDim S1024x1 (![0] : Fin 1 → Fin S1024x1.rank)
  bcast_S1024x1_S1024x77_0_1 : S1024x1.BroadcastsInDim S1024x77 (![0, 1] : Fin 2 → Fin S1024x77.rank)
  bcast_S_S1024x77 : S_.BroadcastsInDim S1024x77 (![] : Fin 0 → Fin S1024x77.rank)
  bcast_S1024x77_S1024x77x1_0_1 : S1024x77.BroadcastsInDim S1024x77x1 (![0, 1] : Fin 2 → Fin S1024x77x1.rank)
  concatenates_S1024x77x1_S1024x77x1_S1024x77x2_d2 : Shape.Concatenates [S1024x77x1, S1024x77x1] S1024x77x2 2
  scatter_S1024x49408_S1024x77x2_S1024x77_n_01_01_2_wf : ScatterDims.WF S1024x49408 S1024x77x2 S1024x77 [] [0, 1] [0, 1] 2
  hcc1_scratch6 : 12 + S_.numel ≤ 22
  hcc1_scratch7 : 13 + S_.numel ≤ 22
  hcc1_scoped0 : 14 + S_.numel ≤ 22
  hcc1_scoped1 : 15 + S_.numel ≤ 22
  hcc1_scoped2 : 16 + S_.numel ≤ 22
  hcc1_scoped3 : 17 + S_.numel ≤ 22
  hcc1_scoped4 : 18 + S_.numel ≤ 22
  hcc1_scoped5 : 19 + S_.numel ≤ 22
  hcc1_scoped6 : 20 + S_.numel ≤ 22
  hcc1_scoped7 : 21 + S_.numel ≤ 22
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x77x768.size a ≤ S1024x77x768.size a
  hwx0_0 : ∀ i : grid0.Coords, EltTy.bits .f32 = 32 ∨ (Rect.block (s := S1024x77x768) S8x77x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x77.size a ≤ S1024x77.size a
  hwx0_1 : ∀ i : grid0.Coords, EltTy.bits .f32 = 32 ∨ (Rect.block (s := S1024x77) S8x77.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x77.size a ≤ S1024x77.size a
  hwx0_4 : ∀ i : grid0.Coords, EltTy.bits .i32 = 32 ∨ (Rect.block (s := S1024x77) S8x77.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x77.size a ≤ S1024x77.size a
  hwx0_5 : ∀ i : grid0.Coords, EltTy.bits .f32 = 32 ∨ (Rect.block (s := S1024x77) S8x77.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x77.size a ≤ S1024x77.size a
  hwx0_6 : ∀ i : grid0.Coords, EltTy.bits .i32 = 32 ∨ (Rect.block (s := S1024x77) S8x77.size (cc0_transform_6 i) (hinb0_6 i)).WholeWords (EltTy.packing .i32)
  hcore1 : grid1.bound 0 ≤ τ.nSC
  hsub1 : grid1.bound 1 ≤ τ.nSub
  k1_t1_ok : k1_t1_loop.OK
  k1_off1_inb : ∀ k1_t1 : Fin k1_t1_loop.trips, ∀ a, (k1_off1 k1_t1) a + S16.size a ≤ S49424.size a
  k1_off2_inb : ∀ i : grid1.Coords, ∀ a, (k1_off2 i) a + S1x80.size a ≤ S1024x80.size a
  k1_off3_inb : ∀ i : grid1.Coords, ∀ a, (k1_off3 i) a + S1x49408.size a ≤ S1024x49408.size a
  k1_off4_inb : ∀ i : grid1.Coords, ∀ a, (k1_off4 i) a + S1x80.size a ≤ S1024x80.size a
  k1_off5_inb : ∀ i : grid1.Coords, ∀ a, (k1_off5 i) a + S1x49408.size a ≤ S1024x49408.size a
  k1_t2_ok : k1_t2_loop.OK
  k1_off6_inb : ∀ (i : grid1.Coords) (k1_t2 : Fin k1_t2_loop.trips), ∀ a, (k1_off6 i k1_t2) a + S1x49408.size a ≤ S1024x49408.size a
  k1_off7_inb : ∀ (i : grid1.Coords) (k1_t2 : Fin k1_t2_loop.trips), ∀ a, (k1_off7 i k1_t2) a + S1x80.size a ≤ S1024x80.size a
  k1_off8_inb : ∀ (i : grid1.Coords) (k1_t2 : Fin k1_t2_loop.trips), ∀ a, (k1_off8 i k1_t2) a + S1x49408.size a ≤ S1024x49408.size a
  k1_off9_inb : ∀ (i : grid1.Coords) (k1_t2 : Fin k1_t2_loop.trips), ∀ a, (k1_off9 i k1_t2) a + S1x49408.size a ≤ S1024x49408.size a
  k1_off10_inb : ∀ (i : grid1.Coords) (k1_t2 : Fin k1_t2_loop.trips), ∀ a, (k1_off10 i k1_t2) a + S1x80.size a ≤ S1024x80.size a
  k1_off11_inb : ∀ (i : grid1.Coords) (k1_t2 : Fin k1_t2_loop.trips), ∀ a, (k1_off11 i k1_t2) a + S1x49408.size a ≤ S1024x49408.size a
  k1_off12_inb : ∀ i : grid1.Coords, ∀ a, (k1_off12 i) a + S1x49408.size a ≤ S1024x49408.size a
  k1_off13_inb : ∀ i : grid1.Coords, ∀ a, (k1_off13 i) a + S1x49408.size a ≤ S1024x49408.size a

variable [Facts₀]

abbrev cc1_scratch6 : DmaSems sig S_ := SemArray.consecutive 12 S_ hcc1_scratch6
abbrev cc1_scratch7 : DmaSems sig S_ := SemArray.consecutive 13 S_ hcc1_scratch7
abbrev cc1_scoped0 : DmaSems sig S_ := SemArray.consecutive 14 S_ hcc1_scoped0
abbrev cc1_scoped1 : DmaSems sig S_ := SemArray.consecutive 15 S_ hcc1_scoped1
abbrev cc1_scoped2 : DmaSems sig S_ := SemArray.consecutive 16 S_ hcc1_scoped2
abbrev cc1_scoped3 : DmaSems sig S_ := SemArray.consecutive 17 S_ hcc1_scoped3
abbrev cc1_scoped4 : DmaSems sig S_ := SemArray.consecutive 18 S_ hcc1_scoped4
abbrev cc1_scoped5 : DmaSems sig S_ := SemArray.consecutive 19 S_ hcc1_scoped5
abbrev cc1_scoped6 : DmaSems sig S_ := SemArray.consecutive 20 S_ hcc1_scoped6
abbrev cc1_scoped7 : DmaSems sig S_ := SemArray.consecutive 21 S_ hcc1_scoped7
def scatter_S1024x49408_S1024x77x2_S1024x77_n_01_01_2 : ScatterDims S1024x49408 S1024x77x2 S1024x77 where
  updateWindowDims := []
  insertedWindowDims := [0, 1]
  scatterDimsToOperandDims := [0, 1]
  indexVectorDim := 2
  wf := scatter_S1024x49408_S1024x77x2_S1024x77_n_01_01_2_wf

abbrev win0_0 : Pipeline.Window sig grid0 :=
  Pipeline.Window.ofSpec (Memref.whole main_arg0) S8x77x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x77.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x77.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S8x77.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S8x77.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x77x768 : Shape := ⟨3, ![1024, 77, 768]⟩
abbrev S1024x77 : Shape := ⟨2, ![1024, 77]⟩
abbrev S1x768 : Shape := ⟨2, ![1, 768]⟩
abbrev S1 : Shape := ⟨1, ![1]⟩
abbrev S1024x77x1 : Shape := ⟨3, ![1024, 77, 1]⟩
abbrev S1x1x1 : Shape := ⟨3, ![1, 1, 1]⟩
abbrev S_ : Shape := ⟨0, ![]⟩
abbrev S1024 : Shape := ⟨1, ![1024]⟩
abbrev S1024x1 : Shape := ⟨2, ![1024, 1]⟩
abbrev S1024x49408 : Shape := ⟨2, ![1024, 49408]⟩
abbrev S1024x77x2 : Shape := ⟨3, ![1024, 77, 2]⟩

abbrev nBuf : Space → Nat
  | .hbm => 38
  | .vmem => 0
  | .smem => 0
  | _ => 0

abbrev bufTy : (tb : Table) → Fin (tcTables nBuf tb) → BufTy
  | .hbm, ⟨0, _⟩ => ⟨S1024x77x768, .f32⟩
  | .hbm, ⟨1, _⟩ => ⟨S1024x77, .f32⟩
  | .hbm, ⟨2, _⟩ => ⟨S1x768, .f32⟩
  | .hbm, ⟨3, _⟩ => ⟨S1, .f32⟩
  | .hbm, ⟨4, _⟩ => ⟨S1024x77, .i32⟩
  | .hbm, ⟨5, _⟩ => ⟨S1024x77x1, .f32⟩
  | .hbm, ⟨6, _⟩ => ⟨S1x1x1, .f32⟩
  | .hbm, ⟨7, _⟩ => ⟨S1024x77x1, .f32⟩
  | .hbm, ⟨8, _⟩ => ⟨S1024x77x1, .f32⟩
  | .hbm, ⟨9, _⟩ => ⟨S_, .f32⟩
  | .hbm, ⟨10, _⟩ => ⟨S1024x77x1, .f32⟩
  | .hbm, ⟨11, _⟩ => ⟨S1024x77x1, .f32⟩
  | .hbm, ⟨12, _⟩ => ⟨S1024x77x1, .f32⟩
  | .hbm, ⟨13, _⟩ => ⟨S1024x77, .f32⟩
  | .hbm, ⟨14, _⟩ => ⟨S1024x77, .f32⟩
  | .hbm, ⟨15, _⟩ => ⟨S1024, .i32⟩
  | .hbm, ⟨16, _⟩ => ⟨S1024x1, .i32⟩
  | .hbm, ⟨17, _⟩ => ⟨S1024x77, .i32⟩
  | .hbm, ⟨18, _⟩ => ⟨S_, .f32⟩
  | .hbm, ⟨19, _⟩ => ⟨S1024x49408, .f32⟩
  | .hbm, ⟨20, _⟩ => ⟨S_, .i32⟩
  | .hbm, ⟨21, _⟩ => ⟨S1024x77, .i32⟩
  | .hbm, ⟨22, _⟩ => ⟨S1024x77, .i1⟩
  | .hbm, ⟨23, _⟩ => ⟨S_, .i32⟩
  | .hbm, ⟨24, _⟩ => ⟨S1024x77, .i32⟩
  | .hbm, ⟨25, _⟩ => ⟨S1024x77, .i32⟩
  | .hbm, ⟨26, _⟩ => ⟨S1024x77, .i32⟩
  | .hbm, ⟨27, _⟩ => ⟨S_, .i32⟩
  | .hbm, ⟨28, _⟩ => ⟨S1024x77, .i32⟩
  | .hbm, ⟨29, _⟩ => ⟨S1024x77, .i1⟩
  | .hbm, ⟨30, _⟩ => ⟨S_, .i32⟩
  | .hbm, ⟨31, _⟩ => ⟨S1024x77, .i32⟩
  | .hbm, ⟨32, _⟩ => ⟨S1024x77, .i32⟩
  | .hbm, ⟨33, _⟩ => ⟨S1024x77, .i32⟩
  | .hbm, ⟨34, _⟩ => ⟨S1024x77x1, .i32⟩
  | .hbm, ⟨35, _⟩ => ⟨S1024x77x1, .i32⟩
  | .hbm, ⟨36, _⟩ => ⟨S1024x77x2, .i32⟩
  | .hbm, ⟨37, _⟩ => ⟨S1024x49408, .f32⟩
  | _, _ => ⟨S1024x77x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S1024x77x1_0_1_2 : S1x1x1.BroadcastsInDim S1024x77x1 (![0, 1, 2] : Fin 3 → Fin S1024x77x1.rank)
  bcast_S_S1024x77x1 : S_.BroadcastsInDim S1024x77x1 (![] : Fin 0 → Fin S1024x77x1.rank)
  shapeCasts_S1024x77x1_S1024x77 : S1024x77x1.ShapeCasts S1024x77
  bcast_S1024_S1024x1_0 : S1024.BroadcastsInDim S1024x1 (![0] : Fin 1 → Fin S1024x1.rank)
  bcast_S1024x1_S1024x77_0_1 : S1024x1.BroadcastsInDim S1024x77 (![0, 1] : Fin 2 → Fin S1024x77.rank)
  bcast_S_S1024x49408 : S_.BroadcastsInDim S1024x49408 (![] : Fin 0 → Fin S1024x49408.rank)
  bcast_S_S1024x77 : S_.BroadcastsInDim S1024x77 (![] : Fin 0 → Fin S1024x77.rank)
  bcast_S1024x77_S1024x77x1_0_1 : S1024x77.BroadcastsInDim S1024x77x1 (![0, 1] : Fin 2 → Fin S1024x77x1.rank)
  concatenates_S1024x77x1_S1024x77x1_S1024x77x2_d2 : Shape.Concatenates [S1024x77x1, S1024x77x1] S1024x77x2 2
  dot_S1024x77x768_S1x768_S1024x77x1_2_1_01_0_n_n_wf : DotDims.WF S1024x77x768 S1x768 S1024x77x1 [2] [1] [0, 1] [0] [] []
  scatter_S1024x49408_S1024x77x2_S1024x77_n_01_01_2_wf : ScatterDims.WF S1024x49408 S1024x77x2 S1024x77 [] [0, 1] [0, 1] 2

variable [Facts₀]

def dot_S1024x77x768_S1x768_S1024x77x1_2_1_01_0_n_n : DotDims S1024x77x768 S1x768 S1024x77x1 where
  lhsContracting := [2]
  rhsContracting := [1]
  lhsNonContracting := [0, 1]
  rhsNonContracting := [0]
  lhsBatch := []
  rhsBatch := []
  wf := dot_S1024x77x768_S1x768_S1024x77x1_2_1_01_0_n_n_wf
def scatter_S1024x49408_S1024x77x2_S1024x77_n_01_01_2 : ScatterDims S1024x49408 S1024x77x2 S1024x77 where
  updateWindowDims := []
  insertedWindowDims := [0, 1]
  scatterDimsToOperandDims := [0, 1]
  indexVectorDim := 2
  wf := scatter_S1024x49408_S1024x77x2_S1024x77_n_01_01_2_wf

class Facts : Prop extends Facts₀ where

variable [Facts]
-- ==== Proof.Alg.lean ====
/-
  The resource algebra every module of this certificate's kernel-side proof states its assertions in: the launch
  handshakes' rounds (duties named by natural numbers), one more copy of the rounds algebra for the staging cells of
  the TensorCore pipeline, and the exclusive counters of the schedule-free transfers the vector subcores make.
-/
import proofs.«211129_g5394478924152_cont_9to1c4b_288_8_alg».proof.KernelIdeal
import Idealize.ShloMosaic.Lib.SparseCore.Launch
import Idealize.ShloMosaic.Lib.Pipeline.Kit
import Idealize.ShloMosaic.Lib.Transfers

noncomputable section

namespace Cert.KernelIdeal.Pf

open Cert.KernelIdeal
open Idealize.ShloMosaic
open Idealize.ShloMosaic.SparseCore.Cfg (HIx)
open Idealize.SL Idealize.SL.RA
open Idealize.ShloMosaic.Rounds

variable {F : FTy → Type}

/-- The handshakes' rounds. -/
abbrev UH : Type := URounds (GSem nD τ sig) ℕ
/-- The pipeline's staging cells' rounds. -/
abbrev UP : Type := URounds (GSem nD τ sig) Unit
/-- The whole user algebra: handshakes, pipeline cells, transfer counters. -/
abbrev UU : Type := UH × (UP × Counters)

/-- The machine's algebra at this program: one SparseCore call, names and levels natural numbers. -/
abbrev MM (F : FTy → Type) : Type := MT nD τ sig (HIx 1) (Elt F) ℕ UU ℕ

/-- The handshakes' component, embedded. -/
abbrev EH : Emb UH (MM F) := embL
/-- The pipeline cells' component, embedded. -/
def EP : Emb UP (MM F) := (Emb.inl : Emb UP (UP × Counters)).trans embR

instance EP_landsIn : (EP : Emb UP (MM F)).LandsIn (upEmb : UEmb _ (MM F)) := by
  unfold EP embR; infer_instance

end Cert.KernelIdeal.Pf

end
-- ==== Proof.TileRes.lean ====
/-
  What one vector subcore's task of the SparseCore kernel is handed and hands back: the thirty-two rows of the two
  padded inputs it reads and the same rows of the output it writes. The rows of the thirty-two tasks are pairwise
  disjoint and cover the arrays. The task's result, as far as its own invariants carry it: an output element whose
  column none of its row's eighty indices names holds the zero the kernel clears its buffers with.
-/
import proofs.«211129_g5394478924152_cont_9to1c4b_288_8_alg».proof.Proof.Alg

noncomputable section

namespace Cert.KernelIdeal.Pf

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The rows of a task -/

theorem hdiv80 : 32 ∣ S1024x80.size 0 := ⟨32, rfl⟩
theorem hdivOut : 32 ∣ S1024x49408.size 0 := ⟨32, rfl⟩

/-- Rows `32 w .. 32 w + 31` of a `1024 × 80` array. -/
def rows80 (w : Fin 32) : Finset S1024x80.Idx := (Rect.part (s := S1024x80) (a₀ := 0) hdiv80 w).set
/-- Rows `32 w .. 32 w + 31` of the `1024 × 49408` output. -/
def rowsOut (w : Fin 32) : Finset S1024x49408.Idx := (Rect.part (s := S1024x49408) (a₀ := 0) hdivOut w).set

theorem mem_rows80 {w : Fin 32} {i : S1024x80.Idx} : i ∈ rows80 w ↔ 32 * w.val ≤ (i 0).val ∧ (i 0).val < 32 * w.val + 32 := by
  unfold rows80
  rw [Rect.mem_set_unit, Fin.forall_fin_two]
  simp only [Shape.partIx, Shape.partSize]
  have h1 : (i 1).val < 80 := (i 1).isLt
  constructor
  · rintro ⟨⟨h0, h0'⟩, -⟩
    simp at h0 h0'
    omega
  · intro h
    refine ⟨?_, ?_⟩
    · simp; omega
    · simp; exact h1

theorem mem_rowsOut {w : Fin 32} {i : S1024x49408.Idx} : i ∈ rowsOut w ↔ 32 * w.val ≤ (i 0).val ∧ (i 0).val < 32 * w.val + 32 := by
  unfold rowsOut
  rw [Rect.mem_set_unit, Fin.forall_fin_two]
  simp only [Shape.partIx, Shape.partSize]
  have h1 : (i 1).val < 49408 := (i 1).isLt
  constructor
  · rintro ⟨⟨h0, h0'⟩, -⟩
    simp at h0 h0'
    omega
  · intro h
    refine ⟨?_, ?_⟩
    · simp; omega
    · simp; exact h1

theorem rows80_disjoint : ∀ i ∈ (Finset.univ : Finset (Fin 32)), ∀ j ∈ (Finset.univ : Finset (Fin 32)), i ≠ j → Disjoint (rows80 i) (rows80 j) :=
  fun _ _ _ _ h => Rect.part_disjoint hdiv80 h
theorem rows80_cover : (Finset.univ : Finset (Fin 32)).biUnion rows80 = Finset.univ := Rect.biUnion_part hdiv80
theorem rowsOut_disjoint : ∀ i ∈ (Finset.univ : Finset (Fin 32)), ∀ j ∈ (Finset.univ : Finset (Fin 32)), i ≠ j → Disjoint (rowsOut i) (rowsOut j) :=
  fun _ _ _ _ h => Rect.part_disjoint hdivOut h
theorem rowsOut_cover : (Finset.univ : Finset (Fin 32)).biUnion rowsOut = Finset.univ := Rect.biUnion_part hdivOut

/-! ## The arrays and the task's resources -/

/-- The padded weights `f32[1024, 80]`. -/
abbrev tokLoc (d : Dev nD) : Loc nD τ sig := (SparseCore.T d).loc main_v2
/-- The padded indices `i32[1024, 80]`. -/
abbrev eidLoc (d : Dev nD) : Loc nD τ sig := (SparseCore.T d).loc main_v3
/-- The kernel's output `f32[1024, 49408]`. -/
abbrev outLoc (d : Dev nD) : Loc nD τ sig := (SparseCore.T d).loc main_v4

variable [FloatOps F]

/-- The element every lane of the kernel's zero vector holds. -/
def zeroF : Elt F .f32 := (Scalar.ofBits .f32 0x00000000#32 : F .f32)

/-- An element of the task's rows of the output whose column none of the eighty indices of its row names is zero. -/
def ZeroOff (w : Fin 32) {d : Dev nD} (E : Buf (Elt F) (eidLoc d)) (f : Buf (Elt F) (outLoc d)) : Prop :=
  ∀ i : S1024x49408.Idx, i ∈ rowsOut w → (∀ j : S1024x80.Idx, (j 0).val = (i 0).val → (E j).toNat ≠ (i 1).val) → f i = zeroF

/-- What the task is handed: its rows of the two inputs at their contents, its rows of the output at any. -/
def goRes (d : Dev nD) (w : Fin 32) (T80 : Buf (Elt F) (tokLoc d)) (E80 : Buf (Elt F) (eidLoc d)) : sProp (MM F) :=
  iprop((tokLoc d ↦[rows80 w]{fullShare} T80) ∗ (eidLoc d ↦[rows80 w]{fullShare} E80) ∗ ∃ f, outLoc d ↦[rowsOut w]{fullShare} f)

/-- What it hands back: the inputs' rows unchanged, the output's rows zero off the indices. -/
def tdRes (d : Dev nD) (w : Fin 32) (T80 : Buf (Elt F) (tokLoc d)) (E80 : Buf (Elt F) (eidLoc d)) : sProp (MM F) :=
  iprop((tokLoc d ↦[rows80 w]{fullShare} T80) ∗ (eidLoc d ↦[rows80 w]{fullShare} E80) ∗ ∃ f, ⌜ZeroOff w E80 f⌝ ∗ outLoc d ↦[rowsOut w]{fullShare} f)

instance goRes_storable (d : Dev nD) (w : Fin 32) (T80 : Buf (Elt F) (tokLoc d)) (E80 : Buf (Elt F) (eidLoc d)) :
    BI.Storable (upEmb : UEmb _ (MM F)) (goRes d w T80 E80) := by
  unfold goRes; infer_instance

instance tdRes_storable (d : Dev nD) (w : Fin 32) (T80 : Buf (Elt F) (tokLoc d)) (E80 : Buf (Elt F) (eidLoc d)) :
    BI.Storable (upEmb : UEmb _ (MM F)) (tdRes d w T80 E80) := by
  unfold tdRes; infer_instance

end Cert.KernelIdeal.Pf

end
-- ==== Proof.Launch.lean ====
/-
  The launch of the kernel program: what the TensorCore hands each SparseCore at the one SparseCore call and gets back,
  how that splits among the sixteen vector subcores of a SparseCore, and the tile's obligation from its body's proof.
-/
import proofs.«211129_g5394478924152_cont_9to1c4b_288_8_alg».proof.Proof.Alg
import proofs.«211129_g5394478924152_cont_9to1c4b_288_8_alg».proof.Proof.TileRes
import proofs.«211129_g5394478924152_cont_9to1c4b_288_8_alg».proof.Proof.Gen.KernelIdeal
import proofs.«211129_g5394478924152_cont_9to1c4b_288_8_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-- The worker number of vector subcore `i` of SparseCore `c`: the rows it handles are `32 * wid .. 32 * wid + 31`. -/
def widOf (c : Fin 2) (i : Fin 16) : Fin 32 := finProdFinEquiv (i, c)

section Pay
variable (d : Dev nD) (T80 : Buf (Elt F) (tokLoc d)) (E80 : Buf (Elt F) (eidLoc d))
end Pay

/-- What the one call carries: each SparseCore is handed its sixteen workers' rows of the two padded inputs and of the
    output, and hands them back with the output's rows zero off the row's ids. -/
def P (T80 : (d : Dev nD) → Buf (Elt F) (tokLoc d)) (E80 : (d : Dev nD) → Buf (Elt F) (eidLoc d)) :
    (K (F := F)).Pay (nD := nD) (Val := Elt F) (Name := ℕ) (U := UU) where
  st := fun q d c => match q with | 0 => bigSep Finset.univ fun i : Fin 16 => goRes d (widOf (Fin.cast nCore_zero c) i) (T80 d) (E80 d)
  dn := fun q d c => match q with | 0 => bigSep Finset.univ fun i : Fin 16 => tdRes d (widOf (Fin.cast nCore_zero c) i) (T80 d) (E80 d)
  go := fun q d c i => match q with | 0 => goRes d (widOf (Fin.cast nCore_zero c) (Fin.cast nSub_zero i)) (T80 d) (E80 d)
  td := fun q d c i => match q with | 0 => tdRes d (widOf (Fin.cast nCore_zero c) (Fin.cast nSub_zero i)) (T80 d) (E80 d)
  x := fun _ _ => iprop(emp)

instance P_storable (T80 : (d : Dev nD) → Buf (Elt F) (tokLoc d)) (E80 : (d : Dev nD) → Buf (Elt F) (eidLoc d)) : (P T80 E80).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

theorem vecSplit (T80 : (d : Dev nD) → Buf (Elt F) (tokLoc d)) (E80 : (d : Dev nD) → Buf (Elt F) (eidLoc d)) :
    (K (F := F)).VecSplit' (P T80 E80) 0 := by
  intro d c
  show (bigSep Finset.univ fun i : Fin 16 => goRes d (widOf (Fin.cast nCore_zero c) i) (T80 d) (E80 d)) ⊢ |={Set.univ}=> iprop(
      (bigSep Finset.univ fun i : Fin ((K (F := F)).nSub 0) => goRes d (widOf (Fin.cast nCore_zero c) (Fin.cast nSub_zero i)) (T80 d) (E80 d))
      ∗ ((bigSep Finset.univ fun i : Fin ((K (F := F)).nSub 0) => tdRes d (widOf (Fin.cast nCore_zero c) (Fin.cast nSub_zero i)) (T80 d) (E80 d))
          -∗ bigSep Finset.univ fun i : Fin 16 => tdRes d (widOf (Fin.cast nCore_zero c) i) (T80 d) (E80 d)))
  iintro H; imodintro
  isplitl [H]; · iexact H
  iintro H; iexact H

/-! ## The tile's obligation, from its body's proof -/

/-- The vector subcore's task at grid point `L`, on the arrays and scratch the body table passes it. -/
abbrev tileProg (L : grid1.Coords) : Prog (TpuEff nD τ sig (Elt F) Λ₀ (.scVector ((L 0).castLE hcore1) ((L 1).castLE hsub1))) PUnit :=
  cc1_run L (Memref.whole main_v2_scv) (Memref.isWhole_whole _) (Memref.whole main_v3_scv) (Memref.isWhole_whole _) (Memref.whole main_v4_scv) (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    cc1_scratch6 cc1_scratch7 cc1_scoped0 cc1_scoped1 cc1_scoped2 cc1_scoped3 cc1_scoped4 cc1_scoped5 cc1_scoped6 cc1_scoped7

abbrev cV (L : grid1.Coords) : Fin τ.nSC := (L 0).castLE hcore1
abbrev jV (L : grid1.Coords) : Fin τ.nSub := (L 1).castLE hsub1
/-- The worker number of grid point `L`: subcore index times two plus core index. -/
def wid (L : grid1.Coords) : Fin 32 := ⟨(L 1).val * 2 + (L 0).val, by have h0 : (L 0).val < 2 := (L 0).isLt; have h1 : (L 1).val < 16 := (L 1).isLt; omega⟩

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => tileProg (F := F) (coordsV c s)) ⟨⟩ c s := rfl

/-- What the body's proof delivers: from the worker's rows and the subcore's scoped storage, the task runs and returns the
    rows with the output's zero off the ids. -/
def TileBody (T80 : (d : Dev nD) → Buf (Elt F) (tokLoc d)) (E80 : (d : Dev nD) → Buf (Elt F) (eidLoc d)) : Prop :=
  ∀ (d : Dev nD) (L : grid1.Coords) (O : CellTallies nD τ sig (HIx 1)) (W : Waits sig (HIx 1)), (∀ g, O g none = 0) →
    iprop(levAts (K (F := F)).L (K (F := F)).lev ∗ goRes d (wid L) (T80 d) (E80 d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop(tdRes d (wid L) (T80 d) (E80 d) ∗ scopedBufs (V d (cV L) (jV L)) ∗ scopedSems0 (V d (cV L) (jV L))
            ∗ ∃ W', ⌜∀ p ∈ W', p ∈ W ∨ p.2 = none⌝ ∗ owes (V d (cV L) (jV L)) O W') : sProp (MM F))

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : sProp (MM F)} : iprop(A ∗ emp ∗ B) ⊢ iprop(A ∗ B) := by
  iintro ⟨HA, -, HB⟩
  isplitl [HA]; · iexact HA
  iexact HB

theorem wid_coordsV (c : Fin ((K (F := F)).nCore 0)) (i : Fin ((K (F := F)).nSub 0)) (h0 h1) :
    wid (coordsV ⟨((K (F := F)).core 0 c).val, h0⟩ ⟨((K (F := F)).sub 0 i).val, h1⟩) = widOf (Fin.cast nCore_zero c) (Fin.cast nSub_zero i) := by
  apply Fin.ext
  show i.val * 2 + c.val = _
  simp [widOf, finProdFinEquiv]
  omega

theorem tileObl (T80 : (d : Dev nD) → Buf (Elt F) (tokLoc d)) (E80 : (d : Dev nD) → Buf (Elt F) (eidLoc d)) (hb : TileBody T80 E80) :
    (K (F := F)).TileObl (D (F := F)) 𝒱 (P T80 E80) v₀ 0 := by
  intro d c i O W hO _ _
  simp only [show (P T80 E80).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ goRes d (widOf (Fin.cast nCore_zero c) (Fin.cast nSub_zero i)) (T80 d) (E80 d) ∗ _) ⊢ wp _ _ _ _
    (fun _ => iprop(tdRes d (widOf (Fin.cast nCore_zero c) (Fin.cast nSub_zero i)) (T80 d) (E80 d) ∗ _))
  rw [← wid_coordsV (F := F) c i hc.1 hc.2]
  exact BI.Entails.trans drop_emp ((hb d (coordsV ⟨_, hc.1⟩ ⟨_, hc.2⟩) O W hO).trans (wp_mono frame _ _ fun _ => obl_post))

end Cert.KernelIdeal.Pf

end
-- ==== Proof.ScatterLaw.lean ====
/-
  A scatter whose body returns the update overwrites every operand element that some update lands on, and keeps the
  others: so two operands that agree wherever no update lands scatter to the same array.
-/
import Idealize.ShloMosaic.PureOps

noncomputable section

namespace Cert.ScatterLaw

open Idealize.ShloMosaic

variable {α : Type} {s si u : Shape} {w : Nat}

/-- One update of the overwriting scatter. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_congr (d : ScatterDims s si u) (idx : IVec si w) (upd : u.Idx → α) (x x' : s.Idx → α) (n : Fin u.numel) (p : s.Idx)
    (h : x p = x' p ∨ d.resultIdx? (u.rowMajor.symm n) idx = some p) :
    step d idx upd x n p = step d idx upd x' n p := by
  unfold step
  cases hr : d.resultIdx? (u.rowMajor.symm n) idx with
  | none =>
    rcases h with h | h
    · exact h
    · rw [hr] at h; cases h
  | some i =>
    dsimp only
    by_cases hp : p = i
    · rw [if_pos hp, if_pos hp]
    · rw [if_neg hp, if_neg hp]
      rcases h with h | h
      · exact h
      · rw [hr] at h; exact absurd (Option.some.inj h).symm hp

theorem foldl_congr (d : ScatterDims s si u) (idx : IVec si w) (upd : u.Idx → α) (p : s.Idx) :
    ∀ (l : List (Fin u.numel)) (x x' : s.Idx → α),
      (x p = x' p ∨ ∃ n ∈ l, d.resultIdx? (u.rowMajor.symm n) idx = some p) →
      l.foldl (step d idx upd) x p = l.foldl (step d idx upd) x' p := by
  intro l
  induction l with
  | nil =>
    intro x x' h
    rcases h with h | ⟨n, hn, _⟩
    · exact h
    · cases hn
  | cons n l ih =>
    intro x x' h
    rw [List.foldl_cons, List.foldl_cons]
    apply ih
    rcases h with h | ⟨n', hn', h'⟩
    · exact .inl (step_congr d idx upd x x' n p (.inl h))
    · rcases List.mem_cons.mp hn' with rfl | hl
      · exact .inl (step_congr d idx upd x x' n' p (.inr h'))
      · exact .inr ⟨n', hl, h'⟩

/-- Two operands that agree at `p`, or an update landing on `p`: the overwriting scatters agree at `p`. -/
theorem scatter_congr (d : ScatterDims s si u) (idx : IVec si w) (upd : u.Idx → α) (x x' : s.Idx → α) (p : s.Idx)
    (h : x p = x' p ∨ ∃ j : u.Idx, d.resultIdx? j idx = some p) :
    Host.scatter d (fun _ b => b) x idx upd p = Host.scatter d (fun _ b => b) x' idx upd p := by
  rw [scatter_eq_foldl, scatter_eq_foldl]
  apply foldl_congr
  rcases h with h | ⟨j, hj⟩
  · exact .inl h
  · refine .inr ⟨u.rowMajor j, List.mem_finRange _, ?_⟩
    rw [Equiv.symm_apply_apply]; exact hj

end Cert.ScatterLaw

end
-- ==== Proof.Hit.lean ====
/-
  Where the final scatter's updates land. The scatter's index array pairs, for the update at batch row `b` and
  position `s`, the row `b` itself with the token id at `(b, s)`; both words are non-negative, so an id `v` below the
  vocabulary size makes the update land at `(b, v)` of the `[1024, 49408]` operand. Hence an element `(b, v)` of the
  operand that no update lands on has `v` different from every id of row `b`.
-/
import proofs.«211129_g5394478924152_cont_9to1c4b_288_8_alg».proof.KernelIdeal
import Idealize.ShloMosaic.Lib.ValueIdx
import Idealize.ShloMosaic.Lib.Pipeline.Value
import Idealize.ShloMosaic.Lib.KernelVsHost
import proofs.«211129_g5394478924152_cont_9to1c4b_288_8_alg».proof.Proof.ScatterLaw

noncomputable section
namespace Cert.KernelIdeal.Pf
open Cert.KernelIdeal Idealize.ShloMosaic
variable [Facts₀]

abbrev sdK : ScatterDims S1024x49408 S1024x77x2 S1024x77 := scatter_S1024x49408_S1024x77x2_S1024x77_n_01_01_2

def i3 (j : S1024x77.Idx) (c : Fin 2) : S1024x77x2.Idx := fun a => match a with
  | ⟨0, _⟩ => j 0
  | ⟨1, _⟩ => j 1
  | ⟨2, _⟩ => c

theorem sdto : sdK.scatterDimsToOperandDims = [0, 1] := rfl

theorem siIdx0 (j : S1024x77.Idx) (c : Fin sdK.scatterDimsToOperandDims.length) (hc : c.val = 0) : sdK.siIdx j c = i3 j 0 := by
  obtain ⟨n, hn⟩ := c; simp only at hc; subst hc
  funext a
  match a with
  | ⟨0, _⟩ => rfl
  | ⟨1, _⟩ => rfl
  | ⟨2, _⟩ => rfl
theorem siIdx1 (j : S1024x77.Idx) (c : Fin sdK.scatterDimsToOperandDims.length) (hc : c.val = 1) : sdK.siIdx j c = i3 j 1 := by
  obtain ⟨n, hn⟩ := c; simp only at hc; subst hc
  funext a
  match a with
  | ⟨0, _⟩ => rfl
  | ⟨1, _⟩ => rfl
  | ⟨2, _⟩ => rfl

theorem start0 (j : S1024x77.Idx) (idx : IVec S1024x77x2 32) : sdK.start j idx 0 = (idx (i3 j 0)).toInt := by
  unfold ScatterDims.start
  have h : (0 : Fin S1024x49408.rank) ∈ sdK.scatterDimsToOperandDims := by
    show (0 : Fin 2) ∈ ([0, 1] : List (Fin 2)); decide
  rw [dif_pos h]
  rw [siIdx0 j _ (by show List.idxOf (0 : Fin 2) ([0, 1] : List (Fin 2)) = 0; decide)]
theorem start1 (j : S1024x77.Idx) (idx : IVec S1024x77x2 32) : sdK.start j idx 1 = (idx (i3 j 1)).toInt := by
  unfold ScatterDims.start
  have h : (1 : Fin S1024x49408.rank) ∈ sdK.scatterDimsToOperandDims := by
    show (1 : Fin 2) ∈ ([0, 1] : List (Fin 2)); decide
  rw [dif_pos h]
  rw [siIdx1 j _ (by show List.idxOf (1 : Fin 2) ([0, 1] : List (Fin 2)) = 1; decide)]
theorem window0 (j : S1024x77.Idx) (a : Fin 2) : sdK.window j a = 0 := by
  unfold ScatterDims.window
  rw [dif_neg]
  show a ∉ ([] : List (Fin 2))
  simp

/-- An update whose two index words read (as signed integers) a row `r < 1024` and a column `v < 49408` lands at `(r, v)`. -/
theorem resultIdx_of (j : S1024x77.Idx) (idx : IVec S1024x77x2 32) (r : Fin 1024) (v : Fin 49408)
    (h0 : (idx (i3 j 0)).toInt = r.val) (h1 : (idx (i3 j 1)).toInt = v.val) :
    sdK.resultIdx? j idx = some (ValueIdx.ix2 r v) := by
  unfold ScatterDims.resultIdx?
  have hb : ∀ a, 0 ≤ sdK.start j idx a + sdK.window j a ∧ sdK.start j idx a + sdK.window j a < S1024x49408.size a := by
    intro a
    match a with
    | ⟨0, _⟩ => rw [window0]; show 0 ≤ sdK.start j idx 0 + _ ∧ sdK.start j idx 0 + _ < _; rw [start0, h0]; have := r.isLt; constructor <;> simp <;> omega
    | ⟨1, _⟩ => rw [window0]; show 0 ≤ sdK.start j idx 1 + _ ∧ sdK.start j idx 1 + _ < _; rw [start1, h1]; have := v.isLt; constructor <;> simp <;> omega
  rw [dif_pos hb]
  congr 1
  funext a
  match a with
  | ⟨0, _⟩ => apply Fin.ext; show (sdK.start j idx 0 + sdK.window j 0).toNat = r.val; rw [window0, start0, h0]; simp
  | ⟨1, _⟩ => apply Fin.ext; show (sdK.start j idx 1 + sdK.window j 1).toNat = v.val; rw [window0, start1, h1]; simp

/-! ## The index array of the final scatter, read at an index -/

/-- The batch-row numbers `[1024, 77]`, as the program builds them (an iota broadcast along the positions, with the
    wrap-around of negative values that never applies). -/
def rowsK : IVec S1024x77 32 :=
  select (cmpi .slt (broadcastInDim S1024x77 ![0, 1] Facts₀.bcast_S1024x1_S1024x77_0_1 (broadcastInDim S1024x1 ![0] Facts₀.bcast_S1024_S1024x1_0 (iotaInDim S1024 32 0)))
      (broadcastInDim S1024x77 ![] Facts₀.bcast_S_S1024x77 (constantI S_ 32 0#32)))
    (addi (broadcastInDim S1024x77 ![0, 1] Facts₀.bcast_S1024x1_S1024x77_0_1 (broadcastInDim S1024x1 ![0] Facts₀.bcast_S1024_S1024x1_0 (iotaInDim S1024 32 0)))
      (broadcastInDim S1024x77 ![] Facts₀.bcast_S_S1024x77 (constantI S_ 32 1024#32)))
    (broadcastInDim S1024x77 ![0, 1] Facts₀.bcast_S1024x1_S1024x77_0_1 (broadcastInDim S1024x1 ![0] Facts₀.bcast_S1024_S1024x1_0 (iotaInDim S1024 32 0)))

/-- The ids with the wrap-around of negative values (which never applies to ids in range). -/
def idsK (a4 : IVec S1024x77 32) : IVec S1024x77 32 :=
  select (cmpi .slt a4 (broadcastInDim S1024x77 ![] Facts₀.bcast_S_S1024x77 (constantI S_ 32 0#32)))
    (addi a4 (broadcastInDim S1024x77 ![] Facts₀.bcast_S_S1024x77 (constantI S_ 32 49408#32))) a4

/-- The scatter's index array `[1024, 77, 2]`: (row, id). -/
def idxK (a4 : IVec S1024x77 32) : IVec S1024x77x2 32 :=
  concatenate S1024x77x2 2 [⟨S1024x77x1, broadcastInDim S1024x77x1 ![0, 1] Facts₀.bcast_S1024x77_S1024x77x1_0_1 rowsK⟩,
    ⟨S1024x77x1, broadcastInDim S1024x77x1 ![0, 1] Facts₀.bcast_S1024x77_S1024x77x1_0_1 (idsK a4)⟩] Facts₀.concatenates_S1024x77x1_S1024x77x1_S1024x77x2_d2

/-- A word whose sign bit is clear is not below zero as a signed integer: the wrap-around keeps it. -/
theorem sel_nonneg (x y : BitVec 32) (h : x.toNat < 2147483648) : Scalar.select (IntOp.cmpi .slt x 0#32) y x = x := by
  have hs : x.slt 0#32 = false := by
    rw [BitVec.slt_eq_decide, decide_eq_false_iff_not, BitVec.toInt_eq_toNat_cond]
    have h0 : (0#32 : BitVec 32).toInt = 0 := by decide
    rw [h0, if_pos (by omega)]
    omega
  have hc : IntOp.cmpi .slt x 0#32 ≠ 1 := by
    show BitVec.ofBool (x.slt 0#32) ≠ 1
    rw [hs]; decide
  unfold Scalar.select
  rw [if_neg hc]

theorem rowsK_apply (j : S1024x77.Idx) : rowsK j = BitVec.ofNat 32 (j 0).val := by
  simp only [rowsK, select, cmpi, addi, broadcastInDim, iotaInDim, constantI]
  have hx : ∀ n : Nat, n < 1024 → (BitVec.ofNat 32 n).toNat < 2147483648 := by
    intro n hn; rw [BitVec.toNat_ofNat]; omega
  refine (sel_nonneg _ _ (hx _ (Fin.isLt _))).trans ?_
  congr 1

theorem idsK_apply (a4 : IVec S1024x77 32) (j : S1024x77.Idx) (h : (a4 j).toNat < 49408) : idsK a4 j = a4 j := by
  simp only [idsK, select, cmpi, addi, broadcastInDim, constantI]
  exact sel_nonneg _ _ (by omega)

theorem idxK_row (a4 : IVec S1024x77 32) (j : S1024x77.Idx) : idxK a4 (i3 j 0) = BitVec.ofNat 32 (j 0).val := by
  unfold idxK
  rw [concatenate_pair_apply_left (s₁ := S1024x77x1) (s₂ := S1024x77x1) (2 : Fin 3) _ _ _ (i3 j 0) rfl (ValueIdx.ix3 (j 0) (j 1) (0 : Fin 1))
    (by intro b; match b with | ⟨0, _⟩ => rfl | ⟨1, _⟩ => rfl | ⟨2, _⟩ => rfl)]
  rw [broadcastInDim_apply _ _ _ _ j (by intro a; match a with | ⟨0, _⟩ => rfl | ⟨1, _⟩ => rfl)]
  exact rowsK_apply j

theorem idxK_id (a4 : IVec S1024x77 32) (j : S1024x77.Idx) (h : (a4 j).toNat < 49408) : idxK a4 (i3 j 1) = a4 j := by
  unfold idxK
  rw [concatenate_pair_apply_right (s₁ := S1024x77x1) (s₂ := S1024x77x1) (2 : Fin 3) _ _ _ (i3 j 1) rfl rfl (ValueIdx.ix3 (j 0) (j 1) (0 : Fin 1))
    (by intro b hb; match b with | ⟨0, _⟩ => rfl | ⟨1, _⟩ => rfl | ⟨2, _⟩ => exact absurd rfl hb) rfl]
  rw [broadcastInDim_apply _ _ _ _ j (by intro a; match a with | ⟨0, _⟩ => rfl | ⟨1, _⟩ => rfl)]
  exact idsK_apply a4 j h

/-! ## The scatter does not see its operand off the ids -/

theorem toInt_ofNat_small (n : Nat) (h : n < 2147483648) : (BitVec.ofNat 32 n).toInt = n := by
  rw [BitVec.toInt_eq_toNat_cond, BitVec.toNat_ofNat, Nat.mod_eq_of_lt (by omega), if_pos (by omega)]
theorem toInt_small (x : BitVec 32) (h : x.toNat < 2147483648) : x.toInt = x.toNat := by
  rw [BitVec.toInt_eq_toNat_cond, if_pos (by omega)]

/-- Two operands that agree at every element whose column is none of its row's ids scatter (ids in range) to the same array. -/
theorem scatter_bridge {α : Type} (a4 : IVec S1024x77 32) (ha : ∀ j, (a4 j).toNat < 49408) (tok : S1024x77.Idx → α)
    (f z : S1024x49408.Idx → α)
    (hz : ∀ p : S1024x49408.Idx, (∀ j : S1024x77.Idx, (j 0).val = (p 0).val → (a4 j).toNat ≠ (p 1).val) → f p = z p) :
    Host.scatter sdK (fun _ b => b) f (idxK a4) tok = Host.scatter sdK (fun _ b => b) z (idxK a4) tok := by
  funext p
  apply ScatterLaw.scatter_congr
  by_cases h : ∃ j : S1024x77.Idx, (j 0).val = (p 0).val ∧ (a4 j).toNat = (p 1).val
  · right
    obtain ⟨j, h0, h1⟩ := h
    refine ⟨j, ?_⟩
    rw [resultIdx_of j (idxK a4) (j 0) ⟨(a4 j).toNat, ha j⟩
      (by rw [idxK_row]; exact toInt_ofNat_small _ (by have h1024 : (j 0).val < 1024 := (j 0).isLt; omega))
      (by rw [idxK_id _ _ (ha j)]; exact toInt_small _ (by have := ha j; omega))]
    congr 1
    funext a
    match a with
    | ⟨0, _⟩ => exact Fin.ext h0
    | ⟨1, _⟩ => exact Fin.ext h1
  · left
    exact hz p fun j h0 h1 => h ⟨j, h0, h1⟩

/-! ## The ids padded to 80 positions -/

/-- The deduplicated ids `[1024, 77]` padded to 80 positions with the dump id 49408. -/
def eid80 (e : IVec S1024x77 32) : IVec S1024x80 32 :=
  pad S1024x80 ![0, 0] ![0, 3] ![0, 0] e (constantI S_ 32 49408#32) Facts₀.pads_S1024x77_S1024x80_000_030 Facts₀.h_S_

theorem eid80_inside (e : IVec S1024x77 32) (j : S1024x80.Idx) (h : (j 1).val < 77) :
    eid80 e j = e (ValueIdx.ix2 (j 0) ⟨(j 1).val, h⟩) := by
  unfold eid80
  exact pad_apply_of_inside _ _ _ _ _ _ _ j (ValueIdx.ix2 (j 0) ⟨(j 1).val, h⟩)
    (by intro a; match a with | ⟨0, _⟩ => simp [ValueIdx.ix2] | ⟨1, _⟩ => simp [ValueIdx.ix2])

theorem eid80_outside (e : IVec S1024x77 32) (j : S1024x80.Idx) (h : ¬ (j 1).val < 77) : eid80 e j = 49408#32 := by
  unfold eid80
  rw [pad_apply_of_not_inside _ _ _ _ _ _ _ j (1 : Fin 2) (by
    intro hc; apply h; have := hc.2.2; simpa using this)]
  rfl

/-- Every padded id names a word of the 49424-word buffer below its last 16 words, or the first dump word. -/
theorem eid80_le (a4 e : IVec S1024x77 32) (ha : ∀ j, (a4 j).toNat < 49408) (he : ∀ i, e i = a4 i ∨ e i = 49408#32) (j : S1024x80.Idx) :
    (eid80 e j).toNat ≤ 49408 := by
  by_cases h : (j 1).val < 77
  · rw [eid80_inside e j h]
    rcases he (ValueIdx.ix2 (j 0) ⟨(j 1).val, h⟩) with h' | h'
    · rw [h']; exact Nat.le_of_lt (ha _)
    · rw [h']; decide
  · rw [eid80_outside e j h]; decide

/-- A column below 49408 that is none of its row's ids is none of the row's padded deduplicated ids. -/
theorem eid80_ne (a4 e : IVec S1024x77 32) (he : ∀ i, e i = a4 i ∨ e i = 49408#32) (p : S1024x49408.Idx)
    (hp : ∀ j : S1024x77.Idx, (j 0).val = (p 0).val → (a4 j).toNat ≠ (p 1).val) (j : S1024x80.Idx) (hj : (j 0).val = (p 0).val) :
    (eid80 e j).toNat ≠ (p 1).val := by
  have hp1 : (p 1).val < 49408 := (p 1).isLt
  by_cases h : (j 1).val < 77
  · rw [eid80_inside e j h]
    rcases he (ValueIdx.ix2 (j 0) ⟨(j 1).val, h⟩) with h' | h'
    · rw [h']; exact hp _ hj
    · rw [h']; show 49408 ≠ _; omega
  · rw [eid80_outside e j h]; show 49408 ≠ _; omega

end Cert.KernelIdeal.Pf
end
-- ==== Proof.Main.lean ====
/-
  @main on the TensorCore and the program's run: the launch element, the host operations around the TensorCore region
  and the SparseCore call, and what the final memory holds.
-/
import proofs.«211129_g5394478924152_cont_9to1c4b_288_8_alg».proof.Proof.Launch
import proofs.«211129_g5394478924152_cont_9to1c4b_288_8_alg».proof.Proof.Hit
import proofs.«211129_g5394478924152_cont_9to1c4b_288_8_alg».proof.Proof.Gen.KernelIdeal.Launch
import Idealize.ShloMosaic.Lib.Pipeline.Sound

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

/-! ## The launch element -/

/-- The pipeline's staging cells' launch element. -/
def pipeInit : UP := initOf (Pipeline.cells (nD := nD) (τ := τ) cfgs Gen.cellOf_inj) (Pipeline.launchToks (nD := nD) (τ := τ) cfgs Gen.cellOf_inj)
/-- The certificate's launch element: the handshakes' rounds, the pipeline cells' rounds, the counters' unit. -/
def u₀ : UU := (initOf (K (F := F)).hsCells (K (F := F)).hsToks, (pipeInit, 1))

/-- What the launch deals the TensorCore of `d` for the region: its staging cells' ghost state and duty tokens. -/
def G (d : Dev nD) : sProp (MM F) := iprop(Pipeline.cellsGhost cfgs EP (0 : Fin 1) d ∗ Pipeline.toksInit cfgs EP (0 : Fin 1) d)

omit [FloatOps F] in
theorem bigSep_emp' {I : Type} (s : Finset I) : (bigSep s fun _ => iprop(emp)) = (iprop(emp) : sProp (MM F)) := bigSep_emp_const s

omit [FloatOps F] in
theorem own_EP : (BI.own (((Emb.inl : Emb UP (UP × Counters)).trans (embR : Emb (UP × Counters) (MM F))) pipeInit) : sProp (MM F))
    ⊢ BI.own ((EP (F := F)) (initOf (Pipeline.cells (nD := nD) (τ := τ) cfgs Gen.cellOf_inj) (Pipeline.launchToks (nD := nD) (τ := τ) cfgs Gen.cellOf_inj))) :=
  BI.Entails.refl _

omit [FloatOps F] in
theorem ghost_deal :
    iprop((bigSep Finset.univ fun c : Dev nD => bigSep Finset.univ fun p : Fin 1 => Pipeline.cellsGhost cfgs (EP (F := F)) p c)
      ∗ (bigSep Finset.univ fun c : Dev nD => bigSep Finset.univ fun p : Fin 1 => (Pipeline.toksInit cfgs (EP (F := F)) p c : sProp (MM F))))
    ⊢ bigSep Finset.univ fun d : Dev nD => G (F := F) d := by
  have e1 : (bigSep Finset.univ fun c : Dev nD => bigSep Finset.univ fun p : Fin 1 => Pipeline.cellsGhost cfgs (EP (F := F)) p c)
      = bigSep Finset.univ fun d : Dev nD => Pipeline.cellsGhost cfgs (EP (F := F)) (0 : Fin 1) d :=
    bigSep_congr fun d _ => bigSep_univ_of_subsingleton (0 : Fin 1)
  have e2 : (bigSep Finset.univ fun c : Dev nD => bigSep Finset.univ fun p : Fin 1 => (Pipeline.toksInit cfgs (EP (F := F)) p c : sProp (MM F)))
      = bigSep Finset.univ fun d : Dev nD => Pipeline.toksInit cfgs (EP (F := F)) (0 : Fin 1) d :=
    bigSep_congr fun d _ => bigSep_univ_of_subsingleton (0 : Fin 1)
  unfold G
  rw [bigSep_sep', e1, e2]

theorem hu₀ (T80 : (d : Dev nD) → Buf (Elt F) (tokLoc d)) (E80 : (d : Dev nD) → Buf (Elt F) (eidLoc d)) :
    (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P T80 E80).x q thr) := by
  unfold u₀
  iintro Hu
  ihave H := (ownU_pair _ _) $$ Hu
  icases H with ⟨HH, HR⟩
  ihave HR' := (own_pair_emb (embR : Emb (UP × Counters) (MM F)) pipeInit 1) $$ HR
  icases HR' with ⟨HP, -⟩
  ihave HP' := (own_EP (F := F)) $$ HP
  imod (Pipeline.fund_ghost (nD := nD) (τ := τ) cfgs (EP (F := F)) Gen.cellOf_inj) $$ HP' with ⟨Hg, Ht⟩
  imodintro
  isplitl [HH]; · iexact HH
  isplitl [Hg Ht]
  · iapply (ghost_deal (F := F))
    isplitl [Hg] <;> iassumption
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

end Cert.KernelIdeal.Pf

end
-- ==== Proof.Call.lean ====
/-
  The SparseCore call as the TensorCore sees it: the two padded inputs and the output, held whole, split into the 32
  workers' rows going in, and the rows rejoin coming back, the output zero off every row's ids.
-/
import proofs.«211129_g5394478924152_cont_9to1c4b_288_8_alg».proof.Proof.Launch

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
/-- Over the two SparseCores and their sixteen subcores is over the 32 workers. -/
theorem bigSep_wid (Φ : Fin 32 → sProp (MM F)) :
    (bigSep Finset.univ fun c : Fin ((K (F := F)).nCore 0) => bigSep Finset.univ fun i : Fin 16 => Φ (widOf (Fin.cast nCore_zero c) i))
      = bigSep Finset.univ Φ := by
  show (bigSep (Finset.univ : Finset (Fin 2)) fun c => bigSep (Finset.univ : Finset (Fin 16)) fun i => Φ (finProdFinEquiv (i, c))) = _
  rw [bigSep_univ_comm, ← bigSep_univ_prod (fun p : Fin 16 × Fin 2 => Φ (finProdFinEquiv p))]
  exact (bigSep_univ_equiv (finProdFinEquiv (m := 16) (n := 2)) (Φ : Fin (16 * 2) → sProp (MM F))).symm

omit [FloatOps F] in
theorem tok_rows (d : Dev nD) (f : Buf (Elt F) (tokLoc d)) :
    (tokLoc d ↦{fullShare} f : sProp (MM F)) = bigSep Finset.univ fun w : Fin 32 => tokLoc d ↦[rows80 w]{fullShare} f := by
  rw [← pointsTo_biUnion Finset.univ (ℓ := tokLoc d) rows80 rows80_disjoint, rows80_cover]; try rfl
omit [FloatOps F] in
theorem eid_rows (d : Dev nD) (f : Buf (Elt F) (eidLoc d)) :
    (eidLoc d ↦{fullShare} f : sProp (MM F)) = bigSep Finset.univ fun w : Fin 32 => eidLoc d ↦[rows80 w]{fullShare} f := by
  rw [← pointsTo_biUnion Finset.univ (ℓ := eidLoc d) rows80 rows80_disjoint, rows80_cover]; try rfl
omit [FloatOps F] in
theorem out_rows (d : Dev nD) (f : Buf (Elt F) (outLoc d)) :
    (outLoc d ↦{fullShare} f : sProp (MM F)) = bigSep Finset.univ fun w : Fin 32 => outLoc d ↦[rowsOut w]{fullShare} f := by
  rw [← pointsTo_biUnion Finset.univ (ℓ := outLoc d) rowsOut rowsOut_disjoint, rowsOut_cover]; try rfl

theorem go_intro (d : Dev nD) (w : Fin 32) (T80 : Buf (Elt F) (tokLoc d)) (E80 : Buf (Elt F) (eidLoc d)) (f : Buf (Elt F) (outLoc d)) :
    iprop((tokLoc d ↦[rows80 w]{fullShare} T80) ∗ (eidLoc d ↦[rows80 w]{fullShare} E80) ∗ (outLoc d ↦[rowsOut w]{fullShare} f))
      ⊢ (goRes d w T80 E80 : sProp (MM F)) := by
  unfold goRes
  iintro ⟨Ht, He, Ho⟩
  isplitl [Ht]; · iexact Ht
  isplitl [He]; · iexact He
  iexists f; iexact Ho

/-- Going in: the three arrays whole are every SparseCore's start payload. -/
theorem st_all (T80 : (d : Dev nD) → Buf (Elt F) (tokLoc d)) (E80 : (d : Dev nD) → Buf (Elt F) (eidLoc d)) (d : Dev nD) (f : Buf (Elt F) (outLoc d)) :
    iprop((tokLoc d ↦{fullShare} T80 d) ∗ (eidLoc d ↦{fullShare} E80 d) ∗ (outLoc d ↦{fullShare} f))
      ⊢ (bigSep Finset.univ fun c : Fin ((K (F := F)).nCore 0) => (P T80 E80).st 0 d c : sProp (MM F)) := by
  show _ ⊢ bigSep Finset.univ fun c : Fin ((K (F := F)).nCore 0) => bigSep Finset.univ fun i : Fin 16 => goRes d (widOf (Fin.cast nCore_zero c) i) (T80 d) (E80 d)
  rw [bigSep_wid (F := F) (fun w => goRes d w (T80 d) (E80 d)), tok_rows, eid_rows, out_rows, ← bigSep_sep', ← bigSep_sep']
  exact bigSep_mono fun w _ => go_intro d w (T80 d) (E80 d) f

/-- Coming back: every SparseCore's done payload is the two inputs whole and the output whole at some contents that are
    zero off every row's ids. -/
theorem dn_all (T80 : (d : Dev nD) → Buf (Elt F) (tokLoc d)) (E80 : (d : Dev nD) → Buf (Elt F) (eidLoc d)) (d : Dev nD) :
    (bigSep Finset.univ fun c : Fin ((K (F := F)).nCore 0) => (P T80 E80).dn 0 d c : sProp (MM F))
      ⊢ iprop((tokLoc d ↦{fullShare} T80 d) ∗ (eidLoc d ↦{fullShare} E80 d) ∗ ∃ f, ⌜∀ w, ZeroOff w (E80 d) f⌝ ∗ (outLoc d ↦{fullShare} f)) := by
  show (bigSep Finset.univ fun c : Fin ((K (F := F)).nCore 0) => bigSep Finset.univ fun i : Fin 16 => tdRes d (widOf (Fin.cast nCore_zero c) i) (T80 d) (E80 d)) ⊢ _
  rw [bigSep_wid (F := F) (fun w => tdRes d w (T80 d) (E80 d)), tok_rows, eid_rows]
  unfold tdRes
  rw [bigSep_sep', bigSep_sep']
  iintro ⟨Ht, He, Ho⟩
  isplitl [Ht]; · iexact Ht
  isplitl [He]; · iexact He
  ihave Ho' := (bigSep_exists_pi Finset.univ (fun (w : Fin 32) (f : Buf (Elt F) (outLoc d)) => iprop(⌜ZeroOff w (E80 d) f⌝ ∗ outLoc d ↦[rowsOut w]{fullShare} f))) $$ Ho
  icases Ho' with ⟨%fs, Ho⟩
  ihave Ho2 := (bigSep_pure_sep Finset.univ (fun w : Fin 32 => ZeroOff w (E80 d) (fs w)) (fun w => outLoc d ↦[rowsOut w]{fullShare} fs w)) $$ Ho
  icases Ho2 with ⟨%hz, Ho⟩
  ihave Ho3 := (pointsTo_biUnion_join Finset.univ rowsOut fs (fs 0) rowsOut_disjoint) $$ Ho
  icases Ho3 with ⟨%g, %hg, Hg⟩
  rw [rowsOut_cover]
  iexists g
  isplitr
  · ipureintro
    intro w i hi hne
    rw [hg w (Finset.mem_univ w) i hi]
    exact hz w (Finset.mem_univ w) i hi hne
  · iexact Hg

end Cert.KernelIdeal.Pf

end
-- ==== Proof.Segs.lean ====
/-
  @main of the kernel program cut at its two calls: the host operations before the TensorCore region, between the region
  and the SparseCore call, and after it, each stretch as a list.
-/
import proofs.«211129_g5394478924152_cont_9to1c4b_288_8_alg».proof.KernelIdeal
import proofs.«211129_g5394478924152_cont_9to1c4b_288_8_alg».proof.Proof.Gen.KernelIdeal
import Idealize.ShloMosaic.Lib.StableHlo.Run

noncomputable section

namespace Cert.KernelIdeal.Pf

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F]

/-- The bias reshaped to `[1, 1]`. -/
abbrev ops1 : List (HloOp τ sig (Elt F)) :=
  [ StableHlo.reshape main_arg3 main_v0 rfl shapeCasts_S1_S1x1 ]

/-- The two results padded from 77 to 80 positions: the weights with 0, the ids with the dump id 49408. -/
abbrev ops2 : List (HloOp τ sig (Elt F)) :=
  [ StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S1024x77, .f32⟩) main_v1_0) (StableHlo.TRef.of (T := ⟨S_, .f32⟩) main_call0_v0) (StableHlo.TRef.of (T := ⟨S1024x80, .f32⟩) main_v2) (fun x v => pad S1024x80 ![0, 0] ![0, 3] ![0, 0] x v pads_S1024x77_S1024x80_000_030 h_S_),
    StableHlo.nullary main_c_0 (constantI S_ 32 49408#32),
    StableHlo.TRef.binary (StableHlo.TRef.of (T := ⟨S1024x77, .i32⟩) main_v1_1) (StableHlo.TRef.of (T := ⟨S_, .i32⟩) main_c_0) (StableHlo.TRef.of (T := ⟨S1024x80, .i32⟩) main_v3) (fun x v => pad S1024x80 ![0, 0] ![0, 3] ![0, 0] x v pads_S1024x77_S1024x80_000_030 h_S_) ]

/-- The final scatter's index array (row, id) and the scatter of the weights into the SparseCore call's result. -/
abbrev ops3 : List (HloOp τ sig (Elt F)) :=
  [ StableHlo.nullary main_v5 (iotaInDim S1024 32 0),
    StableHlo.unary main_v5 main_v6 (broadcastInDim S1024x1 ![0] bcast_S1024_S1024x1_0 : (⟨S1024, .i32⟩ : BufTy).Contents (Elt F) → (⟨S1024x1, .i32⟩ : BufTy).Contents (Elt F)),
    StableHlo.unary main_v6 main_v7 (broadcastInDim S1024x77 ![0, 1] bcast_S1024x1_S1024x77_0_1 : (⟨S1024x1, .i32⟩ : BufTy).Contents (Elt F) → (⟨S1024x77, .i32⟩ : BufTy).Contents (Elt F)),
    StableHlo.nullary main_c_1 (constantI S_ 32 0#32),
    StableHlo.unary main_c_1 main_v8 (broadcastInDim S1024x77 ![] bcast_S_S1024x77 : (⟨S_, .i32⟩ : BufTy).Contents (Elt F) → (⟨S1024x77, .i32⟩ : BufTy).Contents (Elt F)),
    StableHlo.binary main_v7 main_v8 main_v9 (cmpi .slt : (⟨S1024x77, .i32⟩ : BufTy).Contents (Elt F) → (⟨S1024x77, .i32⟩ : BufTy).Contents (Elt F) → (⟨S1024x77, .i1⟩ : BufTy).Contents (Elt F)),
    StableHlo.nullary main_c_2 (constantI S_ 32 1024#32),
    StableHlo.unary main_c_2 main_v10 (broadcastInDim S1024x77 ![] bcast_S_S1024x77 : (⟨S_, .i32⟩ : BufTy).Contents (Elt F) → (⟨S1024x77, .i32⟩ : BufTy).Contents (Elt F)),
    StableHlo.binary main_v7 main_v10 main_v11 (addi : (⟨S1024x77, .i32⟩ : BufTy).Contents (Elt F) → (⟨S1024x77, .i32⟩ : BufTy).Contents (Elt F) → (⟨S1024x77, .i32⟩ : BufTy).Contents (Elt F)),
    StableHlo.ternary main_v9 main_v11 main_v7 main_v12 (select : (⟨S1024x77, .i1⟩ : BufTy).Contents (Elt F) → (⟨S1024x77, .i32⟩ : BufTy).Contents (Elt F) → (⟨S1024x77, .i32⟩ : BufTy).Contents (Elt F) → (⟨S1024x77, .i32⟩ : BufTy).Contents (Elt F)),
    StableHlo.nullary main_c_3 (constantI S_ 32 0#32),
    StableHlo.unary main_c_3 main_v13 (broadcastInDim S1024x77 ![] bcast_S_S1024x77 : (⟨S_, .i32⟩ : BufTy).Contents (Elt F) → (⟨S1024x77, .i32⟩ : BufTy).Contents (Elt F)),
    StableHlo.binary main_arg4 main_v13 main_v14 (cmpi .slt : (⟨S1024x77, .i32⟩ : BufTy).Contents (Elt F) → (⟨S1024x77, .i32⟩ : BufTy).Contents (Elt F) → (⟨S1024x77, .i1⟩ : BufTy).Contents (Elt F)),
    StableHlo.nullary main_c_4 (constantI S_ 32 49408#32),
    StableHlo.unary main_c_4 main_v15 (broadcastInDim S1024x77 ![] bcast_S_S1024x77 : (⟨S_, .i32⟩ : BufTy).Contents (Elt F) → (⟨S1024x77, .i32⟩ : BufTy).Contents (Elt F)),
    StableHlo.binary main_arg4 main_v15 main_v16 (addi : (⟨S1024x77, .i32⟩ : BufTy).Contents (Elt F) → (⟨S1024x77, .i32⟩ : BufTy).Contents (Elt F) → (⟨S1024x77, .i32⟩ : BufTy).Contents (Elt F)),
    StableHlo.ternary main_v14 main_v16 main_arg4 main_v17 (select : (⟨S1024x77, .i1⟩ : BufTy).Contents (Elt F) → (⟨S1024x77, .i32⟩ : BufTy).Contents (Elt F) → (⟨S1024x77, .i32⟩ : BufTy).Contents (Elt F) → (⟨S1024x77, .i32⟩ : BufTy).Contents (Elt F)),
    StableHlo.unary main_v12 main_v18 (broadcastInDim S1024x77x1 ![0, 1] bcast_S1024x77_S1024x77x1_0_1 : (⟨S1024x77, .i32⟩ : BufTy).Contents (Elt F) → (⟨S1024x77x1, .i32⟩ : BufTy).Contents (Elt F)),
    StableHlo.unary main_v17 main_v19 (broadcastInDim S1024x77x1 ![0, 1] bcast_S1024x77_S1024x77x1_0_1 : (⟨S1024x77, .i32⟩ : BufTy).Contents (Elt F) → (⟨S1024x77x1, .i32⟩ : BufTy).Contents (Elt F)),
    StableHlo.binary main_v18 main_v19 main_v20 ((fun a b => concatenate S1024x77x2 2 [⟨S1024x77x1, a⟩, ⟨S1024x77x1, b⟩] concatenates_S1024x77x1_S1024x77x1_S1024x77x2_d2) : (⟨S1024x77x1, .i32⟩ : BufTy).Contents (Elt F) → (⟨S1024x77x1, .i32⟩ : BufTy).Contents (Elt F) → (⟨S1024x77x2, .i32⟩ : BufTy).Contents (Elt F)),
    StableHlo.ternary main_v4 main_v20 main_v1_0 main_v21 ((fun x i u => Host.scatter scatter_S1024x49408_S1024x77x2_S1024x77_n_01_01_2 (fun _ b => b) x i u) : (⟨S1024x49408, .f32⟩ : BufTy).Contents (Elt F) → (⟨S1024x77x2, .i32⟩ : BufTy).Contents (Elt F) → (⟨S1024x77, .f32⟩ : BufTy).Contents (Elt F) → (⟨S1024x49408, .f32⟩ : BufTy).Contents (Elt F)) ]

theorem main_eq (d : Dev nD) : main (F := F) d
    = (seq ops1 >>= fun _ => Prog.lift (.customCall (SparseCore.inner (Pipeline.entry 0)) ()) >>= fun _ =>
        seq ops2 >>= fun _ => sc.run d 0 >>= fun _ => seq ops3) := rfl

end Cert.KernelIdeal.Pf

end
-- ==== Proof.TcValue.lean ====
/-
  The TensorCore call's results as whole-array functions of its operands: the body's two payloads applied to the
  blocks of eight batch rows a grid point stages, read at the row's place inside its block.
-/
import proofs.«211129_g5394478924152_cont_9to1c4b_288_8_alg».proof.Proof.Gen.KernelIdeal.Skeleton
import Idealize.ShloMosaic.Lib.ValueIdx

noncomputable section

namespace Cert.KernelIdeal.Pf

open Cert.KernelIdeal Cert.KernelIdeal.Gen
open Idealize.ShloMosaic Idealize.ShloMosaic.ValueIdx

variable {F : FTy → Type} [FloatOps F]

/-- Batch rows `8 g … 8 g + 7` of a `[1024, 77, 768]` array. -/
def rows3 (a : Vec F S1024x77x768 .f32) (g : Fin 128) : Vec F S8x77x768 .f32 := fun j =>
  a (ix3 (⟨8 * g.val + (j 0).val, by have h : (j 0).val < 8 := (j 0).isLt; have := g.isLt; omega⟩ : Fin 1024) (j 1 : Fin 77) (j 2 : Fin 768))

/-- Batch rows `8 g … 8 g + 7` of a `[1024, 77]` array. -/
def rows2 {e : EltTy} (a : Vec F S1024x77 e) (g : Fin 128) : Vec F S8x77 e := fun j =>
  a (ix2 (⟨8 * g.val + (j 0).val, by have h : (j 0).val < 8 := (j 0).isLt; have := g.isLt; omega⟩ : Fin 1024) (j 1 : Fin 77))

/-- What grid point `g` leaves in the first result's block: the first payload of the operands' blocks there. -/
def tokBlk (a0 : Vec F S1024x77x768 .f32) (a1 : Vec F S1024x77 .f32) (a2 : Vec F S1x768 .f32) (v0 : Vec F S1x1 .f32) (g : Fin 128) :
    Vec F S8x77 .f32 :=
  k0_pay1 (rows3 a0 g) a2 v0 (rows2 a1 g)

/-- What grid point `g` leaves in the second result's block: the second payload of the ids' block there. -/
def eidBlk (a4 : Vec F S1024x77 .i32) (g : Fin 128) : Vec F S8x77 .i32 :=
  k0_pay2 (F := F) (rows2 a4 g)

/-- The first result, whole: row `b` is row `b % 8` of block `b / 8`. -/
def tokVal (a0 : Vec F S1024x77x768 .f32) (a1 : Vec F S1024x77 .f32) (a2 : Vec F S1x768 .f32) (v0 : Vec F S1x1 .f32) :
    Vec F S1024x77 .f32 := fun i =>
  tokBlk a0 a1 a2 v0 ⟨(i 0).val / 8, by have h : (i 0).val < 1024 := (i 0).isLt; omega⟩
    (ix2 (⟨(i 0).val % 8, Nat.mod_lt _ (by decide)⟩ : Fin 8) (i 1 : Fin 77))

/-- The second result, whole. -/
def eidVal (a4 : Vec F S1024x77 .i32) : Vec F S1024x77 .i32 := fun i =>
  eidBlk (F := F) a4 ⟨(i 0).val / 8, by have h : (i 0).val < 1024 := (i 0).isLt; omega⟩
    (ix2 (⟨(i 0).val % 8, Nat.mod_lt _ (by decide)⟩ : Fin 8) (i 1 : Fin 77))

/-- Row `y 0` of block `g` is row `8 g + y 0` of the array: quotient and remainder by eight. -/
theorem blk_idx (g : Fin 128) (y : S8x77.Idx) (h : 8 * g.val + (y 0).val < 1024) :
    (⟨(8 * g.val + (y 0).val) / 8, by omega⟩ : Fin 128) = g
    ∧ (ix2 (⟨(8 * g.val + (y 0).val) % 8, Nat.mod_lt _ (by decide)⟩ : Fin 8) (y 1 : Fin 77) : S8x77.Idx) = y := by
  have hy0 : (y 0).val < 8 := (y 0).isLt
  refine ⟨Fin.ext (by show (8 * g.val + (y 0).val) / 8 = g.val; omega), ?_⟩
  funext a
  match a with
  | ⟨0, _⟩ => exact Fin.ext (by show (8 * g.val + (y 0).val) % 8 = (y 0).val; omega)
  | ⟨1, _⟩ => rfl

/-- The first result at row `8 g + y 0` is block `g`'s at `y`. -/
theorem tokVal_blk (a0 : Vec F S1024x77x768 .f32) (a1 : Vec F S1024x77 .f32) (a2 : Vec F S1x768 .f32) (v0 : Vec F S1x1 .f32)
    (g : Fin 128) (y : S8x77.Idx) (h : 8 * g.val + (y 0).val < 1024) :
    tokVal a0 a1 a2 v0 (ix2 (⟨8 * g.val + (y 0).val, h⟩ : Fin 1024) (y 1 : Fin 77)) = tokBlk a0 a1 a2 v0 g y := by
  obtain ⟨hg, hy⟩ := blk_idx g y h
  show tokBlk a0 a1 a2 v0 ⟨(8 * g.val + (y 0).val) / 8, _⟩ (ix2 (⟨(8 * g.val + (y 0).val) % 8, _⟩ : Fin 8) (y 1 : Fin 77)) = _
  rw [hg, hy]

/-- The second result at row `8 g + y 0` is block `g`'s at `y`. -/
theorem eidVal_blk (a4 : Vec F S1024x77 .i32) (g : Fin 128) (y : S8x77.Idx) (h : 8 * g.val + (y 0).val < 1024) :
    eidVal (F := F) a4 (ix2 (⟨8 * g.val + (y 0).val, h⟩ : Fin 1024) (y 1 : Fin 77)) = eidBlk (F := F) a4 g y := by
  obtain ⟨hg, hy⟩ := blk_idx g y h
  show eidBlk (F := F) a4 ⟨(8 * g.val + (y 0).val) / 8, _⟩ (ix2 (⟨(8 * g.val + (y 0).val) % 8, _⟩ : Fin 8) (y 1 : Fin 77)) = _
  rw [hg, hy]

/-- An index of the array is row `i 0 % 8` of block `i 0 / 8`. -/
theorem rows2_div_mod {e : EltTy} (a : Vec F S1024x77 e) (i : S1024x77.Idx) :
    rows2 a ⟨(i 0).val / 8, by have h : (i 0).val < 1024 := (i 0).isLt; omega⟩
      (ix2 (⟨(i 0).val % 8, Nat.mod_lt _ (by decide)⟩ : Fin 8) (i 1 : Fin 77)) = a i := by
  unfold rows2
  refine congrArg a ?_
  funext d
  match d with
  | ⟨0, _⟩ => exact Fin.ext (by show 8 * ((i 0).val / 8) + (i 0).val % 8 = (i 0).val; omega)
  | ⟨1, _⟩ => rfl

/-- The second result is, at every index, the id there or the constant the body's last select puts in its place. -/
theorem eidVal_range (a4 : Vec F S1024x77 .i32) (i : S1024x77.Idx) :
    eidVal (F := F) a4 i = a4 i ∨ eidVal (F := F) a4 i = 49408#32 := by
  unfold eidVal eidBlk k0_pay2
  rw [select_apply, rows2_div_mod]
  by_cases hc : (cmpi .eq
      (multiReductionI .maxsi [2] S8x77
        (select (andi (cmpi .eq (broadcastTo S8x77x77 (shapeCast S8x77x1 (rows2 a4 ⟨(i 0).val / 8, by have h : (i 0).val < 1024 := (i 0).isLt; omega⟩) shapeCasts_S8x77_S8x77x1) broadcasts_S8x77x1_S8x77x77)
            (broadcastTo S8x77x77 (shapeCast S8x1x77 (rows2 a4 ⟨(i 0).val / 8, by have h : (i 0).val < 1024 := (i 0).isLt; omega⟩) shapeCasts_S8x77_S8x1x77) broadcasts_S8x1x77_S8x77x77))
          (cmpi .sgt (iota .tc S8x77x77 32 [2] iota_S8x77x77_d2_w32) (iota .tc S8x77x77 32 [1] iota_S8x77x77_d1_w32)))
          (broadcast S8x77x77 1#32) (broadcast S8x77x77 0#32))
        2147483648#32 reduces_S8x77x77_S8x77 rfl)
      (broadcast S8x77 1#32)) (ix2 (⟨(i 0).val % 8, Nat.mod_lt _ (by decide)⟩ : Fin 8) (i 1 : Fin 77)) = 1#1
  · right; rw [hc, select_one]; rfl
  · left; rw [eq_zero_of_ne_one hc, select_zero]

end Cert.KernelIdeal.Pf

end
-- ==== Proof.Vals.lean ====
/-
  The values the kernel program's run passes along, as functions of the launch memory: the TensorCore region's two
  results, their padded forms the SparseCore call reads, and the final array — the scatter of the weights at (row, id)
  into an array that is zero off every row's ids, which is the scatter into the all-zero array.
-/
import proofs.«211129_g5394478924152_cont_9to1c4b_288_8_alg».proof.Proof.TileRes
import proofs.«211129_g5394478924152_cont_9to1c4b_288_8_alg».proof.Proof.TcValue
import proofs.«211129_g5394478924152_cont_9to1c4b_288_8_alg».proof.Proof.Hit

noncomputable section

namespace Cert.KernelIdeal.Pf

open Cert.KernelIdeal Idealize.ShloMosaic
open Idealize.ShloMosaic.SparseCore (T)

variable {F : FTy → Type} [FloatOps F]

/-- The bias `[1]` reshaped to `[1, 1]`. -/
def v0K (a3 : Vec F S1 .f32) : Vec F S1x1 .f32 := shapeCast S1x1 a3 Facts₀.shapeCasts_S1_S1x1

/-- The token weights `[1024, 77]` padded with 0 to 80 positions. -/
def tok80 (tok : Vec F S1024x77 .f32) : Vec F S1024x80 .f32 :=
  pad S1024x80 ![0, 0] ![0, 3] ![0, 0] tok (sitofp .f32 (constantI S_ 32 0#32) : Vec F S_ .f32) Facts₀.pads_S1024x77_S1024x80_000_030 Facts₀.h_S_

/-- The final array: the weights scattered at (row, id) into zeros. -/
def finalK (a4 : Vec F S1024x77 .i32) (tok : Vec F S1024x77 .f32) : Vec F S1024x49408 .f32 :=
  Host.scatter sdK (fun _ b => b) (fun _ => zeroF) (idxK a4) tok

/-- The scatter into an array that is zero off every row's padded deduplicated ids is the scatter into zeros. -/
theorem final_scatter {d : Dev nD} (a4 : Vec F S1024x77 .i32) (ha : ∀ j, (a4 j).toNat < 49408) (tok : Vec F S1024x77 .f32)
    (f : Buf (Elt F) (outLoc d)) (hz : ∀ w, ZeroOff (F := F) (d := d) w (eid80 (eidVal (F := F) a4)) f) :
    Host.scatter sdK (fun _ b => b) f (idxK a4) tok = finalK a4 tok := by
  unfold finalK
  refine scatter_bridge a4 ha tok f (fun _ => zeroF) fun p hp => ?_
  have hw : (p 0).val / 32 < 32 := by have : (p 0).val < 1024 := (p 0).isLt; omega
  refine hz ⟨(p 0).val / 32, hw⟩ p (mem_rowsOut.mpr ⟨by show 32 * ((p 0).val / 32) ≤ _; omega, by show _ < 32 * ((p 0).val / 32) + 32; omega⟩) fun j hj => ?_
  exact eid80_ne a4 (eidVal (F := F) a4) (eidVal_range a4) p hp j hj

/-- The padded ids are in range of the 49424-word buffer's index assumption. -/
theorem eid80_ok (a4 : Vec F S1024x77 .i32) (ha : ∀ j, (a4 j).toNat < 49408) (j : S1024x80.Idx) :
    (eid80 (eidVal (F := F) a4) j).toNat ≤ 49408 :=
  eid80_le a4 (eidVal (F := F) a4) ha (eidVal_range a4) j

end Cert.KernelIdeal.Pf

end
-- ==== Proof.HostVals.lean ====
/-
  What the host operations around the two calls compute, read off the lists.
-/
import proofs.«211129_g5394478924152_cont_9to1c4b_288_8_alg».proof.Proof.Segs
import proofs.«211129_g5394478924152_cont_9to1c4b_288_8_alg».proof.Proof.Vals

noncomputable section

namespace Cert.KernelIdeal.Pf

open Cert.KernelIdeal Idealize.ShloMosaic Idealize.ShloMosaic.TcCoe Idealize.SL.Sem Idealize.ShloMosaic.StableHlo

variable {F : FTy → Type} [FloatOps F]

/-- A TensorCore reference as a device buffer. -/
abbrev R (b : Ref sig .tc) : DevRef τ sig := Proc.devRef .tc b

theorem after1_v0 (V : Valuation τ sig (Elt F)) : after ops1 V (R main_v0) = v0K (V (R main_arg3)) := by
  after_results_simp <;> rfl

theorem after2_v2 (V : Valuation τ sig (Elt F)) : after ops2 V (R main_v2) = tok80 (V (R main_v1_0)) := by
  after_results_simp <;> rfl

theorem after2_v3 (V : Valuation τ sig (Elt F)) : after ops2 V (R main_v3) = eid80 (V (R main_v1_1)) := by
  after_results_simp <;> rfl

theorem after3_v21 (V : Valuation τ sig (Elt F)) :
    after ops3 V (R main_v21) = Host.scatter sdK (fun _ b => b) (V (R main_v4)) (idxK (V (R main_arg4))) (V (R main_v1_0)) := by
  after_results_simp <;> rfl

/-! ## What the stretches leave alone -/

theorem after2_main_arg0 (V : Valuation τ sig (Elt F)) : after ops2 V (R main_arg0) = V (R main_arg0) := by
  after_results_simp <;> rfl
theorem after2_main_arg1 (V : Valuation τ sig (Elt F)) : after ops2 V (R main_arg1) = V (R main_arg1) := by
  after_results_simp <;> rfl
theorem after2_main_arg2 (V : Valuation τ sig (Elt F)) : after ops2 V (R main_arg2) = V (R main_arg2) := by
  after_results_simp <;> rfl
theorem after2_main_arg3 (V : Valuation τ sig (Elt F)) : after ops2 V (R main_arg3) = V (R main_arg3) := by
  after_results_simp <;> rfl
theorem after2_main_arg4 (V : Valuation τ sig (Elt F)) : after ops2 V (R main_arg4) = V (R main_arg4) := by
  after_results_simp <;> rfl
theorem after2_main_v1_0 (V : Valuation τ sig (Elt F)) : after ops2 V (R main_v1_0) = V (R main_v1_0) := by
  after_results_simp <;> rfl
theorem after3_main_arg0 (V : Valuation τ sig (Elt F)) : after ops3 V (R main_arg0) = V (R main_arg0) := by
  after_results_simp <;> rfl
theorem after3_main_arg1 (V : Valuation τ sig (Elt F)) : after ops3 V (R main_arg1) = V (R main_arg1) := by
  after_results_simp <;> rfl
theorem after3_main_arg2 (V : Valuation τ sig (Elt F)) : after ops3 V (R main_arg2) = V (R main_arg2) := by
  after_results_simp <;> rfl
theorem after3_main_arg3 (V : Valuation τ sig (Elt F)) : after ops3 V (R main_arg3) = V (R main_arg3) := by
  after_results_simp <;> rfl
theorem after3_main_arg4 (V : Valuation τ sig (Elt F)) : after ops3 V (R main_arg4) = V (R main_arg4) := by
  after_results_simp <;> rfl
theorem after1_main_arg0 (V : Valuation τ sig (Elt F)) : after ops1 V (R main_arg0) = V (R main_arg0) := by
  after_results_simp <;> rfl
theorem after1_main_arg1 (V : Valuation τ sig (Elt F)) : after ops1 V (R main_arg1) = V (R main_arg1) := by
  after_results_simp <;> rfl
theorem after1_main_arg2 (V : Valuation τ sig (Elt F)) : after ops1 V (R main_arg2) = V (R main_arg2) := by
  after_results_simp <;> rfl
theorem after1_main_arg3 (V : Valuation τ sig (Elt F)) : after ops1 V (R main_arg3) = V (R main_arg3) := by
  after_results_simp <;> rfl
theorem after1_main_arg4 (V : Valuation τ sig (Elt F)) : after ops1 V (R main_arg4) = V (R main_arg4) := by
  after_results_simp <;> rfl
theorem after1_main_v1_0 (V : Valuation τ sig (Elt F)) : after ops1 V (R main_v1_0) = V (R main_v1_0) := by
  after_results_simp <;> rfl
theorem after1_main_v1_1 (V : Valuation τ sig (Elt F)) : after ops1 V (R main_v1_1) = V (R main_v1_1) := by
  after_results_simp <;> rfl

end Cert.KernelIdeal.Pf

end
-- ==== Proof.TcBody.lean ====
/-
  The TensorCore call's kernel body at a symbolic grid point, for the pipeline library: the body's triple on whole
  staging memrefs (five loads, two whole-block stores), the proof data of the call's pipeline — each operand's
  staging buffer at its block, each result's at its store's payload of the operand blocks — and the body obligation.
-/
import proofs.«211129_g5394478924152_cont_9to1c4b_288_8_alg».proof.Proof.Alg
import proofs.«211129_g5394478924152_cont_9to1c4b_288_8_alg».proof.Proof.Gen.KernelIdeal.Launch
import proofs.«211129_g5394478924152_cont_9to1c4b_288_8_alg».proof.Proof.Gen.KernelIdeal.Skeleton
import proofs.«211129_g5394478924152_cont_9to1c4b_288_8_alg».proof.Proof.Gen.KernelIdeal.Points
import proofs.«211129_g5394478924152_cont_9to1c4b_288_8_alg».proof.Proof.TcValue
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Pf

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MM F

/-! ## The call's arrays, and the windows' blocks -/

/-- The call's seven arrays as the region finds them: the five operands and, at anything, the two results. -/
structure TcArgs (F : FTy → Type) where
  a0 : Vec F S1024x77x768 .f32
  a1 : Vec F S1024x77 .f32
  a2 : Vec F S1x768 .f32
  v0 : Vec F S1x1 .f32
  a4 : Vec F S1024x77 .i32
  o5 : Vec F S1024x77 .f32
  o6 : Vec F S1024x77 .i32

/-- The arrays, window by window. -/
def TcArgs.A (x : TcArgs F) (c : Dev nD) : (w : Fin cfg0.W) → Buf (Elt F) ((cfg0.win w).arr.view.loc (c.tc : Thread nD τ)) := fun w =>
  match w with
  | ⟨0, _⟩ => x.a0
  | ⟨1, _⟩ => x.a1
  | ⟨2, _⟩ => x.a2
  | ⟨3, _⟩ => x.v0
  | ⟨4, _⟩ => x.a4
  | ⟨5, _⟩ => x.o5
  | ⟨6, _⟩ => x.o6

/-- Window `w`'s block at point `t`, read off its array as the region finds it. -/
def iblk (x : TcArgs F) (c : Dev nD) (w : Fin cfg0.W) (t : Fin cfg0.N) : ((cfg0.win w).xblock (cfg0.grid.coords t)).Idx → Elt F (cfg0.win w).elt :=
  ((cfg0.win w).blk t).view.read (Elt F) (x.A c w)

/-! ## The body's accesses, and what it leaves in each result's buffer -/

abbrev rc3 : Rect S8x77x768 := Rect.unit (s := S8x77x768) ![0, 0, 0] S8x77x768.size inb_S8x77x768_S8x77x768_0_0_0
abbrev rcW : Rect S1x768 := Rect.unit (s := S1x768) ![0, 0] S1x768.size inb_S1x768_S1x768_0_0
abbrev rcB : Rect S1x1 := Rect.unit (s := S1x1) ![0, 0] S1x1.size inb_S1x1_S1x1_0_0
abbrev rc2 : Rect S8x77 := Rect.unit (s := S8x77) ![0, 0] S8x77.size inb_S8x77_S8x77_0_0

/-- The first result's staging buffer after the body, from the operand blocks: its one store as a piece. -/
def out5 (x0 : Vec F S8x77x768 .f32) (x1 : Vec F S8x77 .f32) (x2 : Vec F S1x768 .f32) (x3 : Vec F S1x1 .f32) : Vec F S8x77 .f32 :=
  View.canon [⟨rc2, k0_pay1 (View.ld x0 rc3) (View.ld x2 rcW) (View.ld x3 rcB) (View.ld x1 rc2)⟩]

/-- The second result's staging buffer after the body, from the ids' block: its one store as a piece. -/
def out6 (x4 : Vec F S8x77 .i32) : Vec F S8x77 .i32 :=
  View.canon [⟨rc2, k0_pay2 (F := F) (View.ld x4 rc2)⟩]

/-- One whole-block store covers the block. -/
theorem cover2 {e : EltTy} (p0 : Vec F S8x77 e) (y : S8x77.Idx) :
    ∃ pc ∈ ([⟨rc2, p0⟩] : List (View.Piece (Elt F) S8x77 e)), y ∈ pc.1.set :=
  View.cover_of_tiled [⟨rc2, p0⟩] S8x77.size (by rfl) y

/-! ## The body's triple -/

set_option maxHeartbeats 4000000 in
/-- The kernel body on whole staging memrefs, the operands' at read contents and the results' at anything, runs to the
    continuation holding the operands' as they were and each result's at its store's payload. -/
theorem sound_kernel (c : Dev nD) (E : Set ℕ) (i : grid0.Coords)
    (arg1 : Memref sig .tc .vmem S8x77x768 .f32) (harg1 : arg1.IsWhole) (arg2 : Memref sig .tc .vmem S8x77 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S8x77 .i32) (harg5 : arg5.IsWhole) (arg6 : Memref sig .tc .vmem S8x77 .f32) (harg6 : arg6.IsWhole)
    (arg7 : Memref sig .tc .vmem S8x77 .i32) (harg7 : arg7.IsWhole)
    (x0 : Vec F S8x77x768 .f32) (x1 : Vec F S8x77 .f32) (x2 : Vec F S1x768 .f32) (x3 : Vec F S1x1 .f32) (x4 : Vec F S8x77 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3) ∗ owns (c : Thread nD τ) arg7 fullShare (out6 x4)) -∗ K ⟨⟩))
      ⊢ wp frame (wpE (defs₀ (F := F)) Variants.none c none) E
          (cc0__tok_tc_kernel i arg1 harg1 arg2 harg2 arg3 harg3 arg4 harg4 arg5 harg5 arg6 harg6 arg7 harg7) K := by
  simp only [cc0__tok_tc_kernel_eq_skeleton]; unfold cc0__tok_tc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  · iexists _; isplitr
    swap; · iexact H6
    ipureintro
    exact View.read_writes_eq_canon _ _ _ (cover2 _)

/-! ## The pipeline's proof data -/

/-- The proof data of the call's pipeline on core `c`: the arrays as the region finds them; after the body at point
    `t` each operand's buffer at its block and each result's at its store's payload of the operand blocks; no
    invariant of the body's own; full shares; the core owing `O` throughout, its recorded pairs within `B`. -/
def dats (x : TcArgs F) (O : CellTallies nD τ sig (HIx 1)) (B : Set (SemLoc sig × HIx 1)) (_ : Fin 1) (c : Dev nD) :
    Dat τ (Elt F) (HIx 1) ℕ UU ℕ cfg0 c where
  A := x.A c
  after w t := match w with
    | ⟨0, _⟩ => iblk x c 0 t
    | ⟨1, _⟩ => iblk x c 1 t
    | ⟨2, _⟩ => iblk x c 2 t
    | ⟨3, _⟩ => iblk x c 3 t
    | ⟨4, _⟩ => iblk x c 4 t
    | ⟨5, _⟩ => out5 (iblk x c 0 t) (iblk x c 1 t) (iblk x c 2 t) (iblk x c 3 t)
    | ⟨6, _⟩ => out6 (iblk x c 4 t)
  Φ _ := iprop(emp)
  q _ := fullShare
  owed _ := O
  recorded _ := B

variable (x : TcArgs F) (O : CellTallies nD τ sig (HIx 1)) (B : Set (SemLoc sig × HIx 1))

theorem A_eq (c : Dev nD) (w : Fin cfg0.W) : (dats x O B 0 c).A w = x.A c w := rfl

/-- What the body leaves, window by window. -/
theorem after0_0 (c : Dev nD) (t : Fin cfg0.N) : (dats x O B 0 c).after 0 t = iblk x c 0 t := by dsimp only [dats]
theorem after0_1 (c : Dev nD) (t : Fin cfg0.N) : (dats x O B 0 c).after 1 t = iblk x c 1 t := by dsimp only [dats]
theorem after0_2 (c : Dev nD) (t : Fin cfg0.N) : (dats x O B 0 c).after 2 t = iblk x c 2 t := by dsimp only [dats]
theorem after0_3 (c : Dev nD) (t : Fin cfg0.N) : (dats x O B 0 c).after 3 t = iblk x c 3 t := by dsimp only [dats]
theorem after0_4 (c : Dev nD) (t : Fin cfg0.N) : (dats x O B 0 c).after 4 t = iblk x c 4 t := by dsimp only [dats]
theorem after0_5 (c : Dev nD) (t : Fin cfg0.N) :
    (dats x O B 0 c).after 5 t = out5 (iblk x c 0 t) (iblk x c 1 t) (iblk x c 2 t) (iblk x c 3 t) := by dsimp only [dats]
theorem after0_6 (c : Dev nD) (t : Fin cfg0.N) : (dats x O B 0 c).after 6 t = out6 (iblk x c 4 t) := by dsimp only [dats]

/-- Each operand's current staging buffer holds its block at every point, fetched there or not. -/
theorem before0_0 (c : Dev nD) (t : Fin cfg0.N) (d) : (dats x O B 0 c).before 0 t d = iblk x c 0 t :=
  ((dats x O B 0 c).before_in_eq_fetched 0 rfl (fun _ => rfl) (fun _ _ _ => rfl) (fun t => by rw [after0_0]; unfold Dat.blockOf iblk; rfl) t d).trans
    (by unfold Dat.fetched Dat.blockOf iblk; rfl)
theorem before0_1 (c : Dev nD) (t : Fin cfg0.N) (d) : (dats x O B 0 c).before 1 t d = iblk x c 1 t :=
  ((dats x O B 0 c).before_in_eq_fetched 1 rfl (fun _ => rfl) (fun _ _ _ => rfl) (fun t => by rw [after0_1]; unfold Dat.blockOf iblk; rfl) t d).trans
    (by unfold Dat.fetched Dat.blockOf iblk; rfl)
theorem before0_2 (c : Dev nD) (t : Fin cfg0.N) (d) : (dats x O B 0 c).before 2 t d = iblk x c 2 t :=
  ((dats x O B 0 c).before_in_eq_fetched 2 rfl (fun _ => rfl) (fun _ _ _ => rfl) (fun t => by rw [after0_2]; unfold Dat.blockOf iblk; rfl) t d).trans
    (by unfold Dat.fetched Dat.blockOf iblk; rfl)
theorem before0_3 (c : Dev nD) (t : Fin cfg0.N) (d) : (dats x O B 0 c).before 3 t d = iblk x c 3 t :=
  ((dats x O B 0 c).before_in_eq_fetched 3 rfl (fun _ => rfl) (fun _ _ _ => rfl) (fun t => by rw [after0_3]; unfold Dat.blockOf iblk; rfl) t d).trans
    (by unfold Dat.fetched Dat.blockOf iblk; rfl)
theorem before0_4 (c : Dev nD) (t : Fin cfg0.N) (d) : (dats x O B 0 c).before 4 t d = iblk x c 4 t :=
  ((dats x O B 0 c).before_in_eq_fetched 4 rfl (fun _ => rfl) (fun _ _ _ => rfl) (fun t => by rw [after0_4]; unfold Dat.blockOf iblk; rfl) t d).trans
    (by unfold Dat.fetched Dat.blockOf iblk; rfl)

/-! ## The body obligation, at a generic point -/

/-- What the body is called with at point `t`, the windows one by one, -/
def bodyPre (c : Dev nD) (t : Fin cfg0.N) : sProp 𝕄 :=
  iprop((dats x O B 0 c).Φ t.castSucc ∗ (dats x O B 0 c).owesAt none t.castSucc
    ∗ (∃ d, owns (c : Thread nD τ) (st0_0 t) fullShare ((dats x O B 0 c).before 0 t d))
    ∗ (∃ d, owns (c : Thread nD τ) (st0_1 t) fullShare ((dats x O B 0 c).before 1 t d))
    ∗ (∃ d, owns (c : Thread nD τ) (st0_2 t) fullShare ((dats x O B 0 c).before 2 t d))
    ∗ (∃ d, owns (c : Thread nD τ) (st0_3 t) fullShare ((dats x O B 0 c).before 3 t d))
    ∗ (∃ d, owns (c : Thread nD τ) (st0_4 t) fullShare ((dats x O B 0 c).before 4 t d))
    ∗ (∃ d, owns (c : Thread nD τ) (st0_5 t) fullShare ((dats x O B 0 c).before 5 t d))
    ∗ (∃ d, owns (c : Thread nD τ) (st0_6 t) fullShare ((dats x O B 0 c).before 6 t d)))

/-- and what it returns. -/
def bodyPost (c : Dev nD) (t : Fin cfg0.N) : sProp 𝕄 :=
  iprop((dats x O B 0 c).Φ t.succ ∗ (dats x O B 0 c).owesAt none t.succ
    ∗ owns (c : Thread nD τ) (st0_0 t) fullShare ((dats x O B 0 c).after 0 t)
    ∗ owns (c : Thread nD τ) (st0_1 t) fullShare ((dats x O B 0 c).after 1 t)
    ∗ owns (c : Thread nD τ) (st0_2 t) fullShare ((dats x O B 0 c).after 2 t)
    ∗ owns (c : Thread nD τ) (st0_3 t) fullShare ((dats x O B 0 c).after 3 t)
    ∗ owns (c : Thread nD τ) (st0_4 t) fullShare ((dats x O B 0 c).after 4 t)
    ∗ owns (c : Thread nD τ) (st0_5 t) fullShare ((dats x O B 0 c).after 5 t)
    ∗ owns (c : Thread nD τ) (st0_6 t) fullShare ((dats x O B 0 c).after 6 t))

/-- The body at any point: the operands' memrefs hold their blocks, so `sound_kernel` applies; the core's `owes`
    passes through unread. -/
theorem sound_body (c : Dev nD) (t : Fin cfg0.N) :
    bodyPre x O B c t ⊢ wp frame (wpE (defs₀ (F := F)) Variants.none c none) Set.univ (bodyAt0 t) (fun _ => bodyPost x O B c t) := by
  unfold bodyPre bodyPost bodyAt0
  simp only [before0_0, before0_1, before0_2, before0_3, before0_4]
  rw [show (dats x O B 0 c).Φ t.succ = (dats x O B 0 c).Φ t.castSucc from rfl,
    show (dats x O B 0 c).owesAt none t.succ = (dats x O B 0 c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk x c 0 t) (iblk x c 1 t) (iblk x c 2 t) (iblk x c 3 t) (iblk x c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    BodyObligation (dats (F := F) x O B 0 c) (defs₀ (F := F)) Variants.none (none : HIx 1) Set.univ := fun t => by
  rw [bigSep_W0, bigSep_W0]
  exact sound_body x O B c t

end Cert.KernelIdeal.Pf

end
-- ==== Proof.TcRegion.lean ====
/-
  The TensorCore call inside the whole program: from the blocks to the arrays (each result after the region is one
  function of the operands, index by index), the region as the pipeline library's record, and the rule that runs the call
  on the TensorCore thread beside the SparseCore threads.
-/
import proofs.«211129_g5394478924152_cont_9to1c4b_288_8_alg».proof.Proof.Alg
import proofs.«211129_g5394478924152_cont_9to1c4b_288_8_alg».proof.Proof.Gen.KernelIdeal.Launch
import proofs.«211129_g5394478924152_cont_9to1c4b_288_8_alg».proof.Proof.Gen.KernelIdeal.Skeleton
import proofs.«211129_g5394478924152_cont_9to1c4b_288_8_alg».proof.Proof.Gen.KernelIdeal.Points
import proofs.«211129_g5394478924152_cont_9to1c4b_288_8_alg».proof.Proof.TcValue
import proofs.«211129_g5394478924152_cont_9to1c4b_288_8_alg».proof.Proof.TcBody
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Pf

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MM F

variable (x : TcArgs F) (O : CellTallies nD τ sig (HIx 1)) (B : Set (SemLoc sig × HIx 1))

/-! ## From the blocks to the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a block number. -/
abbrev gOf (t : Fin cfg0.N) : Fin 128 := Fin.cast N_0 t

/-- The printed index maps, decided over the grid: the row-blocked windows move with the point on the batch axis, the
    two whole operands stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first operand's block at point `t` is its batch rows `8 t … 8 t + 7`. -/
theorem iblk0 (c : Dev nD) (t : Fin cfg0.N) : iblk x c 0 t = rows3 x.a0 (gOf t) := by
  obtain ⟨e0, e1, e2, -⟩ := idx_facts t
  funext j
  show x.a0 (((cfg0.win 0).blk t).view.emb j) = x.a0 _
  refine congrArg x.a0 (funext fun a => Fin.ext ?_)
  match a with
  | ⟨0, _⟩ => show win0_0.index t (0 : Fin 3) * 8 + 1 * (j 0).val = 8 * t.val + (j 0).val; rw [e0]; omega
  | ⟨1, _⟩ => show win0_0.index t (1 : Fin 3) * 77 + 1 * (j 1).val = (j 1).val; rw [e1]; omega
  | ⟨2, _⟩ => show win0_0.index t (2 : Fin 3) * 768 + 1 * (j 2).val = (j 2).val; rw [e2]; omega

/-- The mask's block at point `t`. -/
theorem iblk1 (c : Dev nD) (t : Fin cfg0.N) : iblk x c 1 t = rows2 x.a1 (gOf t) := by
  obtain ⟨-, -, -, e0, e1, -⟩ := idx_facts t
  funext j
  show x.a1 (((cfg0.win 1).blk t).view.emb j) = x.a1 _
  refine congrArg x.a1 (funext fun a => Fin.ext ?_)
  match a with
  | ⟨0, _⟩ => show win0_1.index t (0 : Fin 2) * 8 + 1 * (j 0).val = 8 * t.val + (j 0).val; rw [e0]; omega
  | ⟨1, _⟩ => show win0_1.index t (1 : Fin 2) * 77 + 1 * (j 1).val = (j 1).val; rw [e1]; omega

/-- The weight row's block is the whole row. -/
theorem iblk2 (c : Dev nD) (t : Fin cfg0.N) : iblk x c 2 t = x.a2 := by
  obtain ⟨-, -, -, -, -, e0, e1, -⟩ := idx_facts t
  funext j
  show x.a2 (((cfg0.win 2).blk t).view.emb j) = x.a2 j
  refine congrArg x.a2 (funext fun a => Fin.ext ?_)
  match a with
  | ⟨0, _⟩ => show win0_2.index t (0 : Fin 2) * 1 + 1 * (j 0).val = (j 0).val; rw [e0]; omega
  | ⟨1, _⟩ => show win0_2.index t (1 : Fin 2) * 768 + 1 * (j 1).val = (j 1).val; rw [e1]; omega

/-- The bias's block is the bias. -/
theorem iblk3 (c : Dev nD) (t : Fin cfg0.N) : iblk x c 3 t = x.v0 := by
  obtain ⟨-, -, -, -, -, -, -, e0, e1, -⟩ := idx_facts t
  funext j
  show x.v0 (((cfg0.win 3).blk t).view.emb j) = x.v0 j
  refine congrArg x.v0 (funext fun a => Fin.ext ?_)
  match a with
  | ⟨0, _⟩ => show win0_3.index t (0 : Fin 2) * 1 + 1 * (j 0).val = (j 0).val; rw [e0]; omega
  | ⟨1, _⟩ => show win0_3.index t (1 : Fin 2) * 1 + 1 * (j 1).val = (j 1).val; rw [e1]; omega

/-- The ids' block at point `t`. -/
theorem iblk4 (c : Dev nD) (t : Fin cfg0.N) : iblk x c 4 t = rows2 x.a4 (gOf t) := by
  obtain ⟨-, -, -, -, -, -, -, -, -, e0, e1, -⟩ := idx_facts t
  funext j
  show x.a4 (((cfg0.win 4).blk t).view.emb j) = x.a4 _
  refine congrArg x.a4 (funext fun a => Fin.ext ?_)
  match a with
  | ⟨0, _⟩ => show win0_4.index t (0 : Fin 2) * 8 + 1 * (j 0).val = 8 * t.val + (j 0).val; rw [e0]; omega
  | ⟨1, _⟩ => show win0_4.index t (1 : Fin 2) * 77 + 1 * (j 1).val = (j 1).val; rw [e1]; omega

/-- An element of a result's block at point `t` sits in the array at row `8 t + y 0`. -/
theorem emb5 (t : Fin cfg0.N) (y : S8x77.Idx) (h : 8 * (gOf t).val + (y 0).val < 1024) :
    ((cfg0.win 5).blk t).view.emb y = ix2 (⟨8 * (gOf t).val + (y 0).val, h⟩ : Fin 1024) (y 1 : Fin 77) := by
  obtain ⟨-, -, -, -, -, -, -, -, -, -, -, e0, e1, -⟩ := idx_facts t
  funext a; apply Fin.ext
  match a with
  | ⟨0, _⟩ => show win0_5.index t (0 : Fin 2) * 8 + 1 * (y 0).val = 8 * t.val + (y 0).val; rw [e0]; omega
  | ⟨1, _⟩ => show win0_5.index t (1 : Fin 2) * 77 + 1 * (y 1).val = (y 1).val; rw [e1]; omega

theorem emb6 (t : Fin cfg0.N) (y : S8x77.Idx) (h : 8 * (gOf t).val + (y 0).val < 1024) :
    ((cfg0.win 6).blk t).view.emb y = ix2 (⟨8 * (gOf t).val + (y 0).val, h⟩ : Fin 1024) (y 1 : Fin 77) := by
  obtain ⟨-, -, -, -, -, -, -, -, -, -, -, -, -, e0, e1⟩ := idx_facts t
  funext a; apply Fin.ext
  match a with
  | ⟨0, _⟩ => show win0_6.index t (0 : Fin 2) * 8 + 1 * (y 0).val = 8 * t.val + (y 0).val; rw [e0]; omega
  | ⟨1, _⟩ => show win0_6.index t (1 : Fin 2) * 77 + 1 * (y 1).val = (y 1).val; rw [e1]; omega

/-- A result array read through point `t`'s block, at an element of the block. -/
theorem read_blk5 (G : Vec F S1024x77 .f32) (t : Fin cfg0.N) (y : S8x77.Idx) (h : 8 * (gOf t).val + (y 0).val < 1024) :
    ((cfg0.win 5).blk t).view.read (Elt F) G y = G (ix2 (⟨8 * (gOf t).val + (y 0).val, h⟩ : Fin 1024) (y 1 : Fin 77)) := by
  show G (((cfg0.win 5).blk t).view.emb y) = _
  rw [emb5 t y h]
  rfl

theorem read_blk6 (G : Vec F S1024x77 .i32) (t : Fin cfg0.N) (y : S8x77.Idx) (h : 8 * (gOf t).val + (y 0).val < 1024) :
    ((cfg0.win 6).blk t).view.read (Elt F) G y = G (ix2 (⟨8 * (gOf t).val + (y 0).val, h⟩ : Fin 1024) (y 1 : Fin 77)) := by
  show G (((cfg0.win 6).blk t).view.emb y) = _
  rw [emb6 t y h]
  rfl

/-- What point `t` writes back of the first result is block `t` of `tokVal` of the operands. -/
theorem flushed5_eq (c : Dev nD) (t : Fin cfg0.N) :
    (dats x O B 0 c).flushed 5 t = ((cfg0.win 5).blk t).view.read (Elt F) (tokVal x.a0 x.a1 x.a2 x.v0) := by
  show (cfg0.win 5).cut (grid0.coords t) ((dats x O B 0 c).after 5 t) = _
  rw [after0_5]
  unfold out5
  rw [View.canon_unit_zero hz2]
  simp only [View.ld_unit_zero (S := S8x77x768) hz3, View.ld_unit_zero (S := S8x77) hz2, View.ld_unit_zero (S := S1x768) hz2,
    View.ld_unit_zero (S := S1x1) hz2]
  rw [iblk0, iblk1, iblk2, iblk3]
  generalize hP : k0_pay1 (rows3 x.a0 (gOf t)) x.a2 x.v0 (rows2 x.a1 (gOf t)) = P
  refine funext fun (y : S8x77.Idx) => ?_
  have hy0 : (y 0).val < 8 := (y 0).isLt
  have hg : (gOf t).val < 128 := (gOf t).isLt
  have e1 : P y = tokBlk x.a0 x.a1 x.a2 x.v0 (gOf t) y := by rw [← hP]; rfl
  have e2 := (read_blk5 (tokVal x.a0 x.a1 x.a2 x.v0) t y (by omega)).trans (tokVal_blk x.a0 x.a1 x.a2 x.v0 (gOf t) y (by omega))
  exact e1.trans e2.symm

/-- What point `t` writes back of the second result is block `t` of `eidVal` of the ids. -/
theorem flushed6_eq (c : Dev nD) (t : Fin cfg0.N) :
    (dats x O B 0 c).flushed 6 t = ((cfg0.win 6).blk t).view.read (Elt F) (eidVal (F := F) x.a4) := by
  show (cfg0.win 6).cut (grid0.coords t) ((dats x O B 0 c).after 6 t) = _
  rw [after0_6]
  unfold out6
  rw [View.canon_unit_zero hz2]
  simp only [View.ld_unit_zero (S := S8x77) hz2]
  rw [iblk4]
  generalize hP : k0_pay2 (F := F) (rows2 x.a4 (gOf t)) = P
  refine funext fun (y : S8x77.Idx) => ?_
  have hy0 : (y 0).val < 8 := (y 0).isLt
  have hg : (gOf t).val < 128 := (gOf t).isLt
  have e1 : P y = eidBlk (F := F) x.a4 (gOf t) y := by rw [← hP]; rfl
  have e2 := (read_blk6 (eidVal (F := F) x.a4) t y (by omega)).trans (eidVal_blk (F := F) x.a4 (gOf t) y (by omega))
  exact e1.trans e2.symm

/-- An index of a result array is in point `t`'s block iff each coordinate is in the block's range on its axis. -/
theorem mem_blk5 (t : Fin cfg0.N) (i : S1024x77.Idx) :
    i ∈ ((cfg0.win 5).blk t).view.set ↔ ∀ a : Fin 2, win0_5.index t a * S8x77.size a ≤ (i a).val ∧ (i a).val < win0_5.index t a * S8x77.size a + S8x77.size a := by
  show i ∈ ((View.whole main_v1_0).slice (win0_5.rect t)).set ↔ _
  rw [View.set_slice_whole, Rect.mem_set_unit]
  exact Iff.rfl

theorem mem_blk6 (t : Fin cfg0.N) (i : S1024x77.Idx) :
    i ∈ ((cfg0.win 6).blk t).view.set ↔ ∀ a : Fin 2, win0_6.index t a * S8x77.size a ≤ (i a).val ∧ (i a).val < win0_6.index t a * S8x77.size a + S8x77.size a := by
  show i ∈ ((View.whole main_v1_1).slice (win0_6.rect t)).set ↔ _
  rw [View.set_slice_whole, Rect.mem_set_unit]
  exact Iff.rfl

/-- Every row of a result is in the block of the point that is its number over eight. -/
theorem cover5 (i : S1024x77.Idx) : ∃ t : Fin cfg0.N, (cfg0.win 5).flush t = true ∧ i ∈ ((cfg0.win 5).blk t).view.set := by
  have hi0 : (i 0).val < 1024 := (i 0).isLt
  have hi1 : (i 1).val < 77 := (i 1).isLt
  let t : Fin cfg0.N := Fin.cast N_0.symm ⟨(i 0).val / 8, by omega⟩
  have ht : t.val = (i 0).val / 8 := rfl
  obtain ⟨-, -, -, -, -, -, -, -, -, -, -, e0, e1, -⟩ := idx_facts t
  refine ⟨t, flush0_5 t, ?_⟩
  rw [mem_blk5]
  intro a
  match a with
  | ⟨0, _⟩ => show win0_5.index t (0 : Fin 2) * 8 ≤ (i 0).val ∧ (i 0).val < win0_5.index t (0 : Fin 2) * 8 + 8; rw [e0]; omega
  | ⟨1, _⟩ => show win0_5.index t (1 : Fin 2) * 77 ≤ (i 1).val ∧ (i 1).val < win0_5.index t (1 : Fin 2) * 77 + 77; rw [e1]; omega

theorem cover6 (i : S1024x77.Idx) : ∃ t : Fin cfg0.N, (cfg0.win 6).flush t = true ∧ i ∈ ((cfg0.win 6).blk t).view.set := by
  have hi0 : (i 0).val < 1024 := (i 0).isLt
  have hi1 : (i 1).val < 77 := (i 1).isLt
  let t : Fin cfg0.N := Fin.cast N_0.symm ⟨(i 0).val / 8, by omega⟩
  have ht : t.val = (i 0).val / 8 := rfl
  obtain ⟨-, -, -, -, -, -, -, -, -, -, -, -, -, e0, e1⟩ := idx_facts t
  refine ⟨t, flush0_6 t, ?_⟩
  rw [mem_blk6]
  intro a
  match a with
  | ⟨0, _⟩ => show win0_6.index t (0 : Fin 2) * 8 ≤ (i 0).val ∧ (i 0).val < win0_6.index t (0 : Fin 2) * 8 + 8; rw [e0]; omega
  | ⟨1, _⟩ => show win0_6.index t (1 : Fin 2) * 77 ≤ (i 1).val ∧ (i 1).val < win0_6.index t (1 : Fin 2) * 77 + 77; rw [e1]; omega

/-- The first result after the region. -/
theorem final5 (c : Dev nD) : (dats x O B 0 c).arrAt 5 cfg0.N = tokVal x.a0 x.a1 x.a2 x.v0 :=
  (dats x O B 0 c).arrAt_eq_of_cover 5 (tokVal x.a0 x.a1 x.a2 x.v0) (fun t _ => flushed5_eq x O B c t) cover5

/-- The second result after the region. -/
theorem final6 (c : Dev nD) : (dats x O B 0 c).arrAt 6 cfg0.N = eidVal (F := F) x.a4 :=
  (dats x O B 0 c).arrAt_eq_of_cover 6 (eidVal (F := F) x.a4) (fun t _ => flushed6_eq x O B c t) cover6

/-! ## The region -/

/-- No prefetched table. -/
abbrev adm : (p : Fin 1) → (pcfgs (F := F) p).Adm := fun p => (cfgs p).toPCfg_adm

/-- The pairs the TensorCore of `c` may have recorded: those at level at most `b`. -/
def recB (c : Dev nD) (b : ℕ) : Set (SemLoc sig × HIx 1) := {p | (sc (F := F)).lev ((c.tc : Thread nD τ), p.1) p.2 ≤ b}

/-- The call's seven arrays held whole on core `c`. -/
def arrs7 (c : Dev nD) (x : TcArgs F) : sProp 𝕄 :=
  iprop((((c.tc : Thread nD τ).loc main_arg0) ↦{fullShare} x.a0) ∗ (((c.tc : Thread nD τ).loc main_arg1) ↦{fullShare} x.a1)
    ∗ (((c.tc : Thread nD τ).loc main_arg2) ↦{fullShare} x.a2) ∗ (((c.tc : Thread nD τ).loc main_v0) ↦{fullShare} x.v0)
    ∗ (((c.tc : Thread nD τ).loc main_arg4) ↦{fullShare} x.a4) ∗ (((c.tc : Thread nD τ).loc main_v1_0) ↦{fullShare} x.o5)
    ∗ (((c.tc : Thread nD τ).loc main_v1_1) ↦{fullShare} x.o6))

/-- The arrays after the call: the operands as they were, the results at their values. -/
def TcArgs.done (x : TcArgs F) : TcArgs F :=
  { x with o5 := tokVal x.a0 x.a1 x.a2 x.v0, o6 := eidVal (F := F) x.a4 }

/-- What the core owes through the region: `O`, its recorded pairs at level at most `b`. -/
def owesB (c : Dev nD) (O : CellTallies nD τ sig (HIx 1)) (b : ℕ) : sProp 𝕄 :=
  iprop(∃ W, ⌜(sc (F := F)).WBelow (c.tc : Thread nD τ) W b⌝ ∗ owes (c.tc : Thread nD τ) O W)

/-- The pipeline's arrays at contents `G` are the seven arrays. -/
theorem arrays_eq7 (c : Dev nD) (b : ℕ) (G : (w : Fin cfg0.W) → Buf (Elt F) ((cfg0.win w).arr.view.loc (c.tc : Thread nD τ))) :
    ((dats x O (recB (F := F) c b) 0 c).arrays G : sProp 𝕄)
      = arrs7 c ⟨G 0, G 1, G 2, G 3, G 4, G 5, G 6⟩ := by
  rw [Pipeline.arrays_eq cfgs (fun p c => dats x O (recB (F := F) c b) p c) 0 c launch0.arr_whole
    ((dats x O (recB (F := F) c b) 0 c).share_full fun _ => rfl) G, bigSep_W0]
  rfl

set_option backward.isDefEq.respectTransparency.types false in
/-- THE REGION: the launch facts' layout, no semaphore of the kernel's own, the body obligation, the wait evidence at
    index `none` below everything the core owes; entered from the seven arrays and the core's `owes`, left with the
    results at their values. -/
def reg (hO : ∀ g, O g none = 0) (b : ℕ) (lv : GSem nD τ sig → HIx 1 → ℕ) (hlv : (sc (F := F)).Refines lv) :
    Pipeline.RegionSeg (pcfgs (F := F)) adm (fun p c => dats x O (recB (F := F) c b) p c) (none : HIx 1) defs₀ Variants.none
      (sc (F := F)).L lv 0 where
  win := launch0.win.to₀
  block_pos := launch0.block_pos
  stage_whole := launch0.stage_whole
  K := PEmpty
  osem := fun k => k.elim
  ho := Pipeline.OwnSemFacts.none _
  hbody c := (body_obligation x O (recB (F := F) c b) c).loose
  hwaits c := Pipeline.cellsWaits_intro cfgs (fun p c => dats x O (recB (F := F) c b) p c) (none : HIx 1) 0 c
    fun w s t => (sc (F := F)).mayWait_none _ hO lv hlv
  pre c := iprop(arrs7 c x ∗ owesB (F := F) c O b)
  post c := iprop(arrs7 c x.done ∗ owesB (F := F) c O b)
  X _ := iprop(emp)
  Y _ := iprop(emp)
  Z _ := iprop(emp)
  hentry c := by
    rw [arrays_eq7]
    unfold owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    iintro ⟨-, -, -⟩
    iempintro
  hout c := by
    show (iprop(emp) : sProp 𝕄) ⊢ iprop(emp ∗ Pipeline.ownSems0 (fun k : PEmpty => k.elim) c ∗ Pipeline.scopedRest spec0 c)
    rw [Pipeline.ownSems0_none, scopedRest0_eq]
    iintro H
    isplitl [H]; · iexact H
    isplitr <;> iempintro
  hexit c := by
    rw [arrays_eq7]
    iintro ⟨Ha, HO, -, -⟩
    imodintro
    isplitl [Ha]
    · rw [show ((dats x O (recB (F := F) c b) 0 c).arrAt 0 cfg0.N) = x.a0 from (dats x O (recB (F := F) c b) 0 c).arrAt_in 0 rfl _,
        show ((dats x O (recB (F := F) c b) 0 c).arrAt 1 cfg0.N) = x.a1 from (dats x O (recB (F := F) c b) 0 c).arrAt_in 1 rfl _,
        show ((dats x O (recB (F := F) c b) 0 c).arrAt 2 cfg0.N) = x.a2 from (dats x O (recB (F := F) c b) 0 c).arrAt_in 2 rfl _,
        show ((dats x O (recB (F := F) c b) 0 c).arrAt 3 cfg0.N) = x.v0 from (dats x O (recB (F := F) c b) 0 c).arrAt_in 3 rfl _,
        show ((dats x O (recB (F := F) c b) 0 c).arrAt 4 cfg0.N) = x.a4 from (dats x O (recB (F := F) c b) 0 c).arrAt_in 4 rfl _,
        final5, final6]
      iexact Ha
    · unfold Pipeline.Dat.owesAt Pipeline.owesWithin owesB
      icases HO with ⟨%W, %hW, HO⟩
      iexists W; isplitr; swap; (· iexact HO)
      ipureintro
      intro p hp
      rcases hW hp with h | ⟨w, s, rfl⟩
      · exact h
      · exact Nat.zero_le _

/-! ## The rule -/

set_option backward.isDefEq.respectTransparency.types false in
/-- THE CALL on the TensorCore thread of the whole program: from the region boundary, the seven arrays, the core's
    `owes`, the level facts and the pipeline's funded ghost state, the call runs to the boundary, the operands as they
    were, the results at `tokVal` / `eidVal` of the operands, and the core's `owes` unchanged, for the continuation. -/
theorem wp_tc_region (d : Dev nD) (hO : ∀ g, O g none = 0) (b : ℕ) (lv : GSem nD τ sig → HIx 1 → ℕ) (hlv : (sc (F := F)).Refines lv)
    {α : Type} (k : PUnit → Prog (TpuEff nD τ sig (Elt F) (SparseCore.Sig (Pipeline.Sig Λ₀ (Fin 1) fun p => (pcfgs (F := F) p).Adm) 1) .tc) α)
    (Q : α → sProp 𝕄) :
    iprop(boundary (d.tc : Thread nD τ) ∗ arrs7 d x ∗ owesB (F := F) d O b ∗ levAts (sc (F := F)).L lv
        ∗ Pipeline.cellsGhost cfgs (EP (F := F)) 0 d ∗ Pipeline.toksInit cfgs (EP (F := F)) 0 d)
      ⊢ iprop((iprop(boundary (d.tc : Thread nD τ) ∗ arrs7 d x.done ∗ owesB (F := F) d O b)
            -∗ wp frame (wpE ((sc (F := F)).defs (Pipeline.defs pcfgs defs₀)) Variants.none.lift (d.tc : Thread nD τ) none) Set.univ (k ⟨⟩) Q)
          -∗ wp frame (wpE ((sc (F := F)).defs (Pipeline.defs pcfgs defs₀)) Variants.none.lift (d.tc : Thread nD τ) none) Set.univ
              (Prog.lift (.customCall (SparseCore.inner (Pipeline.entry 0)) ()) >>= k) Q) := by
  have hreg := Pipeline.RegionSeg.wp (pcfgs (F := F)) adm (fun p c => dats x O (recB (F := F) c b) p c) (none : HIx 1) cellOf_inj EP defs₀
    Variants.none (sc (F := F)).L lv (reg x O hO b lv hlv) d none (by intro u hu; cases hu) (fun u => .ret u)
    (fun a => wp frame (wpE ((sc (F := F)).defs (Pipeline.defs pcfgs defs₀)) Variants.none.lift (d.tc : Thread nD τ) none) Set.univ (k a) Q)
  rw [show (reg x O hO b lv hlv).post d = iprop(arrs7 d x.done ∗ owesB (F := F) d O b) from rfl,
    show (reg x O hO b lv hlv).pre d = iprop(arrs7 d x ∗ owesB (F := F) d O b) from rfl] at hreg
  have hlift := (sc (F := F)).wp_liftProg (nD := nD) (Val := Elt F) (Name := ℕ) (U := UU) (Pipeline.defs pcfgs defs₀) Variants.none.lift
    (d.tc : Thread nD τ) Set.univ none (.op (.customCall (Pipeline.entry 0) ()) fun u => .ret u)
    (fun a => wp frame (wpE ((sc (F := F)).defs (Pipeline.defs pcfgs defs₀)) Variants.none.lift (d.tc : Thread nD τ) none) Set.univ (k a) Q)
  iintro ⟨Hb, Ha, HO, #Hlev, Hg, Ht⟩ Hk
  rw [wp_bind]
  iapply hlift
  iapply hreg
  isplitl [Hk]
  · iintro ⟨Hb, Ha, HO⟩
    rw [wp_ret]
    imodintro
    iapply Hk
    isplitl [Hb]; · iexact Hb
    isplitl [Ha] <;> iassumption
  isplitl [Hb]; · iexact Hb
  isplitl [Ha HO]
  · isplitl [Ha] <;> iassumption
  isplitr; · iexact Hlev
  isplitl [Hg] <;> iassumption

end Cert.KernelIdeal.Pf

end
-- ==== Proof.MainTail.lean ====
/-
  @main on the TensorCore from after the TensorCore region to the end: the pads, the SparseCore call (the arrays split into
  the workers' rows and rejoined), the index array and the final scatter; what is left is the arguments at their launch
  contents and the result at the scatter of the weights into zeros.
-/
import proofs.«211129_g5394478924152_cont_9to1c4b_288_8_alg».proof.Proof.Main
import proofs.«211129_g5394478924152_cont_9to1c4b_288_8_alg».proof.Proof.Call
import proofs.«211129_g5394478924152_cont_9to1c4b_288_8_alg».proof.Proof.HostVals
import Idealize.ShloMosaic.Lib.Pipeline.Frame
import proofs.«211129_g5394478924152_cont_9to1c4b_288_8_alg».proof.Proof.TcRegion

noncomputable section

namespace Cert.KernelIdeal.Pf

open Cert.KernelIdeal

open Idealize.ShloMosaic
open Idealize.ShloMosaic.SparseCore (S V)
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq seq after tcRefs)

variable {F : FTy → Type} [FloatOps F]

/-! ## The launch memory's arrays and the values computed from them -/

section Vals
variable (m : (ℓ : Loc nD τ sig) → Buf (Elt F) ℓ)

abbrev a0K (d : Dev nD) : Vec F S1024x77x768 .f32 := m ((d.tc : Thread nD τ).loc main_arg0)
abbrev a1K (d : Dev nD) : Vec F S1024x77 .f32 := m ((d.tc : Thread nD τ).loc main_arg1)
abbrev a2K (d : Dev nD) : Vec F S1x768 .f32 := m ((d.tc : Thread nD τ).loc main_arg2)
abbrev a3K (d : Dev nD) : Vec F S1 .f32 := m ((d.tc : Thread nD τ).loc main_arg3)
abbrev a4K (d : Dev nD) : Vec F S1024x77 .i32 := m ((d.tc : Thread nD τ).loc main_arg4)
/-- The token weights the TensorCore region computes. -/
def tokK (d : Dev nD) : Vec F S1024x77 .f32 := tokVal (a0K m d) (a1K m d) (a2K m d) (v0K (a3K m d))
/-- The deduplicated ids it computes. -/
def eidK (d : Dev nD) : Vec F S1024x77 .i32 := eidVal (a4K m d)
def T80K (d : Dev nD) : Buf (Elt F) (tokLoc d) := tok80 (tokK m d)
def E80K (d : Dev nD) : Buf (Elt F) (eidLoc d) := eid80 (eidK m d)
/-- The ids are in range of the vocabulary. -/
def PreOK : Prop := ∀ d j, (a4K m d j).toNat < 49408
abbrev PK : (K (F := F)).Pay (nD := nD) (Val := Elt F) (Name := ℕ) (U := UU) := P (T80K m) (E80K m)

/-- What @main leaves the claim. -/
def FIN (d : Dev nD) : sProp (MM F) :=
  iprop(((d.tc : Thread nD τ).loc main_v21 ↦{fullShare} (finalK (a4K m d) (tokK m d) : Buf (Elt F) ((d.tc : Thread nD τ).loc main_v21)))
    ∗ ((d.tc : Thread nD τ).loc main_arg0 ↦{fullShare} m ((d.tc : Thread nD τ).loc main_arg0)) ∗ ((d.tc : Thread nD τ).loc main_arg1 ↦{fullShare} m ((d.tc : Thread nD τ).loc main_arg1))
    ∗ ((d.tc : Thread nD τ).loc main_arg2 ↦{fullShare} m ((d.tc : Thread nD τ).loc main_arg2)) ∗ ((d.tc : Thread nD τ).loc main_arg3 ↦{fullShare} m ((d.tc : Thread nD τ).loc main_arg3))
    ∗ ((d.tc : Thread nD τ).loc main_arg4 ↦{fullShare} m ((d.tc : Thread nD τ).loc main_arg4)))

end Vals

/-! ## The host stretches inside the unscoped buffers -/

abbrev SU : Finset (DevRef τ sig) := Pipeline.ucRefs τ sig

theorem ops1_sub : ∀ op ∈ (ops1 : List (HloOp τ sig (Elt F))), op.bufs ⊆ SU := fun op h =>
  Pipeline.sub_ucRefs op ((List.forall_iff_forall_mem.1 (show (ops1 : List (HloOp τ sig (Elt F))).Forall (fun op => op.bufs ⊆ tcRefs τ sig) from
    StableHlo.reshape_bufs_sub ..)) op h)
theorem ops2_sub : ∀ op ∈ (ops2 : List (HloOp τ sig (Elt F))), op.bufs ⊆ SU := fun op h =>
  Pipeline.sub_ucRefs op ((List.forall_iff_forall_mem.1 (show (ops2 : List (HloOp τ sig (Elt F))).Forall (fun op => op.bufs ⊆ tcRefs τ sig) from
    ⟨StableHlo.nullary_bufs_sub .., StableHlo.unary_bufs_sub .., StableHlo.binary_bufs_sub .., StableHlo.nullary_bufs_sub .., StableHlo.binary_bufs_sub ..⟩)) op h)
theorem ops3_sub : ∀ op ∈ (ops3 : List (HloOp τ sig (Elt F))), op.bufs ⊆ SU := fun op h =>
  Pipeline.sub_ucRefs op ((List.forall_iff_forall_mem.1 (show (ops3 : List (HloOp τ sig (Elt F))).Forall (fun op => op.bufs ⊆ tcRefs τ sig) from
    ⟨StableHlo.nullary_bufs_sub .., StableHlo.unary_bufs_sub .., StableHlo.unary_bufs_sub .., StableHlo.nullary_bufs_sub .., StableHlo.unary_bufs_sub ..,
      StableHlo.binary_bufs_sub .., StableHlo.nullary_bufs_sub .., StableHlo.unary_bufs_sub .., StableHlo.binary_bufs_sub .., StableHlo.ternary_bufs_sub ..,
      StableHlo.nullary_bufs_sub .., StableHlo.unary_bufs_sub .., StableHlo.binary_bufs_sub .., StableHlo.nullary_bufs_sub .., StableHlo.unary_bufs_sub ..,
      StableHlo.binary_bufs_sub .., StableHlo.ternary_bufs_sub .., StableHlo.unary_bufs_sub .., StableHlo.unary_bufs_sub .., StableHlo.binary_bufs_sub ..,
      StableHlo.ternary_bufs_sub ..⟩)) op h)
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-! ## The arrays the calls take, out of the unscoped buffers and back -/

abbrev T3 : Finset (DevRef τ sig) := {R main_v2, R main_v3, R main_v4}
abbrev T6 : Finset (DevRef τ sig) := {R main_v21, R main_arg0, R main_arg1, R main_arg2, R main_arg3, R main_arg4}
abbrev T7 : Finset (DevRef τ sig) := {R main_arg0, R main_arg1, R main_arg2, R main_v0, R main_arg4, R main_v1_0, R main_v1_1}
theorem T3_sub : T3 ⊆ SU := by decide
theorem T6_sub : T6 ⊆ SU := by decide
theorem T7_sub : T7 ⊆ SU := by decide

omit [FloatOps F] in
theorem held_T3 (d : Dev nD) (W : Valuation τ sig (Elt F)) :
    (held (d.tc : Thread nD τ) T3 W : sProp (MM F))
      = iprop((tokLoc d ↦{fullShare} W (R main_v2)) ∗ (eidLoc d ↦{fullShare} W (R main_v3)) ∗ (outLoc d ↦{fullShare} W (R main_v4))) := by
  unfold held T3
  rw [SparseCore.bigSep_insert' (by decide), SparseCore.bigSep_insert' (by decide), bigSep_singleton]

omit [FloatOps F] in
theorem held_T6 (d : Dev nD) (W : Valuation τ sig (Elt F)) :
    (held (d.tc : Thread nD τ) T6 W : sProp (MM F))
      = iprop(((d.tc : Thread nD τ).loc main_v21 ↦{fullShare} W (R main_v21)) ∗ ((d.tc : Thread nD τ).loc main_arg0 ↦{fullShare} W (R main_arg0))
        ∗ ((d.tc : Thread nD τ).loc main_arg1 ↦{fullShare} W (R main_arg1)) ∗ ((d.tc : Thread nD τ).loc main_arg2 ↦{fullShare} W (R main_arg2))
        ∗ ((d.tc : Thread nD τ).loc main_arg3 ↦{fullShare} W (R main_arg3)) ∗ ((d.tc : Thread nD τ).loc main_arg4 ↦{fullShare} W (R main_arg4))) := by
  unfold held T6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem held_T7 (d : Dev nD) (W : Valuation τ sig (Elt F)) :
    (held (d.tc : Thread nD τ) T7 W : sProp (MM F))
      = arrs7 d ⟨W (R main_arg0), W (R main_arg1), W (R main_arg2), W (R main_v0), W (R main_arg4), W (R main_v1_0), W (R main_v1_1)⟩ := by
  unfold held T7 arrs7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The SparseCore call's three arrays back into the unscoped buffers, the output at what came back. -/
theorem held_rejoin3 (d : Dev nD) (W : Valuation τ sig (Elt F)) (f : Buf (Elt F) (outLoc d)) :
    iprop((tokLoc d ↦{fullShare} W (R main_v2)) ∗ (eidLoc d ↦{fullShare} W (R main_v3)) ∗ (outLoc d ↦{fullShare} f)
        ∗ held (d.tc : Thread nD τ) (SU \ T3) W)
      ⊢ (held (d.tc : Thread nD τ) SU (Function.update W (R main_v4) f) : sProp (MM F)) := by
  rw [held_sub_split (d.tc : Thread nD τ) T3_sub (Function.update W (R main_v4) f), held_T3,
    Function.update_of_ne (show R main_v2 ≠ R main_v4 by decide), Function.update_of_ne (show R main_v3 ≠ R main_v4 by decide), Function.update_self,
    held_congr (d.tc : Thread nD τ) (S := SU \ T3) (V := Function.update W (R main_v4) f) (V' := W) fun b hb =>
      Function.update_of_ne (fun e : b = R main_v4 => (Finset.mem_sdiff.mp hb).2 (by rw [e]; decide)) _ _]
  iintro ⟨Ht, He, Ho, Hr⟩
  isplitl [Ht He Ho]
  · isplitl [Ht]; · iexact Ht
    isplitl [He]; · iexact He
    iexact Ho
  iexact Hr

/-- The valuation after the TensorCore region: the two results at their values. -/
def Vreg (W : Valuation τ sig (Elt F)) : Valuation τ sig (Elt F) :=
  Function.update (Function.update W (R main_v1_0) (tokVal (W (R main_arg0)) (W (R main_arg1)) (W (R main_arg2)) (W (R main_v0)) : (R main_v1_0).ty.Contents (Elt F)))
    (R main_v1_1) (eidVal (F := F) (W (R main_arg4)) : (R main_v1_1).ty.Contents (Elt F))

/-- The region's seven arrays back into the unscoped buffers. -/
theorem held_rejoin7 (d : Dev nD) (W : Valuation τ sig (Elt F)) :
    iprop(arrs7 d (TcArgs.done ⟨W (R main_arg0), W (R main_arg1), W (R main_arg2), W (R main_v0), W (R main_arg4), W (R main_v1_0), W (R main_v1_1)⟩)
        ∗ held (d.tc : Thread nD τ) (SU \ T7) W)
      ⊢ (held (d.tc : Thread nD τ) SU (Vreg W) : sProp (MM F)) := by
  rw [held_sub_split (d.tc : Thread nD τ) T7_sub (Vreg W), held_T7,
    held_congr (d.tc : Thread nD τ) (S := SU \ T7) (V := Vreg W) (V' := W) fun b hb => by
      unfold Vreg
      rw [Function.update_of_ne (fun e : b = R main_v1_1 => (Finset.mem_sdiff.mp hb).2 (by rw [e]; decide)),
        Function.update_of_ne (fun e : b = R main_v1_0 => (Finset.mem_sdiff.mp hb).2 (by rw [e]; decide))]]
  have e : (⟨Vreg W (R main_arg0), Vreg W (R main_arg1), Vreg W (R main_arg2), Vreg W (R main_v0), Vreg W (R main_arg4), Vreg W (R main_v1_0), Vreg W (R main_v1_1)⟩ : TcArgs F)
      = TcArgs.done ⟨W (R main_arg0), W (R main_arg1), W (R main_arg2), W (R main_v0), W (R main_arg4), W (R main_v1_0), W (R main_v1_1)⟩ := by
    unfold Vreg TcArgs.done
    simp only [Function.update_self, Function.update_of_ne (show R main_arg0 ≠ R main_v1_1 by decide), Function.update_of_ne (show R main_arg0 ≠ R main_v1_0 by decide),
      Function.update_of_ne (show R main_arg1 ≠ R main_v1_1 by decide), Function.update_of_ne (show R main_arg1 ≠ R main_v1_0 by decide),
      Function.update_of_ne (show R main_arg2 ≠ R main_v1_1 by decide), Function.update_of_ne (show R main_arg2 ≠ R main_v1_0 by decide),
      Function.update_of_ne (show R main_v0 ≠ R main_v1_1 by decide), Function.update_of_ne (show R main_v0 ≠ R main_v1_0 by decide),
      Function.update_of_ne (show R main_arg4 ≠ R main_v1_1 by decide), Function.update_of_ne (show R main_arg4 ≠ R main_v1_0 by decide),
      Function.update_of_ne (show R main_v1_0 ≠ R main_v1_1 by decide)]
  rw [e]

/-! ## @main on the TensorCore -/

section MainProof
variable (m : (ℓ : Loc nD τ sig) → Buf (Elt F) ℓ) (ρ : Dev nD → PrngReg)

/-- The launch contents of the device's buffers. -/
abbrev V0 (d : Dev nD) : Valuation τ sig (Elt F) := fun b => m (d, b)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit [FloatOps F] in
/-- The TensorCore's state before call 0, with what it owes taken out and put back. -/
theorem tcSt_open (d : Dev nD) :
    ((K (F := F)).tcSt EH d 0 : sProp (MM F)) ⊢ iprop(owesB (F := F) d ((K (F := F)).Otc d 0) (8 * 0) ∗ (owesB (F := F) d ((K (F := F)).Otc d 0) (8 * 0) -∗ (K (F := F)).tcSt EH d 0)) := by
  unfold SparseCore.Cfg.tcSt owesB
  iintro ⟨HO, Hrest⟩
  isplitl [HO]; · iexact HO
  iintro HO
  isplitl [HO]; · iexact HO
  iexact Hrest

set_option backward.isDefEq.respectTransparency.types false in
/-- From after the region: the pads, the SparseCore call, the index array and the final scatter. -/
theorem main_tail (κ : GSem nD τ sig → ℕ) (d : Dev nD) (hpre : PreOK m) (V2 : Valuation τ sig (Elt F))
    (h10 : V2 (R main_v1_0) = tokK m d) (h11 : V2 (R main_v1_1) = eidK m d)
    (hA0 : V2 (R main_arg0) = m ((d.tc : Thread nD τ).loc main_arg0)) (hA1 : V2 (R main_arg1) = m ((d.tc : Thread nD τ).loc main_arg1))
    (hA2 : V2 (R main_arg2) = m ((d.tc : Thread nD τ).loc main_arg2)) (hA3 : V2 (R main_arg3) = m ((d.tc : Thread nD τ).loc main_arg3))
    (hA4 : V2 (R main_arg4) = m ((d.tc : Thread nD τ).loc main_arg4)) :
    iprop((K (F := F)).ctx EH (PK m) κ ∗ (K (F := F)).tcSt EH d 0 ∗ boundary (d.tc : Thread nD τ) ∗ held (d.tc : Thread nD τ) SU V2)
      ⊢ wp frame (wpE ((K (F := F)).defs (D (F := F))) 𝒱 (d.tc : Thread nD τ) none) Set.univ
          (seq ops2 >>= fun _ => sc.run d 0 >>= fun _ => seq ops3)
          fun _ => iprop((K (F := F)).tcSt EH d 1 ∗ FIN m d) := by
  iintro ⟨#Hctx, Hst, Hb, Hh⟩
  iapply (wp_seq 𝒱 none Set.univ d SU _ ops2 ops2_sub ops2_fresh V2) $$ [Hb Hh]
  · isplitl [Hb] <;> iassumption
  iintro ⟨Hb, Hh⟩
  have e3 : (held (d.tc : Thread nD τ) SU (after ops2 V2) : sProp (MM F))
      = iprop(((tokLoc d ↦{fullShare} T80K m d) ∗ (eidLoc d ↦{fullShare} E80K m d) ∗ (outLoc d ↦{fullShare} after ops2 V2 (R main_v4)))
          ∗ held (d.tc : Thread nD τ) (SU \ T3) (after ops2 V2)) := by
    rw [held_sub_split (d.tc : Thread nD τ) T3_sub (after ops2 V2), held_T3, after2_v2, after2_v3, h10, h11]; rfl
  ihave Hh' := (Entails.of_eq e3) $$ Hh
  icases Hh' with ⟨⟨Ht, He, Ho⟩, Hrest⟩
  rw [wp_bind]
  iapply ((K (F := F)).wp_run (D (F := F)) 𝒱 (EH := EH) (P := PK m) κ d 0) $$ [Hst Ht He Ho Hb Hrest]
  isplitr; · iexact Hctx
  isplitl [Hst]; · iexact Hst
  isplitl [Ht He Ho]
  · iapply (st_all (T80K m) (E80K m) d _)
    isplitl [Ht]; · iexact Ht
    isplitl [He]; · iexact He
    iexact Ho
  iintro ⟨Hst, Hdn⟩
  ihave Hdn' := (dn_all (T80K m) (E80K m) d) $$ Hdn
  icases Hdn' with ⟨Ht, He, %f, %hz, Ho⟩
  ihave Hh := (held_rejoin3 d (after ops2 V2) f) $$ [Ht He Ho Hrest]
  · rw [after2_v2, after2_v3, h10, h11]
    isplitl [Ht]; · iexact Ht
    isplitl [He]; · iexact He
    isplitl [Ho]; · iexact Ho
    iexact Hrest
  rw [show seq (Λ := SparseCore.Sig (ΛP (F := F)) 1) (nD := nD) (ops3 (F := F)) = (seq ops3 >>= fun u => Pure.pure u) from (bind_pure _).symm]
  iapply (wp_seq 𝒱 none Set.univ d SU _ ops3 ops3_sub ops3_fresh (Function.update (after ops2 V2) (R main_v4) f)) $$ [Hb Hh]
  · isplitl [Hb] <;> iassumption
  iintro ⟨-, Hh⟩
  rw [wp_pure]; imodintro
  isplitl [Hst]; · iexact Hst
  have e21 : after ops3 (Function.update (after ops2 V2) (R main_v4) f) (R main_v21) = finalK (a4K m d) (tokK m d) := by
    rw [after3_v21, Function.update_self, Function.update_of_ne (show R main_arg4 ≠ R main_v4 by decide),
      Function.update_of_ne (show R main_v1_0 ≠ R main_v4 by decide), after2_main_arg4, after2_main_v1_0, hA4, h10]
    exact final_scatter (a4K m d) (hpre d) (tokK m d) f hz
  have e6 : (held (d.tc : Thread nD τ) SU (after ops3 (Function.update (after ops2 V2) (R main_v4) f)) : sProp (MM F))
      = iprop(FIN m d ∗ held (d.tc : Thread nD τ) (SU \ T6) (after ops3 (Function.update (after ops2 V2) (R main_v4) f))) := by
    rw [held_sub_split (d.tc : Thread nD τ) T6_sub, held_T6, e21, after3_main_arg0, after3_main_arg1, after3_main_arg2, after3_main_arg3, after3_main_arg4,
      Function.update_of_ne (show R main_arg0 ≠ R main_v4 by decide), Function.update_of_ne (show R main_arg1 ≠ R main_v4 by decide),
      Function.update_of_ne (show R main_arg2 ≠ R main_v4 by decide), Function.update_of_ne (show R main_arg3 ≠ R main_v4 by decide),
      Function.update_of_ne (show R main_arg4 ≠ R main_v4 by decide),
      after2_main_arg0, after2_main_arg1, after2_main_arg2, after2_main_arg3, after2_main_arg4, hA0, hA1, hA2, hA3, hA4]
    rfl
  ihave H6 := (Entails.of_eq e6) $$ Hh
  icases H6 with ⟨H6, -⟩
  iexact H6

end MainProof

section MainProof2
variable (m : (ℓ : Loc nD τ sig) → Buf (Elt F) ℓ) (ρ : Dev nD → PrngReg)

set_option backward.isDefEq.respectTransparency.types false in
/-- @main on device `d`'s TensorCore: the bias reshaped, the TensorCore region, then the tail. -/
theorem hmain (hpre : PreOK m) (κ : GSem nD τ sig → ℕ) (d : Dev nD) :
    iprop((K (F := F)).ctx EH (PK m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [Pipeline.unscopedBufs_held d (V0 m d), main_eq]
  iintro ⟨#Hctx, Hst, ⟨Hb, Hh, -, -⟩, ⟨Hg, Ht⟩⟩
  iapply (wp_seq 𝒱 none Set.univ d SU _ ops1 ops1_sub ops1_fresh (V0 m d)) $$ [Hb Hh]
  · isplitl [Hb] <;> iassumption
  iintro ⟨Hb, Hh⟩
  have e7 : (held (d.tc : Thread nD τ) SU (after ops1 (V0 m d)) : sProp (MM F))
      = iprop(arrs7 d ⟨after ops1 (V0 m d) (R main_arg0), after ops1 (V0 m d) (R main_arg1), after ops1 (V0 m d) (R main_arg2), after ops1 (V0 m d) (R main_v0),
            after ops1 (V0 m d) (R main_arg4), after ops1 (V0 m d) (R main_v1_0), after ops1 (V0 m d) (R main_v1_1)⟩
          ∗ held (d.tc : Thread nD τ) (SU \ T7) (after ops1 (V0 m d))) := by
    rw [held_sub_split (d.tc : Thread nD τ) T7_sub (after ops1 (V0 m d)), held_T7]
  ihave Hh' := (Entails.of_eq e7) $$ Hh
  icases Hh' with ⟨H7, Hrest⟩
  ihave Hst' := (tcSt_open (F := F) d) $$ Hst
  icases Hst' with ⟨HO, Hclose⟩
  ihave Hlev := ((K (F := F)).ctx_levAts κ) $$ Hctx
  iapply (wp_tc_region _ ((K (F := F)).Otc d 0) d (Otc_none d 0) (8 * 0) (K (F := F)).lev (SparseCore.Cfg.refines_self _) _ _) $$ [Hb H7 HO Hlev Hg Ht]
  · isplitl [Hb]; · iexact Hb
    isplitl [H7]; · iexact H7
    isplitl [HO]; · iexact HO
    isplitl [Hlev]; · iexact Hlev
    isplitl [Hg]; · iexact Hg
    iexact Ht
  iintro ⟨Hb, H7, HO⟩
  ihave Hst := Hclose $$ HO
  ihave Hh := (held_rejoin7 d (after ops1 (V0 m d))) $$ [H7 Hrest]
  · isplitl [H7] <;> iassumption
  iapply (main_tail m κ d hpre (Vreg (after ops1 (V0 m d))) ?h10 ?h11 ?hA0 ?hA1 ?hA2 ?hA3 ?hA4) $$ [Hst Hb Hh]
  case h10 =>
    unfold Vreg tokK
    rw [Function.update_of_ne (show R main_v1_0 ≠ R main_v1_1 by decide), Function.update_self, after1_main_arg0, after1_main_arg1, after1_main_arg2, after1_v0]
  case h11 =>
    unfold Vreg eidK
    rw [Function.update_self, after1_main_arg4]
  case hA0 => unfold Vreg; rw [Function.update_of_ne (show R main_arg0 ≠ R main_v1_1 by decide), Function.update_of_ne (show R main_arg0 ≠ R main_v1_0 by decide), after1_main_arg0]
  case hA1 => unfold Vreg; rw [Function.update_of_ne (show R main_arg1 ≠ R main_v1_1 by decide), Function.update_of_ne (show R main_arg1 ≠ R main_v1_0 by decide), after1_main_arg1]
  case hA2 => unfold Vreg; rw [Function.update_of_ne (show R main_arg2 ≠ R main_v1_1 by decide), Function.update_of_ne (show R main_arg2 ≠ R main_v1_0 by decide), after1_main_arg2]
  case hA3 => unfold Vreg; rw [Function.update_of_ne (show R main_arg3 ≠ R main_v1_1 by decide), Function.update_of_ne (show R main_arg3 ≠ R main_v1_0 by decide), after1_main_arg3]
  case hA4 => unfold Vreg; rw [Function.update_of_ne (show R main_arg4 ≠ R main_v1_1 by decide), Function.update_of_ne (show R main_arg4 ≠ R main_v1_0 by decide), after1_main_arg4]
  isplitr; · iexact Hctx
  isplitl [Hst]; · iexact Hst
  isplitl [Hb]; · iexact Hb
  iexact Hh

/-- What the final memory holds, read off what @main leaves. -/
def fq (d : Dev nD) (s' : Phys nD τ sig (Elt F)) : Prop :=
  s'.mem.mem ((d.tc : Thread nD τ).loc main_v21) = finalK (a4K m d) (tokK m d)
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)
  ∧ s'.mem.mem ((d.tc : Thread nD τ).loc main_arg4) = m ((d.tc : Thread nD τ).loc main_arg4)

omit [FloatOps F] in
theorem agree_keep {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp (MM F)) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp (MM F)) := by
  unfold FIN
  iintro ⟨⟨H21, H0, H1, H2, H3, H4⟩, HSI⟩
  ihave X := (agree_keep _ s') $$ [H21 HSI]; · isplitl [H21] <;> iassumption
  icases X with ⟨%h21, HSI⟩
  ihave X := (agree_keep _ s') $$ [H0 HSI]; · isplitl [H0] <;> iassumption
  icases X with ⟨%h0, HSI⟩
  ihave X := (agree_keep _ s') $$ [H1 HSI]; · isplitl [H1] <;> iassumption
  icases X with ⟨%h1, HSI⟩
  ihave X := (agree_keep _ s') $$ [H2 HSI]; · isplitl [H2] <;> iassumption
  icases X with ⟨%h2, HSI⟩
  ihave X := (agree_keep _ s') $$ [H3 HSI]; · isplitl [H3] <;> iassumption
  icases X with ⟨%h3, HSI⟩
  ihave X := (agree_keep _ s') $$ [H4 HSI]; · isplitl [H4] <;> iassumption
  icases X with ⟨%h4, -⟩
  ipureintro; exact ⟨h21, h0, h1, h2, h3, h4⟩

/-- The run's post: the result at the scatter of the region's weights into zeros, the arguments unchanged. -/
def QC : PUnit × MemSt nD τ sig (Elt F) → Prop := fun r => ∀ c : Dev nD,
  r.2.mem ((c.tc : Thread nD τ).loc main_v21) = finalK (a4K m c) (tokK m c)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- The program's run, from the ids in range and the vector subcore's body. -/
theorem run_main [∀ e, Nonempty (Elt F e)] (hpre : PreOK m) (hb : TileBody (T80K m) (E80K m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PK m) facts v₀
    (fun q hq => match q with | 0 => nomatch hq)
    (fun q _ => match q with | 0 => tileObl (T80K m) (E80K m) hb)
    (fun q _ => match q with | 0 => SparseCore.Cfg.VecSplit.of_plain (vecSplit (T80K m) (E80K m)))
    m ρ main (fun d => G (F := F) d) (FIN m) (u₀ (F := F)) (sep_elim_left.trans (hu₀ (T80K m) (E80K m))) (hmain m ρ hpre) (fq m) (hfin m) (QC m) (fun _ h => h)

end MainProof2

end Cert.KernelIdeal.Pf

end
-- ==== Proof.Bits.Alg.lean ====
/-
  The resource algebra every module of this certificate's kernel-side proof states its assertions in: the launch
  handshakes' rounds (duties named by natural numbers), one more copy of the rounds algebra for the staging cells of
  the TensorCore pipeline, and the exclusive counters of the schedule-free transfers the vector subcores make.
-/
import proofs.«211129_g5394478924152_cont_9to1c4b_288_8_alg».proof.Kernel
import Idealize.ShloMosaic.Lib.SparseCore.Launch
import Idealize.ShloMosaic.Lib.Pipeline.Kit
import Idealize.ShloMosaic.Lib.Transfers

noncomputable section

namespace Cert.Kernel.Pf

open Cert.Kernel
open Idealize.ShloMosaic
open Idealize.ShloMosaic.SparseCore.Cfg (HIx)
open Idealize.SL Idealize.SL.RA
open Idealize.ShloMosaic.Rounds

variable {F : FTy → Type}

/-- The handshakes' rounds. -/
abbrev UH : Type := URounds (GSem nD τ sig) ℕ
/-- The pipeline's staging cells' rounds. -/
abbrev UP : Type := URounds (GSem nD τ sig) Unit
/-- The whole user algebra: handshakes, pipeline cells, transfer counters. -/
abbrev UU : Type := UH × (UP × Counters)

/-- The machine's algebra at this program: one SparseCore call, names and levels natural numbers. -/
abbrev MM (F : FTy → Type) : Type := MT nD τ sig (HIx 1) (Elt F) ℕ UU ℕ

/-- The handshakes' component, embedded. -/
abbrev EH : Emb UH (MM F) := embL
/-- The pipeline cells' component, embedded. -/
def EP : Emb UP (MM F) := (Emb.inl : Emb UP (UP × Counters)).trans embR

instance EP_landsIn : (EP : Emb UP (MM F)).LandsIn (upEmb : UEmb _ (MM F)) := by
  unfold EP embR; infer_instance

end Cert.Kernel.Pf

end
-- ==== Proof.Bits.TileRes.lean ====
/-
  What one vector subcore's task of the SparseCore kernel is handed and hands back: the thirty-two rows of the two
  padded inputs it reads and the same rows of the output it writes. The rows of the thirty-two tasks are pairwise
  disjoint and cover the arrays. The task's result, as far as its own invariants carry it: an output element whose
  column none of its row's eighty indices names holds the zero the kernel clears its buffers with.
-/
import proofs.«211129_g5394478924152_cont_9to1c4b_288_8_alg».proof.Proof.Bits.Alg

noncomputable section

namespace Cert.Kernel.Pf

open Cert.Kernel
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The rows of a task -/

theorem hdiv80 : 32 ∣ S1024x80.size 0 := ⟨32, rfl⟩
theorem hdivOut : 32 ∣ S1024x49408.size 0 := ⟨32, rfl⟩

/-- Rows `32 w .. 32 w + 31` of a `1024 × 80` array. -/
def rows80 (w : Fin 32) : Finset S1024x80.Idx := (Rect.part (s := S1024x80) (a₀ := 0) hdiv80 w).set
/-- Rows `32 w .. 32 w + 31` of the `1024 × 49408` output. -/
def rowsOut (w : Fin 32) : Finset S1024x49408.Idx := (Rect.part (s := S1024x49408) (a₀ := 0) hdivOut w).set

theorem mem_rows80 {w : Fin 32} {i : S1024x80.Idx} : i ∈ rows80 w ↔ 32 * w.val ≤ (i 0).val ∧ (i 0).val < 32 * w.val + 32 := by
  unfold rows80
  rw [Rect.mem_set_unit, Fin.forall_fin_two]
  simp only [Shape.partIx, Shape.partSize]
  have h1 : (i 1).val < 80 := (i 1).isLt
  constructor
  · rintro ⟨⟨h0, h0'⟩, -⟩
    simp at h0 h0'
    omega
  · intro h
    refine ⟨?_, ?_⟩
    · simp; omega
    · simp; exact h1

theorem mem_rowsOut {w : Fin 32} {i : S1024x49408.Idx} : i ∈ rowsOut w ↔ 32 * w.val ≤ (i 0).val ∧ (i 0).val < 32 * w.val + 32 := by
  unfold rowsOut
  rw [Rect.mem_set_unit, Fin.forall_fin_two]
  simp only [Shape.partIx, Shape.partSize]
  have h1 : (i 1).val < 49408 := (i 1).isLt
  constructor
  · rintro ⟨⟨h0, h0'⟩, -⟩
    simp at h0 h0'
    omega
  · intro h
    refine ⟨?_, ?_⟩
    · simp; omega
    · simp; exact h1

theorem rows80_disjoint : ∀ i ∈ (Finset.univ : Finset (Fin 32)), ∀ j ∈ (Finset.univ : Finset (Fin 32)), i ≠ j → Disjoint (rows80 i) (rows80 j) :=
  fun _ _ _ _ h => Rect.part_disjoint hdiv80 h
theorem rows80_cover : (Finset.univ : Finset (Fin 32)).biUnion rows80 = Finset.univ := Rect.biUnion_part hdiv80
theorem rowsOut_disjoint : ∀ i ∈ (Finset.univ : Finset (Fin 32)), ∀ j ∈ (Finset.univ : Finset (Fin 32)), i ≠ j → Disjoint (rowsOut i) (rowsOut j) :=
  fun _ _ _ _ h => Rect.part_disjoint hdivOut h
theorem rowsOut_cover : (Finset.univ : Finset (Fin 32)).biUnion rowsOut = Finset.univ := Rect.biUnion_part hdivOut

/-! ## The arrays and the task's resources -/

/-- The padded weights `f32[1024, 80]`. -/
abbrev tokLoc (d : Dev nD) : Loc nD τ sig := (SparseCore.T d).loc main_v2
/-- The padded indices `i32[1024, 80]`. -/
abbrev eidLoc (d : Dev nD) : Loc nD τ sig := (SparseCore.T d).loc main_v3
/-- The kernel's output `f32[1024, 49408]`. -/
abbrev outLoc (d : Dev nD) : Loc nD τ sig := (SparseCore.T d).loc main_v4

variable [FloatOps F]

/-- The element every lane of the kernel's zero vector holds. -/
def zeroF : Elt F .f32 := (Scalar.ofBits .f32 0x00000000#32 : F .f32)

/-- An element of the task's rows of the output whose column none of the eighty indices of its row names is zero. -/
def ZeroOff (w : Fin 32) {d : Dev nD} (E : Buf (Elt F) (eidLoc d)) (f : Buf (Elt F) (outLoc d)) : Prop :=
  ∀ i : S1024x49408.Idx, i ∈ rowsOut w → (∀ j : S1024x80.Idx, (j 0).val = (i 0).val → (E j).toNat ≠ (i 1).val) → f i = zeroF

/-- What the task is handed: its rows of the two inputs at their contents, its rows of the output at any. -/
def goRes (d : Dev nD) (w : Fin 32) (T80 : Buf (Elt F) (tokLoc d)) (E80 : Buf (Elt F) (eidLoc d)) : sProp (MM F) :=
  iprop((tokLoc d ↦[rows80 w]{fullShare} T80) ∗ (eidLoc d ↦[rows80 w]{fullShare} E80) ∗ ∃ f, outLoc d ↦[rowsOut w]{fullShare} f)

/-- What it hands back: the inputs' rows unchanged, the output's rows zero off the indices. -/
def tdRes (d : Dev nD) (w : Fin 32) (T80 : Buf (Elt F) (tokLoc d)) (E80 : Buf (Elt F) (eidLoc d)) : sProp (MM F) :=
  iprop((tokLoc d ↦[rows80 w]{fullShare} T80) ∗ (eidLoc d ↦[rows80 w]{fullShare} E80) ∗ ∃ f, ⌜ZeroOff w E80 f⌝ ∗ outLoc d ↦[rowsOut w]{fullShare} f)

instance goRes_storable (d : Dev nD) (w : Fin 32) (T80 : Buf (Elt F) (tokLoc d)) (E80 : Buf (Elt F) (eidLoc d)) :
    BI.Storable (upEmb : UEmb _ (MM F)) (goRes d w T80 E80) := by
  unfold goRes; infer_instance

instance tdRes_storable (d : Dev nD) (w : Fin 32) (T80 : Buf (Elt F) (tokLoc d)) (E80 : Buf (Elt F) (eidLoc d)) :
    BI.Storable (upEmb : UEmb _ (MM F)) (tdRes d w T80 E80) := by
  unfold tdRes; infer_instance

end Cert.Kernel.Pf

end
-- ==== Proof.Bits.Launch.lean ====
/-
  The launch of the kernel program: what the TensorCore hands each SparseCore at the one SparseCore call and gets back,
  how that splits among the sixteen vector subcores of a SparseCore, and the tile's obligation from its body's proof.
-/
import proofs.«211129_g5394478924152_cont_9to1c4b_288_8_alg».proof.Proof.Bits.Alg
import proofs.«211129_g5394478924152_cont_9to1c4b_288_8_alg».proof.Proof.Bits.TileRes
import proofs.«211129_g5394478924152_cont_9to1c4b_288_8_alg».proof.Proof.Gen.Kernel
import proofs.«211129_g5394478924152_cont_9to1c4b_288_8_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-- The worker number of vector subcore `i` of SparseCore `c`: the rows it handles are `32 * wid .. 32 * wid + 31`. -/
def widOf (c : Fin 2) (i : Fin 16) : Fin 32 := finProdFinEquiv (i, c)

section Pay
variable (d : Dev nD) (T80 : Buf (Elt F) (tokLoc d)) (E80 : Buf (Elt F) (eidLoc d))
end Pay

/-- What the one call carries: each SparseCore is handed its sixteen workers' rows of the two padded inputs and of the
    output, and hands them back with the output's rows zero off the row's ids. -/
def P (T80 : (d : Dev nD) → Buf (Elt F) (tokLoc d)) (E80 : (d : Dev nD) → Buf (Elt F) (eidLoc d)) :
    (K (F := F)).Pay (nD := nD) (Val := Elt F) (Name := ℕ) (U := UU) where
  st := fun q d c => match q with | 0 => bigSep Finset.univ fun i : Fin 16 => goRes d (widOf (Fin.cast nCore_zero c) i) (T80 d) (E80 d)
  dn := fun q d c => match q with | 0 => bigSep Finset.univ fun i : Fin 16 => tdRes d (widOf (Fin.cast nCore_zero c) i) (T80 d) (E80 d)
  go := fun q d c i => match q with | 0 => goRes d (widOf (Fin.cast nCore_zero c) (Fin.cast nSub_zero i)) (T80 d) (E80 d)
  td := fun q d c i => match q with | 0 => tdRes d (widOf (Fin.cast nCore_zero c) (Fin.cast nSub_zero i)) (T80 d) (E80 d)
  x := fun _ _ => iprop(emp)

instance P_storable (T80 : (d : Dev nD) → Buf (Elt F) (tokLoc d)) (E80 : (d : Dev nD) → Buf (Elt F) (eidLoc d)) : (P T80 E80).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

theorem vecSplit (T80 : (d : Dev nD) → Buf (Elt F) (tokLoc d)) (E80 : (d : Dev nD) → Buf (Elt F) (eidLoc d)) :
    (K (F := F)).VecSplit' (P T80 E80) 0 := by
  intro d c
  show (bigSep Finset.univ fun i : Fin 16 => goRes d (widOf (Fin.cast nCore_zero c) i) (T80 d) (E80 d)) ⊢ |={Set.univ}=> iprop(
      (bigSep Finset.univ fun i : Fin ((K (F := F)).nSub 0) => goRes d (widOf (Fin.cast nCore_zero c) (Fin.cast nSub_zero i)) (T80 d) (E80 d))
      ∗ ((bigSep Finset.univ fun i : Fin ((K (F := F)).nSub 0) => tdRes d (widOf (Fin.cast nCore_zero c) (Fin.cast nSub_zero i)) (T80 d) (E80 d))
          -∗ bigSep Finset.univ fun i : Fin 16 => tdRes d (widOf (Fin.cast nCore_zero c) i) (T80 d) (E80 d)))
  iintro H; imodintro
  isplitl [H]; · iexact H
  iintro H; iexact H

/-! ## The tile's obligation, from its body's proof -/

/-- The vector subcore's task at grid point `L`, on the arrays and scratch the body table passes it. -/
abbrev tileProg (L : grid1.Coords) : Prog (TpuEff nD τ sig (Elt F) Λ₀ (.scVector ((L 0).castLE hcore1) ((L 1).castLE hsub1))) PUnit :=
  cc1_run L (Memref.whole main_v2_scv) (Memref.isWhole_whole _) (Memref.whole main_v3_scv) (Memref.isWhole_whole _) (Memref.whole main_v4_scv) (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    cc1_scratch6 cc1_scratch7 cc1_scoped0 cc1_scoped1 cc1_scoped2 cc1_scoped3 cc1_scoped4 cc1_scoped5 cc1_scoped6 cc1_scoped7

abbrev cV (L : grid1.Coords) : Fin τ.nSC := (L 0).castLE hcore1
abbrev jV (L : grid1.Coords) : Fin τ.nSub := (L 1).castLE hsub1
/-- The worker number of grid point `L`: subcore index times two plus core index. -/
def wid (L : grid1.Coords) : Fin 32 := ⟨(L 1).val * 2 + (L 0).val, by have h0 : (L 0).val < 2 := (L 0).isLt; have h1 : (L 1).val < 16 := (L 1).isLt; omega⟩

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => tileProg (F := F) (coordsV c s)) ⟨⟩ c s := rfl

/-- What the body's proof delivers: from the worker's rows and the subcore's scoped storage, the task runs and returns the
    rows with the output's zero off the ids. -/
def TileBody (T80 : (d : Dev nD) → Buf (Elt F) (tokLoc d)) (E80 : (d : Dev nD) → Buf (Elt F) (eidLoc d)) : Prop :=
  ∀ (d : Dev nD) (L : grid1.Coords) (O : CellTallies nD τ sig (HIx 1)) (W : Waits sig (HIx 1)), (∀ g, O g none = 0) →
    iprop(levAts (K (F := F)).L (K (F := F)).lev ∗ goRes d (wid L) (T80 d) (E80 d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop(tdRes d (wid L) (T80 d) (E80 d) ∗ scopedBufs (V d (cV L) (jV L)) ∗ scopedSems0 (V d (cV L) (jV L))
            ∗ ∃ W', ⌜∀ p ∈ W', p ∈ W ∨ p.2 = none⌝ ∗ owes (V d (cV L) (jV L)) O W') : sProp (MM F))

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : sProp (MM F)} : iprop(A ∗ emp ∗ B) ⊢ iprop(A ∗ B) := by
  iintro ⟨HA, -, HB⟩
  isplitl [HA]; · iexact HA
  iexact HB

theorem wid_coordsV (c : Fin ((K (F := F)).nCore 0)) (i : Fin ((K (F := F)).nSub 0)) (h0 h1) :
    wid (coordsV ⟨((K (F := F)).core 0 c).val, h0⟩ ⟨((K (F := F)).sub 0 i).val, h1⟩) = widOf (Fin.cast nCore_zero c) (Fin.cast nSub_zero i) := by
  apply Fin.ext
  show i.val * 2 + c.val = _
  simp [widOf, finProdFinEquiv]
  omega

theorem tileObl (T80 : (d : Dev nD) → Buf (Elt F) (tokLoc d)) (E80 : (d : Dev nD) → Buf (Elt F) (eidLoc d)) (hb : TileBody T80 E80) :
    (K (F := F)).TileObl (D (F := F)) 𝒱 (P T80 E80) v₀ 0 := by
  intro d c i O W hO _ _
  simp only [show (P T80 E80).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ goRes d (widOf (Fin.cast nCore_zero c) (Fin.cast nSub_zero i)) (T80 d) (E80 d) ∗ _) ⊢ wp _ _ _ _
    (fun _ => iprop(tdRes d (widOf (Fin.cast nCore_zero c) (Fin.cast nSub_zero i)) (T80 d) (E80 d) ∗ _))
  rw [← wid_coordsV (F := F) c i hc.1 hc.2]
  exact BI.Entails.trans drop_emp ((hb d (coordsV ⟨_, hc.1⟩ ⟨_, hc.2⟩) O W hO).trans (wp_mono frame _ _ fun _ => obl_post))

end Cert.Kernel.Pf

end
-- ==== Proof.Bits.Hit.lean ====
/-
  Where the final scatter's updates land. The scatter's index array pairs, for the update at batch row `b` and
  position `s`, the row `b` itself with the token id at `(b, s)`; both words are non-negative, so an id `v` below the
  vocabulary size makes the update land at `(b, v)` of the `[1024, 49408]` operand. Hence an element `(b, v)` of the
  operand that no update lands on has `v` different from every id of row `b`.
-/
import proofs.«211129_g5394478924152_cont_9to1c4b_288_8_alg».proof.Kernel
import Idealize.ShloMosaic.Lib.ValueIdx
import Idealize.ShloMosaic.Lib.Pipeline.Value
import Idealize.ShloMosaic.Lib.KernelVsHost
import proofs.«211129_g5394478924152_cont_9to1c4b_288_8_alg».proof.Proof.ScatterLaw

noncomputable section
namespace Cert.Kernel.Pf
open Cert.Kernel Idealize.ShloMosaic
variable [Facts₀]

abbrev sdK : ScatterDims S1024x49408 S1024x77x2 S1024x77 := scatter_S1024x49408_S1024x77x2_S1024x77_n_01_01_2

def i3 (j : S1024x77.Idx) (c : Fin 2) : S1024x77x2.Idx := fun a => match a with
  | ⟨0, _⟩ => j 0
  | ⟨1, _⟩ => j 1
  | ⟨2, _⟩ => c

theorem sdto : sdK.scatterDimsToOperandDims = [0, 1] := rfl

theorem siIdx0 (j : S1024x77.Idx) (c : Fin sdK.scatterDimsToOperandDims.length) (hc : c.val = 0) : sdK.siIdx j c = i3 j 0 := by
  obtain ⟨n, hn⟩ := c; simp only at hc; subst hc
  funext a
  match a with
  | ⟨0, _⟩ => rfl
  | ⟨1, _⟩ => rfl
  | ⟨2, _⟩ => rfl
theorem siIdx1 (j : S1024x77.Idx) (c : Fin sdK.scatterDimsToOperandDims.length) (hc : c.val = 1) : sdK.siIdx j c = i3 j 1 := by
  obtain ⟨n, hn⟩ := c; simp only at hc; subst hc
  funext a
  match a with
  | ⟨0, _⟩ => rfl
  | ⟨1, _⟩ => rfl
  | ⟨2, _⟩ => rfl

theorem start0 (j : S1024x77.Idx) (idx : IVec S1024x77x2 32) : sdK.start j idx 0 = (idx (i3 j 0)).toInt := by
  unfold ScatterDims.start
  have h : (0 : Fin S1024x49408.rank) ∈ sdK.scatterDimsToOperandDims := by
    show (0 : Fin 2) ∈ ([0, 1] : List (Fin 2)); decide
  rw [dif_pos h]
  rw [siIdx0 j _ (by show List.idxOf (0 : Fin 2) ([0, 1] : List (Fin 2)) = 0; decide)]
theorem start1 (j : S1024x77.Idx) (idx : IVec S1024x77x2 32) : sdK.start j idx 1 = (idx (i3 j 1)).toInt := by
  unfold ScatterDims.start
  have h : (1 : Fin S1024x49408.rank) ∈ sdK.scatterDimsToOperandDims := by
    show (1 : Fin 2) ∈ ([0, 1] : List (Fin 2)); decide
  rw [dif_pos h]
  rw [siIdx1 j _ (by show List.idxOf (1 : Fin 2) ([0, 1] : List (Fin 2)) = 1; decide)]
theorem window0 (j : S1024x77.Idx) (a : Fin 2) : sdK.window j a = 0 := by
  unfold ScatterDims.window
  rw [dif_neg]
  show a ∉ ([] : List (Fin 2))
  simp

/-- An update whose two index words read (as signed integers) a row `r < 1024` and a column `v < 49408` lands at `(r, v)`. -/
theorem resultIdx_of (j : S1024x77.Idx) (idx : IVec S1024x77x2 32) (r : Fin 1024) (v : Fin 49408)
    (h0 : (idx (i3 j 0)).toInt = r.val) (h1 : (idx (i3 j 1)).toInt = v.val) :
    sdK.resultIdx? j idx = some (ValueIdx.ix2 r v) := by
  unfold ScatterDims.resultIdx?
  have hb : ∀ a, 0 ≤ sdK.start j idx a + sdK.window j a ∧ sdK.start j idx a + sdK.window j a < S1024x49408.size a := by
    intro a
    match a with
    | ⟨0, _⟩ => rw [window0]; show 0 ≤ sdK.start j idx 0 + _ ∧ sdK.start j idx 0 + _ < _; rw [start0, h0]; have := r.isLt; constructor <;> simp <;> omega
    | ⟨1, _⟩ => rw [window0]; show 0 ≤ sdK.start j idx 1 + _ ∧ sdK.start j idx 1 + _ < _; rw [start1, h1]; have := v.isLt; constructor <;> simp <;> omega
  rw [dif_pos hb]
  congr 1
  funext a
  match a with
  | ⟨0, _⟩ => apply Fin.ext; show (sdK.start j idx 0 + sdK.window j 0).toNat = r.val; rw [window0, start0, h0]; simp
  | ⟨1, _⟩ => apply Fin.ext; show (sdK.start j idx 1 + sdK.window j 1).toNat = v.val; rw [window0, start1, h1]; simp

/-! ## The index array of the final scatter, read at an index -/

/-- The batch-row numbers `[1024, 77]`, as the program builds them (an iota broadcast along the positions, with the
    wrap-around of negative values that never applies). -/
def rowsK : IVec S1024x77 32 :=
  select (cmpi .slt (broadcastInDim S1024x77 ![0, 1] Facts₀.bcast_S1024x1_S1024x77_0_1 (broadcastInDim S1024x1 ![0] Facts₀.bcast_S1024_S1024x1_0 (iotaInDim S1024 32 0)))
      (broadcastInDim S1024x77 ![] Facts₀.bcast_S_S1024x77 (constantI S_ 32 0#32)))
    (addi (broadcastInDim S1024x77 ![0, 1] Facts₀.bcast_S1024x1_S1024x77_0_1 (broadcastInDim S1024x1 ![0] Facts₀.bcast_S1024_S1024x1_0 (iotaInDim S1024 32 0)))
      (broadcastInDim S1024x77 ![] Facts₀.bcast_S_S1024x77 (constantI S_ 32 1024#32)))
    (broadcastInDim S1024x77 ![0, 1] Facts₀.bcast_S1024x1_S1024x77_0_1 (broadcastInDim S1024x1 ![0] Facts₀.bcast_S1024_S1024x1_0 (iotaInDim S1024 32 0)))

/-- The ids with the wrap-around of negative values (which never applies to ids in range). -/
def idsK (a4 : IVec S1024x77 32) : IVec S1024x77 32 :=
  select (cmpi .slt a4 (broadcastInDim S1024x77 ![] Facts₀.bcast_S_S1024x77 (constantI S_ 32 0#32)))
    (addi a4 (broadcastInDim S1024x77 ![] Facts₀.bcast_S_S1024x77 (constantI S_ 32 49408#32))) a4

/-- The scatter's index array `[1024, 77, 2]`: (row, id). -/
def idxK (a4 : IVec S1024x77 32) : IVec S1024x77x2 32 :=
  concatenate S1024x77x2 2 [⟨S1024x77x1, broadcastInDim S1024x77x1 ![0, 1] Facts₀.bcast_S1024x77_S1024x77x1_0_1 rowsK⟩,
    ⟨S1024x77x1, broadcastInDim S1024x77x1 ![0, 1] Facts₀.bcast_S1024x77_S1024x77x1_0_1 (idsK a4)⟩] Facts₀.concatenates_S1024x77x1_S1024x77x1_S1024x77x2_d2

/-- A word whose sign bit is clear is not below zero as a signed integer: the wrap-around keeps it. -/
theorem sel_nonneg (x y : BitVec 32) (h : x.toNat < 2147483648) : Scalar.select (IntOp.cmpi .slt x 0#32) y x = x := by
  have hs : x.slt 0#32 = false := by
    rw [BitVec.slt_eq_decide, decide_eq_false_iff_not, BitVec.toInt_eq_toNat_cond]
    have h0 : (0#32 : BitVec 32).toInt = 0 := by decide
    rw [h0, if_pos (by omega)]
    omega
  have hc : IntOp.cmpi .slt x 0#32 ≠ 1 := by
    show BitVec.ofBool (x.slt 0#32) ≠ 1
    rw [hs]; decide
  unfold Scalar.select
  rw [if_neg hc]

theorem rowsK_apply (j : S1024x77.Idx) : rowsK j = BitVec.ofNat 32 (j 0).val := by
  simp only [rowsK, select, cmpi, addi, broadcastInDim, iotaInDim, constantI]
  have hx : ∀ n : Nat, n < 1024 → (BitVec.ofNat 32 n).toNat < 2147483648 := by
    intro n hn; rw [BitVec.toNat_ofNat]; omega
  refine (sel_nonneg _ _ (hx _ (Fin.isLt _))).trans ?_
  congr 1

theorem idsK_apply (a4 : IVec S1024x77 32) (j : S1024x77.Idx) (h : (a4 j).toNat < 49408) : idsK a4 j = a4 j := by
  simp only [idsK, select, cmpi, addi, broadcastInDim, constantI]
  exact sel_nonneg _ _ (by omega)

theorem idxK_row (a4 : IVec S1024x77 32) (j : S1024x77.Idx) : idxK a4 (i3 j 0) = BitVec.ofNat 32 (j 0).val := by
  unfold idxK
  rw [concatenate_pair_apply_left (s₁ := S1024x77x1) (s₂ := S1024x77x1) (2 : Fin 3) _ _ _ (i3 j 0) rfl (ValueIdx.ix3 (j 0) (j 1) (0 : Fin 1))
    (by intro b; match b with | ⟨0, _⟩ => rfl | ⟨1, _⟩ => rfl | ⟨2, _⟩ => rfl)]
  rw [broadcastInDim_apply _ _ _ _ j (by intro a; match a with | ⟨0, _⟩ => rfl | ⟨1, _⟩ => rfl)]
  exact rowsK_apply j

theorem idxK_id (a4 : IVec S1024x77 32) (j : S1024x77.Idx) (h : (a4 j).toNat < 49408) : idxK a4 (i3 j 1) = a4 j := by
  unfold idxK
  rw [concatenate_pair_apply_right (s₁ := S1024x77x1) (s₂ := S1024x77x1) (2 : Fin 3) _ _ _ (i3 j 1) rfl rfl (ValueIdx.ix3 (j 0) (j 1) (0 : Fin 1))
    (by intro b hb; match b with | ⟨0, _⟩ => rfl | ⟨1, _⟩ => rfl | ⟨2, _⟩ => exact absurd rfl hb) rfl]
  rw [broadcastInDim_apply _ _ _ _ j (by intro a; match a with | ⟨0, _⟩ => rfl | ⟨1, _⟩ => rfl)]
  exact idsK_apply a4 j h

/-! ## The scatter does not see its operand off the ids -/

theorem toInt_ofNat_small (n : Nat) (h : n < 2147483648) : (BitVec.ofNat 32 n).toInt = n := by
  rw [BitVec.toInt_eq_toNat_cond, BitVec.toNat_ofNat, Nat.mod_eq_of_lt (by omega), if_pos (by omega)]
theorem toInt_small (x : BitVec 32) (h : x.toNat < 2147483648) : x.toInt = x.toNat := by
  rw [BitVec.toInt_eq_toNat_cond, if_pos (by omega)]

/-- Two operands that agree at every element whose column is none of its row's ids scatter (ids in range) to the same array. -/
theorem scatter_bridge {α : Type} (a4 : IVec S1024x77 32) (ha : ∀ j, (a4 j).toNat < 49408) (tok : S1024x77.Idx → α)
    (f z : S1024x49408.Idx → α)
    (hz : ∀ p : S1024x49408.Idx, (∀ j : S1024x77.Idx, (j 0).val = (p 0).val → (a4 j).toNat ≠ (p 1).val) → f p = z p) :
    Host.scatter sdK (fun _ b => b) f (idxK a4) tok = Host.scatter sdK (fun _ b => b) z (idxK a4) tok := by
  funext p
  apply ScatterLaw.scatter_congr
  by_cases h : ∃ j : S1024x77.Idx, (j 0).val = (p 0).val ∧ (a4 j).toNat = (p 1).val
  · right
    obtain ⟨j, h0, h1⟩ := h
    refine ⟨j, ?_⟩
    rw [resultIdx_of j (idxK a4) (j 0) ⟨(a4 j).toNat, ha j⟩
      (by rw [idxK_row]; exact toInt_ofNat_small _ (by have h1024 : (j 0).val < 1024 := (j 0).isLt; omega))
      (by rw [idxK_id _ _ (ha j)]; exact toInt_small _ (by have := ha j; omega))]
    congr 1
    funext a
    match a with
    | ⟨0, _⟩ => exact Fin.ext h0
    | ⟨1, _⟩ => exact Fin.ext h1
  · left
    exact hz p fun j h0 h1 => h ⟨j, h0, h1⟩

/-! ## The ids padded to 80 positions -/

/-- The deduplicated ids `[1024, 77]` padded to 80 positions with the dump id 49408. -/
def eid80 (e : IVec S1024x77 32) : IVec S1024x80 32 :=
  pad S1024x80 ![0, 0] ![0, 3] ![0, 0] e (constantI S_ 32 49408#32) Facts₀.pads_S1024x77_S1024x80_000_030 Facts₀.h_S_

theorem eid80_inside (e : IVec S1024x77 32) (j : S1024x80.Idx) (h : (j 1).val < 77) :
    eid80 e j = e (ValueIdx.ix2 (j 0) ⟨(j 1).val, h⟩) := by
  unfold eid80
  exact pad_apply_of_inside _ _ _ _ _ _ _ j (ValueIdx.ix2 (j 0) ⟨(j 1).val, h⟩)
    (by intro a; match a with | ⟨0, _⟩ => simp [ValueIdx.ix2] | ⟨1, _⟩ => simp [ValueIdx.ix2])

theorem eid80_outside (e : IVec S1024x77 32) (j : S1024x80.Idx) (h : ¬ (j 1).val < 77) : eid80 e j = 49408#32 := by
  unfold eid80
  rw [pad_apply_of_not_inside _ _ _ _ _ _ _ j (1 : Fin 2) (by
    intro hc; apply h; have := hc.2.2; simpa using this)]
  rfl

/-- Every padded id names a word of the 49424-word buffer below its last 16 words, or the first dump word. -/
theorem eid80_le (a4 e : IVec S1024x77 32) (ha : ∀ j, (a4 j).toNat < 49408) (he : ∀ i, e i = a4 i ∨ e i = 49408#32) (j : S1024x80.Idx) :
    (eid80 e j).toNat ≤ 49408 := by
  by_cases h : (j 1).val < 77
  · rw [eid80_inside e j h]
    rcases he (ValueIdx.ix2 (j 0) ⟨(j 1).val, h⟩) with h' | h'
    · rw [h']; exact Nat.le_of_lt (ha _)
    · rw [h']; decide
  · rw [eid80_outside e j h]; decide

/-- A column below 49408 that is none of its row's ids is none of the row's padded deduplicated ids. -/
theorem eid80_ne (a4 e : IVec S1024x77 32) (he : ∀ i, e i = a4 i ∨ e i = 49408#32) (p : S1024x49408.Idx)
    (hp : ∀ j : S1024x77.Idx, (j 0).val = (p 0).val → (a4 j).toNat ≠ (p 1).val) (j : S1024x80.Idx) (hj : (j 0).val = (p 0).val) :
    (eid80 e j).toNat ≠ (p 1).val := by
  have hp1 : (p 1).val < 49408 := (p 1).isLt
  by_cases h : (j 1).val < 77
  · rw [eid80_inside e j h]
    rcases he (ValueIdx.ix2 (j 0) ⟨(j 1).val, h⟩) with h' | h'
    · rw [h']; exact hp _ hj
    · rw [h']; show 49408 ≠ _; omega
  · rw [eid80_outside e j h]; show 49408 ≠ _; omega

end Cert.Kernel.Pf
end
-- ==== Proof.Bits.Main.lean ====
/-
  @main on the TensorCore and the program's run: the launch element, the host operations around the TensorCore region
  and the SparseCore call, and what the final memory holds.
-/
import proofs.«211129_g5394478924152_cont_9to1c4b_288_8_alg».proof.Proof.Bits.Launch
import proofs.«211129_g5394478924152_cont_9to1c4b_288_8_alg».proof.Proof.Bits.Hit
import proofs.«211129_g5394478924152_cont_9to1c4b_288_8_alg».proof.Proof.Gen.Kernel.Launch
import Idealize.ShloMosaic.Lib.Pipeline.Sound

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

/-! ## The launch element -/

/-- The pipeline's staging cells' launch element. -/
def pipeInit : UP := initOf (Pipeline.cells (nD := nD) (τ := τ) cfgs Gen.cellOf_inj) (Pipeline.launchToks (nD := nD) (τ := τ) cfgs Gen.cellOf_inj)
/-- The certificate's launch element: the handshakes' rounds, the pipeline cells' rounds, the counters' unit. -/
def u₀ : UU := (initOf (K (F := F)).hsCells (K (F := F)).hsToks, (pipeInit, 1))

/-- What the launch deals the TensorCore of `d` for the region: its staging cells' ghost state and duty tokens. -/
def G (d : Dev nD) : sProp (MM F) := iprop(Pipeline.cellsGhost cfgs EP (0 : Fin 1) d ∗ Pipeline.toksInit cfgs EP (0 : Fin 1) d)

omit [FloatOps F] in
theorem bigSep_emp' {I : Type} (s : Finset I) : (bigSep s fun _ => iprop(emp)) = (iprop(emp) : sProp (MM F)) := bigSep_emp_const s

omit [FloatOps F] in
theorem own_EP : (BI.own (((Emb.inl : Emb UP (UP × Counters)).trans (embR : Emb (UP × Counters) (MM F))) pipeInit) : sProp (MM F))
    ⊢ BI.own ((EP (F := F)) (initOf (Pipeline.cells (nD := nD) (τ := τ) cfgs Gen.cellOf_inj) (Pipeline.launchToks (nD := nD) (τ := τ) cfgs Gen.cellOf_inj))) :=
  BI.Entails.refl _

omit [FloatOps F] in
theorem ghost_deal :
    iprop((bigSep Finset.univ fun c : Dev nD => bigSep Finset.univ fun p : Fin 1 => Pipeline.cellsGhost cfgs (EP (F := F)) p c)
      ∗ (bigSep Finset.univ fun c : Dev nD => bigSep Finset.univ fun p : Fin 1 => (Pipeline.toksInit cfgs (EP (F := F)) p c : sProp (MM F))))
    ⊢ bigSep Finset.univ fun d : Dev nD => G (F := F) d := by
  have e1 : (bigSep Finset.univ fun c : Dev nD => bigSep Finset.univ fun p : Fin 1 => Pipeline.cellsGhost cfgs (EP (F := F)) p c)
      = bigSep Finset.univ fun d : Dev nD => Pipeline.cellsGhost cfgs (EP (F := F)) (0 : Fin 1) d :=
    bigSep_congr fun d _ => bigSep_univ_of_subsingleton (0 : Fin 1)
  have e2 : (bigSep Finset.univ fun c : Dev nD => bigSep Finset.univ fun p : Fin 1 => (Pipeline.toksInit cfgs (EP (F := F)) p c : sProp (MM F)))
      = bigSep Finset.univ fun d : Dev nD => Pipeline.toksInit cfgs (EP (F := F)) (0 : Fin 1) d :=
    bigSep_congr fun d _ => bigSep_univ_of_subsingleton (0 : Fin 1)
  unfold G
  rw [bigSep_sep', e1, e2]

theorem hu₀ (T80 : (d : Dev nD) → Buf (Elt F) (tokLoc d)) (E80 : (d : Dev nD) → Buf (Elt F) (eidLoc d)) :
    (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P T80 E80).x q thr) := by
  unfold u₀
  iintro Hu
  ihave H := (ownU_pair _ _) $$ Hu
  icases H with ⟨HH, HR⟩
  ihave HR' := (own_pair_emb (embR : Emb (UP × Counters) (MM F)) pipeInit 1) $$ HR
  icases HR' with ⟨HP, -⟩
  ihave HP' := (own_EP (F := F)) $$ HP
  imod (Pipeline.fund_ghost (nD := nD) (τ := τ) cfgs (EP (F := F)) Gen.cellOf_inj) $$ HP' with ⟨Hg, Ht⟩
  imodintro
  isplitl [HH]; · iexact HH
  isplitl [Hg Ht]
  · iapply (ghost_deal (F := F))
    isplitl [Hg] <;> iassumption
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

end Cert.Kernel.Pf

end
-- ==== Proof.Bits.Call.lean ====
/-
  The SparseCore call as the TensorCore sees it: the two padded inputs and the output, held whole, split into the 32
  workers' rows going in, and the rows rejoin coming back, the output zero off every row's ids.
-/
import proofs.«211129_g5394478924152_cont_9to1c4b_288_8_alg».proof.Proof.Bits.Launch

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
/-- Over the two SparseCores and their sixteen subcores is over the 32 workers. -/
theorem bigSep_wid (Φ : Fin 32 → sProp (MM F)) :
    (bigSep Finset.univ fun c : Fin ((K (F := F)).nCore 0) => bigSep Finset.univ fun i : Fin 16 => Φ (widOf (Fin.cast nCore_zero c) i))
      = bigSep Finset.univ Φ := by
  show (bigSep (Finset.univ : Finset (Fin 2)) fun c => bigSep (Finset.univ : Finset (Fin 16)) fun i => Φ (finProdFinEquiv (i, c))) = _
  rw [bigSep_univ_comm, ← bigSep_univ_prod (fun p : Fin 16 × Fin 2 => Φ (finProdFinEquiv p))]
  exact (bigSep_univ_equiv (finProdFinEquiv (m := 16) (n := 2)) (Φ : Fin (16 * 2) → sProp (MM F))).symm

omit [FloatOps F] in
theorem tok_rows (d : Dev nD) (f : Buf (Elt F) (tokLoc d)) :
    (tokLoc d ↦{fullShare} f : sProp (MM F)) = bigSep Finset.univ fun w : Fin 32 => tokLoc d ↦[rows80 w]{fullShare} f := by
  rw [← pointsTo_biUnion Finset.univ (ℓ := tokLoc d) rows80 rows80_disjoint, rows80_cover]; try rfl
omit [FloatOps F] in
theorem eid_rows (d : Dev nD) (f : Buf (Elt F) (eidLoc d)) :
    (eidLoc d ↦{fullShare} f : sProp (MM F)) = bigSep Finset.univ fun w : Fin 32 => eidLoc d ↦[rows80 w]{fullShare} f := by
  rw [← pointsTo_biUnion Finset.univ (ℓ := eidLoc d) rows80 rows80_disjoint, rows80_cover]; try rfl
omit [FloatOps F] in
theorem out_rows (d : Dev nD) (f : Buf (Elt F) (outLoc d)) :
    (outLoc d ↦{fullShare} f : sProp (MM F)) = bigSep Finset.univ fun w : Fin 32 => outLoc d ↦[rowsOut w]{fullShare} f := by
  rw [← pointsTo_biUnion Finset.univ (ℓ := outLoc d) rowsOut rowsOut_disjoint, rowsOut_cover]; try rfl

theorem go_intro (d : Dev nD) (w : Fin 32) (T80 : Buf (Elt F) (tokLoc d)) (E80 : Buf (Elt F) (eidLoc d)) (f : Buf (Elt F) (outLoc d)) :
    iprop((tokLoc d ↦[rows80 w]{fullShare} T80) ∗ (eidLoc d ↦[rows80 w]{fullShare} E80) ∗ (outLoc d ↦[rowsOut w]{fullShare} f))
      ⊢ (goRes d w T80 E80 : sProp (MM F)) := by
  unfold goRes
  iintro ⟨Ht, He, Ho⟩
  isplitl [Ht]; · iexact Ht
  isplitl [He]; · iexact He
  iexists f; iexact Ho

/-- Going in: the three arrays whole are every SparseCore's start payload. -/
theorem st_all (T80 : (d : Dev nD) → Buf (Elt F) (tokLoc d)) (E80 : (d : Dev nD) → Buf (Elt F) (eidLoc d)) (d : Dev nD) (f : Buf (Elt F) (outLoc d)) :
    iprop((tokLoc d ↦{fullShare} T80 d) ∗ (eidLoc d ↦{fullShare} E80 d) ∗ (outLoc d ↦{fullShare} f))
      ⊢ (bigSep Finset.univ fun c : Fin ((K (F := F)).nCore 0) => (P T80 E80).st 0 d c : sProp (MM F)) := by
  show _ ⊢ bigSep Finset.univ fun c : Fin ((K (F := F)).nCore 0) => bigSep Finset.univ fun i : Fin 16 => goRes d (widOf (Fin.cast nCore_zero c) i) (T80 d) (E80 d)
  rw [bigSep_wid (F := F) (fun w => goRes d w (T80 d) (E80 d)), tok_rows, eid_rows, out_rows, ← bigSep_sep', ← bigSep_sep']
  exact bigSep_mono fun w _ => go_intro d w (T80 d) (E80 d) f

/-- Coming back: every SparseCore's done payload is the two inputs whole and the output whole at some contents that are
    zero off every row's ids. -/
theorem dn_all (T80 : (d : Dev nD) → Buf (Elt F) (tokLoc d)) (E80 : (d : Dev nD) → Buf (Elt F) (eidLoc d)) (d : Dev nD) :
    (bigSep Finset.univ fun c : Fin ((K (F := F)).nCore 0) => (P T80 E80).dn 0 d c : sProp (MM F))
      ⊢ iprop((tokLoc d ↦{fullShare} T80 d) ∗ (eidLoc d ↦{fullShare} E80 d) ∗ ∃ f, ⌜∀ w, ZeroOff w (E80 d) f⌝ ∗ (outLoc d ↦{fullShare} f)) := by
  show (bigSep Finset.univ fun c : Fin ((K (F := F)).nCore 0) => bigSep Finset.univ fun i : Fin 16 => tdRes d (widOf (Fin.cast nCore_zero c) i) (T80 d) (E80 d)) ⊢ _
  rw [bigSep_wid (F := F) (fun w => tdRes d w (T80 d) (E80 d)), tok_rows, eid_rows]
  unfold tdRes
  rw [bigSep_sep', bigSep_sep']
  iintro ⟨Ht, He, Ho⟩
  isplitl [Ht]; · iexact Ht
  isplitl [He]; · iexact He
  ihave Ho' := (bigSep_exists_pi Finset.univ (fun (w : Fin 32) (f : Buf (Elt F) (outLoc d)) => iprop(⌜ZeroOff w (E80 d) f⌝ ∗ outLoc d ↦[rowsOut w]{fullShare} f))) $$ Ho
  icases Ho' with ⟨%fs, Ho⟩
  ihave Ho2 := (bigSep_pure_sep Finset.univ (fun w : Fin 32 => ZeroOff w (E80 d) (fs w)) (fun w => outLoc d ↦[rowsOut w]{fullShare} fs w)) $$ Ho
  icases Ho2 with ⟨%hz, Ho⟩
  ihave Ho3 := (pointsTo_biUnion_join Finset.univ rowsOut fs (fs 0) rowsOut_disjoint) $$ Ho
  icases Ho3 with ⟨%g, %hg, Hg⟩
  rw [rowsOut_cover]
  iexists g
  isplitr
  · ipureintro
    intro w i hi hne
    rw [hg w (Finset.mem_univ w) i hi]
    exact hz w (Finset.mem_univ w) i hi hne
  · iexact Hg

end Cert.Kernel.Pf

end
-- ==== Proof.Bits.Segs.lean ====
/-
  @main of the kernel program cut at its two calls: the host operations before the TensorCore region, between the region
  and the SparseCore call, and after it, each stretch as a list.
-/
import proofs.«211129_g5394478924152_cont_9to1c4b_288_8_alg».proof.Kernel
import proofs.«211129_g5394478924152_cont_9to1c4b_288_8_alg».proof.Proof.Gen.Kernel
import Idealize.ShloMosaic.Lib.StableHlo.Run

noncomputable section

namespace Cert.Kernel.Pf

open Cert.Kernel Idealize.ShloMosaic Idealize.ShloMosaic.TcCoe Idealize.SL.Sem Idealize.ShloMosaic.StableHlo
open Cert.Kernel.Facts₀ Cert.Kernel.Facts

variable {F : FTy → Type} [FloatOps F]

/-- The bias reshaped to `[1, 1]`. -/
abbrev ops1 : List (HloOp τ sig (Elt F)) :=
  [ StableHlo.reshape main_arg3 main_v0 rfl shapeCasts_S1_S1x1 ]

/-- The two results padded from 77 to 80 positions: the weights with 0, the ids with the dump id 49408. -/
abbrev ops2 : List (HloOp τ sig (Elt F)) :=
  [ StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S1024x77, .f32⟩) main_v1_0) (StableHlo.TRef.of (T := ⟨S_, .f32⟩) main_call0_v0) (StableHlo.TRef.of (T := ⟨S1024x80, .f32⟩) main_v2) (fun x v => pad S1024x80 ![0, 0] ![0, 3] ![0, 0] x v pads_S1024x77_S1024x80_000_030 h_S_),
    StableHlo.nullary main_c_0 (constantI S_ 32 49408#32),
    StableHlo.TRef.binary (StableHlo.TRef.of (T := ⟨S1024x77, .i32⟩) main_v1_1) (StableHlo.TRef.of (T := ⟨S_, .i32⟩) main_c_0) (StableHlo.TRef.of (T := ⟨S1024x80, .i32⟩) main_v3) (fun x v => pad S1024x80 ![0, 0] ![0, 3] ![0, 0] x v pads_S1024x77_S1024x80_000_030 h_S_) ]

/-- The final scatter's index array (row, id) and the scatter of the weights into the SparseCore call's result. -/
abbrev ops3 : List (HloOp τ sig (Elt F)) :=
  [ StableHlo.nullary main_v5 (iotaInDim S1024 32 0),
    StableHlo.unary main_v5 main_v6 (broadcastInDim S1024x1 ![0] bcast_S1024_S1024x1_0 : (⟨S1024, .i32⟩ : BufTy).Contents (Elt F) → (⟨S1024x1, .i32⟩ : BufTy).Contents (Elt F)),
    StableHlo.unary main_v6 main_v7 (broadcastInDim S1024x77 ![0, 1] bcast_S1024x1_S1024x77_0_1 : (⟨S1024x1, .i32⟩ : BufTy).Contents (Elt F) → (⟨S1024x77, .i32⟩ : BufTy).Contents (Elt F)),
    StableHlo.nullary main_c_1 (constantI S_ 32 0#32),
    StableHlo.unary main_c_1 main_v8 (broadcastInDim S1024x77 ![] bcast_S_S1024x77 : (⟨S_, .i32⟩ : BufTy).Contents (Elt F) → (⟨S1024x77, .i32⟩ : BufTy).Contents (Elt F)),
    StableHlo.binary main_v7 main_v8 main_v9 (cmpi .slt : (⟨S1024x77, .i32⟩ : BufTy).Contents (Elt F) → (⟨S1024x77, .i32⟩ : BufTy).Contents (Elt F) → (⟨S1024x77, .i1⟩ : BufTy).Contents (Elt F)),
    StableHlo.nullary main_c_2 (constantI S_ 32 1024#32),
    StableHlo.unary main_c_2 main_v10 (broadcastInDim S1024x77 ![] bcast_S_S1024x77 : (⟨S_, .i32⟩ : BufTy).Contents (Elt F) → (⟨S1024x77, .i32⟩ : BufTy).Contents (Elt F)),
    StableHlo.binary main_v7 main_v10 main_v11 (addi : (⟨S1024x77, .i32⟩ : BufTy).Contents (Elt F) → (⟨S1024x77, .i32⟩ : BufTy).Contents (Elt F) → (⟨S1024x77, .i32⟩ : BufTy).Contents (Elt F)),
    StableHlo.ternary main_v9 main_v11 main_v7 main_v12 (select : (⟨S1024x77, .i1⟩ : BufTy).Contents (Elt F) → (⟨S1024x77, .i32⟩ : BufTy).Contents (Elt F) → (⟨S1024x77, .i32⟩ : BufTy).Contents (Elt F) → (⟨S1024x77, .i32⟩ : BufTy).Contents (Elt F)),
    StableHlo.nullary main_c_3 (constantI S_ 32 0#32),
    StableHlo.unary main_c_3 main_v13 (broadcastInDim S1024x77 ![] bcast_S_S1024x77 : (⟨S_, .i32⟩ : BufTy).Contents (Elt F) → (⟨S1024x77, .i32⟩ : BufTy).Contents (Elt F)),
    StableHlo.binary main_arg4 main_v13 main_v14 (cmpi .slt : (⟨S1024x77, .i32⟩ : BufTy).Contents (Elt F) → (⟨S1024x77, .i32⟩ : BufTy).Contents (Elt F) → (⟨S1024x77, .i1⟩ : BufTy).Contents (Elt F)),
    StableHlo.nullary main_c_4 (constantI S_ 32 49408#32),
    StableHlo.unary main_c_4 main_v15 (broadcastInDim S1024x77 ![] bcast_S_S1024x77 : (⟨S_, .i32⟩ : BufTy).Contents (Elt F) → (⟨S1024x77, .i32⟩ : BufTy).Contents (Elt F)),
    StableHlo.binary main_arg4 main_v15 main_v16 (addi : (⟨S1024x77, .i32⟩ : BufTy).Contents (Elt F) → (⟨S1024x77, .i32⟩ : BufTy).Contents (Elt F) → (⟨S1024x77, .i32⟩ : BufTy).Contents (Elt F)),
    StableHlo.ternary main_v14 main_v16 main_arg4 main_v17 (select : (⟨S1024x77, .i1⟩ : BufTy).Contents (Elt F) → (⟨S1024x77, .i32⟩ : BufTy).Contents (Elt F) → (⟨S1024x77, .i32⟩ : BufTy).Contents (Elt F) → (⟨S1024x77, .i32⟩ : BufTy).Contents (Elt F)),
    StableHlo.unary main_v12 main_v18 (broadcastInDim S1024x77x1 ![0, 1] bcast_S1024x77_S1024x77x1_0_1 : (⟨S1024x77, .i32⟩ : BufTy).Contents (Elt F) → (⟨S1024x77x1, .i32⟩ : BufTy).Contents (Elt F)),
    StableHlo.unary main_v17 main_v19 (broadcastInDim S1024x77x1 ![0, 1] bcast_S1024x77_S1024x77x1_0_1 : (⟨S1024x77, .i32⟩ : BufTy).Contents (Elt F) → (⟨S1024x77x1, .i32⟩ : BufTy).Contents (Elt F)),
    StableHlo.binary main_v18 main_v19 main_v20 ((fun a b => concatenate S1024x77x2 2 [⟨S1024x77x1, a⟩, ⟨S1024x77x1, b⟩] concatenates_S1024x77x1_S1024x77x1_S1024x77x2_d2) : (⟨S1024x77x1, .i32⟩ : BufTy).Contents (Elt F) → (⟨S1024x77x1, .i32⟩ : BufTy).Contents (Elt F) → (⟨S1024x77x2, .i32⟩ : BufTy).Contents (Elt F)),
    StableHlo.ternary main_v4 main_v20 main_v1_0 main_v21 ((fun x i u => Host.scatter scatter_S1024x49408_S1024x77x2_S1024x77_n_01_01_2 (fun _ b => b) x i u) : (⟨S1024x49408, .f32⟩ : BufTy).Contents (Elt F) → (⟨S1024x77x2, .i32⟩ : BufTy).Contents (Elt F) → (⟨S1024x77, .f32⟩ : BufTy).Contents (Elt F) → (⟨S1024x49408, .f32⟩ : BufTy).Contents (Elt F)) ]

theorem main_eq (d : Dev nD) : main (F := F) d
    = (seq ops1 >>= fun _ => Prog.lift (.customCall (SparseCore.inner (Pipeline.entry 0)) ()) >>= fun _ =>
        seq ops2 >>= fun _ => sc.run d 0 >>= fun _ => seq ops3) := rfl

end Cert.Kernel.Pf

end
-- ==== Proof.Bits.TcValue.lean ====
/-
  The TensorCore call's results as whole-array functions of its operands: the body's two payloads applied to the
  blocks of eight batch rows a grid point stages, read at the row's place inside its block.
-/
import proofs.«211129_g5394478924152_cont_9to1c4b_288_8_alg».proof.Proof.Gen.Kernel.Skeleton
import Idealize.ShloMosaic.Lib.ValueIdx

noncomputable section

namespace Cert.Kernel.Pf

open Cert.Kernel Cert.Kernel.Gen
open Idealize.ShloMosaic Idealize.ShloMosaic.ValueIdx

variable {F : FTy → Type} [FloatOps F]

/-- Batch rows `8 g … 8 g + 7` of a `[1024, 77, 768]` array. -/
def rows3 (a : Vec F S1024x77x768 .f32) (g : Fin 128) : Vec F S8x77x768 .f32 := fun j =>
  a (ix3 (⟨8 * g.val + (j 0).val, by have h : (j 0).val < 8 := (j 0).isLt; have := g.isLt; omega⟩ : Fin 1024) (j 1 : Fin 77) (j 2 : Fin 768))

/-- Batch rows `8 g … 8 g + 7` of a `[1024, 77]` array. -/
def rows2 {e : EltTy} (a : Vec F S1024x77 e) (g : Fin 128) : Vec F S8x77 e := fun j =>
  a (ix2 (⟨8 * g.val + (j 0).val, by have h : (j 0).val < 8 := (j 0).isLt; have := g.isLt; omega⟩ : Fin 1024) (j 1 : Fin 77))

/-- What grid point `g` leaves in the first result's block: the first payload of the operands' blocks there. -/
def tokBlk (a0 : Vec F S1024x77x768 .f32) (a1 : Vec F S1024x77 .f32) (a2 : Vec F S1x768 .f32) (v0 : Vec F S1x1 .f32) (g : Fin 128) :
    Vec F S8x77 .f32 :=
  k0_pay1 (rows3 a0 g) a2 v0 (rows2 a1 g)

/-- What grid point `g` leaves in the second result's block: the second payload of the ids' block there. -/
def eidBlk (a4 : Vec F S1024x77 .i32) (g : Fin 128) : Vec F S8x77 .i32 :=
  k0_pay2 (F := F) (rows2 a4 g)

/-- The first result, whole: row `b` is row `b % 8` of block `b / 8`. -/
def tokVal (a0 : Vec F S1024x77x768 .f32) (a1 : Vec F S1024x77 .f32) (a2 : Vec F S1x768 .f32) (v0 : Vec F S1x1 .f32) :
    Vec F S1024x77 .f32 := fun i =>
  tokBlk a0 a1 a2 v0 ⟨(i 0).val / 8, by have h : (i 0).val < 1024 := (i 0).isLt; omega⟩
    (ix2 (⟨(i 0).val % 8, Nat.mod_lt _ (by decide)⟩ : Fin 8) (i 1 : Fin 77))

/-- The second result, whole. -/
def eidVal (a4 : Vec F S1024x77 .i32) : Vec F S1024x77 .i32 := fun i =>
  eidBlk (F := F) a4 ⟨(i 0).val / 8, by have h : (i 0).val < 1024 := (i 0).isLt; omega⟩
    (ix2 (⟨(i 0).val % 8, Nat.mod_lt _ (by decide)⟩ : Fin 8) (i 1 : Fin 77))

/-- Row `y 0` of block `g` is row `8 g + y 0` of the array: quotient and remainder by eight. -/
theorem blk_idx (g : Fin 128) (y : S8x77.Idx) (h : 8 * g.val + (y 0).val < 1024) :
    (⟨(8 * g.val + (y 0).val) / 8, by omega⟩ : Fin 128) = g
    ∧ (ix2 (⟨(8 * g.val + (y 0).val) % 8, Nat.mod_lt _ (by decide)⟩ : Fin 8) (y 1 : Fin 77) : S8x77.Idx) = y := by
  have hy0 : (y 0).val < 8 := (y 0).isLt
  refine ⟨Fin.ext (by show (8 * g.val + (y 0).val) / 8 = g.val; omega), ?_⟩
  funext a
  match a with
  | ⟨0, _⟩ => exact Fin.ext (by show (8 * g.val + (y 0).val) % 8 = (y 0).val; omega)
  | ⟨1, _⟩ => rfl

/-- The first result at row `8 g + y 0` is block `g`'s at `y`. -/
theorem tokVal_blk (a0 : Vec F S1024x77x768 .f32) (a1 : Vec F S1024x77 .f32) (a2 : Vec F S1x768 .f32) (v0 : Vec F S1x1 .f32)
    (g : Fin 128) (y : S8x77.Idx) (h : 8 * g.val + (y 0).val < 1024) :
    tokVal a0 a1 a2 v0 (ix2 (⟨8 * g.val + (y 0).val, h⟩ : Fin 1024) (y 1 : Fin 77)) = tokBlk a0 a1 a2 v0 g y := by
  obtain ⟨hg, hy⟩ := blk_idx g y h
  show tokBlk a0 a1 a2 v0 ⟨(8 * g.val + (y 0).val) / 8, _⟩ (ix2 (⟨(8 * g.val + (y 0).val) % 8, _⟩ : Fin 8) (y 1 : Fin 77)) = _
  rw [hg, hy]

/-- The second result at row `8 g + y 0` is block `g`'s at `y`. -/
theorem eidVal_blk (a4 : Vec F S1024x77 .i32) (g : Fin 128) (y : S8x77.Idx) (h : 8 * g.val + (y 0).val < 1024) :
    eidVal (F := F) a4 (ix2 (⟨8 * g.val + (y 0).val, h⟩ : Fin 1024) (y 1 : Fin 77)) = eidBlk (F := F) a4 g y := by
  obtain ⟨hg, hy⟩ := blk_idx g y h
  show eidBlk (F := F) a4 ⟨(8 * g.val + (y 0).val) / 8, _⟩ (ix2 (⟨(8 * g.val + (y 0).val) % 8, _⟩ : Fin 8) (y 1 : Fin 77)) = _
  rw [hg, hy]

/-- An index of the array is row `i 0 % 8` of block `i 0 / 8`. -/
theorem rows2_div_mod {e : EltTy} (a : Vec F S1024x77 e) (i : S1024x77.Idx) :
    rows2 a ⟨(i 0).val / 8, by have h : (i 0).val < 1024 := (i 0).isLt; omega⟩
      (ix2 (⟨(i 0).val % 8, Nat.mod_lt _ (by decide)⟩ : Fin 8) (i 1 : Fin 77)) = a i := by
  unfold rows2
  refine congrArg a ?_
  funext d
  match d with
  | ⟨0, _⟩ => exact Fin.ext (by show 8 * ((i 0).val / 8) + (i 0).val % 8 = (i 0).val; omega)
  | ⟨1, _⟩ => rfl

/-- The second result is, at every index, the id there or the constant the body's last select puts in its place. -/
theorem eidVal_range (a4 : Vec F S1024x77 .i32) (i : S1024x77.Idx) :
    eidVal (F := F) a4 i = a4 i ∨ eidVal (F := F) a4 i = 49408#32 := by
  unfold eidVal eidBlk k0_pay2
  rw [select_apply, rows2_div_mod]
  by_cases hc : (cmpi .eq
      (multiReductionI .maxsi [2] S8x77
        (select (andi (cmpi .eq (broadcastTo S8x77x77 (shapeCast S8x77x1 (rows2 a4 ⟨(i 0).val / 8, by have h : (i 0).val < 1024 := (i 0).isLt; omega⟩) shapeCasts_S8x77_S8x77x1) broadcasts_S8x77x1_S8x77x77)
            (broadcastTo S8x77x77 (shapeCast S8x1x77 (rows2 a4 ⟨(i 0).val / 8, by have h : (i 0).val < 1024 := (i 0).isLt; omega⟩) shapeCasts_S8x77_S8x1x77) broadcasts_S8x1x77_S8x77x77))
          (cmpi .sgt (iota .tc S8x77x77 32 [2] iota_S8x77x77_d2_w32) (iota .tc S8x77x77 32 [1] iota_S8x77x77_d1_w32)))
          (broadcast S8x77x77 1#32) (broadcast S8x77x77 0#32))
        2147483648#32 reduces_S8x77x77_S8x77 rfl)
      (broadcast S8x77 1#32)) (ix2 (⟨(i 0).val % 8, Nat.mod_lt _ (by decide)⟩ : Fin 8) (i 1 : Fin 77)) = 1#1
  · right; rw [hc, select_one]; rfl
  · left; rw [eq_zero_of_ne_one hc, select_zero]

end Cert.Kernel.Pf

end
-- ==== Proof.Bits.Vals.lean ====
/-
  The values the kernel program's run passes along, as functions of the launch memory: the TensorCore region's two
  results, their padded forms the SparseCore call reads, and the final array — the scatter of the weights at (row, id)
  into an array that is zero off every row's ids, which is the scatter into the all-zero array.
-/
import proofs.«211129_g5394478924152_cont_9to1c4b_288_8_alg».proof.Proof.Bits.TileRes
import proofs.«211129_g5394478924152_cont_9to1c4b_288_8_alg».proof.Proof.Bits.TcValue
import proofs.«211129_g5394478924152_cont_9to1c4b_288_8_alg».proof.Proof.Bits.Hit

noncomputable section

namespace Cert.Kernel.Pf

open Cert.Kernel Idealize.ShloMosaic
open Idealize.ShloMosaic.SparseCore (T)

variable {F : FTy → Type} [FloatOps F]

/-- The bias `[1]` reshaped to `[1, 1]`. -/
def v0K (a3 : Vec F S1 .f32) : Vec F S1x1 .f32 := shapeCast S1x1 a3 Facts₀.shapeCasts_S1_S1x1

/-- The token weights `[1024, 77]` padded with 0 to 80 positions. -/
def tok80 (tok : Vec F S1024x77 .f32) : Vec F S1024x80 .f32 :=
  pad S1024x80 ![0, 0] ![0, 3] ![0, 0] tok (sitofp .f32 (constantI S_ 32 0#32) : Vec F S_ .f32) Facts₀.pads_S1024x77_S1024x80_000_030 Facts₀.h_S_

/-- The final array: the weights scattered at (row, id) into zeros. -/
def finalK (a4 : Vec F S1024x77 .i32) (tok : Vec F S1024x77 .f32) : Vec F S1024x49408 .f32 :=
  Host.scatter sdK (fun _ b => b) (fun _ => zeroF) (idxK a4) tok

/-- The scatter into an array that is zero off every row's padded deduplicated ids is the scatter into zeros. -/
theorem final_scatter {d : Dev nD} (a4 : Vec F S1024x77 .i32) (ha : ∀ j, (a4 j).toNat < 49408) (tok : Vec F S1024x77 .f32)
    (f : Buf (Elt F) (outLoc d)) (hz : ∀ w, ZeroOff (F := F) (d := d) w (eid80 (eidVal (F := F) a4)) f) :
    Host.scatter sdK (fun _ b => b) f (idxK a4) tok = finalK a4 tok := by
  unfold finalK
  refine scatter_bridge a4 ha tok f (fun _ => zeroF) fun p hp => ?_
  have hw : (p 0).val / 32 < 32 := by have : (p 0).val < 1024 := (p 0).isLt; omega
  refine hz ⟨(p 0).val / 32, hw⟩ p (mem_rowsOut.mpr ⟨by show 32 * ((p 0).val / 32) ≤ _; omega, by show _ < 32 * ((p 0).val / 32) + 32; omega⟩) fun j hj => ?_
  exact eid80_ne a4 (eidVal (F := F) a4) (eidVal_range a4) p hp j hj

/-- The padded ids are in range of the 49424-word buffer's index assumption. -/
theorem eid80_ok (a4 : Vec F S1024x77 .i32) (ha : ∀ j, (a4 j).toNat < 49408) (j : S1024x80.Idx) :
    (eid80 (eidVal (F := F) a4) j).toNat ≤ 49408 :=
  eid80_le a4 (eidVal (F := F) a4) ha (eidVal_range a4) j

end Cert.Kernel.Pf

end
-- ==== Proof.Bits.HostVals.lean ====
/-
  What the host operations around the two calls compute, read off the lists.
-/
import proofs.«211129_g5394478924152_cont_9to1c4b_288_8_alg».proof.Proof.Bits.Segs
import proofs.«211129_g5394478924152_cont_9to1c4b_288_8_alg».proof.Proof.Bits.Vals

noncomputable section

namespace Cert.Kernel.Pf

open Cert.Kernel Idealize.ShloMosaic Idealize.ShloMosaic.TcCoe Idealize.SL.Sem Idealize.ShloMosaic.StableHlo

variable {F : FTy → Type} [FloatOps F]

/-- A TensorCore reference as a device buffer. -/
abbrev R (b : Ref sig .tc) : DevRef τ sig := Proc.devRef .tc b

theorem after1_v0 (V : Valuation τ sig (Elt F)) : after ops1 V (R main_v0) = v0K (V (R main_arg3)) := by
  after_results_simp <;> rfl

theorem after2_v2 (V : Valuation τ sig (Elt F)) : after ops2 V (R main_v2) = tok80 (V (R main_v1_0)) := by
  after_results_simp <;> rfl

theorem after2_v3 (V : Valuation τ sig (Elt F)) : after ops2 V (R main_v3) = eid80 (V (R main_v1_1)) := by
  after_results_simp <;> rfl

theorem after3_v21 (V : Valuation τ sig (Elt F)) :
    after ops3 V (R main_v21) = Host.scatter sdK (fun _ b => b) (V (R main_v4)) (idxK (V (R main_arg4))) (V (R main_v1_0)) := by
  after_results_simp <;> rfl

/-! ## What the stretches leave alone -/

theorem after2_main_arg0 (V : Valuation τ sig (Elt F)) : after ops2 V (R main_arg0) = V (R main_arg0) := by
  after_results_simp <;> rfl
theorem after2_main_arg1 (V : Valuation τ sig (Elt F)) : after ops2 V (R main_arg1) = V (R main_arg1) := by
  after_results_simp <;> rfl
theorem after2_main_arg2 (V : Valuation τ sig (Elt F)) : after ops2 V (R main_arg2) = V (R main_arg2) := by
  after_results_simp <;> rfl
theorem after2_main_arg3 (V : Valuation τ sig (Elt F)) : after ops2 V (R main_arg3) = V (R main_arg3) := by
  after_results_simp <;> rfl
theorem after2_main_arg4 (V : Valuation τ sig (Elt F)) : after ops2 V (R main_arg4) = V (R main_arg4) := by
  after_results_simp <;> rfl
theorem after2_main_v1_0 (V : Valuation τ sig (Elt F)) : after ops2 V (R main_v1_0) = V (R main_v1_0) := by
  after_results_simp <;> rfl
theorem after3_main_arg0 (V : Valuation τ sig (Elt F)) : after ops3 V (R main_arg0) = V (R main_arg0) := by
  after_results_simp <;> rfl
theorem after3_main_arg1 (V : Valuation τ sig (Elt F)) : after ops3 V (R main_arg1) = V (R main_arg1) := by
  after_results_simp <;> rfl
theorem after3_main_arg2 (V : Valuation τ sig (Elt F)) : after ops3 V (R main_arg2) = V (R main_arg2) := by
  after_results_simp <;> rfl
theorem after3_main_arg3 (V : Valuation τ sig (Elt F)) : after ops3 V (R main_arg3) = V (R main_arg3) := by
  after_results_simp <;> rfl
theorem after3_main_arg4 (V : Valuation τ sig (Elt F)) : after ops3 V (R main_arg4) = V (R main_arg4) := by
  after_results_simp <;> rfl
theorem after1_main_arg0 (V : Valuation τ sig (Elt F)) : after ops1 V (R main_arg0) = V (R main_arg0) := by
  after_results_simp <;> rfl
theorem after1_main_arg1 (V : Valuation τ sig (Elt F)) : after ops1 V (R main_arg1) = V (R main_arg1) := by
  after_results_simp <;> rfl
theorem after1_main_arg2 (V : Valuation τ sig (Elt F)) : after ops1 V (R main_arg2) = V (R main_arg2) := by
  after_results_simp <;> rfl
theorem after1_main_arg3 (V : Valuation τ sig (Elt F)) : after ops1 V (R main_arg3) = V (R main_arg3) := by
  after_results_simp <;> rfl
theorem after1_main_arg4 (V : Valuation τ sig (Elt F)) : after ops1 V (R main_arg4) = V (R main_arg4) := by
  after_results_simp <;> rfl
theorem after1_main_v1_0 (V : Valuation τ sig (Elt F)) : after ops1 V (R main_v1_0) = V (R main_v1_0) := by
  after_results_simp <;> rfl
theorem after1_main_v1_1 (V : Valuation τ sig (Elt F)) : after ops1 V (R main_v1_1) = V (R main_v1_1) := by
  after_results_simp <;> rfl

end Cert.Kernel.Pf

end
-- ==== Proof.Bits.TcBody.lean ====
/-
  The TensorCore call's kernel body at a symbolic grid point, for the pipeline library: the body's triple on whole
  staging memrefs (five loads, two whole-block stores), the proof data of the call's pipeline — each operand's
  staging buffer at its block, each result's at its store's payload of the operand blocks — and the body obligation.
-/
import proofs.«211129_g5394478924152_cont_9to1c4b_288_8_alg».proof.Proof.Bits.Alg
import proofs.«211129_g5394478924152_cont_9to1c4b_288_8_alg».proof.Proof.Gen.Kernel.Launch
import proofs.«211129_g5394478924152_cont_9to1c4b_288_8_alg».proof.Proof.Gen.Kernel.Skeleton
import proofs.«211129_g5394478924152_cont_9to1c4b_288_8_alg».proof.Proof.Gen.Kernel.Points
import proofs.«211129_g5394478924152_cont_9to1c4b_288_8_alg».proof.Proof.Bits.TcValue
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Pf

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MM F

/-! ## The call's arrays, and the windows' blocks -/

/-- The call's seven arrays as the region finds them: the five operands and, at anything, the two results. -/
structure TcArgs (F : FTy → Type) where
  a0 : Vec F S1024x77x768 .f32
  a1 : Vec F S1024x77 .f32
  a2 : Vec F S1x768 .f32
  v0 : Vec F S1x1 .f32
  a4 : Vec F S1024x77 .i32
  o5 : Vec F S1024x77 .f32
  o6 : Vec F S1024x77 .i32

/-- The arrays, window by window. -/
def TcArgs.A (x : TcArgs F) (c : Dev nD) : (w : Fin cfg0.W) → Buf (Elt F) ((cfg0.win w).arr.view.loc (c.tc : Thread nD τ)) := fun w =>
  match w with
  | ⟨0, _⟩ => x.a0
  | ⟨1, _⟩ => x.a1
  | ⟨2, _⟩ => x.a2
  | ⟨3, _⟩ => x.v0
  | ⟨4, _⟩ => x.a4
  | ⟨5, _⟩ => x.o5
  | ⟨6, _⟩ => x.o6

/-- Window `w`'s block at point `t`, read off its array as the region finds it. -/
def iblk (x : TcArgs F) (c : Dev nD) (w : Fin cfg0.W) (t : Fin cfg0.N) : ((cfg0.win w).xblock (cfg0.grid.coords t)).Idx → Elt F (cfg0.win w).elt :=
  ((cfg0.win w).blk t).view.read (Elt F) (x.A c w)

/-! ## The body's accesses, and what it leaves in each result's buffer -/

abbrev rc3 : Rect S8x77x768 := Rect.unit (s := S8x77x768) ![0, 0, 0] S8x77x768.size inb_S8x77x768_S8x77x768_0_0_0
abbrev rcW : Rect S1x768 := Rect.unit (s := S1x768) ![0, 0] S1x768.size inb_S1x768_S1x768_0_0
abbrev rcB : Rect S1x1 := Rect.unit (s := S1x1) ![0, 0] S1x1.size inb_S1x1_S1x1_0_0
abbrev rc2 : Rect S8x77 := Rect.unit (s := S8x77) ![0, 0] S8x77.size inb_S8x77_S8x77_0_0

/-- The first result's staging buffer after the body, from the operand blocks: its one store as a piece. -/
def out5 (x0 : Vec F S8x77x768 .f32) (x1 : Vec F S8x77 .f32) (x2 : Vec F S1x768 .f32) (x3 : Vec F S1x1 .f32) : Vec F S8x77 .f32 :=
  View.canon [⟨rc2, k0_pay1 (View.ld x0 rc3) (View.ld x2 rcW) (View.ld x3 rcB) (View.ld x1 rc2)⟩]

/-- The second result's staging buffer after the body, from the ids' block: its one store as a piece. -/
def out6 (x4 : Vec F S8x77 .i32) : Vec F S8x77 .i32 :=
  View.canon [⟨rc2, k0_pay2 (F := F) (View.ld x4 rc2)⟩]

/-- One whole-block store covers the block. -/
theorem cover2 {e : EltTy} (p0 : Vec F S8x77 e) (y : S8x77.Idx) :
    ∃ pc ∈ ([⟨rc2, p0⟩] : List (View.Piece (Elt F) S8x77 e)), y ∈ pc.1.set :=
  View.cover_of_tiled [⟨rc2, p0⟩] S8x77.size (by rfl) y

/-! ## The body's triple -/

set_option maxHeartbeats 4000000 in
/-- The kernel body on whole staging memrefs, the operands' at read contents and the results' at anything, runs to the
    continuation holding the operands' as they were and each result's at its store's payload. -/
theorem sound_kernel (c : Dev nD) (E : Set ℕ) (i : grid0.Coords)
    (arg1 : Memref sig .tc .vmem S8x77x768 .f32) (harg1 : arg1.IsWhole) (arg2 : Memref sig .tc .vmem S8x77 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S8x77 .i32) (harg5 : arg5.IsWhole) (arg6 : Memref sig .tc .vmem S8x77 .f32) (harg6 : arg6.IsWhole)
    (arg7 : Memref sig .tc .vmem S8x77 .i32) (harg7 : arg7.IsWhole)
    (x0 : Vec F S8x77x768 .f32) (x1 : Vec F S8x77 .f32) (x2 : Vec F S1x768 .f32) (x3 : Vec F S1x1 .f32) (x4 : Vec F S8x77 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3) ∗ owns (c : Thread nD τ) arg7 fullShare (out6 x4)) -∗ K ⟨⟩))
      ⊢ wp frame (wpE (defs₀ (F := F)) Variants.none c none) E
          (cc0__tok_tc_kernel i arg1 harg1 arg2 harg2 arg3 harg3 arg4 harg4 arg5 harg5 arg6 harg6 arg7 harg7) K := by
  simp only [cc0__tok_tc_kernel_eq_skeleton]; unfold cc0__tok_tc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  · iexists _; isplitr
    swap; · iexact H6
    ipureintro
    exact View.read_writes_eq_canon _ _ _ (cover2 _)

/-! ## The pipeline's proof data -/

/-- The proof data of the call's pipeline on core `c`: the arrays as the region finds them; after the body at point
    `t` each operand's buffer at its block and each result's at its store's payload of the operand blocks; no
    invariant of the body's own; full shares; the core owing `O` throughout, its recorded pairs within `B`. -/
def dats (x : TcArgs F) (O : CellTallies nD τ sig (HIx 1)) (B : Set (SemLoc sig × HIx 1)) (_ : Fin 1) (c : Dev nD) :
    Dat τ (Elt F) (HIx 1) ℕ UU ℕ cfg0 c where
  A := x.A c
  after w t := match w with
    | ⟨0, _⟩ => iblk x c 0 t
    | ⟨1, _⟩ => iblk x c 1 t
    | ⟨2, _⟩ => iblk x c 2 t
    | ⟨3, _⟩ => iblk x c 3 t
    | ⟨4, _⟩ => iblk x c 4 t
    | ⟨5, _⟩ => out5 (iblk x c 0 t) (iblk x c 1 t) (iblk x c 2 t) (iblk x c 3 t)
    | ⟨6, _⟩ => out6 (iblk x c 4 t)
  Φ _ := iprop(emp)
  q _ := fullShare
  owed _ := O
  recorded _ := B

variable (x : TcArgs F) (O : CellTallies nD τ sig (HIx 1)) (B : Set (SemLoc sig × HIx 1))

theorem A_eq (c : Dev nD) (w : Fin cfg0.W) : (dats x O B 0 c).A w = x.A c w := rfl

/-- What the body leaves, window by window. -/
theorem after0_0 (c : Dev nD) (t : Fin cfg0.N) : (dats x O B 0 c).after 0 t = iblk x c 0 t := by dsimp only [dats]
theorem after0_1 (c : Dev nD) (t : Fin cfg0.N) : (dats x O B 0 c).after 1 t = iblk x c 1 t := by dsimp only [dats]
theorem after0_2 (c : Dev nD) (t : Fin cfg0.N) : (dats x O B 0 c).after 2 t = iblk x c 2 t := by dsimp only [dats]
theorem after0_3 (c : Dev nD) (t : Fin cfg0.N) : (dats x O B 0 c).after 3 t = iblk x c 3 t := by dsimp only [dats]
theorem after0_4 (c : Dev nD) (t : Fin cfg0.N) : (dats x O B 0 c).after 4 t = iblk x c 4 t := by dsimp only [dats]
theorem after0_5 (c : Dev nD) (t : Fin cfg0.N) :
    (dats x O B 0 c).after 5 t = out5 (iblk x c 0 t) (iblk x c 1 t) (iblk x c 2 t) (iblk x c 3 t) := by dsimp only [dats]
theorem after0_6 (c : Dev nD) (t : Fin cfg0.N) : (dats x O B 0 c).after 6 t = out6 (iblk x c 4 t) := by dsimp only [dats]

/-- Each operand's current staging buffer holds its block at every point, fetched there or not. -/
theorem before0_0 (c : Dev nD) (t : Fin cfg0.N) (d) : (dats x O B 0 c).before 0 t d = iblk x c 0 t :=
  ((dats x O B 0 c).before_in_eq_fetched 0 rfl (fun _ => rfl) (fun _ _ _ => rfl) (fun t => by rw [after0_0]; unfold Dat.blockOf iblk; rfl) t d).trans
    (by unfold Dat.fetched Dat.blockOf iblk; rfl)
theorem before0_1 (c : Dev nD) (t : Fin cfg0.N) (d) : (dats x O B 0 c).before 1 t d = iblk x c 1 t :=
  ((dats x O B 0 c).before_in_eq_fetched 1 rfl (fun _ => rfl) (fun _ _ _ => rfl) (fun t => by rw [after0_1]; unfold Dat.blockOf iblk; rfl) t d).trans
    (by unfold Dat.fetched Dat.blockOf iblk; rfl)
theorem before0_2 (c : Dev nD) (t : Fin cfg0.N) (d) : (dats x O B 0 c).before 2 t d = iblk x c 2 t :=
  ((dats x O B 0 c).before_in_eq_fetched 2 rfl (fun _ => rfl) (fun _ _ _ => rfl) (fun t => by rw [after0_2]; unfold Dat.blockOf iblk; rfl) t d).trans
    (by unfold Dat.fetched Dat.blockOf iblk; rfl)
theorem before0_3 (c : Dev nD) (t : Fin cfg0.N) (d) : (dats x O B 0 c).before 3 t d = iblk x c 3 t :=
  ((dats x O B 0 c).before_in_eq_fetched 3 rfl (fun _ => rfl) (fun _ _ _ => rfl) (fun t => by rw [after0_3]; unfold Dat.blockOf iblk; rfl) t d).trans
    (by unfold Dat.fetched Dat.blockOf iblk; rfl)
theorem before0_4 (c : Dev nD) (t : Fin cfg0.N) (d) : (dats x O B 0 c).before 4 t d = iblk x c 4 t :=
  ((dats x O B 0 c).before_in_eq_fetched 4 rfl (fun _ => rfl) (fun _ _ _ => rfl) (fun t => by rw [after0_4]; unfold Dat.blockOf iblk; rfl) t d).trans
    (by unfold Dat.fetched Dat.blockOf iblk; rfl)

/-! ## The body obligation, at a generic point -/

/-- What the body is called with at point `t`, the windows one by one, -/
def bodyPre (c : Dev nD) (t : Fin cfg0.N) : sProp 𝕄 :=
  iprop((dats x O B 0 c).Φ t.castSucc ∗ (dats x O B 0 c).owesAt none t.castSucc
    ∗ (∃ d, owns (c : Thread nD τ) (st0_0 t) fullShare ((dats x O B 0 c).before 0 t d))
    ∗ (∃ d, owns (c : Thread nD τ) (st0_1 t) fullShare ((dats x O B 0 c).before 1 t d))
    ∗ (∃ d, owns (c : Thread nD τ) (st0_2 t) fullShare ((dats x O B 0 c).before 2 t d))
    ∗ (∃ d, owns (c : Thread nD τ) (st0_3 t) fullShare ((dats x O B 0 c).before 3 t d))
    ∗ (∃ d, owns (c : Thread nD τ) (st0_4 t) fullShare ((dats x O B 0 c).before 4 t d))
    ∗ (∃ d, owns (c : Thread nD τ) (st0_5 t) fullShare ((dats x O B 0 c).before 5 t d))
    ∗ (∃ d, owns (c : Thread nD τ) (st0_6 t) fullShare ((dats x O B 0 c).before 6 t d)))

/-- and what it returns. -/
def bodyPost (c : Dev nD) (t : Fin cfg0.N) : sProp 𝕄 :=
  iprop((dats x O B 0 c).Φ t.succ ∗ (dats x O B 0 c).owesAt none t.succ
    ∗ owns (c : Thread nD τ) (st0_0 t) fullShare ((dats x O B 0 c).after 0 t)
    ∗ owns (c : Thread nD τ) (st0_1 t) fullShare ((dats x O B 0 c).after 1 t)
    ∗ owns (c : Thread nD τ) (st0_2 t) fullShare ((dats x O B 0 c).after 2 t)
    ∗ owns (c : Thread nD τ) (st0_3 t) fullShare ((dats x O B 0 c).after 3 t)
    ∗ owns (c : Thread nD τ) (st0_4 t) fullShare ((dats x O B 0 c).after 4 t)
    ∗ owns (c : Thread nD τ) (st0_5 t) fullShare ((dats x O B 0 c).after 5 t)
    ∗ owns (c : Thread nD τ) (st0_6 t) fullShare ((dats x O B 0 c).after 6 t))

/-- The body at any point: the operands' memrefs hold their blocks, so `sound_kernel` applies; the core's `owes`
    passes through unread. -/
theorem sound_body (c : Dev nD) (t : Fin cfg0.N) :
    bodyPre x O B c t ⊢ wp frame (wpE (defs₀ (F := F)) Variants.none c none) Set.univ (bodyAt0 t) (fun _ => bodyPost x O B c t) := by
  unfold bodyPre bodyPost bodyAt0
  simp only [before0_0, before0_1, before0_2, before0_3, before0_4]
  rw [show (dats x O B 0 c).Φ t.succ = (dats x O B 0 c).Φ t.castSucc from rfl,
    show (dats x O B 0 c).owesAt none t.succ = (dats x O B 0 c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk x c 0 t) (iblk x c 1 t) (iblk x c 2 t) (iblk x c 3 t) (iblk x c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) :
    BodyObligation (dats (F := F) x O B 0 c) (defs₀ (F := F)) Variants.none (none : HIx 1) Set.univ := fun t => by
  rw [bigSep_W0, bigSep_W0]
  exact sound_body x O B c t

end Cert.Kernel.Pf

end
-- ==== Proof.Bits.TcRegion.lean ====
/-
  The TensorCore call inside the whole program: from the blocks to the arrays (each result after the region is one
  function of the operands, index by index), the region as the pipeline library's record, and the rule that runs the call
  on the TensorCore thread beside the SparseCore threads.
-/
import proofs.«211129_g5394478924152_cont_9to1c4b_288_8_alg».proof.Proof.Bits.Alg
import proofs.«211129_g5394478924152_cont_9to1c4b_288_8_alg».proof.Proof.Gen.Kernel.Launch
import proofs.«211129_g5394478924152_cont_9to1c4b_288_8_alg».proof.Proof.Gen.Kernel.Skeleton
import proofs.«211129_g5394478924152_cont_9to1c4b_288_8_alg».proof.Proof.Gen.Kernel.Points
import proofs.«211129_g5394478924152_cont_9to1c4b_288_8_alg».proof.Proof.Bits.TcValue
import proofs.«211129_g5394478924152_cont_9to1c4b_288_8_alg».proof.Proof.Bits.TcBody
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Pf

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MM F

variable (x : TcArgs F) (O : CellTallies nD τ sig (HIx 1)) (B : Set (SemLoc sig × HIx 1))

/-! ## From the blocks to the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a block number. -/
abbrev gOf (t : Fin cfg0.N) : Fin 128 := Fin.cast N_0 t

/-- The printed index maps, decided over the grid: the row-blocked windows move with the point on the batch axis, the
    two whole operands stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first operand's block at point `t` is its batch rows `8 t … 8 t + 7`. -/
theorem iblk0 (c : Dev nD) (t : Fin cfg0.N) : iblk x c 0 t = rows3 x.a0 (gOf t) := by
  obtain ⟨e0, e1, e2, -⟩ := idx_facts t
  funext j
  show x.a0 (((cfg0.win 0).blk t).view.emb j) = x.a0 _
  refine congrArg x.a0 (funext fun a => Fin.ext ?_)
  match a with
  | ⟨0, _⟩ => show win0_0.index t (0 : Fin 3) * 8 + 1 * (j 0).val = 8 * t.val + (j 0).val; rw [e0]; omega
  | ⟨1, _⟩ => show win0_0.index t (1 : Fin 3) * 77 + 1 * (j 1).val = (j 1).val; rw [e1]; omega
  | ⟨2, _⟩ => show win0_0.index t (2 : Fin 3) * 768 + 1 * (j 2).val = (j 2).val; rw [e2]; omega

/-- The mask's block at point `t`. -/
theorem iblk1 (c : Dev nD) (t : Fin cfg0.N) : iblk x c 1 t = rows2 x.a1 (gOf t) := by
  obtain ⟨-, -, -, e0, e1, -⟩ := idx_facts t
  funext j
  show x.a1 (((cfg0.win 1).blk t).view.emb j) = x.a1 _
  refine congrArg x.a1 (funext fun a => Fin.ext ?_)
  match a with
  | ⟨0, _⟩ => show win0_1.index t (0 : Fin 2) * 8 + 1 * (j 0).val = 8 * t.val + (j 0).val; rw [e0]; omega
  | ⟨1, _⟩ => show win0_1.index t (1 : Fin 2) * 77 + 1 * (j 1).val = (j 1).val; rw [e1]; omega

/-- The weight row's block is the whole row. -/
theorem iblk2 (c : Dev nD) (t : Fin cfg0.N) : iblk x c 2 t = x.a2 := by
  obtain ⟨-, -, -, -, -, e0, e1, -⟩ := idx_facts t
  funext j
  show x.a2 (((cfg0.win 2).blk t).view.emb j) = x.a2 j
  refine congrArg x.a2 (funext fun a => Fin.ext ?_)
  match a with
  | ⟨0, _⟩ => show win0_2.index t (0 : Fin 2) * 1 + 1 * (j 0).val = (j 0).val; rw [e0]; omega
  | ⟨1, _⟩ => show win0_2.index t (1 : Fin 2) * 768 + 1 * (j 1).val = (j 1).val; rw [e1]; omega

/-- The bias's block is the bias. -/
theorem iblk3 (c : Dev nD) (t : Fin cfg0.N) : iblk x c 3 t = x.v0 := by
  obtain ⟨-, -, -, -, -, -, -, e0, e1, -⟩ := idx_facts t
  funext j
  show x.v0 (((cfg0.win 3).blk t).view.emb j) = x.v0 j
  refine congrArg x.v0 (funext fun a => Fin.ext ?_)
  match a with
  | ⟨0, _⟩ => show win0_3.index t (0 : Fin 2) * 1 + 1 * (j 0).val = (j 0).val; rw [e0]; omega
  | ⟨1, _⟩ => show win0_3.index t (1 : Fin 2) * 1 + 1 * (j 1).val = (j 1).val; rw [e1]; omega

/-- The ids' block at point `t`. -/
theorem iblk4 (c : Dev nD) (t : Fin cfg0.N) : iblk x c 4 t = rows2 x.a4 (gOf t) := by
  obtain ⟨-, -, -, -, -, -, -, -, -, e0, e1, -⟩ := idx_facts t
  funext j
  show x.a4 (((cfg0.win 4).blk t).view.emb j) = x.a4 _
  refine congrArg x.a4 (funext fun a => Fin.ext ?_)
  match a with
  | ⟨0, _⟩ => show win0_4.index t (0 : Fin 2) * 8 + 1 * (j 0).val = 8 * t.val + (j 0).val; rw [e0]; omega
  | ⟨1, _⟩ => show win0_4.index t (1 : Fin 2) * 77 + 1 * (j 1).val = (j 1).val; rw [e1]; omega

/-- An element of a result's block at point `t` sits in the array at row `8 t + y 0`. -/
theorem emb5 (t : Fin cfg0.N) (y : S8x77.Idx) (h : 8 * (gOf t).val + (y 0).val < 1024) :
    ((cfg0.win 5).blk t).view.emb y = ix2 (⟨8 * (gOf t).val + (y 0).val, h⟩ : Fin 1024) (y 1 : Fin 77) := by
  obtain ⟨-, -, -, -, -, -, -, -, -, -, -, e0, e1, -⟩ := idx_facts t
  funext a; apply Fin.ext
  match a with
  | ⟨0, _⟩ => show win0_5.index t (0 : Fin 2) * 8 + 1 * (y 0).val = 8 * t.val + (y 0).val; rw [e0]; omega
  | ⟨1, _⟩ => show win0_5.index t (1 : Fin 2) * 77 + 1 * (y 1).val = (y 1).val; rw [e1]; omega

theorem emb6 (t : Fin cfg0.N) (y : S8x77.Idx) (h : 8 * (gOf t).val + (y 0).val < 1024) :
    ((cfg0.win 6).blk t).view.emb y = ix2 (⟨8 * (gOf t).val + (y 0).val, h⟩ : Fin 1024) (y 1 : Fin 77) := by
  obtain ⟨-, -, -, -, -, -, -, -, -, -, -, -, -, e0, e1⟩ := idx_facts t
  funext a; apply Fin.ext
  match a with
  | ⟨0, _⟩ => show win0_6.index t (0 : Fin 2) * 8 + 1 * (y 0).val = 8 * t.val + (y 0).val; rw [e0]; omega
  | ⟨1, _⟩ => show win0_6.index t (1 : Fin 2) * 77 + 1 * (y 1).val = (y 1).val; rw [e1]; omega

/-- A result array read through point `t`'s block, at an element of the block. -/
theorem read_blk5 (G : Vec F S1024x77 .f32) (t : Fin cfg0.N) (y : S8x77.Idx) (h : 8 * (gOf t).val + (y 0).val < 1024) :
    ((cfg0.win 5).blk t).view.read (Elt F) G y = G (ix2 (⟨8 * (gOf t).val + (y 0).val, h⟩ : Fin 1024) (y 1 : Fin 77)) := by
  show G (((cfg0.win 5).blk t).view.emb y) = _
  rw [emb5 t y h]
  rfl

theorem read_blk6 (G : Vec F S1024x77 .i32) (t : Fin cfg0.N) (y : S8x77.Idx) (h : 8 * (gOf t).val + (y 0).val < 1024) :
    ((cfg0.win 6).blk t).view.read (Elt F) G y = G (ix2 (⟨8 * (gOf t).val + (y 0).val, h⟩ : Fin 1024) (y 1 : Fin 77)) := by
  show G (((cfg0.win 6).blk t).view.emb y) = _
  rw [emb6 t y h]
  rfl

/-- What point `t` writes back of the first result is block `t` of `tokVal` of the operands. -/
theorem flushed5_eq (c : Dev nD) (t : Fin cfg0.N) :
    (dats x O B 0 c).flushed 5 t = ((cfg0.win 5).blk t).view.read (Elt F) (tokVal x.a0 x.a1 x.a2 x.v0) := by
  show (cfg0.win 5).cut (grid0.coords t) ((dats x O B 0 c).after 5 t) = _
  rw [after0_5]
  unfold out5
  rw [View.canon_unit_zero hz2]
  simp only [View.ld_unit_zero (S := S8x77x768) hz3, View.ld_unit_zero (S := S8x77) hz2, View.ld_unit_zero (S := S1x768) hz2,
    View.ld_unit_zero (S := S1x1) hz2]
  rw [iblk0, iblk1, iblk2, iblk3]
  generalize hP : k0_pay1 (rows3 x.a0 (gOf t)) x.a2 x.v0 (rows2 x.a1 (gOf t)) = P
  refine funext fun (y : S8x77.Idx) => ?_
  have hy0 : (y 0).val < 8 := (y 0).isLt
  have hg : (gOf t).val < 128 := (gOf t).isLt
  have e1 : P y = tokBlk x.a0 x.a1 x.a2 x.v0 (gOf t) y := by rw [← hP]; rfl
  have e2 := (read_blk5 (tokVal x.a0 x.a1 x.a2 x.v0) t y (by omega)).trans (tokVal_blk x.a0 x.a1 x.a2 x.v0 (gOf t) y (by omega))
  exact e1.trans e2.symm

/-- What point `t` writes back of the second result is block `t` of `eidVal` of the ids. -/
theorem flushed6_eq (c : Dev nD) (t : Fin cfg0.N) :
    (dats x O B 0 c).flushed 6 t = ((cfg0.win 6).blk t).view.read (Elt F) (eidVal (F := F) x.a4) := by
  show (cfg0.win 6).cut (grid0.coords t) ((dats x O B 0 c).after 6 t) = _
  rw [after0_6]
  unfold out6
  rw [View.canon_unit_zero hz2]
  simp only [View.ld_unit_zero (S := S8x77) hz2]
  rw [iblk4]
  generalize hP : k0_pay2 (F := F) (rows2 x.a4 (gOf t)) = P
  refine funext fun (y : S8x77.Idx) => ?_
  have hy0 : (y 0).val < 8 := (y 0).isLt
  have hg : (gOf t).val < 128 := (gOf t).isLt
  have e1 : P y = eidBlk (F := F) x.a4 (gOf t) y := by rw [← hP]; rfl
  have e2 := (read_blk6 (eidVal (F := F) x.a4) t y (by omega)).trans (eidVal_blk (F := F) x.a4 (gOf t) y (by omega))
  exact e1.trans e2.symm

/-- An index of a result array is in point `t`'s block iff each coordinate is in the block's range on its axis. -/
theorem mem_blk5 (t : Fin cfg0.N) (i : S1024x77.Idx) :
    i ∈ ((cfg0.win 5).blk t).view.set ↔ ∀ a : Fin 2, win0_5.index t a * S8x77.size a ≤ (i a).val ∧ (i a).val < win0_5.index t a * S8x77.size a + S8x77.size a := by
  show i ∈ ((View.whole main_v1_0).slice (win0_5.rect t)).set ↔ _
  rw [View.set_slice_whole, Rect.mem_set_unit]
  exact Iff.rfl

theorem mem_blk6 (t : Fin cfg0.N) (i : S1024x77.Idx) :
    i ∈ ((cfg0.win 6).blk t).view.set ↔ ∀ a : Fin 2, win0_6.index t a * S8x77.size a ≤ (i a).val ∧ (i a).val < win0_6.index t a * S8x77.size a + S8x77.size a := by
  show i ∈ ((View.whole main_v1_1).slice (win0_6.rect t)).set ↔ _
  rw [View.set_slice_whole, Rect.mem_set_unit]
  exact Iff.rfl

/-- Every row of a result is in the block of the point that is its number over eight. -/
theorem cover5 (i : S1024x77.Idx) : ∃ t : Fin cfg0.N, (cfg0.win 5).flush t = true ∧ i ∈ ((cfg0.win 5).blk t).view.set := by
  have hi0 : (i 0).val < 1024 := (i 0).isLt
  have hi1 : (i 1).val < 77 := (i 1).isLt
  let t : Fin cfg0.N := Fin.cast N_0.symm ⟨(i 0).val / 8, by omega⟩
  have ht : t.val = (i 0).val / 8 := rfl
  obtain ⟨-, -, -, -, -, -, -, -, -, -, -, e0, e1, -⟩ := idx_facts t
  refine ⟨t, flush0_5 t, ?_⟩
  rw [mem_blk5]
  intro a
  match a with
  | ⟨0, _⟩ => show win0_5.index t (0 : Fin 2) * 8 ≤ (i 0).val ∧ (i 0).val < win0_5.index t (0 : Fin 2) * 8 + 8; rw [e0]; omega
  | ⟨1, _⟩ => show win0_5.index t (1 : Fin 2) * 77 ≤ (i 1).val ∧ (i 1).val < win0_5.index t (1 : Fin 2) * 77 + 77; rw [e1]; omega

theorem cover6 (i : S1024x77.Idx) : ∃ t : Fin cfg0.N, (cfg0.win 6).flush t = true ∧ i ∈ ((cfg0.win 6).blk t).view.set := by
  have hi0 : (i 0).val < 1024 := (i 0).isLt
  have hi1 : (i 1).val < 77 := (i 1).isLt
  let t : Fin cfg0.N := Fin.cast N_0.symm ⟨(i 0).val / 8, by omega⟩
  have ht : t.val = (i 0).val / 8 := rfl
  obtain ⟨-, -, -, -, -, -, -, -, -, -, -, -, -, e0, e1⟩ := idx_facts t
  refine ⟨t, flush0_6 t, ?_⟩
  rw [mem_blk6]
  intro a
  match a with
  | ⟨0, _⟩ => show win0_6.index t (0 : Fin 2) * 8 ≤ (i 0).val ∧ (i 0).val < win0_6.index t (0 : Fin 2) * 8 + 8; rw [e0]; omega
  | ⟨1, _⟩ => show win0_6.index t (1 : Fin 2) * 77 ≤ (i 1).val ∧ (i 1).val < win0_6.index t (1 : Fin 2) * 77 + 77; rw [e1]; omega

/-- The first result after the region. -/
theorem final5 (c : Dev nD) : (dats x O B 0 c).arrAt 5 cfg0.N = tokVal x.a0 x.a1 x.a2 x.v0 :=
  (dats x O B 0 c).arrAt_eq_of_cover 5 (tokVal x.a0 x.a1 x.a2 x.v0) (fun t _ => flushed5_eq x O B c t) cover5

/-- The second result after the region. -/
theorem final6 (c : Dev nD) : (dats x O B 0 c).arrAt 6 cfg0.N = eidVal (F := F) x.a4 :=
  (dats x O B 0 c).arrAt_eq_of_cover 6 (eidVal (F := F) x.a4) (fun t _ => flushed6_eq x O B c t) cover6

/-! ## The region -/

/-- No prefetched table. -/
abbrev adm : (p : Fin 1) → (pcfgs (F := F) p).Adm := fun p => (cfgs p).toPCfg_adm

/-- The pairs the TensorCore of `c` may have recorded: those at level at most `b`. -/
def recB (c : Dev nD) (b : ℕ) : Set (SemLoc sig × HIx 1) := {p | (sc (F := F)).lev ((c.tc : Thread nD τ), p.1) p.2 ≤ b}

/-- The call's seven arrays held whole on core `c`. -/
def arrs7 (c : Dev nD) (x : TcArgs F) : sProp 𝕄 :=
  iprop((((c.tc : Thread nD τ).loc main_arg0) ↦{fullShare} x.a0) ∗ (((c.tc : Thread nD τ).loc main_arg1) ↦{fullShare} x.a1)
    ∗ (((c.tc : Thread nD τ).loc main_arg2) ↦{fullShare} x.a2) ∗ (((c.tc : Thread nD τ).loc main_v0) ↦{fullShare} x.v0)
    ∗ (((c.tc : Thread nD τ).loc main_arg4) ↦{fullShare} x.a4) ∗ (((c.tc : Thread nD τ).loc main_v1_0) ↦{fullShare} x.o5)
    ∗ (((c.tc : Thread nD τ).loc main_v1_1) ↦{fullShare} x.o6))

/-- The arrays after the call: the operands as they were, the results at their values. -/
def TcArgs.done (x : TcArgs F) : TcArgs F :=
  { x with o5 := tokVal x.a0 x.a1 x.a2 x.v0, o6 := eidVal (F := F) x.a4 }

/-- What the core owes through the region: `O`, its recorded pairs at level at most `b`. -/
def owesB (c : Dev nD) (O : CellTallies nD τ sig (HIx 1)) (b : ℕ) : sProp 𝕄 :=
  iprop(∃ W, ⌜(sc (F := F)).WBelow (c.tc : Thread nD τ) W b⌝ ∗ owes (c.tc : Thread nD τ) O W)

/-- The pipeline's arrays at contents `G` are the seven arrays. -/
theorem arrays_eq7 (c : Dev nD) (b : ℕ) (G : (w : Fin cfg0.W) → Buf (Elt F) ((cfg0.win w).arr.view.loc (c.tc : Thread nD τ))) :
    ((dats x O (recB (F := F) c b) 0 c).arrays G : sProp 𝕄)
      = arrs7 c ⟨G 0, G 1, G 2, G 3, G 4, G 5, G 6⟩ := by
  rw [Pipeline.arrays_eq cfgs (fun p c => dats x O (recB (F := F) c b) p c) 0 c launch0.arr_whole
    ((dats x O (recB (F := F) c b) 0 c).share_full fun _ => rfl) G, bigSep_W0]
  rfl

set_option backward.isDefEq.respectTransparency.types false in
/-- THE REGION: the launch facts' layout, no semaphore of the kernel's own, the body obligation, the wait evidence at
    index `none` below everything the core owes; entered from the seven arrays and the core's `owes`, left with the
    results at their values. -/
def reg (hO : ∀ g, O g none = 0) (b : ℕ) (lv : GSem nD τ sig → HIx 1 → ℕ) (hlv : (sc (F := F)).Refines lv) :
    Pipeline.RegionSeg (pcfgs (F := F)) adm (fun p c => dats x O (recB (F := F) c b) p c) (none : HIx 1) defs₀ Variants.none
      (sc (F := F)).L lv 0 where
  win := launch0.win.to₀
  block_pos := launch0.block_pos
  stage_whole := launch0.stage_whole
  K := PEmpty
  osem := fun k => k.elim
  ho := Pipeline.OwnSemFacts.none _
  hbody c := (body_obligation x O (recB (F := F) c b) c).loose
  hwaits c := Pipeline.cellsWaits_intro cfgs (fun p c => dats x O (recB (F := F) c b) p c) (none : HIx 1) 0 c
    fun w s t => (sc (F := F)).mayWait_none _ hO lv hlv
  pre c := iprop(arrs7 c x ∗ owesB (F := F) c O b)
  post c := iprop(arrs7 c x.done ∗ owesB (F := F) c O b)
  X _ := iprop(emp)
  Y _ := iprop(emp)
  Z _ := iprop(emp)
  hentry c := by
    rw [arrays_eq7]
    unfold owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    iintro ⟨-, -, -⟩
    iempintro
  hout c := by
    show (iprop(emp) : sProp 𝕄) ⊢ iprop(emp ∗ Pipeline.ownSems0 (fun k : PEmpty => k.elim) c ∗ Pipeline.scopedRest spec0 c)
    rw [Pipeline.ownSems0_none, scopedRest0_eq]
    iintro H
    isplitl [H]; · iexact H
    isplitr <;> iempintro
  hexit c := by
    rw [arrays_eq7]
    iintro ⟨Ha, HO, -, -⟩
    imodintro
    isplitl [Ha]
    · rw [show ((dats x O (recB (F := F) c b) 0 c).arrAt 0 cfg0.N) = x.a0 from (dats x O (recB (F := F) c b) 0 c).arrAt_in 0 rfl _,
        show ((dats x O (recB (F := F) c b) 0 c).arrAt 1 cfg0.N) = x.a1 from (dats x O (recB (F := F) c b) 0 c).arrAt_in 1 rfl _,
        show ((dats x O (recB (F := F) c b) 0 c).arrAt 2 cfg0.N) = x.a2 from (dats x O (recB (F := F) c b) 0 c).arrAt_in 2 rfl _,
        show ((dats x O (recB (F := F) c b) 0 c).arrAt 3 cfg0.N) = x.v0 from (dats x O (recB (F := F) c b) 0 c).arrAt_in 3 rfl _,
        show ((dats x O (recB (F := F) c b) 0 c).arrAt 4 cfg0.N) = x.a4 from (dats x O (recB (F := F) c b) 0 c).arrAt_in 4 rfl _,
        final5, final6]
      iexact Ha
    · unfold Pipeline.Dat.owesAt Pipeline.owesWithin owesB
      icases HO with ⟨%W, %hW, HO⟩
      iexists W; isplitr; swap; (· iexact HO)
      ipureintro
      intro p hp
      rcases hW hp with h | ⟨w, s, rfl⟩
      · exact h
      · exact Nat.zero_le _

/-! ## The rule -/

set_option backward.isDefEq.respectTransparency.types false in
/-- THE CALL on the TensorCore thread of the whole program: from the region boundary, the seven arrays, the core's
    `owes`, the level facts and the pipeline's funded ghost state, the call runs to the boundary, the operands as they
    were, the results at `tokVal` / `eidVal` of the operands, and the core's `owes` unchanged, for the continuation. -/
theorem wp_tc_region (d : Dev nD) (hO : ∀ g, O g none = 0) (b : ℕ) (lv : GSem nD τ sig → HIx 1 → ℕ) (hlv : (sc (F := F)).Refines lv)
    {α : Type} (k : PUnit → Prog (TpuEff nD τ sig (Elt F) (SparseCore.Sig (Pipeline.Sig Λ₀ (Fin 1) fun p => (pcfgs (F := F) p).Adm) 1) .tc) α)
    (Q : α → sProp 𝕄) :
    iprop(boundary (d.tc : Thread nD τ) ∗ arrs7 d x ∗ owesB (F := F) d O b ∗ levAts (sc (F := F)).L lv
        ∗ Pipeline.cellsGhost cfgs (EP (F := F)) 0 d ∗ Pipeline.toksInit cfgs (EP (F := F)) 0 d)
      ⊢ iprop((iprop(boundary (d.tc : Thread nD τ) ∗ arrs7 d x.done ∗ owesB (F := F) d O b)
            -∗ wp frame (wpE ((sc (F := F)).defs (Pipeline.defs pcfgs defs₀)) Variants.none.lift (d.tc : Thread nD τ) none) Set.univ (k ⟨⟩) Q)
          -∗ wp frame (wpE ((sc (F := F)).defs (Pipeline.defs pcfgs defs₀)) Variants.none.lift (d.tc : Thread nD τ) none) Set.univ
              (Prog.lift (.customCall (SparseCore.inner (Pipeline.entry 0)) ()) >>= k) Q) := by
  have hreg := Pipeline.RegionSeg.wp (pcfgs (F := F)) adm (fun p c => dats x O (recB (F := F) c b) p c) (none : HIx 1) cellOf_inj EP defs₀
    Variants.none (sc (F := F)).L lv (reg x O hO b lv hlv) d none (by intro u hu; cases hu) (fun u => .ret u)
    (fun a => wp frame (wpE ((sc (F := F)).defs (Pipeline.defs pcfgs defs₀)) Variants.none.lift (d.tc : Thread nD τ) none) Set.univ (k a) Q)
  rw [show (reg x O hO b lv hlv).post d = iprop(arrs7 d x.done ∗ owesB (F := F) d O b) from rfl,
    show (reg x O hO b lv hlv).pre d = iprop(arrs7 d x ∗ owesB (F := F) d O b) from rfl] at hreg
  have hlift := (sc (F := F)).wp_liftProg (nD := nD) (Val := Elt F) (Name := ℕ) (U := UU) (Pipeline.defs pcfgs defs₀) Variants.none.lift
    (d.tc : Thread nD τ) Set.univ none (.op (.customCall (Pipeline.entry 0) ()) fun u => .ret u)
    (fun a => wp frame (wpE ((sc (F := F)).defs (Pipeline.defs pcfgs defs₀)) Variants.none.lift (d.tc : Thread nD τ) none) Set.univ (k a) Q)
  iintro ⟨Hb, Ha, HO, #Hlev, Hg, Ht⟩ Hk
  rw [wp_bind]
  iapply hlift
  iapply hreg
  isplitl [Hk]
  · iintro ⟨Hb, Ha, HO⟩
    rw [wp_ret]
    imodintro
    iapply Hk
    isplitl [Hb]; · iexact Hb
    isplitl [Ha] <;> iassumption
  isplitl [Hb]; · iexact Hb
  isplitl [Ha HO]
  · isplitl [Ha] <;> iassumption
  isplitr; · iexact Hlev
  isplitl [Hg] <;> iassumption

end Cert.Kernel.Pf

end
-- ==== Proof.Bits.MainTail.lean ====
/-
  @main on the TensorCore from after the TensorCore region to the end: the pads, the SparseCore call (the arrays split into
  the workers' rows and rejoined), the index array and the final scatter; what is left is the arguments at their launch
  contents and the result at the scatter of the weights into zeros.
-/
import proofs.«211129_g5394478924152_cont_9to1c4b_288_8_alg».proof.Proof.Bits.Main
import proofs.«211129_g5394478924152_cont_9to1c4b_288_8_alg».proof.Proof.Bits.Call
import proofs.«211129_g5394478924152_cont_9to1c4b_288_8_alg».proof.Proof.Bits.HostVals
import Idealize.ShloMosaic.Lib.Pipeline.Frame
import proofs.«211129_g5394478924152_cont_9to1c4b_288_8_alg».proof.Proof.Bits.TcRegion

noncomputable section

namespace Cert.Kernel.Pf

open Cert.Kernel

open Idealize.ShloMosaic
open Idealize.ShloMosaic.SparseCore (S V)
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq seq after tcRefs)

variable {F : FTy → Type} [FloatOps F]

/-! ## The launch memory's arrays and the values computed from them -/

section Vals
variable (m : (ℓ : Loc nD τ sig) → Buf (Elt F) ℓ)

abbrev a0K (d : Dev nD) : Vec F S1024x77x768 .f32 := m ((d.tc : Thread nD τ).loc main_arg0)
abbrev a1K (d : Dev nD) : Vec F S1024x77 .f32 := m ((d.tc : Thread nD τ).loc main_arg1)
abbrev a2K (d : Dev nD) : Vec F S1x768 .f32 := m ((d.tc : Thread nD τ).loc main_arg2)
abbrev a3K (d : Dev nD) : Vec F S1 .f32 := m ((d.tc : Thread nD τ).loc main_arg3)
abbrev a4K (d : Dev nD) : Vec F S1024x77 .i32 := m ((d.tc : Thread nD τ).loc main_arg4)
/-- The token weights the TensorCore region computes. -/
def tokK (d : Dev nD) : Vec F S1024x77 .f32 := tokVal (a0K m d) (a1K m d) (a2K m d) (v0K (a3K m d))
/-- The deduplicated ids it computes. -/
def eidK (d : Dev nD) : Vec F S1024x77 .i32 := eidVal (a4K m d)
def T80K (d : Dev nD) : Buf (Elt F) (tokLoc d) := tok80 (tokK m d)
def E80K (d : Dev nD) : Buf (Elt F) (eidLoc d) := eid80 (eidK m d)
/-- The ids are in range of the vocabulary. -/
def PreOK : Prop := ∀ d j, (a4K m d j).toNat < 49408
abbrev PK : (K (F := F)).Pay (nD := nD) (Val := Elt F) (Name := ℕ) (U := UU) := P (T80K m) (E80K m)

/-- What @main leaves the claim. -/
def FIN (d : Dev nD) : sProp (MM F) :=
  iprop(((d.tc : Thread nD τ).loc main_v21 ↦{fullShare} (finalK (a4K m d) (tokK m d) : Buf (Elt F) ((d.tc : Thread nD τ).loc main_v21)))
    ∗ ((d.tc : Thread nD τ).loc main_arg0 ↦{fullShare} m ((d.tc : Thread nD τ).loc main_arg0)) ∗ ((d.tc : Thread nD τ).loc main_arg1 ↦{fullShare} m ((d.tc : Thread nD τ).loc main_arg1))
    ∗ ((d.tc : Thread nD τ).loc main_arg2 ↦{fullShare} m ((d.tc : Thread nD τ).loc main_arg2)) ∗ ((d.tc : Thread nD τ).loc main_arg3 ↦{fullShare} m ((d.tc : Thread nD τ).loc main_arg3))
    ∗ ((d.tc : Thread nD τ).loc main_arg4 ↦{fullShare} m ((d.tc : Thread nD τ).loc main_arg4)))

end Vals

/-! ## The host stretches inside the unscoped buffers -/

abbrev SU : Finset (DevRef τ sig) := Pipeline.ucRefs τ sig

theorem ops1_sub : ∀ op ∈ (ops1 : List (HloOp τ sig (Elt F))), op.bufs ⊆ SU := fun op h =>
  Pipeline.sub_ucRefs op ((List.forall_iff_forall_mem.1 (show (ops1 : List (HloOp τ sig (Elt F))).Forall (fun op => op.bufs ⊆ tcRefs τ sig) from
    StableHlo.reshape_bufs_sub ..)) op h)
theorem ops2_sub : ∀ op ∈ (ops2 : List (HloOp τ sig (Elt F))), op.bufs ⊆ SU := fun op h =>
  Pipeline.sub_ucRefs op ((List.forall_iff_forall_mem.1 (show (ops2 : List (HloOp τ sig (Elt F))).Forall (fun op => op.bufs ⊆ tcRefs τ sig) from
    ⟨StableHlo.nullary_bufs_sub .., StableHlo.unary_bufs_sub .., StableHlo.binary_bufs_sub .., StableHlo.nullary_bufs_sub .., StableHlo.binary_bufs_sub ..⟩)) op h)
theorem ops3_sub : ∀ op ∈ (ops3 : List (HloOp τ sig (Elt F))), op.bufs ⊆ SU := fun op h =>
  Pipeline.sub_ucRefs op ((List.forall_iff_forall_mem.1 (show (ops3 : List (HloOp τ sig (Elt F))).Forall (fun op => op.bufs ⊆ tcRefs τ sig) from
    ⟨StableHlo.nullary_bufs_sub .., StableHlo.unary_bufs_sub .., StableHlo.unary_bufs_sub .., StableHlo.nullary_bufs_sub .., StableHlo.unary_bufs_sub ..,
      StableHlo.binary_bufs_sub .., StableHlo.nullary_bufs_sub .., StableHlo.unary_bufs_sub .., StableHlo.binary_bufs_sub .., StableHlo.ternary_bufs_sub ..,
      StableHlo.nullary_bufs_sub .., StableHlo.unary_bufs_sub .., StableHlo.binary_bufs_sub .., StableHlo.nullary_bufs_sub .., StableHlo.unary_bufs_sub ..,
      StableHlo.binary_bufs_sub .., StableHlo.ternary_bufs_sub .., StableHlo.unary_bufs_sub .., StableHlo.unary_bufs_sub .., StableHlo.binary_bufs_sub ..,
      StableHlo.ternary_bufs_sub ..⟩)) op h)
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-! ## The arrays the calls take, out of the unscoped buffers and back -/

abbrev T3 : Finset (DevRef τ sig) := {R main_v2, R main_v3, R main_v4}
abbrev T6 : Finset (DevRef τ sig) := {R main_v21, R main_arg0, R main_arg1, R main_arg2, R main_arg3, R main_arg4}
abbrev T7 : Finset (DevRef τ sig) := {R main_arg0, R main_arg1, R main_arg2, R main_v0, R main_arg4, R main_v1_0, R main_v1_1}
theorem T3_sub : T3 ⊆ SU := by decide
theorem T6_sub : T6 ⊆ SU := by decide
theorem T7_sub : T7 ⊆ SU := by decide

omit [FloatOps F] in
theorem held_T3 (d : Dev nD) (W : Valuation τ sig (Elt F)) :
    (held (d.tc : Thread nD τ) T3 W : sProp (MM F))
      = iprop((tokLoc d ↦{fullShare} W (R main_v2)) ∗ (eidLoc d ↦{fullShare} W (R main_v3)) ∗ (outLoc d ↦{fullShare} W (R main_v4))) := by
  unfold held T3
  rw [SparseCore.bigSep_insert' (by decide), SparseCore.bigSep_insert' (by decide), bigSep_singleton]

omit [FloatOps F] in
theorem held_T6 (d : Dev nD) (W : Valuation τ sig (Elt F)) :
    (held (d.tc : Thread nD τ) T6 W : sProp (MM F))
      = iprop(((d.tc : Thread nD τ).loc main_v21 ↦{fullShare} W (R main_v21)) ∗ ((d.tc : Thread nD τ).loc main_arg0 ↦{fullShare} W (R main_arg0))
        ∗ ((d.tc : Thread nD τ).loc main_arg1 ↦{fullShare} W (R main_arg1)) ∗ ((d.tc : Thread nD τ).loc main_arg2 ↦{fullShare} W (R main_arg2))
        ∗ ((d.tc : Thread nD τ).loc main_arg3 ↦{fullShare} W (R main_arg3)) ∗ ((d.tc : Thread nD τ).loc main_arg4 ↦{fullShare} W (R main_arg4))) := by
  unfold held T6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem held_T7 (d : Dev nD) (W : Valuation τ sig (Elt F)) :
    (held (d.tc : Thread nD τ) T7 W : sProp (MM F))
      = arrs7 d ⟨W (R main_arg0), W (R main_arg1), W (R main_arg2), W (R main_v0), W (R main_arg4), W (R main_v1_0), W (R main_v1_1)⟩ := by
  unfold held T7 arrs7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The SparseCore call's three arrays back into the unscoped buffers, the output at what came back. -/
theorem held_rejoin3 (d : Dev nD) (W : Valuation τ sig (Elt F)) (f : Buf (Elt F) (outLoc d)) :
    iprop((tokLoc d ↦{fullShare} W (R main_v2)) ∗ (eidLoc d ↦{fullShare} W (R main_v3)) ∗ (outLoc d ↦{fullShare} f)
        ∗ held (d.tc : Thread nD τ) (SU \ T3) W)
      ⊢ (held (d.tc : Thread nD τ) SU (Function.update W (R main_v4) f) : sProp (MM F)) := by
  rw [held_sub_split (d.tc : Thread nD τ) T3_sub (Function.update W (R main_v4) f), held_T3,
    Function.update_of_ne (show R main_v2 ≠ R main_v4 by decide), Function.update_of_ne (show R main_v3 ≠ R main_v4 by decide), Function.update_self,
    held_congr (d.tc : Thread nD τ) (S := SU \ T3) (V := Function.update W (R main_v4) f) (V' := W) fun b hb =>
      Function.update_of_ne (fun e : b = R main_v4 => (Finset.mem_sdiff.mp hb).2 (by rw [e]; decide)) _ _]
  iintro ⟨Ht, He, Ho, Hr⟩
  isplitl [Ht He Ho]
  · isplitl [Ht]; · iexact Ht
    isplitl [He]; · iexact He
    iexact Ho
  iexact Hr

/-- The valuation after the TensorCore region: the two results at their values. -/
def Vreg (W : Valuation τ sig (Elt F)) : Valuation τ sig (Elt F) :=
  Function.update (Function.update W (R main_v1_0) (tokVal (W (R main_arg0)) (W (R main_arg1)) (W (R main_arg2)) (W (R main_v0)) : (R main_v1_0).ty.Contents (Elt F)))
    (R main_v1_1) (eidVal (F := F) (W (R main_arg4)) : (R main_v1_1).ty.Contents (Elt F))

/-- The region's seven arrays back into the unscoped buffers. -/
theorem held_rejoin7 (d : Dev nD) (W : Valuation τ sig (Elt F)) :
    iprop(arrs7 d (TcArgs.done ⟨W (R main_arg0), W (R main_arg1), W (R main_arg2), W (R main_v0), W (R main_arg4), W (R main_v1_0), W (R main_v1_1)⟩)
        ∗ held (d.tc : Thread nD τ) (SU \ T7) W)
      ⊢ (held (d.tc : Thread nD τ) SU (Vreg W) : sProp (MM F)) := by
  rw [held_sub_split (d.tc : Thread nD τ) T7_sub (Vreg W), held_T7,
    held_congr (d.tc : Thread nD τ) (S := SU \ T7) (V := Vreg W) (V' := W) fun b hb => by
      unfold Vreg
      rw [Function.update_of_ne (fun e : b = R main_v1_1 => (Finset.mem_sdiff.mp hb).2 (by rw [e]; decide)),
        Function.update_of_ne (fun e : b = R main_v1_0 => (Finset.mem_sdiff.mp hb).2 (by rw [e]; decide))]]
  have e : (⟨Vreg W (R main_arg0), Vreg W (R main_arg1), Vreg W (R main_arg2), Vreg W (R main_v0), Vreg W (R main_arg4), Vreg W (R main_v1_0), Vreg W (R main_v1_1)⟩ : TcArgs F)
      = TcArgs.done ⟨W (R main_arg0), W (R main_arg1), W (R main_arg2), W (R main_v0), W (R main_arg4), W (R main_v1_0), W (R main_v1_1)⟩ := by
    unfold Vreg TcArgs.done
    simp only [Function.update_self, Function.update_of_ne (show R main_arg0 ≠ R main_v1_1 by decide), Function.update_of_ne (show R main_arg0 ≠ R main_v1_0 by decide),
      Function.update_of_ne (show R main_arg1 ≠ R main_v1_1 by decide), Function.update_of_ne (show R main_arg1 ≠ R main_v1_0 by decide),
      Function.update_of_ne (show R main_arg2 ≠ R main_v1_1 by decide), Function.update_of_ne (show R main_arg2 ≠ R main_v1_0 by decide),
      Function.update_of_ne (show R main_v0 ≠ R main_v1_1 by decide), Function.update_of_ne (show R main_v0 ≠ R main_v1_0 by decide),
      Function.update_of_ne (show R main_arg4 ≠ R main_v1_1 by decide), Function.update_of_ne (show R main_arg4 ≠ R main_v1_0 by decide),
      Function.update_of_ne (show R main_v1_0 ≠ R main_v1_1 by decide)]
  rw [e]

/-! ## @main on the TensorCore -/

section MainProof
variable (m : (ℓ : Loc nD τ sig) → Buf (Elt F) ℓ) (ρ : Dev nD → PrngReg)

/-- The launch contents of the device's buffers. -/
abbrev V0 (d : Dev nD) : Valuation τ sig (Elt F) := fun b => m (d, b)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit [FloatOps F] in
/-- The TensorCore's state before call 0, with what it owes taken out and put back. -/
theorem tcSt_open (d : Dev nD) :
    ((K (F := F)).tcSt EH d 0 : sProp (MM F)) ⊢ iprop(owesB (F := F) d ((K (F := F)).Otc d 0) (8 * 0) ∗ (owesB (F := F) d ((K (F := F)).Otc d 0) (8 * 0) -∗ (K (F := F)).tcSt EH d 0)) := by
  unfold SparseCore.Cfg.tcSt owesB
  iintro ⟨HO, Hrest⟩
  isplitl [HO]; · iexact HO
  iintro HO
  isplitl [HO]; · iexact HO
  iexact Hrest

set_option backward.isDefEq.respectTransparency.types false in
/-- From after the region: the pads, the SparseCore call, the index array and the final scatter. -/
theorem main_tail (κ : GSem nD τ sig → ℕ) (d : Dev nD) (hpre : PreOK m) (V2 : Valuation τ sig (Elt F))
    (h10 : V2 (R main_v1_0) = tokK m d) (h11 : V2 (R main_v1_1) = eidK m d)
    (hA0 : V2 (R main_arg0) = m ((d.tc : Thread nD τ).loc main_arg0)) (hA1 : V2 (R main_arg1) = m ((d.tc : Thread nD τ).loc main_arg1))
    (hA2 : V2 (R main_arg2) = m ((d.tc : Thread nD τ).loc main_arg2)) (hA3 : V2 (R main_arg3) = m ((d.tc : Thread nD τ).loc main_arg3))
    (hA4 : V2 (R main_arg4) = m ((d.tc : Thread nD τ).loc main_arg4)) :
    iprop((K (F := F)).ctx EH (PK m) κ ∗ (K (F := F)).tcSt EH d 0 ∗ boundary (d.tc : Thread nD τ) ∗ held (d.tc : Thread nD τ) SU V2)
      ⊢ wp frame (wpE ((K (F := F)).defs (D (F := F))) 𝒱 (d.tc : Thread nD τ) none) Set.univ
          (seq ops2 >>= fun _ => sc.run d 0 >>= fun _ => seq ops3)
          fun _ => iprop((K (F := F)).tcSt EH d 1 ∗ FIN m d) := by
  iintro ⟨#Hctx, Hst, Hb, Hh⟩
  iapply (wp_seq 𝒱 none Set.univ d SU _ ops2 ops2_sub ops2_fresh V2) $$ [Hb Hh]
  · isplitl [Hb] <;> iassumption
  iintro ⟨Hb, Hh⟩
  have e3 : (held (d.tc : Thread nD τ) SU (after ops2 V2) : sProp (MM F))
      = iprop(((tokLoc d ↦{fullShare} T80K m d) ∗ (eidLoc d ↦{fullShare} E80K m d) ∗ (outLoc d ↦{fullShare} after ops2 V2 (R main_v4)))
          ∗ held (d.tc : Thread nD τ) (SU \ T3) (after ops2 V2)) := by
    rw [held_sub_split (d.tc : Thread nD τ) T3_sub (after ops2 V2), held_T3, after2_v2, after2_v3, h10, h11]; rfl
  ihave Hh' := (Entails.of_eq e3) $$ Hh
  icases Hh' with ⟨⟨Ht, He, Ho⟩, Hrest⟩
  rw [wp_bind]
  iapply ((K (F := F)).wp_run (D (F := F)) 𝒱 (EH := EH) (P := PK m) κ d 0) $$ [Hst Ht He Ho Hb Hrest]
  isplitr; · iexact Hctx
  isplitl [Hst]; · iexact Hst
  isplitl [Ht He Ho]
  · iapply (st_all (T80K m) (E80K m) d _)
    isplitl [Ht]; · iexact Ht
    isplitl [He]; · iexact He
    iexact Ho
  iintro ⟨Hst, Hdn⟩
  ihave Hdn' := (dn_all (T80K m) (E80K m) d) $$ Hdn
  icases Hdn' with ⟨Ht, He, %f, %hz, Ho⟩
  ihave Hh := (held_rejoin3 d (after ops2 V2) f) $$ [Ht He Ho Hrest]
  · rw [after2_v2, after2_v3, h10, h11]
    isplitl [Ht]; · iexact Ht
    isplitl [He]; · iexact He
    isplitl [Ho]; · iexact Ho
    iexact Hrest
  rw [show seq (Λ := SparseCore.Sig (ΛP (F := F)) 1) (nD := nD) (ops3 (F := F)) = (seq ops3 >>= fun u => Pure.pure u) from (bind_pure _).symm]
  iapply (wp_seq 𝒱 none Set.univ d SU _ ops3 ops3_sub ops3_fresh (Function.update (after ops2 V2) (R main_v4) f)) $$ [Hb Hh]
  · isplitl [Hb] <;> iassumption
  iintro ⟨-, Hh⟩
  rw [wp_pure]; imodintro
  isplitl [Hst]; · iexact Hst
  have e21 : after ops3 (Function.update (after ops2 V2) (R main_v4) f) (R main_v21) = finalK (a4K m d) (tokK m d) := by
    rw [after3_v21, Function.update_self, Function.update_of_ne (show R main_arg4 ≠ R main_v4 by decide),
      Function.update_of_ne (show R main_v1_0 ≠ R main_v4 by decide), after2_main_arg4, after2_main_v1_0, hA4, h10]
    exact final_scatter (a4K m d) (hpre d) (tokK m d) f hz
  have e6 : (held (d.tc : Thread nD τ) SU (after ops3 (Function.update (after ops2 V2) (R main_v4) f)) : sProp (MM F))
      = iprop(FIN m d ∗ held (d.tc : Thread nD τ) (SU \ T6) (after ops3 (Function.update (after ops2 V2) (R main_v4) f))) := by
    rw [held_sub_split (d.tc : Thread nD τ) T6_sub, held_T6, e21, after3_main_arg0, after3_main_arg1, after3_main_arg2, after3_main_arg3, after3_main_arg4,
      Function.update_of_ne (show R main_arg0 ≠ R main_v4 by decide), Function.update_of_ne (show R main_arg1 ≠ R main_v4 by decide),
      Function.update_of_ne (show R main_arg2 ≠ R main_v4 by decide), Function.update_of_ne (show R main_arg3 ≠ R main_v4 by decide),
      Function.update_of_ne (show R main_arg4 ≠ R main_v4 by decide),
      after2_main_arg0, after2_main_arg1, after2_main_arg2, after2_main_arg3, after2_main_arg4, hA0, hA1, hA2, hA3, hA4]
    rfl
  ihave H6 := (Entails.of_eq e6) $$ Hh
  icases H6 with ⟨H6, -⟩
  iexact H6

end MainProof

section MainProof2
variable (m : (ℓ : Loc nD τ sig) → Buf (Elt F) ℓ) (ρ : Dev nD → PrngReg)

set_option backward.isDefEq.respectTransparency.types false in
/-- @main on device `d`'s TensorCore: the bias reshaped, the TensorCore region, then the tail. -/
theorem hmain (hpre : PreOK m) (κ : GSem nD τ sig → ℕ) (d : Dev nD) :
    iprop((K (F := F)).ctx EH (PK m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [Pipeline.unscopedBufs_held d (V0 m d), main_eq]
  iintro ⟨#Hctx, Hst, ⟨Hb, Hh, -, -⟩, ⟨Hg, Ht⟩⟩
  iapply (wp_seq 𝒱 none Set.univ d SU _ ops1 ops1_sub ops1_fresh (V0 m d)) $$ [Hb Hh]
  · isplitl [Hb] <;> iassumption
  iintro ⟨Hb, Hh⟩
  have e7 : (held (d.tc : Thread nD τ) SU (after ops1 (V0 m d)) : sProp (MM F))
      = iprop(arrs7 d ⟨after ops1 (V0 m d) (R main_arg0), after ops1 (V0 m d) (R main_arg1), after ops1 (V0 m d) (R main_arg2), after ops1 (V0 m d) (R main_v0),
            after ops1 (V0 m d) (R main_arg4), after ops1 (V0 m d) (R main_v1_0), after ops1 (V0 m d) (R main_v1_1)⟩
          ∗ held (d.tc : Thread nD τ) (SU \ T7) (after ops1 (V0 m d))) := by
    rw [held_sub_split (d.tc : Thread nD τ) T7_sub (after ops1 (V0 m d)), held_T7]
  ihave Hh' := (Entails.of_eq e7) $$ Hh
  icases Hh' with ⟨H7, Hrest⟩
  ihave Hst' := (tcSt_open (F := F) d) $$ Hst
  icases Hst' with ⟨HO, Hclose⟩
  ihave Hlev := ((K (F := F)).ctx_levAts κ) $$ Hctx
  iapply (wp_tc_region _ ((K (F := F)).Otc d 0) d (Otc_none d 0) (8 * 0) (K (F := F)).lev (SparseCore.Cfg.refines_self _) _ _) $$ [Hb H7 HO Hlev Hg Ht]
  · isplitl [Hb]; · iexact Hb
    isplitl [H7]; · iexact H7
    isplitl [HO]; · iexact HO
    isplitl [Hlev]; · iexact Hlev
    isplitl [Hg]; · iexact Hg
    iexact Ht
  iintro ⟨Hb, H7, HO⟩
  ihave Hst := Hclose $$ HO
  ihave Hh := (held_rejoin7 d (after ops1 (V0 m d))) $$ [H7 Hrest]
  · isplitl [H7] <;> iassumption
  iapply (main_tail m κ d hpre (Vreg (after ops1 (V0 m d))) ?h10 ?h11 ?hA0 ?hA1 ?hA2 ?hA3 ?hA4) $$ [Hst Hb Hh]
  case h10 =>
    unfold Vreg tokK
    rw [Function.update_of_ne (show R main_v1_0 ≠ R main_v1_1 by decide), Function.update_self, after1_main_arg0, after1_main_arg1, after1_main_arg2, after1_v0]
  case h11 =>
    unfold Vreg eidK
    rw [Function.update_self, after1_main_arg4]
  case hA0 => unfold Vreg; rw [Function.update_of_ne (show R main_arg0 ≠ R main_v1_1 by decide), Function.update_of_ne (show R main_arg0 ≠ R main_v1_0 by decide), after1_main_arg0]
  case hA1 => unfold Vreg; rw [Function.update_of_ne (show R main_arg1 ≠ R main_v1_1 by decide), Function.update_of_ne (show R main_arg1 ≠ R main_v1_0 by decide), after1_main_arg1]
  case hA2 => unfold Vreg; rw [Function.update_of_ne (show R main_arg2 ≠ R main_v1_1 by decide), Function.update_of_ne (show R main_arg2 ≠ R main_v1_0 by decide), after1_main_arg2]
  case hA3 => unfold Vreg; rw [Function.update_of_ne (show R main_arg3 ≠ R main_v1_1 by decide), Function.update_of_ne (show R main_arg3 ≠ R main_v1_0 by decide), after1_main_arg3]
  case hA4 => unfold Vreg; rw [Function.update_of_ne (show R main_arg4 ≠ R main_v1_1 by decide), Function.update_of_ne (show R main_arg4 ≠ R main_v1_0 by decide), after1_main_arg4]
  isplitr; · iexact Hctx
  isplitl [Hst]; · iexact Hst
  isplitl [Hb]; · iexact Hb
  iexact Hh

/-- What the final memory holds, read off what @main leaves. -/
def fq (d : Dev nD) (s' : Phys nD τ sig (Elt F)) : Prop :=
  s'.mem.mem ((d.tc : Thread nD τ).loc main_v21) = finalK (a4K m d) (tokK m d)
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)
  ∧ s'.mem.mem ((d.tc : Thread nD τ).loc main_arg4) = m ((d.tc : Thread nD τ).loc main_arg4)

omit [FloatOps F] in
theorem agree_keep {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp (MM F)) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp (MM F)) := by
  unfold FIN
  iintro ⟨⟨H21, H0, H1, H2, H3, H4⟩, HSI⟩
  ihave X := (agree_keep _ s') $$ [H21 HSI]; · isplitl [H21] <;> iassumption
  icases X with ⟨%h21, HSI⟩
  ihave X := (agree_keep _ s') $$ [H0 HSI]; · isplitl [H0] <;> iassumption
  icases X with ⟨%h0, HSI⟩
  ihave X := (agree_keep _ s') $$ [H1 HSI]; · isplitl [H1] <;> iassumption
  icases X with ⟨%h1, HSI⟩
  ihave X := (agree_keep _ s') $$ [H2 HSI]; · isplitl [H2] <;> iassumption
  icases X with ⟨%h2, HSI⟩
  ihave X := (agree_keep _ s') $$ [H3 HSI]; · isplitl [H3] <;> iassumption
  icases X with ⟨%h3, HSI⟩
  ihave X := (agree_keep _ s') $$ [H4 HSI]; · isplitl [H4] <;> iassumption
  icases X with ⟨%h4, -⟩
  ipureintro; exact ⟨h21, h0, h1, h2, h3, h4⟩

/-- The run's post: the result at the scatter of the region's weights into zeros, the arguments unchanged. -/
def QC : PUnit × MemSt nD τ sig (Elt F) → Prop := fun r => ∀ c : Dev nD,
  r.2.mem ((c.tc : Thread nD τ).loc main_v21) = finalK (a4K m c) (tokK m c)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- The program's run, from the ids in range and the vector subcore's body. -/
theorem run_main [∀ e, Nonempty (Elt F e)] (hpre : PreOK m) (hb : TileBody (T80K m) (E80K m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PK m) facts v₀
    (fun q hq => match q with | 0 => nomatch hq)
    (fun q _ => match q with | 0 => tileObl (T80K m) (E80K m) hb)
    (fun q _ => match q with | 0 => SparseCore.Cfg.VecSplit.of_plain (vecSplit (T80K m) (E80K m)))
    m ρ main (fun d => G (F := F) d) (FIN m) (u₀ (F := F)) (sep_elim_left.trans (hu₀ (T80K m) (E80K m))) (hmain m ρ hpre) (fq m) (hfin m) (QC m) (fun _ h => h)

end MainProof2

end Cert.Kernel.Pf

end
-- ==== Proof.TileIdx.lean ====
/-
  The indexed store of a vector subcore as a pure function: an element no lane names keeps its value, and an
  element some lane names ends holding some naming lane's value.
-/
import proofs.«211129_g5394478924152_cont_9to1c4b_288_8_alg».proof.Proof.TileRes
import proofs.«211129_g5394478924152_cont_9to1c4b_288_8_alg».proof.Proof.Gen.KernelIdeal
import proofs.«211129_g5394478924152_cont_9to1c4b_288_8_alg».proof.Proof.Gen.KernelIdeal.Skeleton
import Idealize.ShloMosaic.Lib.WritesUnit

noncomputable section

namespace Cert.KernelIdeal.Pf

open Cert.KernelIdeal
open Idealize.ShloMosaic
open Classical

variable {F : FTy → Type} [FloatOps F]

/-! ## The indexed store -/

section StoreIdx

variable {s : Shape} {e : EltTy} {dd : Fin 1 → Nat}

/-- One lane of an unmasked indexed store without addition: the element the lane names takes the lane's value. -/
def laneStep (idxs : Fin s.rank → IVec ⟨1, dd⟩ 32) (v : Vec F ⟨1, dd⟩ e) (h : ∀ a x, (idxs a x).toNat < s.size a)
    (g : Vec F s e) (k : Fin (dd 0)) : Vec F s e :=
  fun j => if idxAt idxs h (Shape.ofLane k) = j then v (Shape.ofLane k) else g j

theorem storeIdx_eq_fold (f : Vec F s e) (idxs : Fin s.rank → IVec ⟨1, dd⟩ 32) (v : Vec F ⟨1, dd⟩ e)
    (h : ∀ a x, (idxs a x).toNat < s.size a) :
    storeIdx f idxs v (fun _ => 1#1) false h = (List.finRange (dd 0)).foldl (laneStep idxs v h) f := by
  unfold storeIdx
  congr 1
  funext g k j
  have hc : (∀ a, (j a).val = (idxAt idxs h (Shape.ofLane k) a).val) ↔ idxAt idxs h (Shape.ofLane k) = j :=
    ⟨fun hh => funext fun a => Fin.ext (hh a).symm, fun hh a => by rw [hh]⟩
  unfold laneStep
  by_cases hh : idxAt idxs h (Shape.ofLane k) = j
  · simp [hh]
  · have hn : ¬ ∀ a, (j a).val = (idxAt idxs h (Shape.ofLane k) a).val := fun x => hh (hc.mp x)
    simp [hh, hn]

theorem fold_spec (idxs : Fin s.rank → IVec ⟨1, dd⟩ 32) (v : Vec F ⟨1, dd⟩ e)
    (h : ∀ a x, (idxs a x).toNat < s.size a) (j : s.Idx) (l : List (Fin (dd 0))) (f : Vec F s e) :
    (l.foldl (laneStep idxs v h) f j = f j ∧ ∀ k ∈ l, idxAt idxs h (Shape.ofLane k) ≠ j)
      ∨ (∃ k ∈ l, idxAt idxs h (Shape.ofLane k) = j ∧ l.foldl (laneStep idxs v h) f j = v (Shape.ofLane k)) := by
  induction l generalizing f with
  | nil => exact .inl ⟨rfl, fun k hk => absurd hk List.not_mem_nil⟩
  | cons k l ih =>
    rw [List.foldl_cons]
    rcases ih (laneStep idxs v h f k) with ⟨h1, h2⟩ | ⟨k', hk', h1, h2⟩
    · by_cases hk : idxAt idxs h (Shape.ofLane k) = j
      · refine .inr ⟨k, List.mem_cons_self, hk, ?_⟩
        rw [h1]; unfold laneStep; rw [if_pos hk]
      · refine .inl ⟨?_, fun k'' hk'' => ?_⟩
        · rw [h1]; unfold laneStep; rw [if_neg hk]
        · rcases List.mem_cons.mp hk'' with rfl | hk''
          · exact hk
          · exact h2 k'' hk''
    · exact .inr ⟨k', List.mem_cons_of_mem _ hk', h1, h2⟩

theorem ofLane_zero (x : (⟨1, dd⟩ : Shape).Idx) : Shape.ofLane (x 0) = x := by
  funext a
  have ha := Fin.eq_zero a
  subst ha
  rfl

/-- Every element ends holding its old value, no lane naming it, or the value of some lane that names it. -/
theorem storeIdx_cases (f : Vec F s e) (idxs : Fin s.rank → IVec ⟨1, dd⟩ 32) (v : Vec F ⟨1, dd⟩ e)
    (h : ∀ a x, (idxs a x).toNat < s.size a) (j : s.Idx) :
    (storeIdx f idxs v (fun _ => 1#1) false h j = f j ∧ ∀ x, idxAt idxs h x ≠ j)
      ∨ (∃ x, idxAt idxs h x = j ∧ storeIdx f idxs v (fun _ => 1#1) false h j = v x) := by
  rw [storeIdx_eq_fold]
  rcases fold_spec idxs v h j (List.finRange (dd 0)) f with ⟨h1, h2⟩ | ⟨k, -, hk, h2⟩
  · refine .inl ⟨h1, fun x => ?_⟩
    rw [← ofLane_zero x]; exact h2 _ (List.mem_finRange _)
  · exact .inr ⟨_, hk, h2⟩

end StoreIdx

/-! ## A buffer cleared from the bottom -/

section Clear

/-- The buffer's first `n` elements are zero. -/
def ZB (n : ℕ) (g : S49424.Idx → Elt F .f32) : Prop := ∀ y : S49424.Idx, (y 0).val < n → g y = zeroF

/-- All of it is. -/
def ZAll (g : S49424.Idx → Elt F .f32) : Prop := ∀ y : S49424.Idx, g y = zeroF

theorem ZAll_of_ZB {g : S49424.Idx → Elt F .f32} (h : ZB 49424 g) : ZAll g := fun y => h y (y 0).isLt

theorem ZB_zero (g : S49424.Idx → Elt F .f32) : ZB 0 g := fun _ h => absurd h (Nat.not_lt_zero _)

theorem k1_pay22_apply (x : S16.Idx) : (Gen.k1_pay22 (F := F)) x = zeroF := rfl

/-- Sixteen zeros stored at `16 k` extend a cleared prefix of `16 k` to `16 k + 16`. -/
theorem ZB_step {κ : Kind} {sp : Space} (v : View sig κ sp S49424 .f32) (g : v.ty.Contents (Elt F)) (k : Fin k1_t1_loop.trips)
    (h : ZB (16 * k.val) (v.read (Elt F) g)) :
    ZB (16 * (k.val + 1)) (v.read (Elt F) (v.writes (Elt F) g [⟨Rect.unit (s := S49424) (k1_off1 k) S16.size (Gen.k1_off1_inb k), Gen.k1_pay22⟩])) := by
  intro y hy
  by_cases hlt : (y 0).val < 16 * k.val
  · rw [View.read_writes_cons_unit_of_not_mem v g (Gen.k1_off1_inb k) _ [] y (Gen.k1_off1_eq k) 0 (.inl (by simpa using hlt))]
    exact h y hlt
  · have hx : (y 0).val - 16 * k.val < 16 := by omega
    rw [View.read_writes_cons_unit_of_mem v g (Gen.k1_off1_inb k) _ [] y (fun a => ⟨(y 0).val - 16 * k.val, by have ha := Fin.eq_zero a; subst ha; exact hx⟩) (Gen.k1_off1_eq k)
      (fun a => by
        have ha := Fin.eq_zero a
        subst ha
        show (y 0).val = 16 * k.val + ((y 0).val - 16 * k.val)
        omega)]
    rfl

end Clear

/-! ## The indices a chunk is scattered at -/

section Eff

/-- The index a lane scatters at: its own word, or — where that is the padding value — the padding value plus the lane. -/
def effOf (u : BitVec 32) (lane : ℕ) : ℕ := if u = 49408#32 then 49408 + lane else u.toNat

/-- The index vector of a chunk, as the kernel computes it from the chunk's sixteen words. -/
def effV (vl : IVec S16 32) : IVec S16 32 :=
  select (cmpi .eq vl (broadcast S16 49408#32)) (addi (broadcast S16 49408#32) (iota .scVector S16 32 [0] Gen.iota_S16_d0_w32_scVector)) vl

theorem effV_toNat (vl : IVec S16 32) (x : S16.Idx) : (effV vl x).toNat = effOf (vl x) (x 0).val := by
  have hx : (x 0).val < 16 := (x 0).isLt
  unfold effV effOf select cmpi addi broadcast iota Scalar.select IntOp.cmpi IntOp.addi
  by_cases h : vl x = 49408#32
  · simp only [h, if_true, List.foldl_cons, List.foldl_nil, Nat.zero_mul, Nat.zero_add, beq_self_eq_true, BitVec.ofBool_true]
    simp only [BitVec.toNat_add, BitVec.toNat_ofNat]
    omega
  · have hb : (vl x == 49408#32) = false := by simpa using h
    simp only [h, if_false, hb, BitVec.ofBool_false]
    rfl

theorem effOf_lt {u : BitVec 32} {lane : ℕ} (hu : u.toNat ≤ 49408) (hl : lane < 16) : effOf u lane < 49424 := by
  unfold effOf; split <;> omega

/-- The side condition the body assumes of a chunk's index vector, from the bound on the chunk's words. -/
theorem effV_chk (vl : IVec S16 32) (h : ∀ x, (vl x).toNat ≤ 49408) :
    ∀ a x, ((![effV vl] : Fin 1 → IVec S16 32) a x).toNat < S49424.size a := by
  intro a x
  have ha := Fin.eq_zero a
  subst ha
  show (effV vl x).toNat < 49424
  rw [effV_toNat]
  exact effOf_lt (h x) (x 0).isLt

/-- Some word of the scratch from chunk `c` on scatters at `n`. -/
def Named (C : S80.Idx → BitVec 32) (c : ℕ) (n : ℕ) : Prop := ∃ j : S80.Idx, 16 * c ≤ (j 0).val ∧ effOf (C j) ((j 0).val % 16) = n

/-- The buffer is zero wherever no word of the scratch from chunk `c` on scatters. -/
def ZOff (C : S80.Idx → BitVec 32) (c : ℕ) (g : S49424.Idx → Elt F .f32) : Prop := ∀ y : S49424.Idx, ¬ Named C c (y 0).val → g y = zeroF

theorem ZOff_of_ZAll {C : S80.Idx → BitVec 32} {g : S49424.Idx → Elt F .f32} (c : ℕ) (h : ZAll g) : ZOff C c g := fun y _ => h y

theorem ZAll_of_ZOff {C : S80.Idx → BitVec 32} {g : S49424.Idx → Elt F .f32} (h : ZOff C 5 g) : ZAll g :=
  fun y => h y fun ⟨j, hj, _⟩ => by have := (j 0).isLt; change (j 0).val < 80 at this; omega

/-- The chunk `c` of the scratch: lane `x` holds word `16 c + x`. -/
def ChunkOf (C : S80.Idx → BitVec 32) (c : ℕ) (vl : IVec S16 32) : Prop := ∀ x : S16.Idx, ∃ j : S80.Idx, (j 0).val = 16 * c + (x 0).val ∧ vl x = C j

theorem idxAt_val (vl : IVec S16 32) (h : ∀ a x, ((![effV vl] : Fin 1 → IVec S16 32) a x).toNat < S49424.size a) (x : S16.Idx) :
    ((idxAt (s := S49424) ![effV vl] h x) 0).val = effOf (vl x) (x 0).val := by
  show (effV vl x).toNat = _
  exact effV_toNat vl x

theorem named_of_chunk {C : S80.Idx → BitVec 32} {c c' : ℕ} {vl : IVec S16 32} (hc : ChunkOf C c vl) (hcc : c' ≤ c)
    (h : ∀ a x, ((![effV vl] : Fin 1 → IVec S16 32) a x).toNat < S49424.size a) (x : S16.Idx) (y : S49424.Idx)
    (hy : idxAt (s := S49424) ![effV vl] h x = y) : Named C c' (y 0).val := by
  obtain ⟨j, hj, hv⟩ := hc x
  have hx : (x 0).val < 16 := (x 0).isLt
  refine ⟨j, ?_, ?_⟩
  · rw [hj]; have := Nat.mul_le_mul_left 16 hcc; omega
  · rw [← hy, idxAt_val, hv, hj]
    congr 1
    omega

/-- Scattering a chunk of the scratch keeps the buffer zero off the scratch's indices. -/
theorem ZOff_scatter {C : S80.Idx → BitVec 32} {c : ℕ} {vl : IVec S16 32} (hc : ChunkOf C c vl)
    (h : ∀ a x, ((![effV vl] : Fin 1 → IVec S16 32) a x).toNat < S49424.size a) (v : Vec F S16 .f32)
    {g : S49424.Idx → Elt F .f32} (hg : ZOff C 0 g) :
    ZOff C 0 (storeIdx (s := S49424) g ![effV vl] v (fun _ => 1#1) false h) := by
  intro y hy
  rcases storeIdx_cases (s := S49424) g ![effV vl] v h y with ⟨h1, -⟩ | ⟨x, hx, -⟩
  · rw [h1]; exact hg y hy
  · exact absurd (named_of_chunk hc (Nat.zero_le c) h x y hx) hy

/-- Lane `n` of a chunk. -/
def lane16 (n : ℕ) (h : n < 16) : S16.Idx := fun a => ⟨n, by have ha := Fin.eq_zero a; subst ha; exact h⟩

/-- Scattering zeros at chunk `c` of the scratch clears what that chunk had scattered. -/
theorem ZOff_restore {C : S80.Idx → BitVec 32} {c : ℕ} {vl : IVec S16 32} (hc : ChunkOf C c vl)
    (h : ∀ a x, ((![effV vl] : Fin 1 → IVec S16 32) a x).toNat < S49424.size a)
    {g : S49424.Idx → Elt F .f32} (hg : ZOff C c g) :
    ZOff C (c + 1) (storeIdx (s := S49424) g ![effV vl] (Gen.k1_pay22 (F := F)) (fun _ => 1#1) false h) := by
  intro y hy
  rcases storeIdx_cases (s := S49424) g ![effV vl] (Gen.k1_pay22 (F := F)) h y with ⟨h1, h2⟩ | ⟨x, -, hx⟩
  · rw [h1]
    refine hg y fun ⟨j, hj, hn⟩ => ?_
    by_cases hj' : 16 * (c + 1) ≤ (j 0).val
    · exact hy ⟨j, hj', hn⟩
    · -- word `j` lies in chunk `c`: its lane names `y`
      have hlt : (j 0).val - 16 * c < 16 := by omega
      obtain ⟨j', hj'', hv⟩ := hc (lane16 ((j 0).val - 16 * c) hlt)
      have hjj : j' = j := by
        funext a
        have ha := Fin.eq_zero a
        subst ha
        apply Fin.ext
        rw [hj'']
        show 16 * c + ((j 0).val - 16 * c) = (j 0).val
        omega
      refine h2 (lane16 ((j 0).val - 16 * c) hlt) ?_
      funext a
      have ha := Fin.eq_zero a
      subst ha
      apply Fin.ext
      rw [idxAt_val, hv, hjj, ← hn]
      congr 1
      show (j 0).val - 16 * c = (j 0).val % 16
      omega
  · rw [hx]; rfl

/-- `ZOff_scatter` with the index vector under a name of its own. -/
theorem ZOff_scatter' {C : S80.Idx → BitVec 32} {c : ℕ} (vl : IVec S16 32) (hc : ChunkOf C c vl) {idx : IVec S16 32} (hidx : idx = effV vl)
    (h : ∀ a x, ((![idx] : Fin 1 → IVec S16 32) a x).toNat < S49424.size a) (v : Vec F S16 .f32)
    {g : S49424.Idx → Elt F .f32} (hg : ZOff C 0 g) :
    ZOff C 0 (storeIdx (s := S49424) g ![idx] v (fun _ => 1#1) false h) := by
  subst hidx; exact ZOff_scatter hc h v hg

/-- `ZOff_restore` with the index vector and the zeros under names of their own. -/
theorem ZOff_restore' {C : S80.Idx → BitVec 32} {c : ℕ} (vl : IVec S16 32) (hc : ChunkOf C c vl) {idx : IVec S16 32} (hidx : idx = effV vl)
    (h : ∀ a x, ((![idx] : Fin 1 → IVec S16 32) a x).toNat < S49424.size a) {z : Vec F S16 .f32} (hz : z = Gen.k1_pay22)
    {g : S49424.Idx → Elt F .f32} (hg : ZOff C c g) :
    ZOff C (c + 1) (storeIdx (s := S49424) g ![idx] z (fun _ => 1#1) false h) := by
  subst hidx; subst hz; exact ZOff_restore hc h hg

/-- The side condition, with the index vector under a name of its own. -/
theorem effV_chk' (vl : IVec S16 32) {idx : IVec S16 32} (hidx : idx = effV vl) (h : ∀ x, (vl x).toNat ≤ 49408) :
    ∀ a x, ((![idx] : Fin 1 → IVec S16 32) a x).toNat < S49424.size a := by
  subst hidx; exact effV_chk vl h

/-- The words `C` are words of row `r` of the indices. -/
def RowOf {d : Dev nD} (E80 : Buf (Elt F) (eidLoc d)) (r : ℕ) (C : S80.Idx → BitVec 32) : Prop :=
  ∀ j : S80.Idx, ∃ i : S1024x80.Idx, (i 0).val = r ∧ C j = E80 i

theorem rowOf_le {d : Dev nD} {E80 : Buf (Elt F) (eidLoc d)} (hE : ∀ i, (E80 i).toNat ≤ 49408) {r : ℕ} {C : S80.Idx → BitVec 32}
    (h : RowOf E80 r C) (j : S80.Idx) : (C j).toNat ≤ 49408 := by
  obtain ⟨i, -, hi⟩ := h j
  rw [hi]; exact hE i

end Eff

end Cert.KernelIdeal.Pf

end
-- ==== Proof.TileViews.lean ====
import proofs.«211129_g5394478924152_cont_9to1c4b_288_8_alg».proof.Proof.TileRes
import proofs.«211129_g5394478924152_cont_9to1c4b_288_8_alg».proof.Proof.Launch
import Idealize.ShloMosaic.Lib.SparseCore.Launch
import Idealize.ShloMosaic.Lib.StableHlo.Run
import Idealize.ShloMosaic.Lib.Pipeline.Kit
import Idealize.ShloMosaic.Lib.Tactic
import proofs.«211129_g5394478924152_cont_9to1c4b_288_8_alg».proof.Proof.Gen.KernelIdeal
import proofs.«211129_g5394478924152_cont_9to1c4b_288_8_alg».proof.Proof.Gen.KernelIdeal.Skeleton
import proofs.«211129_g5394478924152_cont_9to1c4b_288_8_alg».proof.Proof.TileIdx

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The kernel's memrefs -/

-- the kernel's memrefs, spelt as the body table passes them
abbrev tokV : Memref sig .scVector .hbm S1024x80 .f32 := Memref.whole main_v2_scv
abbrev eidV : Memref sig .scVector .hbm S1024x80 .i32 := Memref.whole main_v3_scv
abbrev outV : Memref sig .scVector .hbm S1024x49408 .f32 := Memref.whole main_v4_scv
abbrev buf0 : Memref sig .scVector .vmem S49424 .f32 := Memref.whole cc1_scratch0
abbrev buf1 : Memref sig .scVector .vmem S49424 .f32 := Memref.whole cc1_scratch1
abbrev ids0 : Memref sig .scVector .vmem S80 .i32 := Memref.whole cc1_scratch2
abbrev ids1 : Memref sig .scVector .vmem S80 .i32 := Memref.whole cc1_scratch3
abbrev tw0 : Memref sig .scVector .vmem S80 .f32 := Memref.whole cc1_scratch4
abbrev tw1 : Memref sig .scVector .vmem S80 .f32 := Memref.whole cc1_scratch5

/-! ## Rows of the arrays, as the kernel slices them -/

/-- Row `off 0` of the padded weights. -/
abbrev tokRow (off : Fin 2 → Nat) (inb : ∀ a, off a + S1x80.size a ≤ S1024x80.size a) : Memref sig .scVector .hbm S80 .f32 :=
  (tokV.slice (Rect.unit (s := S1024x80) off S1x80.size inb) (fun _ => rfl)).squeeze S80 squeezes_S1x80_S80
/-- Row `off 0` of the padded indices. -/
abbrev eidRow (off : Fin 2 → Nat) (inb : ∀ a, off a + S1x80.size a ≤ S1024x80.size a) : Memref sig .scVector .hbm S80 .i32 :=
  (eidV.slice (Rect.unit (s := S1024x80) off S1x80.size inb) (fun _ => rfl)).squeeze S80 squeezes_S1x80_S80
/-- Row `off 0` of the output. -/
abbrev outRow (off : Fin 2 → Nat) (inb : ∀ a, off a + S1x49408.size a ≤ S1024x49408.size a) : Memref sig .scVector .hbm S49408 .f32 :=
  (outV.slice (Rect.unit (s := S1024x49408) off S1x49408.size inb) (fun _ => rfl)).squeeze S49408 squeezes_S1x49408_S49408

theorem set_tokRow (off inb) : (tokRow off inb).view.set = (Rect.unit (s := S1024x80) off S1x80.size inb).set := by
  show (((View.whole (main_v2_scv : Ref sig .scVector)).slice (Rect.unit (s := S1024x80) off S1x80.size inb)).reshape S80 squeezes_S1x80_S80.numel_eq).set = _
  rw [View.set_reshape, View.set_slice]; exact Finset.map_refl
theorem set_eidRow (off inb) : (eidRow off inb).view.set = (Rect.unit (s := S1024x80) off S1x80.size inb).set := by
  show (((View.whole (main_v3_scv : Ref sig .scVector)).slice (Rect.unit (s := S1024x80) off S1x80.size inb)).reshape S80 squeezes_S1x80_S80.numel_eq).set = _
  rw [View.set_reshape, View.set_slice]; exact Finset.map_refl
theorem set_outRow (off inb) : (outRow off inb).view.set = (Rect.unit (s := S1024x49408) off S1x49408.size inb).set := by
  show (((View.whole (main_v4_scv : Ref sig .scVector)).slice (Rect.unit (s := S1024x49408) off S1x49408.size inb)).reshape S49408 squeezes_S1x49408_S49408.numel_eq).set = _
  rw [View.set_reshape, View.set_slice]; exact Finset.map_refl

theorem row80_subset {w : Fin 32} {off : Fin 2 → Nat} {inb : ∀ a, off a + S1x80.size a ≤ S1024x80.size a} {r : ℕ}
    (h : off = ![r, 0]) (hr : 32 * w.val ≤ r ∧ r < 32 * w.val + 32) :
    (Rect.unit (s := S1024x80) off S1x80.size inb).set ⊆ rows80 w := by
  subst h
  intro i hi
  have h0 := (Rect.mem_set_unit.mp hi) 0
  rw [mem_rows80]
  simp at h0
  omega
theorem rowOut_subset {w : Fin 32} {off : Fin 2 → Nat} {inb : ∀ a, off a + S1x49408.size a ≤ S1024x49408.size a} {r : ℕ}
    (h : off = ![r, 0]) (hr : 32 * w.val ≤ r ∧ r < 32 * w.val + 32) :
    (Rect.unit (s := S1024x49408) off S1x49408.size inb).set ⊆ rowsOut w := by
  subst h
  intro i hi
  have h0 := (Rect.mem_set_unit.mp hi) 0
  rw [mem_rowsOut]
  simp at h0
  omega

/-! ## What a scratch holds after a row is copied into it -/

theorem rowOf_read {d : Dev nD} (E80 : Buf (Elt F) (eidLoc d)) (off : Fin 2 → Nat) (inb : ∀ a, off a + S1x80.size a ≤ S1024x80.size a) :
    RowOf E80 (off 0) ((eidRow off inb).view.read (Elt F) E80) := by
  intro j
  refine ⟨(eidRow off inb).view.emb j, ?_, rfl⟩
  show off 0 + 1 * ((Shape.reshapeEquiv squeezes_S1x80_S80.numel_eq j) 0).val = off 0
  have h1 : ((Shape.reshapeEquiv squeezes_S1x80_S80.numel_eq j) 0).val < 1 := ((Shape.reshapeEquiv squeezes_S1x80_S80.numel_eq j) 0).isLt
  omega

/-- A chunk loaded from a scratch is that chunk of its words. -/
theorem chunkOf_readAt {κ : Kind} {sp : Space} (v : View sig κ sp S80 .i32) (f : v.ty.Contents (Elt F)) (off : Fin 1 → Nat)
    (inb : ∀ a, off a + S16.size a ≤ S80.size a) (c : ℕ) (hoff : off 0 = 16 * c) :
    ChunkOf (v.read (Elt F) f) c (v.readAt (Elt F) (Rect.unit (s := S80) off S16.size inb).toLoadRect f) := by
  intro x
  refine ⟨(Rect.unit (s := S80) off S16.size inb).toLoadRect.idx x, ?_, rfl⟩
  show off 0 + 1 * (x 0).val = 16 * c + (x 0).val
  omega

end Cert.KernelIdeal.Pf

end
-- ==== Proof.TcRows.lean ====
/-
  Rows of the output, one at a time: a row that agrees, below column 49408, with a buffer that is zero off the
  indices the row's eighty words scatter at, is zero off the row's ids; the rows of a task done so far and still to do.
-/
import proofs.«211129_g5394478924152_cont_9to1c4b_288_8_alg».proof.Proof.TileIdx

noncomputable section

namespace Cert.KernelIdeal.Pf

open Cert.KernelIdeal
open Idealize.ShloMosaic

variable {F : FTy → Type} [FloatOps F]

/-! ## The clause of one element -/

/-- What `ZeroOff` says of one element: zero, if no id of its row is its column. -/
def Clause {d : Dev nD} (E80 : Buf (Elt F) (eidLoc d)) (f : Buf (Elt F) (outLoc d)) (i : S1024x49408.Idx) : Prop :=
  (∀ j : S1024x80.Idx, (j 0).val = (i 0).val → (E80 j).toNat ≠ (i 1).val) → f i = zeroF

theorem zeroOff_of_clauses {d : Dev nD} {w : Fin 32} {E80 : Buf (Elt F) (eidLoc d)} {f : Buf (Elt F) (outLoc d)}
    (h : ∀ i ∈ rowsOut w, Clause E80 f i) : ZeroOff w E80 f :=
  fun i hi => h i hi

/-- An element of row `r` that is the buffer's at its column: a column below 49408 that no id of the row equals is
    scattered at by no word of the row (a padding word scatters at 49408 or above), so the buffer is zero there. -/
theorem row_clause {d : Dev nD} {E80 : Buf (Elt F) (eidLoc d)} {r : ℕ} {C : S80.Idx → BitVec 32} (hrow : RowOf E80 r C)
    {g : S49424.Idx → Elt F .f32} (hg : ZOff C 0 g) (f : Buf (Elt F) (outLoc d)) (i : S1024x49408.Idx) (hi : (i 0).val = r)
    (y : S49424.Idx) (hy : (y 0).val = (i 1).val) (hf : f i = g y) : Clause E80 f i := by
  intro hne
  rw [hf]
  refine hg y fun ⟨j, _, hn⟩ => ?_
  have hi1 : (i 1).val < 49408 := (i 1).isLt
  obtain ⟨i', hi'0, hC⟩ := hrow j
  have e : (C j).toNat = (E80 i').toNat := congrArg BitVec.toNat hC
  unfold effOf at hn
  split at hn
  · omega
  · exact hne i' (by rw [hi'0, hi]) (by omega)

/-- Two families of clauses, joined as two points-to are. -/
theorem clause_piecewise {d : Dev nD} {E80 : Buf (Elt F) (eidLoc d)} {I J : Finset S1024x49408.Idx} [∀ j, Decidable (j ∈ J)]
    {f g : Buf (Elt F) (outLoc d)} (hf : ∀ i ∈ I, Clause E80 f i) (hg : ∀ i ∈ J, Clause E80 g i) :
    ∀ i ∈ I ∪ J, Clause E80 (J.piecewise g f) i := by
  intro i hi
  unfold Clause
  by_cases hJ : i ∈ J
  · rw [Finset.piecewise_eq_of_mem _ _ _ hJ]; exact hg i hJ
  · rw [Finset.piecewise_eq_of_notMem _ _ _ hJ]; exact hf i ((Finset.mem_union.mp hi).resolve_right hJ)

/-! ## The rows of a task done so far, and those still to do -/

/-- The task's rows below its `n`th. -/
def rowsLt (w : Fin 32) (n : ℕ) : Finset S1024x49408.Idx := (rowsOut w).filter fun i => (i 0).val < 32 * w.val + n
/-- The task's rows from its `n`th on. -/
def rowsGe (w : Fin 32) (n : ℕ) : Finset S1024x49408.Idx := (rowsOut w).filter fun i => 32 * w.val + n ≤ (i 0).val

theorem rowsGe_zero (w : Fin 32) : rowsGe w 0 = rowsOut w :=
  Finset.filter_true_of_mem fun i hi => by have := (mem_rowsOut.mp hi).1; omega

theorem rowsLt_zero (w : Fin 32) : rowsLt w 0 = ∅ :=
  Finset.filter_false_of_mem fun i hi => by have := (mem_rowsOut.mp hi).1; omega

theorem rowsLt_32 (w : Fin 32) : rowsLt w 32 = rowsOut w :=
  Finset.filter_true_of_mem fun i hi => by have := (mem_rowsOut.mp hi).2; omega

section Row

variable {w : Fin 32} {n : ℕ} {off : Fin 2 → ℕ} {inb : ∀ a, off a + S1x49408.size a ≤ S1024x49408.size a}

/-- The task's `n`th row, as a rectangle of one row of the output, is the indices on that row. -/
theorem row_mem (h : off = ![32 * w.val + n, 0]) (hn : n < 32) {i : S1024x49408.Idx} :
    i ∈ (Rect.unit (s := S1024x49408) off S1x49408.size inb).set ↔ (i 0).val = 32 * w.val + n := by
  subst h
  rw [Rect.mem_set_unit]
  have h1 : (i 1).val < 49408 := (i 1).isLt
  constructor
  · intro hall
    have h0 := hall 0
    change 32 * w.val + n ≤ (i 0).val ∧ (i 0).val < 32 * w.val + n + 1 at h0
    omega
  · intro hi a
    match a with
    | ⟨0, _⟩ => show 32 * w.val + n ≤ (i 0).val ∧ (i 0).val < 32 * w.val + n + 1; omega
    | ⟨1, _⟩ => show 0 ≤ (i 1).val ∧ (i 1).val < 0 + 49408; omega

theorem row_subset_ge (h : off = ![32 * w.val + n, 0]) (hn : n < 32) :
    (Rect.unit (s := S1024x49408) off S1x49408.size inb).set ⊆ rowsGe w n := by
  intro i hi
  rw [row_mem h hn] at hi
  exact Finset.mem_filter.mpr ⟨mem_rowsOut.mpr ⟨by omega, by omega⟩, by omega⟩

theorem rowsGe_sdiff (h : off = ![32 * w.val + n, 0]) (hn : n < 32) :
    rowsGe w n \ (Rect.unit (s := S1024x49408) off S1x49408.size inb).set = rowsGe w (n + 1) := by
  ext i
  rw [Finset.mem_sdiff, row_mem h hn]
  unfold rowsGe
  rw [Finset.mem_filter, Finset.mem_filter]
  constructor
  · rintro ⟨⟨hm, hge⟩, hne⟩; exact ⟨hm, by omega⟩
  · rintro ⟨hm, hge⟩; exact ⟨⟨hm, by omega⟩, by omega⟩

theorem row_disjoint_lt (h : off = ![32 * w.val + n, 0]) (hn : n < 32) :
    Disjoint (rowsLt w n) (Rect.unit (s := S1024x49408) off S1x49408.size inb).set :=
  Finset.disjoint_left.mpr fun i hi hR => by
    rw [row_mem h hn] at hR
    have := (Finset.mem_filter.mp hi).2
    omega

theorem rowsLt_union (h : off = ![32 * w.val + n, 0]) (hn : n < 32) :
    rowsLt w n ∪ (Rect.unit (s := S1024x49408) off S1x49408.size inb).set = rowsLt w (n + 1) := by
  ext i
  rw [Finset.mem_union, row_mem h hn]
  unfold rowsLt
  rw [Finset.mem_filter, Finset.mem_filter]
  constructor
  · rintro (⟨hm, hlt⟩ | heq)
    · exact ⟨hm, by omega⟩
    · exact ⟨mem_rowsOut.mpr ⟨by omega, by omega⟩, by omega⟩
  · rintro ⟨hm, hlt⟩
    by_cases hl : (i 0).val < 32 * w.val + n
    · exact .inl ⟨hm, hl⟩
    · exact .inr (by omega)

end Row

end Cert.KernelIdeal.Pf

end
-- ==== Proof.TcOutRow.lean ====
/-
  A row of the output copied out of a buffer: where the buffer is zero off the indices the row's words scatter at, every
  element of the row satisfies its clause.
-/
import proofs.«211129_g5394478924152_cont_9to1c4b_288_8_alg».proof.Proof.TileViews
import proofs.«211129_g5394478924152_cont_9to1c4b_288_8_alg».proof.Proof.TcRows
import Idealize.ShloMosaic.Lib.Pipeline.Value

noncomputable section

namespace Cert.KernelIdeal.Pf

open Cert.KernelIdeal Cert.KernelIdeal.Gen
open Idealize.ShloMosaic

variable {F : FTy → Type} [FloatOps F]

/-- An element of a row of the output, as the row's memref places it: on the row, at its own column. -/
theorem outRow_emb (off : Fin 2 → Nat) (inb : ∀ a, off a + S1x49408.size a ≤ S1024x49408.size a) (x : S49408.Idx) :
    (((outRow off inb).view.emb x) 0).val = off 0 ∧ (((outRow off inb).view.emb x) 1).val = off 1 + (x 0).val := by
  have h0 : ((Shape.reshapeEquiv squeezes_S1x49408_S49408.numel_eq x) 0).val < 1 :=
    ((Shape.reshapeEquiv squeezes_S1x49408_S49408.numel_eq x) 0).isLt
  have t := Shape.rowMajor_reshapeEquiv squeezes_S1x49408_S49408.numel_eq x
  rw [Shape.rowMajor_val_two, Shape.rowMajor_val_one] at t
  have t' : ((Shape.reshapeEquiv squeezes_S1x49408_S49408.numel_eq x) 0).val * 49408
      + ((Shape.reshapeEquiv squeezes_S1x49408_S49408.numel_eq x) 1).val = (x 0).val := t
  constructor
  · show off 0 + 1 * ((Shape.reshapeEquiv squeezes_S1x49408_S49408.numel_eq x) 0).val = off 0
    omega
  · show off 1 + 1 * ((Shape.reshapeEquiv squeezes_S1x49408_S49408.numel_eq x) 1).val = off 1 + (x 0).val
    omega

/-- What a row copied out of a buffer holds — the delivered row is one whole-row piece over what the array held —: the
    buffer's elements at the row's columns, so each element's clause. -/
theorem outRow_clauses {d : Dev nD} {E80 : Buf (Elt F) (eidLoc d)} {off : Fin 2 → Nat}
    {inb : ∀ a, off a + S1x49408.size a ≤ S1024x49408.size a} (hoff : off 1 = 0) {C : S80.Idx → BitVec 32}
    (hrow : RowOf E80 (off 0) C) {G : S49424.Idx → Elt F .f32} (hG : ZOff C 0 G) (w : (Rect.whole S49408).shape.Idx → Elt F .f32)
    (hw : ∀ x, ∃ y : S49424.Idx, (y 0).val = (x 0).val ∧ w x = G y) (fd : Buf (Elt F) (outLoc d)) :
    ∀ i ∈ (Rect.unit (s := S1024x49408) off S1x49408.size inb).set,
      Clause E80 ((outRow off inb).view.writes (Elt F) fd [⟨Rect.whole S49408, w⟩]) i := by
  intro i hi
  rw [← set_outRow off inb] at hi
  obtain ⟨x, rfl⟩ := View.exists_emb_of_mem_set (outRow off inb).view hi
  obtain ⟨y, hy, hwx⟩ := hw x
  obtain ⟨e0, e1⟩ := outRow_emb off inb x
  rw [hoff, Nat.zero_add] at e1
  refine row_clause hrow hG _ _ e0 y (hy.trans e1.symm) ?_
  rw [View.writes_singleton]
  have hx : ((outRow off inb).view.slice (Rect.whole S49408)).emb x = (outRow off inb).view.emb x := by
    show (outRow off inb).view.emb ((Rect.whole S49408).emb x) = _
    rw [Rect.emb_whole_apply]
  rw [← hx]
  exact (View.write_emb_of_mem (v := (outRow off inb).view.slice (Rect.whole S49408)) fd w (Finset.mem_univ x)).trans
    ((cast_eq _ _).trans hwx)

end Cert.KernelIdeal.Pf

end
-- ==== Proof.TcJoin.lean ====
/-
  The output's rows done so far, one row more: the points-to on the rows below the `n`th and on the `n`th row join, and
  their clauses with them; and the task's results from all thirty-two.
-/
import proofs.«211129_g5394478924152_cont_9to1c4b_288_8_alg».proof.Proof.TileViews
import proofs.«211129_g5394478924152_cont_9to1c4b_288_8_alg».proof.Proof.TcRows

noncomputable section

namespace Cert.KernelIdeal.Pf

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No row of the task is at or past its thirty-second. -/
theorem rowsGe_32 (w : Fin 32) : rowsGe w 32 = ∅ :=
  Finset.filter_false_of_mem fun i hi => by have := (mem_rowsOut.mp hi).2; omega

/-- The rows done so far and the next row, joined: the rows done through the next. -/
theorem out_join {d : Dev nD} {E80 : Buf (Elt F) (eidLoc d)} {w : Fin 32} {n : ℕ} {off : Fin 2 → ℕ}
    {inb : ∀ a, off a + S1x49408.size a ≤ S1024x49408.size a} (h : off = ![32 * w.val + n, 0]) (hn : n < 32)
    {fD X : Buf (Elt F) (outLoc d)} (hD : ∀ i ∈ rowsLt w n, Clause E80 fD i)
    (hX : ∀ i ∈ (Rect.unit (s := S1024x49408) off S1x49408.size inb).set, Clause E80 X i) :
    iprop((outLoc d ↦[rowsLt w n]{fullShare} fD) ∗ (outLoc d ↦[(Rect.unit (s := S1024x49408) off S1x49408.size inb).set]{fullShare} X))
      ⊢ (iprop(∃ fD', ⌜∀ i ∈ rowsLt w (n + 1), Clause E80 fD' i⌝ ∗ outLoc d ↦[rowsLt w (n + 1)]{fullShare} fD') : sProp (MM F)) := by
  refine (pointsTo_join (row_disjoint_lt h hn)).trans ?_
  rw [rowsLt_union h hn]
  iintro H
  iexists _
  isplitr
  · ipureintro
    have hc := clause_piecewise (E80 := E80) hD hX
    rw [rowsLt_union h hn] at hc
    exact hc
  · iexact H

/-- All thirty-two rows done: what the task hands back. -/
theorem out_done {d : Dev nD} {E80 : Buf (Elt F) (eidLoc d)} {w : Fin 32} {T80 : Buf (Elt F) (tokLoc d)}
    {fD : Buf (Elt F) (outLoc d)} (hD : ∀ i ∈ rowsLt w 32, Clause E80 fD i) :
    iprop((tokLoc d ↦[rows80 w]{fullShare} T80) ∗ (eidLoc d ↦[rows80 w]{fullShare} E80) ∗ (outLoc d ↦[rowsLt w 32]{fullShare} fD))
      ⊢ (tdRes d w T80 E80 : sProp (MM F)) := by
  rw [rowsLt_32] at hD ⊢
  unfold tdRes
  iintro ⟨Ht, He, Ho⟩
  isplitl [Ht]; · iexact Ht
  isplitl [He]; · iexact He
  iexists fD
  isplitr
  · ipureintro; exact zeroOff_of_clauses hD
  · iexact Ho

end Cert.KernelIdeal.Pf

end
-- ==== Proof.TileBody.lean ====
/-
  One vector subcore's task of the SparseCore kernel, at a symbolic subcore: it clears its two buffers in a counted
  loop, then for each of its thirty-two rows — two at a time, one per buffer — copies the row's indices and weights
  into its scratches, scatters the eighty weights into the buffer at the row's indices (a padding index sent to a
  lane of its own past the row's end), starts the copy of the buffer's first 49408 words to the output's row, and,
  before it uses that buffer again, waits for the copy and scatters zeros back at the same indices. Carried through
  the run: a buffer is zero wherever no word of the scratch it was last scattered from scatters, so a row that has
  landed is zero at every column none of its indices names; the rows landed so far, the two rows in flight and the
  rows not yet written are held apart and joined when the last two copies have been waited for.
-/
import proofs.«211129_g5394478924152_cont_9to1c4b_288_8_alg».proof.Proof.TileViews
import proofs.«211129_g5394478924152_cont_9to1c4b_288_8_alg».proof.Proof.TcRows
import proofs.«211129_g5394478924152_cont_9to1c4b_288_8_alg».proof.Proof.TcOutRow
import proofs.«211129_g5394478924152_cont_9to1c4b_288_8_alg».proof.Proof.TcJoin

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable (d : Dev nD) (L : grid1.Coords)

/-- A DMA semaphore of the subcore's own, as a cell. -/
abbrev cellOf (s : DmaSems sig S_) : GSem nD τ sig := ((V d (cV L) (jV L)), SemLoc.dma s.sem)

theorem cellOf_ne {s s' : DmaSems sig S_} (h : s.sem ≠ s'.sem) : cellOf d L s ≠ cellOf d L s' :=
  fun e => h (SemLoc.dma.inj (Prod.mk.inj e).2)

variable [FloatOps F]

omit [FloatOps F] in
theorem ownSems0_V :
    (ownSems0 (V d (cV L) (jV L)) : sProp (MM F))
      = iprop(semVal (cellOf d L cc1_scratch6) 0 ∗ semVal (cellOf d L cc1_scratch7) 0 ∗ semVal (cellOf d L cc1_scoped0) 0 ∗ semVal (cellOf d L cc1_scoped1) 0 ∗ semVal (cellOf d L cc1_scoped2) 0 ∗ semVal (cellOf d L cc1_scoped3) 0 ∗ semVal (cellOf d L cc1_scoped4) 0 ∗ semVal (cellOf d L cc1_scoped5) 0 ∗ semVal (cellOf d L cc1_scoped6) 0 ∗ semVal (cellOf d L cc1_scoped7) 0
          ∗ bigSep (((((((((((ownCells (V d (cV L) (jV L))).erase (cellOf d L cc1_scratch6)).erase (cellOf d L cc1_scratch7)).erase (cellOf d L cc1_scoped0)).erase (cellOf d L cc1_scoped1)).erase (cellOf d L cc1_scoped2)).erase (cellOf d L cc1_scoped3)).erase (cellOf d L cc1_scoped4)).erase (cellOf d L cc1_scoped5)).erase (cellOf d L cc1_scoped6)).erase (cellOf d L cc1_scoped7)) fun g => semVal g 0) := by
  unfold SparseCore.Cfg.ownSems0
  rw [SparseCore.bigSep_erase' ((mem_ownCells (g := cellOf d L cc1_scratch6)).mpr ⟨rfl, by show (SemLoc.dma cc1_scratch6.sem : SemLoc sig).isScoped .scVector = true; decide⟩),
    SparseCore.bigSep_erase' (Finset.mem_erase.mpr ⟨cellOf_ne d L (by decide : (cc1_scratch7.sem : DmaSem sig) ≠ cc1_scratch6.sem), (mem_ownCells (g := cellOf d L cc1_scratch7)).mpr ⟨rfl, by show (SemLoc.dma cc1_scratch7.sem : SemLoc sig).isScoped .scVector = true; decide⟩⟩),
    SparseCore.bigSep_erase' (Finset.mem_erase.mpr ⟨cellOf_ne d L (by decide : (cc1_scoped0.sem : DmaSem sig) ≠ cc1_scratch7.sem), Finset.mem_erase.mpr ⟨cellOf_ne d L (by decide : (cc1_scoped0.sem : DmaSem sig) ≠ cc1_scratch6.sem), (mem_ownCells (g := cellOf d L cc1_scoped0)).mpr ⟨rfl, by show (SemLoc.dma cc1_scoped0.sem : SemLoc sig).isScoped .scVector = true; decide⟩⟩⟩),
    SparseCore.bigSep_erase' (Finset.mem_erase.mpr ⟨cellOf_ne d L (by decide : (cc1_scoped1.sem : DmaSem sig) ≠ cc1_scoped0.sem), Finset.mem_erase.mpr ⟨cellOf_ne d L (by decide : (cc1_scoped1.sem : DmaSem sig) ≠ cc1_scratch7.sem), Finset.mem_erase.mpr ⟨cellOf_ne d L (by decide : (cc1_scoped1.sem : DmaSem sig) ≠ cc1_scratch6.sem), (mem_ownCells (g := cellOf d L cc1_scoped1)).mpr ⟨rfl, by show (SemLoc.dma cc1_scoped1.sem : SemLoc sig).isScoped .scVector = true; decide⟩⟩⟩⟩),
    SparseCore.bigSep_erase' (Finset.mem_erase.mpr ⟨cellOf_ne d L (by decide : (cc1_scoped2.sem : DmaSem sig) ≠ cc1_scoped1.sem), Finset.mem_erase.mpr ⟨cellOf_ne d L (by decide : (cc1_scoped2.sem : DmaSem sig) ≠ cc1_scoped0.sem), Finset.mem_erase.mpr ⟨cellOf_ne d L (by decide : (cc1_scoped2.sem : DmaSem sig) ≠ cc1_scratch7.sem), Finset.mem_erase.mpr ⟨cellOf_ne d L (by decide : (cc1_scoped2.sem : DmaSem sig) ≠ cc1_scratch6.sem), (mem_ownCells (g := cellOf d L cc1_scoped2)).mpr ⟨rfl, by show (SemLoc.dma cc1_scoped2.sem : SemLoc sig).isScoped .scVector = true; decide⟩⟩⟩⟩⟩),
    SparseCore.bigSep_erase' (Finset.mem_erase.mpr ⟨cellOf_ne d L (by decide : (cc1_scoped3.sem : DmaSem sig) ≠ cc1_scoped2.sem), Finset.mem_erase.mpr ⟨cellOf_ne d L (by decide : (cc1_scoped3.sem : DmaSem sig) ≠ cc1_scoped1.sem), Finset.mem_erase.mpr ⟨cellOf_ne d L (by decide : (cc1_scoped3.sem : DmaSem sig) ≠ cc1_scoped0.sem), Finset.mem_erase.mpr ⟨cellOf_ne d L (by decide : (cc1_scoped3.sem : DmaSem sig) ≠ cc1_scratch7.sem), Finset.mem_erase.mpr ⟨cellOf_ne d L (by decide : (cc1_scoped3.sem : DmaSem sig) ≠ cc1_scratch6.sem), (mem_ownCells (g := cellOf d L cc1_scoped3)).mpr ⟨rfl, by show (SemLoc.dma cc1_scoped3.sem : SemLoc sig).isScoped .scVector = true; decide⟩⟩⟩⟩⟩⟩),
    SparseCore.bigSep_erase' (Finset.mem_erase.mpr ⟨cellOf_ne d L (by decide : (cc1_scoped4.sem : DmaSem sig) ≠ cc1_scoped3.sem), Finset.mem_erase.mpr ⟨cellOf_ne d L (by decide : (cc1_scoped4.sem : DmaSem sig) ≠ cc1_scoped2.sem), Finset.mem_erase.mpr ⟨cellOf_ne d L (by decide : (cc1_scoped4.sem : DmaSem sig) ≠ cc1_scoped1.sem), Finset.mem_erase.mpr ⟨cellOf_ne d L (by decide : (cc1_scoped4.sem : DmaSem sig) ≠ cc1_scoped0.sem), Finset.mem_erase.mpr ⟨cellOf_ne d L (by decide : (cc1_scoped4.sem : DmaSem sig) ≠ cc1_scratch7.sem), Finset.mem_erase.mpr ⟨cellOf_ne d L (by decide : (cc1_scoped4.sem : DmaSem sig) ≠ cc1_scratch6.sem), (mem_ownCells (g := cellOf d L cc1_scoped4)).mpr ⟨rfl, by show (SemLoc.dma cc1_scoped4.sem : SemLoc sig).isScoped .scVector = true; decide⟩⟩⟩⟩⟩⟩⟩),
    SparseCore.bigSep_erase' (Finset.mem_erase.mpr ⟨cellOf_ne d L (by decide : (cc1_scoped5.sem : DmaSem sig) ≠ cc1_scoped4.sem), Finset.mem_erase.mpr ⟨cellOf_ne d L (by decide : (cc1_scoped5.sem : DmaSem sig) ≠ cc1_scoped3.sem), Finset.mem_erase.mpr ⟨cellOf_ne d L (by decide : (cc1_scoped5.sem : DmaSem sig) ≠ cc1_scoped2.sem), Finset.mem_erase.mpr ⟨cellOf_ne d L (by decide : (cc1_scoped5.sem : DmaSem sig) ≠ cc1_scoped1.sem), Finset.mem_erase.mpr ⟨cellOf_ne d L (by decide : (cc1_scoped5.sem : DmaSem sig) ≠ cc1_scoped0.sem), Finset.mem_erase.mpr ⟨cellOf_ne d L (by decide : (cc1_scoped5.sem : DmaSem sig) ≠ cc1_scratch7.sem), Finset.mem_erase.mpr ⟨cellOf_ne d L (by decide : (cc1_scoped5.sem : DmaSem sig) ≠ cc1_scratch6.sem), (mem_ownCells (g := cellOf d L cc1_scoped5)).mpr ⟨rfl, by show (SemLoc.dma cc1_scoped5.sem : SemLoc sig).isScoped .scVector = true; decide⟩⟩⟩⟩⟩⟩⟩⟩),
    SparseCore.bigSep_erase' (Finset.mem_erase.mpr ⟨cellOf_ne d L (by decide : (cc1_scoped6.sem : DmaSem sig) ≠ cc1_scoped5.sem), Finset.mem_erase.mpr ⟨cellOf_ne d L (by decide : (cc1_scoped6.sem : DmaSem sig) ≠ cc1_scoped4.sem), Finset.mem_erase.mpr ⟨cellOf_ne d L (by decide : (cc1_scoped6.sem : DmaSem sig) ≠ cc1_scoped3.sem), Finset.mem_erase.mpr ⟨cellOf_ne d L (by decide : (cc1_scoped6.sem : DmaSem sig) ≠ cc1_scoped2.sem), Finset.mem_erase.mpr ⟨cellOf_ne d L (by decide : (cc1_scoped6.sem : DmaSem sig) ≠ cc1_scoped1.sem), Finset.mem_erase.mpr ⟨cellOf_ne d L (by decide : (cc1_scoped6.sem : DmaSem sig) ≠ cc1_scoped0.sem), Finset.mem_erase.mpr ⟨cellOf_ne d L (by decide : (cc1_scoped6.sem : DmaSem sig) ≠ cc1_scratch7.sem), Finset.mem_erase.mpr ⟨cellOf_ne d L (by decide : (cc1_scoped6.sem : DmaSem sig) ≠ cc1_scratch6.sem), (mem_ownCells (g := cellOf d L cc1_scoped6)).mpr ⟨rfl, by show (SemLoc.dma cc1_scoped6.sem : SemLoc sig).isScoped .scVector = true; decide⟩⟩⟩⟩⟩⟩⟩⟩⟩),
    SparseCore.bigSep_erase' (Finset.mem_erase.mpr ⟨cellOf_ne d L (by decide : (cc1_scoped7.sem : DmaSem sig) ≠ cc1_scoped6.sem), Finset.mem_erase.mpr ⟨cellOf_ne d L (by decide : (cc1_scoped7.sem : DmaSem sig) ≠ cc1_scoped5.sem), Finset.mem_erase.mpr ⟨cellOf_ne d L (by decide : (cc1_scoped7.sem : DmaSem sig) ≠ cc1_scoped4.sem), Finset.mem_erase.mpr ⟨cellOf_ne d L (by decide : (cc1_scoped7.sem : DmaSem sig) ≠ cc1_scoped3.sem), Finset.mem_erase.mpr ⟨cellOf_ne d L (by decide : (cc1_scoped7.sem : DmaSem sig) ≠ cc1_scoped2.sem), Finset.mem_erase.mpr ⟨cellOf_ne d L (by decide : (cc1_scoped7.sem : DmaSem sig) ≠ cc1_scoped1.sem), Finset.mem_erase.mpr ⟨cellOf_ne d L (by decide : (cc1_scoped7.sem : DmaSem sig) ≠ cc1_scoped0.sem), Finset.mem_erase.mpr ⟨cellOf_ne d L (by decide : (cc1_scoped7.sem : DmaSem sig) ≠ cc1_scratch7.sem), Finset.mem_erase.mpr ⟨cellOf_ne d L (by decide : (cc1_scoped7.sem : DmaSem sig) ≠ cc1_scratch6.sem), (mem_ownCells (g := cellOf d L cc1_scoped7)).mpr ⟨rfl, by show (SemLoc.dma cc1_scoped7.sem : SemLoc sig).isScoped .scVector = true; decide⟩⟩⟩⟩⟩⟩⟩⟩⟩⟩)]

omit [FloatOps F] in
theorem ownBufs_V :
    (ownBufs (V d (cV L) (jV L)) : sProp (MM F))
      = iprop((∃ f, (buf0 : Memref sig .scVector .vmem S49424 .f32).view.loc (V d (cV L) (jV L)) ↦{fullShare} f) ∗ (∃ f, (buf1 : Memref sig .scVector .vmem S49424 .f32).view.loc (V d (cV L) (jV L)) ↦{fullShare} f) ∗ (∃ f, (ids0 : Memref sig .scVector .vmem S80 .i32).view.loc (V d (cV L) (jV L)) ↦{fullShare} f) ∗ (∃ f, (ids1 : Memref sig .scVector .vmem S80 .i32).view.loc (V d (cV L) (jV L)) ↦{fullShare} f) ∗ (∃ f, (tw0 : Memref sig .scVector .vmem S80 .f32).view.loc (V d (cV L) (jV L)) ↦{fullShare} f) ∗ (∃ f, (tw1 : Memref sig .scVector .vmem S80 .f32).view.loc (V d (cV L) (jV L)) ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩)]

omit [FloatOps F] in
theorem pts_tokRow (off inb) (f : Buf (Elt F) (tokLoc d)) :
    ((tokRow off inb).view.loc (V d (cV L) (jV L)) ↦[(tokRow off inb).view.set]{fullShare} f : sProp (MM F))
      = tokLoc d ↦[(Rect.unit (s := S1024x80) off S1x80.size inb).set]{fullShare} f := by
  rw [set_tokRow]
omit [FloatOps F] in
theorem pts_eidRow (off inb) (f : Buf (Elt F) (eidLoc d)) :
    ((eidRow off inb).view.loc (V d (cV L) (jV L)) ↦[(eidRow off inb).view.set]{fullShare} f : sProp (MM F))
      = eidLoc d ↦[(Rect.unit (s := S1024x80) off S1x80.size inb).set]{fullShare} f := by
  rw [set_eidRow]
omit [FloatOps F] in
theorem pts_outRow (off inb) (f : Buf (Elt F) (outLoc d)) :
    ((outRow off inb).view.loc (V d (cV L) (jV L)) ↦[(outRow off inb).view.set]{fullShare} f : sProp (MM F))
      = outLoc d ↦[(Rect.unit (s := S1024x49408) off S1x49408.size inb).set]{fullShare} f := by
  rw [set_outRow]

omit [FloatOps F] in
/-- A scratch held whole, as the indexed store addresses it. -/
theorem pts_access_whole (b : Ref sig .scVector) (g : Buf (Elt F) ((V d (cV L) (jV L)).loc b)) :
    (((Memref.whole b).access (Rect.whole _)).loc (V d (cV L) (jV L)) ↦[((Memref.whole b).access (Rect.whole _)).set]{fullShare} g : sProp (MM F))
      = ((Memref.whole b).view.loc (V d (cV L) (jV L)) ↦{fullShare} g) := by
  rw [Memref.set_access_whole]

/-- What the indexed store leaves, as a function of what it found. -/
theorem pts_stored (b : Ref sig .scVector) (g : Buf (Elt F) ((V d (cV L) (jV L)).loc b)) {dd : Fin 1 → Nat}
    (idxs : Fin b.ty.shape.rank → IVec ⟨1, dd⟩ 32) (v : Vec F ⟨1, dd⟩ b.ty.elt) (mask : IVec ⟨1, dd⟩ 1) (add : Bool)
    (h : ∀ a x, (idxs a x).toNat < b.ty.shape.size a) :
    (((Memref.whole b).access (Rect.whole _)).loc (V d (cV L) (jV L)) ↦[((Memref.whole b).access (Rect.whole _)).set]{fullShare}
        (((Memref.whole b).access (Rect.whole _)).write (Elt F) g
          (storeIdx (((Memref.whole b).access (Rect.whole _)).read (Elt F) g) idxs v mask add h) Finset.univ) : sProp (MM F))
      = ((Memref.whole b).view.loc (V d (cV L) (jV L)) ↦{fullShare} (storeIdx g idxs v mask add h)) := by
  rw [Memref.set_access_whole, Memref.write_access_whole_univ, Memref.read_access_whole]

omit [FloatOps F] in
/-- A buffer's contents named anew, a fact about them kept. -/
theorem restate {ℓ : Loc nD τ sig} {G : Buf (Elt F) ℓ} (P : Buf (Elt F) ℓ → Prop) (h : P G) :
    (ℓ ↦{fullShare} G : sProp (MM F)) ⊢ iprop(∃ G', ⌜P G'⌝ ∗ ℓ ↦{fullShare} G') := by
  iintro H; iexists G; isplitr
  · ipureintro; exact h
  · iexact H

omit [FloatOps F] in
/-- A flight's delivered row named anew, a fact about it kept. -/
theorem flight_restate {sm : SemLoc sig} {N : ℕ} {off : Fin 2 → Nat} {inb : ∀ a, off a + S1x49408.size a ≤ S1024x49408.size a}
    {X : Buf (Elt F) (outLoc d)} {R : sProp (MM F)} (P : Buf (Elt F) (outLoc d) → Prop) (h : P X) :
    (Transfers.Flight countersEmb (V d (cV L) (jV L)) sm (default : HIx 1) N
        iprop(((outRow off inb).view.loc (V d (cV L) (jV L)) ↦[(outRow off inb).view.set]{fullShare} X) ∗ R) : sProp (MM F))
      ⊢ iprop(∃ X', ⌜P X'⌝ ∗ Transfers.Flight countersEmb (V d (cV L) (jV L)) sm (default : HIx 1) N
        iprop(((outRow off inb).view.loc (V d (cV L) (jV L)) ↦[(outRow off inb).view.set]{fullShare} X') ∗ R)) := by
  iintro H; iexists X; isplitr
  · ipureintro; exact h
  · iexact H

/-- Before trip `k` of the clearing loop both buffers are zero below `16 k`. -/
def invZ (O : CellTallies nD τ sig (HIx 1)) (k : Nat) (_ : PUnit) : sProp (MM F) :=
  iprop(Transfers.MayWaits (V d (cV L) (jV L)) (none : HIx 1) O
    ∗ (∃ g, ⌜ZB (16 * k) (buf0.view.read (Elt F) g)⌝ ∗ buf0.view.loc (V d (cV L) (jV L)) ↦{fullShare} g)
    ∗ (∃ g, ⌜ZB (16 * k) (buf1.view.read (Elt F) g)⌝ ∗ buf1.view.loc (V d (cV L) (jV L)) ↦{fullShare} g))

/-- Buffer 0 between trips: its copy of row `n` of the task in flight, the scratch still holding that row's words. -/
def bufSt0 (E80 : Buf (Elt F) (eidLoc d)) (n : ℕ) : sProp (MM F) :=
  iprop(∃ (off : Fin 2 → ℕ) (inb : ∀ a, off a + S1x49408.size a ≤ S1024x49408.size a) (X : Buf (Elt F) (outLoc d))
      (G : Buf (Elt F) ((buf0 : Memref sig .scVector .vmem S49424 .f32).view.loc (V d (cV L) (jV L)))) (C : Buf (Elt F) ((ids0 : Memref sig .scVector .vmem S80 .i32).view.loc (V d (cV L) (jV L)))),
    ⌜off = ![32 * (wid L).val + n, 0]⌝
    ∗ ⌜∀ i ∈ (Rect.unit (s := S1024x49408) off S1x49408.size inb).set, Clause E80 X i⌝
    ∗ ⌜RowOf E80 (32 * (wid L).val + n) ((ids0 : Memref sig .scVector .vmem S80 .i32).view.read (Elt F) C)⌝
    ∗ ⌜ZOff ((ids0 : Memref sig .scVector .vmem S80 .i32).view.read (Elt F) C) 0 (G : S49424.Idx → Elt F .f32)⌝
    ∗ Transfers.Flight countersEmb (V d (cV L) (jV L)) (SemLoc.dma cc1_scratch6.sem) (default : HIx 1) 1581056
        iprop(((outRow off inb).view.loc (V d (cV L) (jV L)) ↦[(outRow off inb).view.set]{fullShare} X)
          ∗ ((buf0 : Memref sig .scVector .vmem S49424 .f32).view.loc (V d (cV L) (jV L)) ↦[((buf0 : Memref sig .scVector .vmem S49424 .f32).slice (Rect.unit (s := S49424) ![0] S49408.size inb_S49424_S49408_0) (fun _ => rfl)).view.set]{fullShare} G))
    ∗ ((buf0 : Memref sig .scVector .vmem S49424 .f32).view.loc (V d (cV L) (jV L)) ↦[Finset.univ \ ((buf0 : Memref sig .scVector .vmem S49424 .f32).slice (Rect.unit (s := S49424) ![0] S49408.size inb_S49424_S49408_0) (fun _ => rfl)).view.set]{fullShare} G)
    ∗ ((ids0 : Memref sig .scVector .vmem S80 .i32).view.loc (V d (cV L) (jV L)) ↦{fullShare} C)
    ∗ ∃ t, (tw0 : Memref sig .scVector .vmem S80 .f32).view.loc (V d (cV L) (jV L)) ↦{fullShare} t)

/-- Buffer 1 between trips: its copy of row `n` of the task in flight, the scratch still holding that row's words. -/
def bufSt1 (E80 : Buf (Elt F) (eidLoc d)) (n : ℕ) : sProp (MM F) :=
  iprop(∃ (off : Fin 2 → ℕ) (inb : ∀ a, off a + S1x49408.size a ≤ S1024x49408.size a) (X : Buf (Elt F) (outLoc d))
      (G : Buf (Elt F) ((buf1 : Memref sig .scVector .vmem S49424 .f32).view.loc (V d (cV L) (jV L)))) (C : Buf (Elt F) ((ids1 : Memref sig .scVector .vmem S80 .i32).view.loc (V d (cV L) (jV L)))),
    ⌜off = ![32 * (wid L).val + n, 0]⌝
    ∗ ⌜∀ i ∈ (Rect.unit (s := S1024x49408) off S1x49408.size inb).set, Clause E80 X i⌝
    ∗ ⌜RowOf E80 (32 * (wid L).val + n) ((ids1 : Memref sig .scVector .vmem S80 .i32).view.read (Elt F) C)⌝
    ∗ ⌜ZOff ((ids1 : Memref sig .scVector .vmem S80 .i32).view.read (Elt F) C) 0 (G : S49424.Idx → Elt F .f32)⌝
    ∗ Transfers.Flight countersEmb (V d (cV L) (jV L)) (SemLoc.dma cc1_scratch7.sem) (default : HIx 1) 1581056
        iprop(((outRow off inb).view.loc (V d (cV L) (jV L)) ↦[(outRow off inb).view.set]{fullShare} X)
          ∗ ((buf1 : Memref sig .scVector .vmem S49424 .f32).view.loc (V d (cV L) (jV L)) ↦[((buf1 : Memref sig .scVector .vmem S49424 .f32).slice (Rect.unit (s := S49424) ![0] S49408.size inb_S49424_S49408_0) (fun _ => rfl)).view.set]{fullShare} G))
    ∗ ((buf1 : Memref sig .scVector .vmem S49424 .f32).view.loc (V d (cV L) (jV L)) ↦[Finset.univ \ ((buf1 : Memref sig .scVector .vmem S49424 .f32).slice (Rect.unit (s := S49424) ![0] S49408.size inb_S49424_S49408_0) (fun _ => rfl)).view.set]{fullShare} G)
    ∗ ((ids1 : Memref sig .scVector .vmem S80 .i32).view.loc (V d (cV L) (jV L)) ↦{fullShare} C)
    ∗ ∃ t, (tw1 : Memref sig .scVector .vmem S80 .f32).view.loc (V d (cV L) (jV L)) ↦{fullShare} t)

/-- Before trip `k` of the main loop: `2 k` rows landed, rows `2 k` and `2 k + 1` in flight, the rest untouched. -/
def invL (T80 : Buf (Elt F) (tokLoc d)) (E80 : Buf (Elt F) (eidLoc d)) (fo : Buf (Elt F) (outLoc d))
    (O : CellTallies nD τ sig (HIx 1)) (W : Waits sig (HIx 1)) (k : ℕ) (_ : Unit) : sProp (MM F) :=
  iprop(Transfers.MayWaits (V d (cV L) (jV L)) (none : HIx 1) O
    ∗ (tokLoc d ↦[rows80 (wid L)]{fullShare} T80)
    ∗ (eidLoc d ↦[rows80 (wid L)]{fullShare} E80)
    ∗ (∃ fD, ⌜∀ i ∈ rowsLt (wid L) (2 * k), Clause E80 fD i⌝ ∗ outLoc d ↦[rowsLt (wid L) (2 * k)]{fullShare} fD)
    ∗ (outLoc d ↦[rowsGe (wid L) (2 * k + 2)]{fullShare} fo)
    ∗ bufSt0 d L E80 (2 * k) ∗ bufSt1 d L E80 (2 * k + 1)
    ∗ semVal (cellOf d L cc1_scoped4) 0 ∗ semVal (cellOf d L cc1_scoped5) 0
    ∗ semVal (cellOf d L cc1_scoped6) 0 ∗ semVal (cellOf d L cc1_scoped7) 0
    ∗ ∃ W', ⌜∀ p ∈ W', p ∈ W ∨ p.2 = none⌝ ∗ owes (V d (cV L) (jV L)) O W')

omit [FloatOps F] in
theorem waits_ok_insert {W S : Waits sig (HIx 1)} {sm : SemLoc sig} (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

set_option maxHeartbeats 40000000 in
/-- One trip of the main loop: both buffers' rows land and are cleared away, the next two rows are staged, scattered and sent. -/
theorem trip (T80 : Buf (Elt F) (tokLoc d)) (E80 : Buf (Elt F) (eidLoc d)) (hE : ∀ i, (E80 i).toNat ≤ 49408) (fo : Buf (Elt F) (outLoc d))
    (O : CellTallies nD τ sig (HIx 1)) (W : Waits sig (HIx 1)) (v2 : BitVec 32) (v62 : Vec F S16 .i32) (v63 : IVec S16 32)
    (k : Fin k1_t2_loop.trips) (acc : Unit) :
    invL d L T80 E80 fo O W k.val acc
      ⊢ wp frame (wpE (defs₀ (F := F)) Variants.none (V d (cV L) (jV L)) none) Set.univ
          (k1_t2_body L tokV (Memref.isWhole_whole _) eidV (Memref.isWhole_whole _) outV (Memref.isWhole_whole _) buf0 (Memref.isWhole_whole _) buf1 (Memref.isWhole_whole _) ids0 (Memref.isWhole_whole _) ids1 (Memref.isWhole_whole _) tw0 (Memref.isWhole_whole _) tw1 (Memref.isWhole_whole _)
            cc1_scratch6 cc1_scratch7 cc1_scoped0 cc1_scoped1 cc1_scoped2 cc1_scoped3 cc1_scoped4 cc1_scoped5 cc1_scoped6 cc1_scoped7
            v2 k1_pay22 (iota .scVector S16 32 [0] iota_S16_d0_w32_scVector) v62 v63 k acc)
          fun _ => invL d L T80 E80 fo O W (k.val + 1) () := by
  have hk : k.val < 15 := lt_of_lt_of_le k.isLt k1_t2_abs.2.1
  unfold invL bufSt0 bufSt1
  iintro ⟨Hmw, Htok, Heid, ⟨%fD, %hD, HD⟩, Hout, ⟨%off0, %inb0, %X0, %g0, %C0, %hoff0, %hX0, %hrow0, %hG0, Hs6, Hb0, Hi0, ⟨%t0, Ht0⟩⟩, ⟨%off1, %inb1, %X1, %g1, %C1, %hoff1, %hX1, %hrow1, %hG1, Hs7, Hb1, Hi1, ⟨%t1, Ht1⟩⟩, Hc4, Hc5, Hc6, Hc7, %W', %hW', HO⟩
  have hle0 : ∀ j, ((ids0 : Memref sig .scVector .vmem S80 .i32).view.read (Elt F) C0 j).toNat ≤ 49408 := rowOf_le hE hrow0
  have hle1 : ∀ j, ((ids1 : Memref sig .scVector .vmem S80 .i32).view.read (Elt F) C1 j).toNat ≤ 49408 := rowOf_le hE hrow1
  unfold k1_t2_body
  sl_exec (disch := (sl_unfold_run_names; exact effV_chk _ (fun x => hle0 _)))
  ihave HR := (Entails.of_eq (pts_outRow (F := F) d L off0 inb0 _)) $$ Hs6_dst
  ihave HD' := (out_join (n := 2 * k.val) hoff0 (by omega) hD hX0) $$ [HD HR]
  · isplitl [HD] <;> iassumption
  icases HD' with ⟨%fD, %hD, HD⟩
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 1 (G : S49424.Idx → Elt F .f32))) ?hp) $$ Hb0
  case hp => exact ZOff_restore' (View.readAt (Elt F) (ids0 : Memref sig .scVector .vmem S80 .i32).view (Rect.unit (s := S80) ![0] S16.size inb_S80_S16_0).toLoadRect C0) (chunkOf_readAt (ids0 : Memref sig .scVector .vmem S80 .i32).view C0 _ _ 0 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 2 (G : S49424.Idx → Elt F .f32))) ?hp) $$ Hb0
  case hp => exact ZOff_restore' (View.readAt (Elt F) (ids0 : Memref sig .scVector .vmem S80 .i32).view (Rect.unit (s := S80) ![16] S16.size inb_S80_S16_16).toLoadRect C0) (chunkOf_readAt (ids0 : Memref sig .scVector .vmem S80 .i32).view C0 _ _ 1 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 3 (G : S49424.Idx → Elt F .f32))) ?hp) $$ Hb0
  case hp => exact ZOff_restore' (View.readAt (Elt F) (ids0 : Memref sig .scVector .vmem S80 .i32).view (Rect.unit (s := S80) ![32] S16.size inb_S80_S16_32).toLoadRect C0) (chunkOf_readAt (ids0 : Memref sig .scVector .vmem S80 .i32).view C0 _ _ 2 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 4 (G : S49424.Idx → Elt F .f32))) ?hp) $$ Hb0
  case hp => exact ZOff_restore' (View.readAt (Elt F) (ids0 : Memref sig .scVector .vmem S80 .i32).view (Rect.unit (s := S80) ![48] S16.size inb_S80_S16_48).toLoadRect C0) (chunkOf_readAt (ids0 : Memref sig .scVector .vmem S80 .i32).view C0 _ _ 3 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 5 (G : S49424.Idx → Elt F .f32))) ?hp) $$ Hb0
  case hp => exact ZOff_restore' (View.readAt (Elt F) (ids0 : Memref sig .scVector .vmem S80 .i32).view (Rect.unit (s := S80) ![64] S16.size inb_S80_S16_64).toLoadRect C0) (chunkOf_readAt (ids0 : Memref sig .scVector .vmem S80 .i32).view C0 _ _ 4 rfl) rfl _ rfl hG0
  icases Hb0' with ⟨%g0, %hG0, Hb0⟩
  sl_exec
  have hZ0 : ZAll (g0 : S49424.Idx → Elt F .f32) := ZAll_of_ZOff hG0
  have hoff7 : k1_off7 L k = ![32 * (wid L).val + 2 * k.val + 2, 0] := (by rw [k1_off7_eq]; congr 1; show _ = 32 * ((L 1).val * 2 + (L 0).val) + (2 * k.val + 2); omega)
  ihave Heid2 := (pointsTo_split_subset (ℓ := eidLoc d) (row80_subset (inb := k1_off7_inb L k) (hoff7) (by omega : 32 * (wid L).val ≤ 32 * (wid L).val + 2 * k.val + 2 ∧ 32 * (wid L).val + 2 * k.val + 2 < 32 * (wid L).val + 32))).1 $$ Heid
  icases Heid2 with ⟨HeidR, HeidX⟩
  ihave HeidR' := (Entails.of_eq (pts_eidRow (F := F) d L (k1_off7 L k) (k1_off7_inb L k) _).symm) $$ HeidR
  ihave Htok2 := (pointsTo_split_subset (ℓ := tokLoc d) (row80_subset (inb := k1_off7_inb L k) (hoff7) (by omega : 32 * (wid L).val ≤ 32 * (wid L).val + 2 * k.val + 2 ∧ 32 * (wid L).val + 2 * k.val + 2 < 32 * (wid L).val + 32))).1 $$ Htok
  icases Htok2 with ⟨HtokR, HtokX⟩
  ihave HtokR' := (Entails.of_eq (pts_tokRow (F := F) d L (k1_off7 L k) (k1_off7_inb L k) _).symm) $$ HtokR
  set_option sl_exec.maxSteps 4 in sl_exec
  ihave Hi0' := (restate (ℓ := (ids0 : Memref sig .scVector .vmem S80 .i32).view.loc (V d (cV L) (jV L))) (P := fun C => RowOf E80 (32 * (wid L).val + 2 * k.val + 2) ((ids0 : Memref sig .scVector .vmem S80 .i32).view.read (Elt F) C)) ?hp) $$ Hi0
  case hp =>
    rw [View.read_write_univ]
    exact (show (k1_off7 L k) 0 = 32 * (wid L).val + 2 * k.val + 2 from congrFun hoff7 0) ▸ rowOf_read (F := F) E80 (k1_off7 L k) (k1_off7_inb L k)
  icases Hi0' with ⟨%C0, %hrow0, Hi0⟩
  have hle0 : ∀ j, ((ids0 : Memref sig .scVector .vmem S80 .i32).view.read (Elt F) C0 j).toNat ≤ 49408 := rowOf_le hE hrow0
  ihave HeidR := (Entails.of_eq (pts_eidRow (F := F) d L (k1_off7 L k) (k1_off7_inb L k) _)) $$ HeidR'
  ihave Heid := (pointsTo_split_subset (ℓ := eidLoc d) (row80_subset (inb := k1_off7_inb L k) (hoff7) (by omega : 32 * (wid L).val ≤ 32 * (wid L).val + 2 * k.val + 2 ∧ 32 * (wid L).val + 2 * k.val + 2 < 32 * (wid L).val + 32))).2 $$ [HeidR HeidX]
  · isplitl [HeidR] <;> iassumption
  ihave HtokR := (Entails.of_eq (pts_tokRow (F := F) d L (k1_off7 L k) (k1_off7_inb L k) _)) $$ HtokR'
  ihave Htok := (pointsTo_split_subset (ℓ := tokLoc d) (row80_subset (inb := k1_off7_inb L k) (hoff7) (by omega : 32 * (wid L).val ≤ 32 * (wid L).val + 2 * k.val + 2 ∧ 32 * (wid L).val + 2 * k.val + 2 < 32 * (wid L).val + 32))).2 $$ [HtokR HtokX]
  · isplitl [HtokR] <;> iassumption
  have hG0 : ZOff ((ids0 : Memref sig .scVector .vmem S80 .i32).view.read (Elt F) C0) 0 (g0 : S49424.Idx → Elt F .f32) := ZOff_of_ZAll 0 hZ0
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![0] S16.size inb_S80_S16_0).toLoadRect C0) (chunkOf_readAt (ids0 : Memref sig .scVector .vmem S80 .i32).view C0 _ _ 0 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![16] S16.size inb_S80_S16_16).toLoadRect C0) (chunkOf_readAt (ids0 : Memref sig .scVector .vmem S80 .i32).view C0 _ _ 1 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![32] S16.size inb_S80_S16_32).toLoadRect C0) (chunkOf_readAt (ids0 : Memref sig .scVector .vmem S80 .i32).view C0 _ _ 2 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![48] S16.size inb_S80_S16_48).toLoadRect C0) (chunkOf_readAt (ids0 : Memref sig .scVector .vmem S80 .i32).view C0 _ _ 3 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![64] S16.size inb_S80_S16_64).toLoadRect C0) (chunkOf_readAt (ids0 : Memref sig .scVector .vmem S80 .i32).view C0 _ _ 4 rfl) rfl _ _ hG0
  icases Hb0' with ⟨%g0, %hG0, Hb0⟩
  have hoff8 : k1_off8 L k = ![32 * (wid L).val + 2 * k.val + 2, 0] := (by rw [k1_off8_eq]; congr 1; show _ = 32 * ((L 1).val * 2 + (L 0).val) + (2 * k.val + 2); omega)
  ihave Hout2 := (pointsTo_split_subset (ℓ := outLoc d) (row_subset_ge (n := 2 * k.val + 2) (inb := k1_off8_inb L k) hoff8 (by omega))).1 $$ Hout
  icases Hout2 with ⟨HoutR, Hout⟩
  rw [rowsGe_sdiff (n := 2 * k.val + 2) (inb := k1_off8_inb L k) hoff8 (by omega), show 2 * k.val + 2 + 1 = 2 * k.val + 2 + 1 from by omega]
  ihave HoutR' := (Entails.of_eq (pts_outRow (F := F) d L (k1_off8 L k) (k1_off8_inb L k) _).symm) $$ HoutR
  sl_exec
  ihave Hs6' := (flight_restate (F := F) d L (P := fun X => ∀ i ∈ (Rect.unit (s := S1024x49408) (k1_off8 L k) S1x49408.size (k1_off8_inb L k)).set, Clause E80 X i) ?hp) $$ Hs6
  case hp =>
    exact outRow_clauses (off := k1_off8 L k) (inb := k1_off8_inb L k) (congrFun hoff8 1) ((show (k1_off8 L k) 0 = 32 * (wid L).val + 2 * k.val + 2 from congrFun hoff8 0).symm ▸ hrow0) hG0 _
      (fun x => ⟨((buf0 : Memref sig .scVector .vmem S49424 .f32).slice (Rect.unit (s := S49424) ![0] S49408.size inb_S49424_S49408_0) (fun _ => rfl)).view.emb x, (by show 0 + 1 * (x 0).val = (x 0).val; omega), rfl⟩) fo
  icases Hs6' with ⟨%X0, %hX0, Hs6⟩
  sl_exec (disch := (sl_unfold_run_names; exact effV_chk _ (fun x => hle1 _)))
  ihave HR := (Entails.of_eq (pts_outRow (F := F) d L off1 inb1 _)) $$ Hs7_dst
  ihave HD' := (out_join (n := 2 * k.val + 1) hoff1 (by omega) hD hX1) $$ [HD HR]
  · isplitl [HD] <;> iassumption
  icases HD' with ⟨%fD, %hD, HD⟩
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 1 (G : S49424.Idx → Elt F .f32))) ?hp) $$ Hb1
  case hp => exact ZOff_restore' (View.readAt (Elt F) (ids1 : Memref sig .scVector .vmem S80 .i32).view (Rect.unit (s := S80) ![0] S16.size inb_S80_S16_0).toLoadRect C1) (chunkOf_readAt (ids1 : Memref sig .scVector .vmem S80 .i32).view C1 _ _ 0 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 2 (G : S49424.Idx → Elt F .f32))) ?hp) $$ Hb1
  case hp => exact ZOff_restore' (View.readAt (Elt F) (ids1 : Memref sig .scVector .vmem S80 .i32).view (Rect.unit (s := S80) ![16] S16.size inb_S80_S16_16).toLoadRect C1) (chunkOf_readAt (ids1 : Memref sig .scVector .vmem S80 .i32).view C1 _ _ 1 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 3 (G : S49424.Idx → Elt F .f32))) ?hp) $$ Hb1
  case hp => exact ZOff_restore' (View.readAt (Elt F) (ids1 : Memref sig .scVector .vmem S80 .i32).view (Rect.unit (s := S80) ![32] S16.size inb_S80_S16_32).toLoadRect C1) (chunkOf_readAt (ids1 : Memref sig .scVector .vmem S80 .i32).view C1 _ _ 2 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 4 (G : S49424.Idx → Elt F .f32))) ?hp) $$ Hb1
  case hp => exact ZOff_restore' (View.readAt (Elt F) (ids1 : Memref sig .scVector .vmem S80 .i32).view (Rect.unit (s := S80) ![48] S16.size inb_S80_S16_48).toLoadRect C1) (chunkOf_readAt (ids1 : Memref sig .scVector .vmem S80 .i32).view C1 _ _ 3 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 5 (G : S49424.Idx → Elt F .f32))) ?hp) $$ Hb1
  case hp => exact ZOff_restore' (View.readAt (Elt F) (ids1 : Memref sig .scVector .vmem S80 .i32).view (Rect.unit (s := S80) ![64] S16.size inb_S80_S16_64).toLoadRect C1) (chunkOf_readAt (ids1 : Memref sig .scVector .vmem S80 .i32).view C1 _ _ 4 rfl) rfl _ rfl hG1
  icases Hb1' with ⟨%g1, %hG1, Hb1⟩
  sl_exec
  have hZ1 : ZAll (g1 : S49424.Idx → Elt F .f32) := ZAll_of_ZOff hG1
  have hoff10 : k1_off10 L k = ![32 * (wid L).val + 2 * k.val + 2 + 1, 0] := (by rw [k1_off10_eq]; congr 1; show _ = 32 * ((L 1).val * 2 + (L 0).val) + (2 * k.val + 2 + 1); omega)
  ihave Heid2 := (pointsTo_split_subset (ℓ := eidLoc d) (row80_subset (inb := k1_off10_inb L k) (hoff10) (by omega : 32 * (wid L).val ≤ 32 * (wid L).val + 2 * k.val + 2 + 1 ∧ 32 * (wid L).val + 2 * k.val + 2 + 1 < 32 * (wid L).val + 32))).1 $$ Heid
  icases Heid2 with ⟨HeidR, HeidX⟩
  ihave HeidR' := (Entails.of_eq (pts_eidRow (F := F) d L (k1_off10 L k) (k1_off10_inb L k) _).symm) $$ HeidR
  ihave Htok2 := (pointsTo_split_subset (ℓ := tokLoc d) (row80_subset (inb := k1_off10_inb L k) (hoff10) (by omega : 32 * (wid L).val ≤ 32 * (wid L).val + 2 * k.val + 2 + 1 ∧ 32 * (wid L).val + 2 * k.val + 2 + 1 < 32 * (wid L).val + 32))).1 $$ Htok
  icases Htok2 with ⟨HtokR, HtokX⟩
  ihave HtokR' := (Entails.of_eq (pts_tokRow (F := F) d L (k1_off10 L k) (k1_off10_inb L k) _).symm) $$ HtokR
  set_option sl_exec.maxSteps 4 in sl_exec
  ihave Hi1' := (restate (ℓ := (ids1 : Memref sig .scVector .vmem S80 .i32).view.loc (V d (cV L) (jV L))) (P := fun C => RowOf E80 (32 * (wid L).val + 2 * k.val + 2 + 1) ((ids1 : Memref sig .scVector .vmem S80 .i32).view.read (Elt F) C)) ?hp) $$ Hi1
  case hp =>
    rw [View.read_write_univ]
    exact (show (k1_off10 L k) 0 = 32 * (wid L).val + 2 * k.val + 2 + 1 from congrFun hoff10 0) ▸ rowOf_read (F := F) E80 (k1_off10 L k) (k1_off10_inb L k)
  icases Hi1' with ⟨%C1, %hrow1, Hi1⟩
  have hle1 : ∀ j, ((ids1 : Memref sig .scVector .vmem S80 .i32).view.read (Elt F) C1 j).toNat ≤ 49408 := rowOf_le hE hrow1
  ihave HeidR := (Entails.of_eq (pts_eidRow (F := F) d L (k1_off10 L k) (k1_off10_inb L k) _)) $$ HeidR'
  ihave Heid := (pointsTo_split_subset (ℓ := eidLoc d) (row80_subset (inb := k1_off10_inb L k) (hoff10) (by omega : 32 * (wid L).val ≤ 32 * (wid L).val + 2 * k.val + 2 + 1 ∧ 32 * (wid L).val + 2 * k.val + 2 + 1 < 32 * (wid L).val + 32))).2 $$ [HeidR HeidX]
  · isplitl [HeidR] <;> iassumption
  ihave HtokR := (Entails.of_eq (pts_tokRow (F := F) d L (k1_off10 L k) (k1_off10_inb L k) _)) $$ HtokR'
  ihave Htok := (pointsTo_split_subset (ℓ := tokLoc d) (row80_subset (inb := k1_off10_inb L k) (hoff10) (by omega : 32 * (wid L).val ≤ 32 * (wid L).val + 2 * k.val + 2 + 1 ∧ 32 * (wid L).val + 2 * k.val + 2 + 1 < 32 * (wid L).val + 32))).2 $$ [HtokR HtokX]
  · isplitl [HtokR] <;> iassumption
  have hG1 : ZOff ((ids1 : Memref sig .scVector .vmem S80 .i32).view.read (Elt F) C1) 0 (g1 : S49424.Idx → Elt F .f32) := ZOff_of_ZAll 0 hZ1
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![0] S16.size inb_S80_S16_0).toLoadRect C1) (chunkOf_readAt (ids1 : Memref sig .scVector .vmem S80 .i32).view C1 _ _ 0 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![16] S16.size inb_S80_S16_16).toLoadRect C1) (chunkOf_readAt (ids1 : Memref sig .scVector .vmem S80 .i32).view C1 _ _ 1 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![32] S16.size inb_S80_S16_32).toLoadRect C1) (chunkOf_readAt (ids1 : Memref sig .scVector .vmem S80 .i32).view C1 _ _ 2 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![48] S16.size inb_S80_S16_48).toLoadRect C1) (chunkOf_readAt (ids1 : Memref sig .scVector .vmem S80 .i32).view C1 _ _ 3 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![64] S16.size inb_S80_S16_64).toLoadRect C1) (chunkOf_readAt (ids1 : Memref sig .scVector .vmem S80 .i32).view C1 _ _ 4 rfl) rfl _ _ hG1
  icases Hb1' with ⟨%g1, %hG1, Hb1⟩
  have hoff11 : k1_off11 L k = ![32 * (wid L).val + 2 * k.val + 2 + 1, 0] := (by rw [k1_off11_eq]; congr 1; show _ = 32 * ((L 1).val * 2 + (L 0).val) + (2 * k.val + 2 + 1); omega)
  ihave Hout2 := (pointsTo_split_subset (ℓ := outLoc d) (row_subset_ge (n := 2 * k.val + 2 + 1) (inb := k1_off11_inb L k) hoff11 (by omega))).1 $$ Hout
  icases Hout2 with ⟨HoutR, Hout⟩
  rw [rowsGe_sdiff (n := 2 * k.val + 2 + 1) (inb := k1_off11_inb L k) hoff11 (by omega), show 2 * k.val + 2 + 1 + 1 = 2 * k.val + 2 + 2 from by omega]
  ihave HoutR' := (Entails.of_eq (pts_outRow (F := F) d L (k1_off11 L k) (k1_off11_inb L k) _).symm) $$ HoutR
  sl_exec
  ihave Hs7' := (flight_restate (F := F) d L (P := fun X => ∀ i ∈ (Rect.unit (s := S1024x49408) (k1_off11 L k) S1x49408.size (k1_off11_inb L k)).set, Clause E80 X i) ?hp) $$ Hs7
  case hp =>
    exact outRow_clauses (off := k1_off11 L k) (inb := k1_off11_inb L k) (congrFun hoff11 1) ((show (k1_off11 L k) 0 = 32 * (wid L).val + 2 * k.val + 2 + 1 from congrFun hoff11 0).symm ▸ hrow1) hG1 _
      (fun x => ⟨((buf1 : Memref sig .scVector .vmem S49424 .f32).slice (Rect.unit (s := S49424) ![0] S49408.size inb_S49424_S49408_0) (fun _ => rfl)).view.emb x, (by show 0 + 1 * (x 0).val = (x 0).val; omega), rfl⟩) fo
  icases Hs7' with ⟨%X1, %hX1, Hs7⟩
  sl_exec
  sl_step
  rw [show 2 * (k.val + 1) = 2 * k.val + 2 from by omega]
  rw [show 2 * k.val + 1 + 1 = 2 * k.val + 2 from by omega] at hD ⊢
  isplitl [Hmw]; · iexact Hmw
  isplitl [Htok]; · iexact Htok
  isplitl [Heid]; · iexact Heid
  isplitl [HD]
  · iexists fD; isplitr
    · ipureintro; exact hD
    · iexact HD
  isplitl [Hout]; · iexact Hout
  isplitl [Hs6 Hb0 Hi0 Ht0]
  · iexists (k1_off8 L k), (k1_off8_inb L k), X0, g0, C0
    isplitr; · ipureintro; exact hoff8
    isplitr; · ipureintro; exact hX0
    isplitr; · ipureintro; exact hrow0
    isplitr; · ipureintro; exact hG0
    isplitl [Hs6]; · iexact Hs6
    isplitl [Hb0]; · iexact Hb0
    isplitl [Hi0]; · iexact Hi0
    iexists _; iexact Ht0
  isplitl [Hs7 Hb1 Hi1 Ht1]
  · iexists (k1_off11 L k), (k1_off11_inb L k), X1, g1, C1
    isplitr; · ipureintro; exact hoff11
    isplitr; · ipureintro; exact hX1
    isplitr; · ipureintro; exact hrow1
    isplitr; · ipureintro; exact hG1
    isplitl [Hs7]; · iexact Hs7
    isplitl [Hb1]; · iexact Hb1
    isplitl [Hi1]; · iexact Hi1
    iexists _; iexact Ht1
  isplitl [Hc4]; · iexact Hc4
  isplitl [Hc5]; · iexact Hc5
  isplitl [Hc6]; · iexact Hc6
  isplitl [Hc7]; · iexact Hc7
  iexists _; isplitr
  rotate_left
  · iexact HO
  · ipureintro
    repeat apply waits_ok_insert
    exact hW'

set_option maxHeartbeats 40000000 in
/-- The task on vector subcore `(L 0, L 1)` of device `d`. -/
theorem tile_body (T80 : Buf (Elt F) (tokLoc d)) (E80 : Buf (Elt F) (eidLoc d)) (hE : ∀ i, (E80 i).toNat ≤ 49408)
    (hF : (K (F := F)).Facts) (O : CellTallies nD τ sig (HIx 1)) (W : Waits sig (HIx 1)) (hO : ∀ g, O g none = 0) :
    iprop(levAts (K (F := F)).L (K (F := F)).lev ∗ goRes d (wid L) T80 E80
        ∗ scopedBufs (V d (cV L) (jV L)) ∗ scopedSems0 (V d (cV L) (jV L)) ∗ owes (V d (cV L) (jV L)) O W)
      ⊢ wp frame (wpE (defs₀ (F := F)) Variants.none (V d (cV L) (jV L)) none) Set.univ
          (cc1_run L tokV (Memref.isWhole_whole _) eidV (Memref.isWhole_whole _) outV (Memref.isWhole_whole _)
            buf0 (Memref.isWhole_whole _) buf1 (Memref.isWhole_whole _) ids0 (Memref.isWhole_whole _) ids1 (Memref.isWhole_whole _)
            tw0 (Memref.isWhole_whole _) tw1 (Memref.isWhole_whole _)
            cc1_scratch6 cc1_scratch7 cc1_scoped0 cc1_scoped1 cc1_scoped2 cc1_scoped3 cc1_scoped4 cc1_scoped5 cc1_scoped6 cc1_scoped7)
          fun _ => iprop(tdRes d (wid L) T80 E80 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_run_eq_skeleton]; unfold cc1_run_skel
  rw [(K (F := F)).scopedBufs_V hF d (cV L) (jV L), SparseCore.Cfg.scopedSems0_V (Val := Elt F) d (cV L) (jV L), ownSems0_V, ownBufs_V]
  unfold goRes
  iintro ⟨#Hlv, ⟨Htok, Heid, %fo, Hout⟩, ⟨⟨%b0, Hb0⟩, ⟨%b1, Hb1⟩, ⟨%i0, Hi0⟩, ⟨%i1, Hi1⟩, ⟨%t0, Ht0⟩, ⟨%t1, Ht1⟩, Hbufs⟩, ⟨Hs6, Hs7, Hc0, Hc1, Hc2, Hc3, Hc4, Hc5, Hc6, Hc7, Hsems⟩, HO⟩
  ihave Hmw := ((K (F := F)).mayWaits_none (thr := (V d (cV L) (jV L))) hO) $$ Hlv
  sl_exec
  sl_for (invZ d L O) $$ [Hmw Hb0 Hb1]
  case region =>
    intro k _
    unfold invZ
    iintro ⟨Hmw, ⟨%g0, %hg0, Hb0⟩, ⟨%g1, %hg1, Hb1⟩⟩
    sl_exec
    sl_step
    isplitl [Hmw]; · iexact Hmw
    isplitl [Hb0]
    · iexists _; isplitr
      rotate_left
      · iexact Hb0
      · ipureintro; exact ZB_step buf0.view g0 k hg0
    · iexists _; isplitr
      rotate_left
      · iexact Hb1
      · ipureintro; exact ZB_step buf1.view g1 k hg1
  · unfold invZ
    isplitl [Hmw]; · iexact Hmw
    isplitl [Hb0]
    · iexists _; isplitr
      rotate_left
      · iexact Hb0
      · ipureintro; exact ZB_zero _
    · iexists _; isplitr
      rotate_left
      · iexact Hb1
      · ipureintro; exact ZB_zero _
  iintro %_ HI
  unfold invZ
  icases HI with ⟨#Hmw, ⟨%g0, %hg0, Hb0⟩, ⟨%g1, %hg1, Hb1⟩⟩

  rw [← rowsGe_zero (wid L)]
  have hoff2 : k1_off2 L = ![32 * (wid L).val + 0, 0] := (by rw [k1_off2_eq]; congr 1; show _ = 32 * ((L 1).val * 2 + (L 0).val) + 0; omega)
  ihave Heid2 := (pointsTo_split_subset (ℓ := eidLoc d) (row80_subset (inb := k1_off2_inb L) (hoff2) (by omega : 32 * (wid L).val ≤ 32 * (wid L).val + 0 ∧ 32 * (wid L).val + 0 < 32 * (wid L).val + 32))).1 $$ Heid
  icases Heid2 with ⟨HeidR, HeidX⟩
  ihave HeidR' := (Entails.of_eq (pts_eidRow (F := F) d L (k1_off2 L) (k1_off2_inb L) _).symm) $$ HeidR
  ihave Htok2 := (pointsTo_split_subset (ℓ := tokLoc d) (row80_subset (inb := k1_off2_inb L) (hoff2) (by omega : 32 * (wid L).val ≤ 32 * (wid L).val + 0 ∧ 32 * (wid L).val + 0 < 32 * (wid L).val + 32))).1 $$ Htok
  icases Htok2 with ⟨HtokR, HtokX⟩
  ihave HtokR' := (Entails.of_eq (pts_tokRow (F := F) d L (k1_off2 L) (k1_off2_inb L) _).symm) $$ HtokR
  set_option sl_exec.maxSteps 4 in sl_exec
  ihave Hi0' := (restate (ℓ := (ids0 : Memref sig .scVector .vmem S80 .i32).view.loc (V d (cV L) (jV L))) (P := fun C => RowOf E80 (32 * (wid L).val + 0) ((ids0 : Memref sig .scVector .vmem S80 .i32).view.read (Elt F) C)) ?hp) $$ Hi0
  case hp =>
    rw [View.read_write_univ]
    exact (show (k1_off2 L) 0 = 32 * (wid L).val + 0 from congrFun hoff2 0) ▸ rowOf_read (F := F) E80 (k1_off2 L) (k1_off2_inb L)
  icases Hi0' with ⟨%C0, %hrow0, Hi0⟩
  have hle0 : ∀ j, ((ids0 : Memref sig .scVector .vmem S80 .i32).view.read (Elt F) C0 j).toNat ≤ 49408 := rowOf_le hE hrow0
  ihave HeidR := (Entails.of_eq (pts_eidRow (F := F) d L (k1_off2 L) (k1_off2_inb L) _)) $$ HeidR'
  ihave Heid := (pointsTo_split_subset (ℓ := eidLoc d) (row80_subset (inb := k1_off2_inb L) (hoff2) (by omega : 32 * (wid L).val ≤ 32 * (wid L).val + 0 ∧ 32 * (wid L).val + 0 < 32 * (wid L).val + 32))).2 $$ [HeidR HeidX]
  · isplitl [HeidR] <;> iassumption
  ihave HtokR := (Entails.of_eq (pts_tokRow (F := F) d L (k1_off2 L) (k1_off2_inb L) _)) $$ HtokR'
  ihave Htok := (pointsTo_split_subset (ℓ := tokLoc d) (row80_subset (inb := k1_off2_inb L) (hoff2) (by omega : 32 * (wid L).val ≤ 32 * (wid L).val + 0 ∧ 32 * (wid L).val + 0 < 32 * (wid L).val + 32))).2 $$ [HtokR HtokX]
  · isplitl [HtokR] <;> iassumption
  have hG0 : ZOff ((ids0 : Memref sig .scVector .vmem S80 .i32).view.read (Elt F) C0) 0 (g0 : S49424.Idx → Elt F .f32) := ZOff_of_ZAll 0 (ZAll_of_ZB hg0)
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![0] S16.size inb_S80_S16_0).toLoadRect C0) (chunkOf_readAt (ids0 : Memref sig .scVector .vmem S80 .i32).view C0 _ _ 0 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![16] S16.size inb_S80_S16_16).toLoadRect C0) (chunkOf_readAt (ids0 : Memref sig .scVector .vmem S80 .i32).view C0 _ _ 1 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![32] S16.size inb_S80_S16_32).toLoadRect C0) (chunkOf_readAt (ids0 : Memref sig .scVector .vmem S80 .i32).view C0 _ _ 2 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![48] S16.size inb_S80_S16_48).toLoadRect C0) (chunkOf_readAt (ids0 : Memref sig .scVector .vmem S80 .i32).view C0 _ _ 3 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![64] S16.size inb_S80_S16_64).toLoadRect C0) (chunkOf_readAt (ids0 : Memref sig .scVector .vmem S80 .i32).view C0 _ _ 4 rfl) rfl _ _ hG0
  icases Hb0' with ⟨%g0, %hG0, Hb0⟩
  have hoff3 : k1_off3 L = ![32 * (wid L).val + 0, 0] := (by rw [k1_off3_eq]; congr 1; show _ = 32 * ((L 1).val * 2 + (L 0).val) + 0; omega)
  ihave Hout2 := (pointsTo_split_subset (ℓ := outLoc d) (row_subset_ge (n := 0) (inb := k1_off3_inb L) hoff3 (by omega))).1 $$ Hout
  icases Hout2 with ⟨HoutR, Hout⟩
  rw [rowsGe_sdiff (n := 0) (inb := k1_off3_inb L) hoff3 (by omega), show 0 + 1 = 1 from by omega]
  ihave HoutR' := (Entails.of_eq (pts_outRow (F := F) d L (k1_off3 L) (k1_off3_inb L) _).symm) $$ HoutR
  sl_exec
  ihave Hs6' := (flight_restate (F := F) d L (P := fun X => ∀ i ∈ (Rect.unit (s := S1024x49408) (k1_off3 L) S1x49408.size (k1_off3_inb L)).set, Clause E80 X i) ?hp) $$ Hs6
  case hp =>
    exact outRow_clauses (off := k1_off3 L) (inb := k1_off3_inb L) (congrFun hoff3 1) ((show (k1_off3 L) 0 = 32 * (wid L).val + 0 from congrFun hoff3 0).symm ▸ hrow0) hG0 _
      (fun x => ⟨((buf0 : Memref sig .scVector .vmem S49424 .f32).slice (Rect.unit (s := S49424) ![0] S49408.size inb_S49424_S49408_0) (fun _ => rfl)).view.emb x, (by show 0 + 1 * (x 0).val = (x 0).val; omega), rfl⟩) fo
  icases Hs6' with ⟨%X0, %hX0, Hs6⟩
  have hoff4 : k1_off4 L = ![32 * (wid L).val + 1, 0] := (by rw [k1_off4_eq]; congr 1; show _ = 32 * ((L 1).val * 2 + (L 0).val) + 1; omega)
  ihave Heid2 := (pointsTo_split_subset (ℓ := eidLoc d) (row80_subset (inb := k1_off4_inb L) (hoff4) (by omega : 32 * (wid L).val ≤ 32 * (wid L).val + 1 ∧ 32 * (wid L).val + 1 < 32 * (wid L).val + 32))).1 $$ Heid
  icases Heid2 with ⟨HeidR, HeidX⟩
  ihave HeidR' := (Entails.of_eq (pts_eidRow (F := F) d L (k1_off4 L) (k1_off4_inb L) _).symm) $$ HeidR
  ihave Htok2 := (pointsTo_split_subset (ℓ := tokLoc d) (row80_subset (inb := k1_off4_inb L) (hoff4) (by omega : 32 * (wid L).val ≤ 32 * (wid L).val + 1 ∧ 32 * (wid L).val + 1 < 32 * (wid L).val + 32))).1 $$ Htok
  icases Htok2 with ⟨HtokR, HtokX⟩
  ihave HtokR' := (Entails.of_eq (pts_tokRow (F := F) d L (k1_off4 L) (k1_off4_inb L) _).symm) $$ HtokR
  set_option sl_exec.maxSteps 4 in sl_exec
  ihave Hi1' := (restate (ℓ := (ids1 : Memref sig .scVector .vmem S80 .i32).view.loc (V d (cV L) (jV L))) (P := fun C => RowOf E80 (32 * (wid L).val + 1) ((ids1 : Memref sig .scVector .vmem S80 .i32).view.read (Elt F) C)) ?hp) $$ Hi1
  case hp =>
    rw [View.read_write_univ]
    exact (show (k1_off4 L) 0 = 32 * (wid L).val + 1 from congrFun hoff4 0) ▸ rowOf_read (F := F) E80 (k1_off4 L) (k1_off4_inb L)
  icases Hi1' with ⟨%C1, %hrow1, Hi1⟩
  have hle1 : ∀ j, ((ids1 : Memref sig .scVector .vmem S80 .i32).view.read (Elt F) C1 j).toNat ≤ 49408 := rowOf_le hE hrow1
  ihave HeidR := (Entails.of_eq (pts_eidRow (F := F) d L (k1_off4 L) (k1_off4_inb L) _)) $$ HeidR'
  ihave Heid := (pointsTo_split_subset (ℓ := eidLoc d) (row80_subset (inb := k1_off4_inb L) (hoff4) (by omega : 32 * (wid L).val ≤ 32 * (wid L).val + 1 ∧ 32 * (wid L).val + 1 < 32 * (wid L).val + 32))).2 $$ [HeidR HeidX]
  · isplitl [HeidR] <;> iassumption
  ihave HtokR := (Entails.of_eq (pts_tokRow (F := F) d L (k1_off4 L) (k1_off4_inb L) _)) $$ HtokR'
  ihave Htok := (pointsTo_split_subset (ℓ := tokLoc d) (row80_subset (inb := k1_off4_inb L) (hoff4) (by omega : 32 * (wid L).val ≤ 32 * (wid L).val + 1 ∧ 32 * (wid L).val + 1 < 32 * (wid L).val + 32))).2 $$ [HtokR HtokX]
  · isplitl [HtokR] <;> iassumption
  have hG1 : ZOff ((ids1 : Memref sig .scVector .vmem S80 .i32).view.read (Elt F) C1) 0 (g1 : S49424.Idx → Elt F .f32) := ZOff_of_ZAll 0 (ZAll_of_ZB hg1)
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![0] S16.size inb_S80_S16_0).toLoadRect C1) (chunkOf_readAt (ids1 : Memref sig .scVector .vmem S80 .i32).view C1 _ _ 0 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![16] S16.size inb_S80_S16_16).toLoadRect C1) (chunkOf_readAt (ids1 : Memref sig .scVector .vmem S80 .i32).view C1 _ _ 1 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![32] S16.size inb_S80_S16_32).toLoadRect C1) (chunkOf_readAt (ids1 : Memref sig .scVector .vmem S80 .i32).view C1 _ _ 2 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![48] S16.size inb_S80_S16_48).toLoadRect C1) (chunkOf_readAt (ids1 : Memref sig .scVector .vmem S80 .i32).view C1 _ _ 3 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![64] S16.size inb_S80_S16_64).toLoadRect C1) (chunkOf_readAt (ids1 : Memref sig .scVector .vmem S80 .i32).view C1 _ _ 4 rfl) rfl _ _ hG1
  icases Hb1' with ⟨%g1, %hG1, Hb1⟩
  have hoff5 : k1_off5 L = ![32 * (wid L).val + 1, 0] := (by rw [k1_off5_eq]; congr 1; show _ = 32 * ((L 1).val * 2 + (L 0).val) + 1; omega)
  ihave Hout2 := (pointsTo_split_subset (ℓ := outLoc d) (row_subset_ge (n := 1) (inb := k1_off5_inb L) hoff5 (by omega))).1 $$ Hout
  icases Hout2 with ⟨HoutR, Hout⟩
  rw [rowsGe_sdiff (n := 1) (inb := k1_off5_inb L) hoff5 (by omega), show 1 + 1 = 2 from by omega]
  ihave HoutR' := (Entails.of_eq (pts_outRow (F := F) d L (k1_off5 L) (k1_off5_inb L) _).symm) $$ HoutR
  sl_exec
  ihave Hs7' := (flight_restate (F := F) d L (P := fun X => ∀ i ∈ (Rect.unit (s := S1024x49408) (k1_off5 L) S1x49408.size (k1_off5_inb L)).set, Clause E80 X i) ?hp) $$ Hs7
  case hp =>
    exact outRow_clauses (off := k1_off5 L) (inb := k1_off5_inb L) (congrFun hoff5 1) ((show (k1_off5 L) 0 = 32 * (wid L).val + 1 from congrFun hoff5 0).symm ▸ hrow1) hG1 _
      (fun x => ⟨((buf1 : Memref sig .scVector .vmem S49424 .f32).slice (Rect.unit (s := S49424) ![0] S49408.size inb_S49424_S49408_0) (fun _ => rfl)).view.emb x, (by show 0 + 1 * (x 0).val = (x 0).val; omega), rfl⟩) fo
  icases Hs7' with ⟨%X1, %hX1, Hs7⟩
  sl_exec
  sl_for (invL d L T80 E80 fo O W) $$ [Hmw Htok Heid Hout Hs6 Hb0 Hi0 Ht0 Hs7 Hb1 Hi1 Ht1 Hc4 Hc5 Hc6 Hc7 HO]
  case region =>
    intro k acc
    exact trip d L T80 E80 hE fo O W _ _ _ k acc
  · unfold invL
    isplitl [Hmw]; · iexact Hmw
    isplitl [Htok]; · iexact Htok
    isplitl [Heid]; · iexact Heid
    isplitl []
    · iexists fo; isplitr
      · ipureintro; intro i hi; rw [rowsLt_zero] at hi; exact absurd hi (Finset.notMem_empty _)
      · rw [rowsLt_zero, pointsTo_empty]; iempintro
    isplitl [Hout]; · iexact Hout
    isplitl [Hs6 Hb0 Hi0 Ht0]
    · unfold bufSt0
      iexists (k1_off3 L), (k1_off3_inb L), X0, g0, C0
      isplitr; · ipureintro; exact hoff3
      isplitr; · ipureintro; exact hX0
      isplitr; · ipureintro; exact hrow0
      isplitr; · ipureintro; exact hG0
      isplitl [Hs6]; · iexact Hs6
      isplitl [Hb0]; · iexact Hb0
      isplitl [Hi0]; · iexact Hi0
      iexists _; iexact Ht0
    isplitl [Hs7 Hb1 Hi1 Ht1]
    · unfold bufSt1
      iexists (k1_off5 L), (k1_off5_inb L), X1, g1, C1
      isplitr; · ipureintro; exact hoff5
      isplitr; · ipureintro; exact hX1
      isplitr; · ipureintro; exact hrow1
      isplitr; · ipureintro; exact hG1
      isplitl [Hs7]; · iexact Hs7
      isplitl [Hb1]; · iexact Hb1
      isplitl [Hi1]; · iexact Hi1
      iexists _; iexact Ht1
    isplitl [Hc4]; · iexact Hc4
    isplitl [Hc5]; · iexact Hc5
    isplitl [Hc6]; · iexact Hc6
    isplitl [Hc7]; · iexact Hc7
    iexists _; isplitr
    rotate_left
    · iexact HO
    · ipureintro
      repeat apply waits_ok_insert
      exact fun p hp => .inl hp
  iintro %_ HI
  unfold invL bufSt0 bufSt1
  icases HI with ⟨#Hmw2, Htok, Heid, ⟨%fD, %hD, HD⟩, Hout, ⟨%off0, %inb0, %X0, %g0, %C0, %hoff0, %hX0, %hrow0, %hG0, Hs6, Hb0, Hi0, ⟨%t0, Ht0⟩⟩, ⟨%off1, %inb1, %X1, %g1, %C1, %hoff1, %hX1, %hrow1, %hG1, Hs7, Hb1, Hi1, ⟨%t1, Ht1⟩⟩, Hc4, Hc5, Hc6, Hc7, %W', %hW', HO⟩
  sl_exec
  have htr : Scf.trips k1_t2_loop.lb k1_t2_loop.ub k1_t2_loop.st = 15 := by decide
  rw [htr] at hD hoff0 hoff1 ⊢
  ihave HR0 := (Entails.of_eq (pts_outRow (F := F) d L off0 inb0 _)) $$ Hs6_dst
  ihave HD' := (out_join (n := 2 * 15) hoff0 (by omega) hD hX0) $$ [HD HR0]
  · isplitl [HD] <;> iassumption
  icases HD' with ⟨%fD, %hD, HD⟩
  ihave HR1 := (Entails.of_eq (pts_outRow (F := F) d L off1 inb1 _)) $$ Hs7_dst
  ihave HD' := (out_join (n := 2 * 15 + 1) hoff1 (by omega) hD hX1) $$ [HD HR1]
  · isplitl [HD] <;> iassumption
  icases HD' with ⟨%fD, %hD, HD⟩
  ihave Hres := (out_done (w := wid L) (T80 := T80) hD) $$ [Htok Heid HD]
  · isplitl [Htok]; · iexact Htok
    isplitl [Heid]; · iexact Heid
    iexact HD
  rw [show 2 * 15 + 2 = 32 from rfl, rowsGe_32, pointsTo_empty]
  sl_step
  isplitl [Hres]; · iexact Hres
  isplitl [Hb0 Hb1 Hi0 Hi1 Ht0 Ht1 Hbufs]
  · isplitl [Hb0]; · iexists _; iexact Hb0
    isplitl [Hb1]; · iexists _; iexact Hb1
    isplitl [Hi0]; · iexists _; iexact Hi0
    isplitl [Hi1]; · iexists _; iexact Hi1
    isplitl [Ht0]; · iexists _; iexact Ht0
    isplitl [Ht1]; · iexists _; iexact Ht1
    iexact Hbufs
  isplitl [Hs6 Hs7 Hc0 Hc1 Hc2 Hc3 Hc4 Hc5 Hc6 Hc7 Hsems]
  · isplitl [Hs6]; · iexact Hs6
    isplitl [Hs7]; · iexact Hs7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr
  rotate_left
  · iexact HO
  · ipureintro
    repeat apply waits_ok_insert
    exact hW'

end Tile

variable [FloatOps F]

/-- Every task's body, as the launch side consumes it: the indices in range on every device. -/
theorem tileBody_holds (T80 : (d : Dev nD) → Buf (Elt F) (tokLoc d)) (E80 : (d : Dev nD) → Buf (Elt F) (eidLoc d))
    (hE : ∀ d j, (E80 d j).toNat ≤ 49408) : TileBody T80 E80 :=
  fun d L O W hO => tile_body d L (T80 d) (E80 d) (hE d) facts O W hO

end Cert.KernelIdeal.Pf

end
-- ==== Proof.TcPre.lean ====
/-
  The precondition read back at the ids: every id, a signed word between 0 and 49407, is its own value below 49408.
-/
import proofs.«211129_g5394478924152_cont_9to1c4b_288_8_alg».proof.KernelIdeal
import proofs.«211129_g5394478924152_cont_9to1c4b_288_8_alg».proof.Pre_input_domain
import proofs.«211129_g5394478924152_cont_9to1c4b_288_8_alg».proof.Proof.Gen.Pre_input_domain
import Idealize.ShloMosaic.Lib.ReduceAll
import Idealize.ShloMosaic.Lib.ValueIdx

noncomputable section

namespace Cert.KernelIdeal.Pf

open Cert.KernelIdeal
open Idealize.ShloMosaic

variable {F : FTy → Type} [FloatOps F]

/-- A signed word at least 0 and at most 49407 is its own value, below 49408. -/
theorem word_in_range (v : BitVec 32) (e : IntOp.andi (IntOp.cmpi .sge v 0#32) (IntOp.cmpi .sle v 49407#32) = 1#1) :
    v.toNat < 49408 := by
  obtain ⟨h1, h2⟩ := IntOp.andi_eq_one.mp e
  rw [IntOp.cmpi_sge] at h1
  rw [IntOp.cmpi_sle] at h2
  have hv := v.isLt
  simp only [BitVec.toInt_eq_toNat_cond, BitVec.toNat_ofNat, Nat.reducePow, Nat.reduceMod] at h1 h2
  omega

/-- THE IDS' RANGE from the precondition: its last conjunct is `all ((ids ≥ 0) ∧ (ids ≤ 49407))`, a reduction by `and`
    over every index that came out 1. -/
theorem ids_in_range (a0 : Vec F S1024x77x768 .f32) (a1 : Vec F S1024x77 .f32) (a2 : Vec F S1x768 .f32) (a3 : Vec F S1 .f32)
    (a4 : Vec F S1024x77 .i32) (h : Cert.Pre_input_domain.fn (F := F) a0 a1 a2 a3 a4 = fun _ => 1#1) :
    ∀ j : S1024x77.Idx, (a4 j).toNat < 49408 := by
  intro j
  haveI : Subsingleton Cert.Pre_input_domain.S_.Idx := ⟨fun a b => funext fun d => d.elim0⟩
  have e := congrFun h ValueIdx.ix0
  unfold Cert.Pre_input_domain.fn Cert.Pre_input_domain.fn_part1 at e
  have e24 := (IntOp.andi_eq_one.mp e).2
  have ej := Host.reduce_andi_all _ _ _ _ _ e24 j
  exact word_in_range _ ej

end Cert.KernelIdeal.Pf

end
-- ==== Proof.Bits.TileIdx.lean ====
/-
  The indexed store of a vector subcore as a pure function: an element no lane names keeps its value, and an
  element some lane names ends holding some naming lane's value.
-/
import proofs.«211129_g5394478924152_cont_9to1c4b_288_8_alg».proof.Proof.Bits.TileRes
import proofs.«211129_g5394478924152_cont_9to1c4b_288_8_alg».proof.Proof.Gen.Kernel
import proofs.«211129_g5394478924152_cont_9to1c4b_288_8_alg».proof.Proof.Gen.Kernel.Skeleton
import Idealize.ShloMosaic.Lib.WritesUnit

noncomputable section

namespace Cert.Kernel.Pf

open Cert.Kernel
open Idealize.ShloMosaic
open Classical

variable {F : FTy → Type} [FloatOps F]

/-! ## The indexed store -/

section StoreIdx

variable {s : Shape} {e : EltTy} {dd : Fin 1 → Nat}

/-- One lane of an unmasked indexed store without addition: the element the lane names takes the lane's value. -/
def laneStep (idxs : Fin s.rank → IVec ⟨1, dd⟩ 32) (v : Vec F ⟨1, dd⟩ e) (h : ∀ a x, (idxs a x).toNat < s.size a)
    (g : Vec F s e) (k : Fin (dd 0)) : Vec F s e :=
  fun j => if idxAt idxs h (Shape.ofLane k) = j then v (Shape.ofLane k) else g j

theorem storeIdx_eq_fold (f : Vec F s e) (idxs : Fin s.rank → IVec ⟨1, dd⟩ 32) (v : Vec F ⟨1, dd⟩ e)
    (h : ∀ a x, (idxs a x).toNat < s.size a) :
    storeIdx f idxs v (fun _ => 1#1) false h = (List.finRange (dd 0)).foldl (laneStep idxs v h) f := by
  unfold storeIdx
  congr 1
  funext g k j
  have hc : (∀ a, (j a).val = (idxAt idxs h (Shape.ofLane k) a).val) ↔ idxAt idxs h (Shape.ofLane k) = j :=
    ⟨fun hh => funext fun a => Fin.ext (hh a).symm, fun hh a => by rw [hh]⟩
  unfold laneStep
  by_cases hh : idxAt idxs h (Shape.ofLane k) = j
  · simp [hh]
  · have hn : ¬ ∀ a, (j a).val = (idxAt idxs h (Shape.ofLane k) a).val := fun x => hh (hc.mp x)
    simp [hh, hn]

theorem fold_spec (idxs : Fin s.rank → IVec ⟨1, dd⟩ 32) (v : Vec F ⟨1, dd⟩ e)
    (h : ∀ a x, (idxs a x).toNat < s.size a) (j : s.Idx) (l : List (Fin (dd 0))) (f : Vec F s e) :
    (l.foldl (laneStep idxs v h) f j = f j ∧ ∀ k ∈ l, idxAt idxs h (Shape.ofLane k) ≠ j)
      ∨ (∃ k ∈ l, idxAt idxs h (Shape.ofLane k) = j ∧ l.foldl (laneStep idxs v h) f j = v (Shape.ofLane k)) := by
  induction l generalizing f with
  | nil => exact .inl ⟨rfl, fun k hk => absurd hk List.not_mem_nil⟩
  | cons k l ih =>
    rw [List.foldl_cons]
    rcases ih (laneStep idxs v h f k) with ⟨h1, h2⟩ | ⟨k', hk', h1, h2⟩
    · by_cases hk : idxAt idxs h (Shape.ofLane k) = j
      · refine .inr ⟨k, List.mem_cons_self, hk, ?_⟩
        rw [h1]; unfold laneStep; rw [if_pos hk]
      · refine .inl ⟨?_, fun k'' hk'' => ?_⟩
        · rw [h1]; unfold laneStep; rw [if_neg hk]
        · rcases List.mem_cons.mp hk'' with rfl | hk''
          · exact hk
          · exact h2 k'' hk''
    · exact .inr ⟨k', List.mem_cons_of_mem _ hk', h1, h2⟩

theorem ofLane_zero (x : (⟨1, dd⟩ : Shape).Idx) : Shape.ofLane (x 0) = x := by
  funext a
  have ha := Fin.eq_zero a
  subst ha
  rfl

/-- Every element ends holding its old value, no lane naming it, or the value of some lane that names it. -/
theorem storeIdx_cases (f : Vec F s e) (idxs : Fin s.rank → IVec ⟨1, dd⟩ 32) (v : Vec F ⟨1, dd⟩ e)
    (h : ∀ a x, (idxs a x).toNat < s.size a) (j : s.Idx) :
    (storeIdx f idxs v (fun _ => 1#1) false h j = f j ∧ ∀ x, idxAt idxs h x ≠ j)
      ∨ (∃ x, idxAt idxs h x = j ∧ storeIdx f idxs v (fun _ => 1#1) false h j = v x) := by
  rw [storeIdx_eq_fold]
  rcases fold_spec idxs v h j (List.finRange (dd 0)) f with ⟨h1, h2⟩ | ⟨k, -, hk, h2⟩
  · refine .inl ⟨h1, fun x => ?_⟩
    rw [← ofLane_zero x]; exact h2 _ (List.mem_finRange _)
  · exact .inr ⟨_, hk, h2⟩

end StoreIdx

/-! ## A buffer cleared from the bottom -/

section Clear

/-- The buffer's first `n` elements are zero. -/
def ZB (n : ℕ) (g : S49424.Idx → Elt F .f32) : Prop := ∀ y : S49424.Idx, (y 0).val < n → g y = zeroF

/-- All of it is. -/
def ZAll (g : S49424.Idx → Elt F .f32) : Prop := ∀ y : S49424.Idx, g y = zeroF

theorem ZAll_of_ZB {g : S49424.Idx → Elt F .f32} (h : ZB 49424 g) : ZAll g := fun y => h y (y 0).isLt

theorem ZB_zero (g : S49424.Idx → Elt F .f32) : ZB 0 g := fun _ h => absurd h (Nat.not_lt_zero _)

theorem k1_pay22_apply (x : S16.Idx) : (Gen.k1_pay22 (F := F)) x = zeroF := rfl

/-- Sixteen zeros stored at `16 k` extend a cleared prefix of `16 k` to `16 k + 16`. -/
theorem ZB_step {κ : Kind} {sp : Space} (v : View sig κ sp S49424 .f32) (g : v.ty.Contents (Elt F)) (k : Fin k1_t1_loop.trips)
    (h : ZB (16 * k.val) (v.read (Elt F) g)) :
    ZB (16 * (k.val + 1)) (v.read (Elt F) (v.writes (Elt F) g [⟨Rect.unit (s := S49424) (k1_off1 k) S16.size (Gen.k1_off1_inb k), Gen.k1_pay22⟩])) := by
  intro y hy
  by_cases hlt : (y 0).val < 16 * k.val
  · rw [View.read_writes_cons_unit_of_not_mem v g (Gen.k1_off1_inb k) _ [] y (Gen.k1_off1_eq k) 0 (.inl (by simpa using hlt))]
    exact h y hlt
  · have hx : (y 0).val - 16 * k.val < 16 := by omega
    rw [View.read_writes_cons_unit_of_mem v g (Gen.k1_off1_inb k) _ [] y (fun a => ⟨(y 0).val - 16 * k.val, by have ha := Fin.eq_zero a; subst ha; exact hx⟩) (Gen.k1_off1_eq k)
      (fun a => by
        have ha := Fin.eq_zero a
        subst ha
        show (y 0).val = 16 * k.val + ((y 0).val - 16 * k.val)
        omega)]
    rfl

end Clear

/-! ## The indices a chunk is scattered at -/

section Eff

/-- The index a lane scatters at: its own word, or — where that is the padding value — the padding value plus the lane. -/
def effOf (u : BitVec 32) (lane : ℕ) : ℕ := if u = 49408#32 then 49408 + lane else u.toNat

/-- The index vector of a chunk, as the kernel computes it from the chunk's sixteen words. -/
def effV (vl : IVec S16 32) : IVec S16 32 :=
  select (cmpi .eq vl (broadcast S16 49408#32)) (addi (broadcast S16 49408#32) (iota .scVector S16 32 [0] Gen.iota_S16_d0_w32_scVector)) vl

theorem effV_toNat (vl : IVec S16 32) (x : S16.Idx) : (effV vl x).toNat = effOf (vl x) (x 0).val := by
  have hx : (x 0).val < 16 := (x 0).isLt
  unfold effV effOf select cmpi addi broadcast iota Scalar.select IntOp.cmpi IntOp.addi
  by_cases h : vl x = 49408#32
  · simp only [h, if_true, List.foldl_cons, List.foldl_nil, Nat.zero_mul, Nat.zero_add, beq_self_eq_true, BitVec.ofBool_true]
    simp only [BitVec.toNat_add, BitVec.toNat_ofNat]
    omega
  · have hb : (vl x == 49408#32) = false := by simpa using h
    simp only [h, if_false, hb, BitVec.ofBool_false]
    rfl

theorem effOf_lt {u : BitVec 32} {lane : ℕ} (hu : u.toNat ≤ 49408) (hl : lane < 16) : effOf u lane < 49424 := by
  unfold effOf; split <;> omega

/-- The side condition the body assumes of a chunk's index vector, from the bound on the chunk's words. -/
theorem effV_chk (vl : IVec S16 32) (h : ∀ x, (vl x).toNat ≤ 49408) :
    ∀ a x, ((![effV vl] : Fin 1 → IVec S16 32) a x).toNat < S49424.size a := by
  intro a x
  have ha := Fin.eq_zero a
  subst ha
  show (effV vl x).toNat < 49424
  rw [effV_toNat]
  exact effOf_lt (h x) (x 0).isLt

/-- Some word of the scratch from chunk `c` on scatters at `n`. -/
def Named (C : S80.Idx → BitVec 32) (c : ℕ) (n : ℕ) : Prop := ∃ j : S80.Idx, 16 * c ≤ (j 0).val ∧ effOf (C j) ((j 0).val % 16) = n

/-- The buffer is zero wherever no word of the scratch from chunk `c` on scatters. -/
def ZOff (C : S80.Idx → BitVec 32) (c : ℕ) (g : S49424.Idx → Elt F .f32) : Prop := ∀ y : S49424.Idx, ¬ Named C c (y 0).val → g y = zeroF

theorem ZOff_of_ZAll {C : S80.Idx → BitVec 32} {g : S49424.Idx → Elt F .f32} (c : ℕ) (h : ZAll g) : ZOff C c g := fun y _ => h y

theorem ZAll_of_ZOff {C : S80.Idx → BitVec 32} {g : S49424.Idx → Elt F .f32} (h : ZOff C 5 g) : ZAll g :=
  fun y => h y fun ⟨j, hj, _⟩ => by have := (j 0).isLt; change (j 0).val < 80 at this; omega

/-- The chunk `c` of the scratch: lane `x` holds word `16 c + x`. -/
def ChunkOf (C : S80.Idx → BitVec 32) (c : ℕ) (vl : IVec S16 32) : Prop := ∀ x : S16.Idx, ∃ j : S80.Idx, (j 0).val = 16 * c + (x 0).val ∧ vl x = C j

theorem idxAt_val (vl : IVec S16 32) (h : ∀ a x, ((![effV vl] : Fin 1 → IVec S16 32) a x).toNat < S49424.size a) (x : S16.Idx) :
    ((idxAt (s := S49424) ![effV vl] h x) 0).val = effOf (vl x) (x 0).val := by
  show (effV vl x).toNat = _
  exact effV_toNat vl x

theorem named_of_chunk {C : S80.Idx → BitVec 32} {c c' : ℕ} {vl : IVec S16 32} (hc : ChunkOf C c vl) (hcc : c' ≤ c)
    (h : ∀ a x, ((![effV vl] : Fin 1 → IVec S16 32) a x).toNat < S49424.size a) (x : S16.Idx) (y : S49424.Idx)
    (hy : idxAt (s := S49424) ![effV vl] h x = y) : Named C c' (y 0).val := by
  obtain ⟨j, hj, hv⟩ := hc x
  have hx : (x 0).val < 16 := (x 0).isLt
  refine ⟨j, ?_, ?_⟩
  · rw [hj]; have := Nat.mul_le_mul_left 16 hcc; omega
  · rw [← hy, idxAt_val, hv, hj]
    congr 1
    omega

/-- Scattering a chunk of the scratch keeps the buffer zero off the scratch's indices. -/
theorem ZOff_scatter {C : S80.Idx → BitVec 32} {c : ℕ} {vl : IVec S16 32} (hc : ChunkOf C c vl)
    (h : ∀ a x, ((![effV vl] : Fin 1 → IVec S16 32) a x).toNat < S49424.size a) (v : Vec F S16 .f32)
    {g : S49424.Idx → Elt F .f32} (hg : ZOff C 0 g) :
    ZOff C 0 (storeIdx (s := S49424) g ![effV vl] v (fun _ => 1#1) false h) := by
  intro y hy
  rcases storeIdx_cases (s := S49424) g ![effV vl] v h y with ⟨h1, -⟩ | ⟨x, hx, -⟩
  · rw [h1]; exact hg y hy
  · exact absurd (named_of_chunk hc (Nat.zero_le c) h x y hx) hy

/-- Lane `n` of a chunk. -/
def lane16 (n : ℕ) (h : n < 16) : S16.Idx := fun a => ⟨n, by have ha := Fin.eq_zero a; subst ha; exact h⟩

/-- Scattering zeros at chunk `c` of the scratch clears what that chunk had scattered. -/
theorem ZOff_restore {C : S80.Idx → BitVec 32} {c : ℕ} {vl : IVec S16 32} (hc : ChunkOf C c vl)
    (h : ∀ a x, ((![effV vl] : Fin 1 → IVec S16 32) a x).toNat < S49424.size a)
    {g : S49424.Idx → Elt F .f32} (hg : ZOff C c g) :
    ZOff C (c + 1) (storeIdx (s := S49424) g ![effV vl] (Gen.k1_pay22 (F := F)) (fun _ => 1#1) false h) := by
  intro y hy
  rcases storeIdx_cases (s := S49424) g ![effV vl] (Gen.k1_pay22 (F := F)) h y with ⟨h1, h2⟩ | ⟨x, -, hx⟩
  · rw [h1]
    refine hg y fun ⟨j, hj, hn⟩ => ?_
    by_cases hj' : 16 * (c + 1) ≤ (j 0).val
    · exact hy ⟨j, hj', hn⟩
    · -- word `j` lies in chunk `c`: its lane names `y`
      have hlt : (j 0).val - 16 * c < 16 := by omega
      obtain ⟨j', hj'', hv⟩ := hc (lane16 ((j 0).val - 16 * c) hlt)
      have hjj : j' = j := by
        funext a
        have ha := Fin.eq_zero a
        subst ha
        apply Fin.ext
        rw [hj'']
        show 16 * c + ((j 0).val - 16 * c) = (j 0).val
        omega
      refine h2 (lane16 ((j 0).val - 16 * c) hlt) ?_
      funext a
      have ha := Fin.eq_zero a
      subst ha
      apply Fin.ext
      rw [idxAt_val, hv, hjj, ← hn]
      congr 1
      show (j 0).val - 16 * c = (j 0).val % 16
      omega
  · rw [hx]; rfl

/-- `ZOff_scatter` with the index vector under a name of its own. -/
theorem ZOff_scatter' {C : S80.Idx → BitVec 32} {c : ℕ} (vl : IVec S16 32) (hc : ChunkOf C c vl) {idx : IVec S16 32} (hidx : idx = effV vl)
    (h : ∀ a x, ((![idx] : Fin 1 → IVec S16 32) a x).toNat < S49424.size a) (v : Vec F S16 .f32)
    {g : S49424.Idx → Elt F .f32} (hg : ZOff C 0 g) :
    ZOff C 0 (storeIdx (s := S49424) g ![idx] v (fun _ => 1#1) false h) := by
  subst hidx; exact ZOff_scatter hc h v hg

/-- `ZOff_restore` with the index vector and the zeros under names of their own. -/
theorem ZOff_restore' {C : S80.Idx → BitVec 32} {c : ℕ} (vl : IVec S16 32) (hc : ChunkOf C c vl) {idx : IVec S16 32} (hidx : idx = effV vl)
    (h : ∀ a x, ((![idx] : Fin 1 → IVec S16 32) a x).toNat < S49424.size a) {z : Vec F S16 .f32} (hz : z = Gen.k1_pay22)
    {g : S49424.Idx → Elt F .f32} (hg : ZOff C c g) :
    ZOff C (c + 1) (storeIdx (s := S49424) g ![idx] z (fun _ => 1#1) false h) := by
  subst hidx; subst hz; exact ZOff_restore hc h hg

/-- The side condition, with the index vector under a name of its own. -/
theorem effV_chk' (vl : IVec S16 32) {idx : IVec S16 32} (hidx : idx = effV vl) (h : ∀ x, (vl x).toNat ≤ 49408) :
    ∀ a x, ((![idx] : Fin 1 → IVec S16 32) a x).toNat < S49424.size a := by
  subst hidx; exact effV_chk vl h

/-- The words `C` are words of row `r` of the indices. -/
def RowOf {d : Dev nD} (E80 : Buf (Elt F) (eidLoc d)) (r : ℕ) (C : S80.Idx → BitVec 32) : Prop :=
  ∀ j : S80.Idx, ∃ i : S1024x80.Idx, (i 0).val = r ∧ C j = E80 i

theorem rowOf_le {d : Dev nD} {E80 : Buf (Elt F) (eidLoc d)} (hE : ∀ i, (E80 i).toNat ≤ 49408) {r : ℕ} {C : S80.Idx → BitVec 32}
    (h : RowOf E80 r C) (j : S80.Idx) : (C j).toNat ≤ 49408 := by
  obtain ⟨i, -, hi⟩ := h j
  rw [hi]; exact hE i

end Eff

end Cert.Kernel.Pf

end
-- ==== Proof.Bits.TileViews.lean ====
import proofs.«211129_g5394478924152_cont_9to1c4b_288_8_alg».proof.Proof.Bits.TileRes
import proofs.«211129_g5394478924152_cont_9to1c4b_288_8_alg».proof.Proof.Bits.Launch
import Idealize.ShloMosaic.Lib.SparseCore.Launch
import Idealize.ShloMosaic.Lib.StableHlo.Run
import Idealize.ShloMosaic.Lib.Pipeline.Kit
import Idealize.ShloMosaic.Lib.Tactic
import proofs.«211129_g5394478924152_cont_9to1c4b_288_8_alg».proof.Proof.Gen.Kernel
import proofs.«211129_g5394478924152_cont_9to1c4b_288_8_alg».proof.Proof.Gen.Kernel.Skeleton
import proofs.«211129_g5394478924152_cont_9to1c4b_288_8_alg».proof.Proof.Bits.TileIdx

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The kernel's memrefs -/

-- the kernel's memrefs, spelt as the body table passes them
abbrev tokV : Memref sig .scVector .hbm S1024x80 .f32 := Memref.whole main_v2_scv
abbrev eidV : Memref sig .scVector .hbm S1024x80 .i32 := Memref.whole main_v3_scv
abbrev outV : Memref sig .scVector .hbm S1024x49408 .f32 := Memref.whole main_v4_scv
abbrev buf0 : Memref sig .scVector .vmem S49424 .f32 := Memref.whole cc1_scratch0
abbrev buf1 : Memref sig .scVector .vmem S49424 .f32 := Memref.whole cc1_scratch1
abbrev ids0 : Memref sig .scVector .vmem S80 .i32 := Memref.whole cc1_scratch2
abbrev ids1 : Memref sig .scVector .vmem S80 .i32 := Memref.whole cc1_scratch3
abbrev tw0 : Memref sig .scVector .vmem S80 .f32 := Memref.whole cc1_scratch4
abbrev tw1 : Memref sig .scVector .vmem S80 .f32 := Memref.whole cc1_scratch5

/-! ## Rows of the arrays, as the kernel slices them -/

/-- Row `off 0` of the padded weights. -/
abbrev tokRow (off : Fin 2 → Nat) (inb : ∀ a, off a + S1x80.size a ≤ S1024x80.size a) : Memref sig .scVector .hbm S80 .f32 :=
  (tokV.slice (Rect.unit (s := S1024x80) off S1x80.size inb) (fun _ => rfl)).squeeze S80 squeezes_S1x80_S80
/-- Row `off 0` of the padded indices. -/
abbrev eidRow (off : Fin 2 → Nat) (inb : ∀ a, off a + S1x80.size a ≤ S1024x80.size a) : Memref sig .scVector .hbm S80 .i32 :=
  (eidV.slice (Rect.unit (s := S1024x80) off S1x80.size inb) (fun _ => rfl)).squeeze S80 squeezes_S1x80_S80
/-- Row `off 0` of the output. -/
abbrev outRow (off : Fin 2 → Nat) (inb : ∀ a, off a + S1x49408.size a ≤ S1024x49408.size a) : Memref sig .scVector .hbm S49408 .f32 :=
  (outV.slice (Rect.unit (s := S1024x49408) off S1x49408.size inb) (fun _ => rfl)).squeeze S49408 squeezes_S1x49408_S49408

theorem set_tokRow (off inb) : (tokRow off inb).view.set = (Rect.unit (s := S1024x80) off S1x80.size inb).set := by
  show (((View.whole (main_v2_scv : Ref sig .scVector)).slice (Rect.unit (s := S1024x80) off S1x80.size inb)).reshape S80 squeezes_S1x80_S80.numel_eq).set = _
  rw [View.set_reshape, View.set_slice]; exact Finset.map_refl
theorem set_eidRow (off inb) : (eidRow off inb).view.set = (Rect.unit (s := S1024x80) off S1x80.size inb).set := by
  show (((View.whole (main_v3_scv : Ref sig .scVector)).slice (Rect.unit (s := S1024x80) off S1x80.size inb)).reshape S80 squeezes_S1x80_S80.numel_eq).set = _
  rw [View.set_reshape, View.set_slice]; exact Finset.map_refl
theorem set_outRow (off inb) : (outRow off inb).view.set = (Rect.unit (s := S1024x49408) off S1x49408.size inb).set := by
  show (((View.whole (main_v4_scv : Ref sig .scVector)).slice (Rect.unit (s := S1024x49408) off S1x49408.size inb)).reshape S49408 squeezes_S1x49408_S49408.numel_eq).set = _
  rw [View.set_reshape, View.set_slice]; exact Finset.map_refl

theorem row80_subset {w : Fin 32} {off : Fin 2 → Nat} {inb : ∀ a, off a + S1x80.size a ≤ S1024x80.size a} {r : ℕ}
    (h : off = ![r, 0]) (hr : 32 * w.val ≤ r ∧ r < 32 * w.val + 32) :
    (Rect.unit (s := S1024x80) off S1x80.size inb).set ⊆ rows80 w := by
  subst h
  intro i hi
  have h0 := (Rect.mem_set_unit.mp hi) 0
  rw [mem_rows80]
  simp at h0
  omega
theorem rowOut_subset {w : Fin 32} {off : Fin 2 → Nat} {inb : ∀ a, off a + S1x49408.size a ≤ S1024x49408.size a} {r : ℕ}
    (h : off = ![r, 0]) (hr : 32 * w.val ≤ r ∧ r < 32 * w.val + 32) :
    (Rect.unit (s := S1024x49408) off S1x49408.size inb).set ⊆ rowsOut w := by
  subst h
  intro i hi
  have h0 := (Rect.mem_set_unit.mp hi) 0
  rw [mem_rowsOut]
  simp at h0
  omega

/-! ## What a scratch holds after a row is copied into it -/

theorem rowOf_read {d : Dev nD} (E80 : Buf (Elt F) (eidLoc d)) (off : Fin 2 → Nat) (inb : ∀ a, off a + S1x80.size a ≤ S1024x80.size a) :
    RowOf E80 (off 0) ((eidRow off inb).view.read (Elt F) E80) := by
  intro j
  refine ⟨(eidRow off inb).view.emb j, ?_, rfl⟩
  show off 0 + 1 * ((Shape.reshapeEquiv squeezes_S1x80_S80.numel_eq j) 0).val = off 0
  have h1 : ((Shape.reshapeEquiv squeezes_S1x80_S80.numel_eq j) 0).val < 1 := ((Shape.reshapeEquiv squeezes_S1x80_S80.numel_eq j) 0).isLt
  omega

/-- A chunk loaded from a scratch is that chunk of its words. -/
theorem chunkOf_readAt {κ : Kind} {sp : Space} (v : View sig κ sp S80 .i32) (f : v.ty.Contents (Elt F)) (off : Fin 1 → Nat)
    (inb : ∀ a, off a + S16.size a ≤ S80.size a) (c : ℕ) (hoff : off 0 = 16 * c) :
    ChunkOf (v.read (Elt F) f) c (v.readAt (Elt F) (Rect.unit (s := S80) off S16.size inb).toLoadRect f) := by
  intro x
  refine ⟨(Rect.unit (s := S80) off S16.size inb).toLoadRect.idx x, ?_, rfl⟩
  show off 0 + 1 * (x 0).val = 16 * c + (x 0).val
  omega

end Cert.Kernel.Pf

end
-- ==== Proof.Bits.TcRows.lean ====
/-
  Rows of the output, one at a time: a row that agrees, below column 49408, with a buffer that is zero off the
  indices the row's eighty words scatter at, is zero off the row's ids; the rows of a task done so far and still to do.
-/
import proofs.«211129_g5394478924152_cont_9to1c4b_288_8_alg».proof.Proof.Bits.TileIdx

noncomputable section

namespace Cert.Kernel.Pf

open Cert.Kernel
open Idealize.ShloMosaic

variable {F : FTy → Type} [FloatOps F]

/-! ## The clause of one element -/

/-- What `ZeroOff` says of one element: zero, if no id of its row is its column. -/
def Clause {d : Dev nD} (E80 : Buf (Elt F) (eidLoc d)) (f : Buf (Elt F) (outLoc d)) (i : S1024x49408.Idx) : Prop :=
  (∀ j : S1024x80.Idx, (j 0).val = (i 0).val → (E80 j).toNat ≠ (i 1).val) → f i = zeroF

theorem zeroOff_of_clauses {d : Dev nD} {w : Fin 32} {E80 : Buf (Elt F) (eidLoc d)} {f : Buf (Elt F) (outLoc d)}
    (h : ∀ i ∈ rowsOut w, Clause E80 f i) : ZeroOff w E80 f :=
  fun i hi => h i hi

/-- An element of row `r` that is the buffer's at its column: a column below 49408 that no id of the row equals is
    scattered at by no word of the row (a padding word scatters at 49408 or above), so the buffer is zero there. -/
theorem row_clause {d : Dev nD} {E80 : Buf (Elt F) (eidLoc d)} {r : ℕ} {C : S80.Idx → BitVec 32} (hrow : RowOf E80 r C)
    {g : S49424.Idx → Elt F .f32} (hg : ZOff C 0 g) (f : Buf (Elt F) (outLoc d)) (i : S1024x49408.Idx) (hi : (i 0).val = r)
    (y : S49424.Idx) (hy : (y 0).val = (i 1).val) (hf : f i = g y) : Clause E80 f i := by
  intro hne
  rw [hf]
  refine hg y fun ⟨j, _, hn⟩ => ?_
  have hi1 : (i 1).val < 49408 := (i 1).isLt
  obtain ⟨i', hi'0, hC⟩ := hrow j
  have e : (C j).toNat = (E80 i').toNat := congrArg BitVec.toNat hC
  unfold effOf at hn
  split at hn
  · omega
  · exact hne i' (by rw [hi'0, hi]) (by omega)

/-- Two families of clauses, joined as two points-to are. -/
theorem clause_piecewise {d : Dev nD} {E80 : Buf (Elt F) (eidLoc d)} {I J : Finset S1024x49408.Idx} [∀ j, Decidable (j ∈ J)]
    {f g : Buf (Elt F) (outLoc d)} (hf : ∀ i ∈ I, Clause E80 f i) (hg : ∀ i ∈ J, Clause E80 g i) :
    ∀ i ∈ I ∪ J, Clause E80 (J.piecewise g f) i := by
  intro i hi
  unfold Clause
  by_cases hJ : i ∈ J
  · rw [Finset.piecewise_eq_of_mem _ _ _ hJ]; exact hg i hJ
  · rw [Finset.piecewise_eq_of_notMem _ _ _ hJ]; exact hf i ((Finset.mem_union.mp hi).resolve_right hJ)

/-! ## The rows of a task done so far, and those still to do -/

/-- The task's rows below its `n`th. -/
def rowsLt (w : Fin 32) (n : ℕ) : Finset S1024x49408.Idx := (rowsOut w).filter fun i => (i 0).val < 32 * w.val + n
/-- The task's rows from its `n`th on. -/
def rowsGe (w : Fin 32) (n : ℕ) : Finset S1024x49408.Idx := (rowsOut w).filter fun i => 32 * w.val + n ≤ (i 0).val

theorem rowsGe_zero (w : Fin 32) : rowsGe w 0 = rowsOut w :=
  Finset.filter_true_of_mem fun i hi => by have := (mem_rowsOut.mp hi).1; omega

theorem rowsLt_zero (w : Fin 32) : rowsLt w 0 = ∅ :=
  Finset.filter_false_of_mem fun i hi => by have := (mem_rowsOut.mp hi).1; omega

theorem rowsLt_32 (w : Fin 32) : rowsLt w 32 = rowsOut w :=
  Finset.filter_true_of_mem fun i hi => by have := (mem_rowsOut.mp hi).2; omega

section Row

variable {w : Fin 32} {n : ℕ} {off : Fin 2 → ℕ} {inb : ∀ a, off a + S1x49408.size a ≤ S1024x49408.size a}

/-- The task's `n`th row, as a rectangle of one row of the output, is the indices on that row. -/
theorem row_mem (h : off = ![32 * w.val + n, 0]) (hn : n < 32) {i : S1024x49408.Idx} :
    i ∈ (Rect.unit (s := S1024x49408) off S1x49408.size inb).set ↔ (i 0).val = 32 * w.val + n := by
  subst h
  rw [Rect.mem_set_unit]
  have h1 : (i 1).val < 49408 := (i 1).isLt
  constructor
  · intro hall
    have h0 := hall 0
    change 32 * w.val + n ≤ (i 0).val ∧ (i 0).val < 32 * w.val + n + 1 at h0
    omega
  · intro hi a
    match a with
    | ⟨0, _⟩ => show 32 * w.val + n ≤ (i 0).val ∧ (i 0).val < 32 * w.val + n + 1; omega
    | ⟨1, _⟩ => show 0 ≤ (i 1).val ∧ (i 1).val < 0 + 49408; omega

theorem row_subset_ge (h : off = ![32 * w.val + n, 0]) (hn : n < 32) :
    (Rect.unit (s := S1024x49408) off S1x49408.size inb).set ⊆ rowsGe w n := by
  intro i hi
  rw [row_mem h hn] at hi
  exact Finset.mem_filter.mpr ⟨mem_rowsOut.mpr ⟨by omega, by omega⟩, by omega⟩

theorem rowsGe_sdiff (h : off = ![32 * w.val + n, 0]) (hn : n < 32) :
    rowsGe w n \ (Rect.unit (s := S1024x49408) off S1x49408.size inb).set = rowsGe w (n + 1) := by
  ext i
  rw [Finset.mem_sdiff, row_mem h hn]
  unfold rowsGe
  rw [Finset.mem_filter, Finset.mem_filter]
  constructor
  · rintro ⟨⟨hm, hge⟩, hne⟩; exact ⟨hm, by omega⟩
  · rintro ⟨hm, hge⟩; exact ⟨⟨hm, by omega⟩, by omega⟩

theorem row_disjoint_lt (h : off = ![32 * w.val + n, 0]) (hn : n < 32) :
    Disjoint (rowsLt w n) (Rect.unit (s := S1024x49408) off S1x49408.size inb).set :=
  Finset.disjoint_left.mpr fun i hi hR => by
    rw [row_mem h hn] at hR
    have := (Finset.mem_filter.mp hi).2
    omega

theorem rowsLt_union (h : off = ![32 * w.val + n, 0]) (hn : n < 32) :
    rowsLt w n ∪ (Rect.unit (s := S1024x49408) off S1x49408.size inb).set = rowsLt w (n + 1) := by
  ext i
  rw [Finset.mem_union, row_mem h hn]
  unfold rowsLt
  rw [Finset.mem_filter, Finset.mem_filter]
  constructor
  · rintro (⟨hm, hlt⟩ | heq)
    · exact ⟨hm, by omega⟩
    · exact ⟨mem_rowsOut.mpr ⟨by omega, by omega⟩, by omega⟩
  · rintro ⟨hm, hlt⟩
    by_cases hl : (i 0).val < 32 * w.val + n
    · exact .inl ⟨hm, hl⟩
    · exact .inr (by omega)

end Row

end Cert.Kernel.Pf

end
-- ==== Proof.Bits.TcOutRow.lean ====
/-
  A row of the output copied out of a buffer: where the buffer is zero off the indices the row's words scatter at, every
  element of the row satisfies its clause.
-/
import proofs.«211129_g5394478924152_cont_9to1c4b_288_8_alg».proof.Proof.Bits.TileViews
import proofs.«211129_g5394478924152_cont_9to1c4b_288_8_alg».proof.Proof.Bits.TcRows
import Idealize.ShloMosaic.Lib.Pipeline.Value

noncomputable section

namespace Cert.Kernel.Pf

open Cert.Kernel Cert.Kernel.Gen
open Idealize.ShloMosaic

variable {F : FTy → Type} [FloatOps F]

/-- An element of a row of the output, as the row's memref places it: on the row, at its own column. -/
theorem outRow_emb (off : Fin 2 → Nat) (inb : ∀ a, off a + S1x49408.size a ≤ S1024x49408.size a) (x : S49408.Idx) :
    (((outRow off inb).view.emb x) 0).val = off 0 ∧ (((outRow off inb).view.emb x) 1).val = off 1 + (x 0).val := by
  have h0 : ((Shape.reshapeEquiv squeezes_S1x49408_S49408.numel_eq x) 0).val < 1 :=
    ((Shape.reshapeEquiv squeezes_S1x49408_S49408.numel_eq x) 0).isLt
  have t := Shape.rowMajor_reshapeEquiv squeezes_S1x49408_S49408.numel_eq x
  rw [Shape.rowMajor_val_two, Shape.rowMajor_val_one] at t
  have t' : ((Shape.reshapeEquiv squeezes_S1x49408_S49408.numel_eq x) 0).val * 49408
      + ((Shape.reshapeEquiv squeezes_S1x49408_S49408.numel_eq x) 1).val = (x 0).val := t
  constructor
  · show off 0 + 1 * ((Shape.reshapeEquiv squeezes_S1x49408_S49408.numel_eq x) 0).val = off 0
    omega
  · show off 1 + 1 * ((Shape.reshapeEquiv squeezes_S1x49408_S49408.numel_eq x) 1).val = off 1 + (x 0).val
    omega

/-- What a row copied out of a buffer holds — the delivered row is one whole-row piece over what the array held —: the
    buffer's elements at the row's columns, so each element's clause. -/
theorem outRow_clauses {d : Dev nD} {E80 : Buf (Elt F) (eidLoc d)} {off : Fin 2 → Nat}
    {inb : ∀ a, off a + S1x49408.size a ≤ S1024x49408.size a} (hoff : off 1 = 0) {C : S80.Idx → BitVec 32}
    (hrow : RowOf E80 (off 0) C) {G : S49424.Idx → Elt F .f32} (hG : ZOff C 0 G) (w : (Rect.whole S49408).shape.Idx → Elt F .f32)
    (hw : ∀ x, ∃ y : S49424.Idx, (y 0).val = (x 0).val ∧ w x = G y) (fd : Buf (Elt F) (outLoc d)) :
    ∀ i ∈ (Rect.unit (s := S1024x49408) off S1x49408.size inb).set,
      Clause E80 ((outRow off inb).view.writes (Elt F) fd [⟨Rect.whole S49408, w⟩]) i := by
  intro i hi
  rw [← set_outRow off inb] at hi
  obtain ⟨x, rfl⟩ := View.exists_emb_of_mem_set (outRow off inb).view hi
  obtain ⟨y, hy, hwx⟩ := hw x
  obtain ⟨e0, e1⟩ := outRow_emb off inb x
  rw [hoff, Nat.zero_add] at e1
  refine row_clause hrow hG _ _ e0 y (hy.trans e1.symm) ?_
  rw [View.writes_singleton]
  have hx : ((outRow off inb).view.slice (Rect.whole S49408)).emb x = (outRow off inb).view.emb x := by
    show (outRow off inb).view.emb ((Rect.whole S49408).emb x) = _
    rw [Rect.emb_whole_apply]
  rw [← hx]
  exact (View.write_emb_of_mem (v := (outRow off inb).view.slice (Rect.whole S49408)) fd w (Finset.mem_univ x)).trans
    ((cast_eq _ _).trans hwx)

end Cert.Kernel.Pf

end
-- ==== Proof.Bits.TcJoin.lean ====
/-
  The output's rows done so far, one row more: the points-to on the rows below the `n`th and on the `n`th row join, and
  their clauses with them; and the task's results from all thirty-two.
-/
import proofs.«211129_g5394478924152_cont_9to1c4b_288_8_alg».proof.Proof.Bits.TileViews
import proofs.«211129_g5394478924152_cont_9to1c4b_288_8_alg».proof.Proof.Bits.TcRows

noncomputable section

namespace Cert.Kernel.Pf

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No row of the task is at or past its thirty-second. -/
theorem rowsGe_32 (w : Fin 32) : rowsGe w 32 = ∅ :=
  Finset.filter_false_of_mem fun i hi => by have := (mem_rowsOut.mp hi).2; omega

/-- The rows done so far and the next row, joined: the rows done through the next. -/
theorem out_join {d : Dev nD} {E80 : Buf (Elt F) (eidLoc d)} {w : Fin 32} {n : ℕ} {off : Fin 2 → ℕ}
    {inb : ∀ a, off a + S1x49408.size a ≤ S1024x49408.size a} (h : off = ![32 * w.val + n, 0]) (hn : n < 32)
    {fD X : Buf (Elt F) (outLoc d)} (hD : ∀ i ∈ rowsLt w n, Clause E80 fD i)
    (hX : ∀ i ∈ (Rect.unit (s := S1024x49408) off S1x49408.size inb).set, Clause E80 X i) :
    iprop((outLoc d ↦[rowsLt w n]{fullShare} fD) ∗ (outLoc d ↦[(Rect.unit (s := S1024x49408) off S1x49408.size inb).set]{fullShare} X))
      ⊢ (iprop(∃ fD', ⌜∀ i ∈ rowsLt w (n + 1), Clause E80 fD' i⌝ ∗ outLoc d ↦[rowsLt w (n + 1)]{fullShare} fD') : sProp (MM F)) := by
  refine (pointsTo_join (row_disjoint_lt h hn)).trans ?_
  rw [rowsLt_union h hn]
  iintro H
  iexists _
  isplitr
  · ipureintro
    have hc := clause_piecewise (E80 := E80) hD hX
    rw [rowsLt_union h hn] at hc
    exact hc
  · iexact H

/-- All thirty-two rows done: what the task hands back. -/
theorem out_done {d : Dev nD} {E80 : Buf (Elt F) (eidLoc d)} {w : Fin 32} {T80 : Buf (Elt F) (tokLoc d)}
    {fD : Buf (Elt F) (outLoc d)} (hD : ∀ i ∈ rowsLt w 32, Clause E80 fD i) :
    iprop((tokLoc d ↦[rows80 w]{fullShare} T80) ∗ (eidLoc d ↦[rows80 w]{fullShare} E80) ∗ (outLoc d ↦[rowsLt w 32]{fullShare} fD))
      ⊢ (tdRes d w T80 E80 : sProp (MM F)) := by
  rw [rowsLt_32] at hD ⊢
  unfold tdRes
  iintro ⟨Ht, He, Ho⟩
  isplitl [Ht]; · iexact Ht
  isplitl [He]; · iexact He
  iexists fD
  isplitr
  · ipureintro; exact zeroOff_of_clauses hD
  · iexact Ho

end Cert.Kernel.Pf

end
-- ==== Proof.Bits.TileBody.lean ====
/-
  One vector subcore's task of the SparseCore kernel, at a symbolic subcore: it clears its two buffers in a counted
  loop, then for each of its thirty-two rows — two at a time, one per buffer — copies the row's indices and weights
  into its scratches, scatters the eighty weights into the buffer at the row's indices (a padding index sent to a
  lane of its own past the row's end), starts the copy of the buffer's first 49408 words to the output's row, and,
  before it uses that buffer again, waits for the copy and scatters zeros back at the same indices. Carried through
  the run: a buffer is zero wherever no word of the scratch it was last scattered from scatters, so a row that has
  landed is zero at every column none of its indices names; the rows landed so far, the two rows in flight and the
  rows not yet written are held apart and joined when the last two copies have been waited for.
-/
import proofs.«211129_g5394478924152_cont_9to1c4b_288_8_alg».proof.Proof.Bits.TileViews
import proofs.«211129_g5394478924152_cont_9to1c4b_288_8_alg».proof.Proof.Bits.TcRows
import proofs.«211129_g5394478924152_cont_9to1c4b_288_8_alg».proof.Proof.Bits.TcOutRow
import proofs.«211129_g5394478924152_cont_9to1c4b_288_8_alg».proof.Proof.Bits.TcJoin

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable (d : Dev nD) (L : grid1.Coords)

/-- A DMA semaphore of the subcore's own, as a cell. -/
abbrev cellOf (s : DmaSems sig S_) : GSem nD τ sig := ((V d (cV L) (jV L)), SemLoc.dma s.sem)

theorem cellOf_ne {s s' : DmaSems sig S_} (h : s.sem ≠ s'.sem) : cellOf d L s ≠ cellOf d L s' :=
  fun e => h (SemLoc.dma.inj (Prod.mk.inj e).2)

variable [FloatOps F]

omit [FloatOps F] in
theorem ownSems0_V :
    (ownSems0 (V d (cV L) (jV L)) : sProp (MM F))
      = iprop(semVal (cellOf d L cc1_scratch6) 0 ∗ semVal (cellOf d L cc1_scratch7) 0 ∗ semVal (cellOf d L cc1_scoped0) 0 ∗ semVal (cellOf d L cc1_scoped1) 0 ∗ semVal (cellOf d L cc1_scoped2) 0 ∗ semVal (cellOf d L cc1_scoped3) 0 ∗ semVal (cellOf d L cc1_scoped4) 0 ∗ semVal (cellOf d L cc1_scoped5) 0 ∗ semVal (cellOf d L cc1_scoped6) 0 ∗ semVal (cellOf d L cc1_scoped7) 0
          ∗ bigSep (((((((((((ownCells (V d (cV L) (jV L))).erase (cellOf d L cc1_scratch6)).erase (cellOf d L cc1_scratch7)).erase (cellOf d L cc1_scoped0)).erase (cellOf d L cc1_scoped1)).erase (cellOf d L cc1_scoped2)).erase (cellOf d L cc1_scoped3)).erase (cellOf d L cc1_scoped4)).erase (cellOf d L cc1_scoped5)).erase (cellOf d L cc1_scoped6)).erase (cellOf d L cc1_scoped7)) fun g => semVal g 0) := by
  unfold SparseCore.Cfg.ownSems0
  rw [SparseCore.bigSep_erase' ((mem_ownCells (g := cellOf d L cc1_scratch6)).mpr ⟨rfl, by show (SemLoc.dma cc1_scratch6.sem : SemLoc sig).isScoped .scVector = true; decide⟩),
    SparseCore.bigSep_erase' (Finset.mem_erase.mpr ⟨cellOf_ne d L (by decide : (cc1_scratch7.sem : DmaSem sig) ≠ cc1_scratch6.sem), (mem_ownCells (g := cellOf d L cc1_scratch7)).mpr ⟨rfl, by show (SemLoc.dma cc1_scratch7.sem : SemLoc sig).isScoped .scVector = true; decide⟩⟩),
    SparseCore.bigSep_erase' (Finset.mem_erase.mpr ⟨cellOf_ne d L (by decide : (cc1_scoped0.sem : DmaSem sig) ≠ cc1_scratch7.sem), Finset.mem_erase.mpr ⟨cellOf_ne d L (by decide : (cc1_scoped0.sem : DmaSem sig) ≠ cc1_scratch6.sem), (mem_ownCells (g := cellOf d L cc1_scoped0)).mpr ⟨rfl, by show (SemLoc.dma cc1_scoped0.sem : SemLoc sig).isScoped .scVector = true; decide⟩⟩⟩),
    SparseCore.bigSep_erase' (Finset.mem_erase.mpr ⟨cellOf_ne d L (by decide : (cc1_scoped1.sem : DmaSem sig) ≠ cc1_scoped0.sem), Finset.mem_erase.mpr ⟨cellOf_ne d L (by decide : (cc1_scoped1.sem : DmaSem sig) ≠ cc1_scratch7.sem), Finset.mem_erase.mpr ⟨cellOf_ne d L (by decide : (cc1_scoped1.sem : DmaSem sig) ≠ cc1_scratch6.sem), (mem_ownCells (g := cellOf d L cc1_scoped1)).mpr ⟨rfl, by show (SemLoc.dma cc1_scoped1.sem : SemLoc sig).isScoped .scVector = true; decide⟩⟩⟩⟩),
    SparseCore.bigSep_erase' (Finset.mem_erase.mpr ⟨cellOf_ne d L (by decide : (cc1_scoped2.sem : DmaSem sig) ≠ cc1_scoped1.sem), Finset.mem_erase.mpr ⟨cellOf_ne d L (by decide : (cc1_scoped2.sem : DmaSem sig) ≠ cc1_scoped0.sem), Finset.mem_erase.mpr ⟨cellOf_ne d L (by decide : (cc1_scoped2.sem : DmaSem sig) ≠ cc1_scratch7.sem), Finset.mem_erase.mpr ⟨cellOf_ne d L (by decide : (cc1_scoped2.sem : DmaSem sig) ≠ cc1_scratch6.sem), (mem_ownCells (g := cellOf d L cc1_scoped2)).mpr ⟨rfl, by show (SemLoc.dma cc1_scoped2.sem : SemLoc sig).isScoped .scVector = true; decide⟩⟩⟩⟩⟩),
    SparseCore.bigSep_erase' (Finset.mem_erase.mpr ⟨cellOf_ne d L (by decide : (cc1_scoped3.sem : DmaSem sig) ≠ cc1_scoped2.sem), Finset.mem_erase.mpr ⟨cellOf_ne d L (by decide : (cc1_scoped3.sem : DmaSem sig) ≠ cc1_scoped1.sem), Finset.mem_erase.mpr ⟨cellOf_ne d L (by decide : (cc1_scoped3.sem : DmaSem sig) ≠ cc1_scoped0.sem), Finset.mem_erase.mpr ⟨cellOf_ne d L (by decide : (cc1_scoped3.sem : DmaSem sig) ≠ cc1_scratch7.sem), Finset.mem_erase.mpr ⟨cellOf_ne d L (by decide : (cc1_scoped3.sem : DmaSem sig) ≠ cc1_scratch6.sem), (mem_ownCells (g := cellOf d L cc1_scoped3)).mpr ⟨rfl, by show (SemLoc.dma cc1_scoped3.sem : SemLoc sig).isScoped .scVector = true; decide⟩⟩⟩⟩⟩⟩),
    SparseCore.bigSep_erase' (Finset.mem_erase.mpr ⟨cellOf_ne d L (by decide : (cc1_scoped4.sem : DmaSem sig) ≠ cc1_scoped3.sem), Finset.mem_erase.mpr ⟨cellOf_ne d L (by decide : (cc1_scoped4.sem : DmaSem sig) ≠ cc1_scoped2.sem), Finset.mem_erase.mpr ⟨cellOf_ne d L (by decide : (cc1_scoped4.sem : DmaSem sig) ≠ cc1_scoped1.sem), Finset.mem_erase.mpr ⟨cellOf_ne d L (by decide : (cc1_scoped4.sem : DmaSem sig) ≠ cc1_scoped0.sem), Finset.mem_erase.mpr ⟨cellOf_ne d L (by decide : (cc1_scoped4.sem : DmaSem sig) ≠ cc1_scratch7.sem), Finset.mem_erase.mpr ⟨cellOf_ne d L (by decide : (cc1_scoped4.sem : DmaSem sig) ≠ cc1_scratch6.sem), (mem_ownCells (g := cellOf d L cc1_scoped4)).mpr ⟨rfl, by show (SemLoc.dma cc1_scoped4.sem : SemLoc sig).isScoped .scVector = true; decide⟩⟩⟩⟩⟩⟩⟩),
    SparseCore.bigSep_erase' (Finset.mem_erase.mpr ⟨cellOf_ne d L (by decide : (cc1_scoped5.sem : DmaSem sig) ≠ cc1_scoped4.sem), Finset.mem_erase.mpr ⟨cellOf_ne d L (by decide : (cc1_scoped5.sem : DmaSem sig) ≠ cc1_scoped3.sem), Finset.mem_erase.mpr ⟨cellOf_ne d L (by decide : (cc1_scoped5.sem : DmaSem sig) ≠ cc1_scoped2.sem), Finset.mem_erase.mpr ⟨cellOf_ne d L (by decide : (cc1_scoped5.sem : DmaSem sig) ≠ cc1_scoped1.sem), Finset.mem_erase.mpr ⟨cellOf_ne d L (by decide : (cc1_scoped5.sem : DmaSem sig) ≠ cc1_scoped0.sem), Finset.mem_erase.mpr ⟨cellOf_ne d L (by decide : (cc1_scoped5.sem : DmaSem sig) ≠ cc1_scratch7.sem), Finset.mem_erase.mpr ⟨cellOf_ne d L (by decide : (cc1_scoped5.sem : DmaSem sig) ≠ cc1_scratch6.sem), (mem_ownCells (g := cellOf d L cc1_scoped5)).mpr ⟨rfl, by show (SemLoc.dma cc1_scoped5.sem : SemLoc sig).isScoped .scVector = true; decide⟩⟩⟩⟩⟩⟩⟩⟩),
    SparseCore.bigSep_erase' (Finset.mem_erase.mpr ⟨cellOf_ne d L (by decide : (cc1_scoped6.sem : DmaSem sig) ≠ cc1_scoped5.sem), Finset.mem_erase.mpr ⟨cellOf_ne d L (by decide : (cc1_scoped6.sem : DmaSem sig) ≠ cc1_scoped4.sem), Finset.mem_erase.mpr ⟨cellOf_ne d L (by decide : (cc1_scoped6.sem : DmaSem sig) ≠ cc1_scoped3.sem), Finset.mem_erase.mpr ⟨cellOf_ne d L (by decide : (cc1_scoped6.sem : DmaSem sig) ≠ cc1_scoped2.sem), Finset.mem_erase.mpr ⟨cellOf_ne d L (by decide : (cc1_scoped6.sem : DmaSem sig) ≠ cc1_scoped1.sem), Finset.mem_erase.mpr ⟨cellOf_ne d L (by decide : (cc1_scoped6.sem : DmaSem sig) ≠ cc1_scoped0.sem), Finset.mem_erase.mpr ⟨cellOf_ne d L (by decide : (cc1_scoped6.sem : DmaSem sig) ≠ cc1_scratch7.sem), Finset.mem_erase.mpr ⟨cellOf_ne d L (by decide : (cc1_scoped6.sem : DmaSem sig) ≠ cc1_scratch6.sem), (mem_ownCells (g := cellOf d L cc1_scoped6)).mpr ⟨rfl, by show (SemLoc.dma cc1_scoped6.sem : SemLoc sig).isScoped .scVector = true; decide⟩⟩⟩⟩⟩⟩⟩⟩⟩),
    SparseCore.bigSep_erase' (Finset.mem_erase.mpr ⟨cellOf_ne d L (by decide : (cc1_scoped7.sem : DmaSem sig) ≠ cc1_scoped6.sem), Finset.mem_erase.mpr ⟨cellOf_ne d L (by decide : (cc1_scoped7.sem : DmaSem sig) ≠ cc1_scoped5.sem), Finset.mem_erase.mpr ⟨cellOf_ne d L (by decide : (cc1_scoped7.sem : DmaSem sig) ≠ cc1_scoped4.sem), Finset.mem_erase.mpr ⟨cellOf_ne d L (by decide : (cc1_scoped7.sem : DmaSem sig) ≠ cc1_scoped3.sem), Finset.mem_erase.mpr ⟨cellOf_ne d L (by decide : (cc1_scoped7.sem : DmaSem sig) ≠ cc1_scoped2.sem), Finset.mem_erase.mpr ⟨cellOf_ne d L (by decide : (cc1_scoped7.sem : DmaSem sig) ≠ cc1_scoped1.sem), Finset.mem_erase.mpr ⟨cellOf_ne d L (by decide : (cc1_scoped7.sem : DmaSem sig) ≠ cc1_scoped0.sem), Finset.mem_erase.mpr ⟨cellOf_ne d L (by decide : (cc1_scoped7.sem : DmaSem sig) ≠ cc1_scratch7.sem), Finset.mem_erase.mpr ⟨cellOf_ne d L (by decide : (cc1_scoped7.sem : DmaSem sig) ≠ cc1_scratch6.sem), (mem_ownCells (g := cellOf d L cc1_scoped7)).mpr ⟨rfl, by show (SemLoc.dma cc1_scoped7.sem : SemLoc sig).isScoped .scVector = true; decide⟩⟩⟩⟩⟩⟩⟩⟩⟩⟩)]

omit [FloatOps F] in
theorem ownBufs_V :
    (ownBufs (V d (cV L) (jV L)) : sProp (MM F))
      = iprop((∃ f, (buf0 : Memref sig .scVector .vmem S49424 .f32).view.loc (V d (cV L) (jV L)) ↦{fullShare} f) ∗ (∃ f, (buf1 : Memref sig .scVector .vmem S49424 .f32).view.loc (V d (cV L) (jV L)) ↦{fullShare} f) ∗ (∃ f, (ids0 : Memref sig .scVector .vmem S80 .i32).view.loc (V d (cV L) (jV L)) ↦{fullShare} f) ∗ (∃ f, (ids1 : Memref sig .scVector .vmem S80 .i32).view.loc (V d (cV L) (jV L)) ↦{fullShare} f) ∗ (∃ f, (tw0 : Memref sig .scVector .vmem S80 .f32).view.loc (V d (cV L) (jV L)) ↦{fullShare} f) ∗ (∃ f, (tw1 : Memref sig .scVector .vmem S80 .f32).view.loc (V d (cV L) (jV L)) ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := ((Proc.scVector (cV L) (jV L)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := ((Proc.scVector (cV L) (jV L)).devRef cc1_scratch5)) rfl⟩⟩⟩⟩⟩)]

omit [FloatOps F] in
theorem pts_tokRow (off inb) (f : Buf (Elt F) (tokLoc d)) :
    ((tokRow off inb).view.loc (V d (cV L) (jV L)) ↦[(tokRow off inb).view.set]{fullShare} f : sProp (MM F))
      = tokLoc d ↦[(Rect.unit (s := S1024x80) off S1x80.size inb).set]{fullShare} f := by
  rw [set_tokRow]
omit [FloatOps F] in
theorem pts_eidRow (off inb) (f : Buf (Elt F) (eidLoc d)) :
    ((eidRow off inb).view.loc (V d (cV L) (jV L)) ↦[(eidRow off inb).view.set]{fullShare} f : sProp (MM F))
      = eidLoc d ↦[(Rect.unit (s := S1024x80) off S1x80.size inb).set]{fullShare} f := by
  rw [set_eidRow]
omit [FloatOps F] in
theorem pts_outRow (off inb) (f : Buf (Elt F) (outLoc d)) :
    ((outRow off inb).view.loc (V d (cV L) (jV L)) ↦[(outRow off inb).view.set]{fullShare} f : sProp (MM F))
      = outLoc d ↦[(Rect.unit (s := S1024x49408) off S1x49408.size inb).set]{fullShare} f := by
  rw [set_outRow]

omit [FloatOps F] in
/-- A scratch held whole, as the indexed store addresses it. -/
theorem pts_access_whole (b : Ref sig .scVector) (g : Buf (Elt F) ((V d (cV L) (jV L)).loc b)) :
    (((Memref.whole b).access (Rect.whole _)).loc (V d (cV L) (jV L)) ↦[((Memref.whole b).access (Rect.whole _)).set]{fullShare} g : sProp (MM F))
      = ((Memref.whole b).view.loc (V d (cV L) (jV L)) ↦{fullShare} g) := by
  rw [Memref.set_access_whole]

/-- What the indexed store leaves, as a function of what it found. -/
theorem pts_stored (b : Ref sig .scVector) (g : Buf (Elt F) ((V d (cV L) (jV L)).loc b)) {dd : Fin 1 → Nat}
    (idxs : Fin b.ty.shape.rank → IVec ⟨1, dd⟩ 32) (v : Vec F ⟨1, dd⟩ b.ty.elt) (mask : IVec ⟨1, dd⟩ 1) (add : Bool)
    (h : ∀ a x, (idxs a x).toNat < b.ty.shape.size a) :
    (((Memref.whole b).access (Rect.whole _)).loc (V d (cV L) (jV L)) ↦[((Memref.whole b).access (Rect.whole _)).set]{fullShare}
        (((Memref.whole b).access (Rect.whole _)).write (Elt F) g
          (storeIdx (((Memref.whole b).access (Rect.whole _)).read (Elt F) g) idxs v mask add h) Finset.univ) : sProp (MM F))
      = ((Memref.whole b).view.loc (V d (cV L) (jV L)) ↦{fullShare} (storeIdx g idxs v mask add h)) := by
  rw [Memref.set_access_whole, Memref.write_access_whole_univ, Memref.read_access_whole]

omit [FloatOps F] in
/-- A buffer's contents named anew, a fact about them kept. -/
theorem restate {ℓ : Loc nD τ sig} {G : Buf (Elt F) ℓ} (P : Buf (Elt F) ℓ → Prop) (h : P G) :
    (ℓ ↦{fullShare} G : sProp (MM F)) ⊢ iprop(∃ G', ⌜P G'⌝ ∗ ℓ ↦{fullShare} G') := by
  iintro H; iexists G; isplitr
  · ipureintro; exact h
  · iexact H

omit [FloatOps F] in
/-- A flight's delivered row named anew, a fact about it kept. -/
theorem flight_restate {sm : SemLoc sig} {N : ℕ} {off : Fin 2 → Nat} {inb : ∀ a, off a + S1x49408.size a ≤ S1024x49408.size a}
    {X : Buf (Elt F) (outLoc d)} {R : sProp (MM F)} (P : Buf (Elt F) (outLoc d) → Prop) (h : P X) :
    (Transfers.Flight countersEmb (V d (cV L) (jV L)) sm (default : HIx 1) N
        iprop(((outRow off inb).view.loc (V d (cV L) (jV L)) ↦[(outRow off inb).view.set]{fullShare} X) ∗ R) : sProp (MM F))
      ⊢ iprop(∃ X', ⌜P X'⌝ ∗ Transfers.Flight countersEmb (V d (cV L) (jV L)) sm (default : HIx 1) N
        iprop(((outRow off inb).view.loc (V d (cV L) (jV L)) ↦[(outRow off inb).view.set]{fullShare} X') ∗ R)) := by
  iintro H; iexists X; isplitr
  · ipureintro; exact h
  · iexact H

/-- Before trip `k` of the clearing loop both buffers are zero below `16 k`. -/
def invZ (O : CellTallies nD τ sig (HIx 1)) (k : Nat) (_ : PUnit) : sProp (MM F) :=
  iprop(Transfers.MayWaits (V d (cV L) (jV L)) (none : HIx 1) O
    ∗ (∃ g, ⌜ZB (16 * k) (buf0.view.read (Elt F) g)⌝ ∗ buf0.view.loc (V d (cV L) (jV L)) ↦{fullShare} g)
    ∗ (∃ g, ⌜ZB (16 * k) (buf1.view.read (Elt F) g)⌝ ∗ buf1.view.loc (V d (cV L) (jV L)) ↦{fullShare} g))

/-- Buffer 0 between trips: its copy of row `n` of the task in flight, the scratch still holding that row's words. -/
def bufSt0 (E80 : Buf (Elt F) (eidLoc d)) (n : ℕ) : sProp (MM F) :=
  iprop(∃ (off : Fin 2 → ℕ) (inb : ∀ a, off a + S1x49408.size a ≤ S1024x49408.size a) (X : Buf (Elt F) (outLoc d))
      (G : Buf (Elt F) ((buf0 : Memref sig .scVector .vmem S49424 .f32).view.loc (V d (cV L) (jV L)))) (C : Buf (Elt F) ((ids0 : Memref sig .scVector .vmem S80 .i32).view.loc (V d (cV L) (jV L)))),
    ⌜off = ![32 * (wid L).val + n, 0]⌝
    ∗ ⌜∀ i ∈ (Rect.unit (s := S1024x49408) off S1x49408.size inb).set, Clause E80 X i⌝
    ∗ ⌜RowOf E80 (32 * (wid L).val + n) ((ids0 : Memref sig .scVector .vmem S80 .i32).view.read (Elt F) C)⌝
    ∗ ⌜ZOff ((ids0 : Memref sig .scVector .vmem S80 .i32).view.read (Elt F) C) 0 (G : S49424.Idx → Elt F .f32)⌝
    ∗ Transfers.Flight countersEmb (V d (cV L) (jV L)) (SemLoc.dma cc1_scratch6.sem) (default : HIx 1) 1581056
        iprop(((outRow off inb).view.loc (V d (cV L) (jV L)) ↦[(outRow off inb).view.set]{fullShare} X)
          ∗ ((buf0 : Memref sig .scVector .vmem S49424 .f32).view.loc (V d (cV L) (jV L)) ↦[((buf0 : Memref sig .scVector .vmem S49424 .f32).slice (Rect.unit (s := S49424) ![0] S49408.size inb_S49424_S49408_0) (fun _ => rfl)).view.set]{fullShare} G))
    ∗ ((buf0 : Memref sig .scVector .vmem S49424 .f32).view.loc (V d (cV L) (jV L)) ↦[Finset.univ \ ((buf0 : Memref sig .scVector .vmem S49424 .f32).slice (Rect.unit (s := S49424) ![0] S49408.size inb_S49424_S49408_0) (fun _ => rfl)).view.set]{fullShare} G)
    ∗ ((ids0 : Memref sig .scVector .vmem S80 .i32).view.loc (V d (cV L) (jV L)) ↦{fullShare} C)
    ∗ ∃ t, (tw0 : Memref sig .scVector .vmem S80 .f32).view.loc (V d (cV L) (jV L)) ↦{fullShare} t)

/-- Buffer 1 between trips: its copy of row `n` of the task in flight, the scratch still holding that row's words. -/
def bufSt1 (E80 : Buf (Elt F) (eidLoc d)) (n : ℕ) : sProp (MM F) :=
  iprop(∃ (off : Fin 2 → ℕ) (inb : ∀ a, off a + S1x49408.size a ≤ S1024x49408.size a) (X : Buf (Elt F) (outLoc d))
      (G : Buf (Elt F) ((buf1 : Memref sig .scVector .vmem S49424 .f32).view.loc (V d (cV L) (jV L)))) (C : Buf (Elt F) ((ids1 : Memref sig .scVector .vmem S80 .i32).view.loc (V d (cV L) (jV L)))),
    ⌜off = ![32 * (wid L).val + n, 0]⌝
    ∗ ⌜∀ i ∈ (Rect.unit (s := S1024x49408) off S1x49408.size inb).set, Clause E80 X i⌝
    ∗ ⌜RowOf E80 (32 * (wid L).val + n) ((ids1 : Memref sig .scVector .vmem S80 .i32).view.read (Elt F) C)⌝
    ∗ ⌜ZOff ((ids1 : Memref sig .scVector .vmem S80 .i32).view.read (Elt F) C) 0 (G : S49424.Idx → Elt F .f32)⌝
    ∗ Transfers.Flight countersEmb (V d (cV L) (jV L)) (SemLoc.dma cc1_scratch7.sem) (default : HIx 1) 1581056
        iprop(((outRow off inb).view.loc (V d (cV L) (jV L)) ↦[(outRow off inb).view.set]{fullShare} X)
          ∗ ((buf1 : Memref sig .scVector .vmem S49424 .f32).view.loc (V d (cV L) (jV L)) ↦[((buf1 : Memref sig .scVector .vmem S49424 .f32).slice (Rect.unit (s := S49424) ![0] S49408.size inb_S49424_S49408_0) (fun _ => rfl)).view.set]{fullShare} G))
    ∗ ((buf1 : Memref sig .scVector .vmem S49424 .f32).view.loc (V d (cV L) (jV L)) ↦[Finset.univ \ ((buf1 : Memref sig .scVector .vmem S49424 .f32).slice (Rect.unit (s := S49424) ![0] S49408.size inb_S49424_S49408_0) (fun _ => rfl)).view.set]{fullShare} G)
    ∗ ((ids1 : Memref sig .scVector .vmem S80 .i32).view.loc (V d (cV L) (jV L)) ↦{fullShare} C)
    ∗ ∃ t, (tw1 : Memref sig .scVector .vmem S80 .f32).view.loc (V d (cV L) (jV L)) ↦{fullShare} t)

/-- Before trip `k` of the main loop: `2 k` rows landed, rows `2 k` and `2 k + 1` in flight, the rest untouched. -/
def invL (T80 : Buf (Elt F) (tokLoc d)) (E80 : Buf (Elt F) (eidLoc d)) (fo : Buf (Elt F) (outLoc d))
    (O : CellTallies nD τ sig (HIx 1)) (W : Waits sig (HIx 1)) (k : ℕ) (_ : Unit) : sProp (MM F) :=
  iprop(Transfers.MayWaits (V d (cV L) (jV L)) (none : HIx 1) O
    ∗ (tokLoc d ↦[rows80 (wid L)]{fullShare} T80)
    ∗ (eidLoc d ↦[rows80 (wid L)]{fullShare} E80)
    ∗ (∃ fD, ⌜∀ i ∈ rowsLt (wid L) (2 * k), Clause E80 fD i⌝ ∗ outLoc d ↦[rowsLt (wid L) (2 * k)]{fullShare} fD)
    ∗ (outLoc d ↦[rowsGe (wid L) (2 * k + 2)]{fullShare} fo)
    ∗ bufSt0 d L E80 (2 * k) ∗ bufSt1 d L E80 (2 * k + 1)
    ∗ semVal (cellOf d L cc1_scoped4) 0 ∗ semVal (cellOf d L cc1_scoped5) 0
    ∗ semVal (cellOf d L cc1_scoped6) 0 ∗ semVal (cellOf d L cc1_scoped7) 0
    ∗ ∃ W', ⌜∀ p ∈ W', p ∈ W ∨ p.2 = none⌝ ∗ owes (V d (cV L) (jV L)) O W')

omit [FloatOps F] in
theorem waits_ok_insert {W S : Waits sig (HIx 1)} {sm : SemLoc sig} (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

set_option maxHeartbeats 40000000 in
/-- One trip of the main loop: both buffers' rows land and are cleared away, the next two rows are staged, scattered and sent. -/
theorem trip (T80 : Buf (Elt F) (tokLoc d)) (E80 : Buf (Elt F) (eidLoc d)) (hE : ∀ i, (E80 i).toNat ≤ 49408) (fo : Buf (Elt F) (outLoc d))
    (O : CellTallies nD τ sig (HIx 1)) (W : Waits sig (HIx 1)) (v2 : BitVec 32) (v62 : Vec F S16 .i32) (v63 : IVec S16 32)
    (k : Fin k1_t2_loop.trips) (acc : Unit) :
    invL d L T80 E80 fo O W k.val acc
      ⊢ wp frame (wpE (defs₀ (F := F)) Variants.none (V d (cV L) (jV L)) none) Set.univ
          (k1_t2_body L tokV (Memref.isWhole_whole _) eidV (Memref.isWhole_whole _) outV (Memref.isWhole_whole _) buf0 (Memref.isWhole_whole _) buf1 (Memref.isWhole_whole _) ids0 (Memref.isWhole_whole _) ids1 (Memref.isWhole_whole _) tw0 (Memref.isWhole_whole _) tw1 (Memref.isWhole_whole _)
            cc1_scratch6 cc1_scratch7 cc1_scoped0 cc1_scoped1 cc1_scoped2 cc1_scoped3 cc1_scoped4 cc1_scoped5 cc1_scoped6 cc1_scoped7
            v2 k1_pay22 (iota .scVector S16 32 [0] iota_S16_d0_w32_scVector) v62 v63 k acc)
          fun _ => invL d L T80 E80 fo O W (k.val + 1) () := by
  have hk : k.val < 15 := lt_of_lt_of_le k.isLt k1_t2_abs.2.1
  unfold invL bufSt0 bufSt1
  iintro ⟨Hmw, Htok, Heid, ⟨%fD, %hD, HD⟩, Hout, ⟨%off0, %inb0, %X0, %g0, %C0, %hoff0, %hX0, %hrow0, %hG0, Hs6, Hb0, Hi0, ⟨%t0, Ht0⟩⟩, ⟨%off1, %inb1, %X1, %g1, %C1, %hoff1, %hX1, %hrow1, %hG1, Hs7, Hb1, Hi1, ⟨%t1, Ht1⟩⟩, Hc4, Hc5, Hc6, Hc7, %W', %hW', HO⟩
  have hle0 : ∀ j, ((ids0 : Memref sig .scVector .vmem S80 .i32).view.read (Elt F) C0 j).toNat ≤ 49408 := rowOf_le hE hrow0
  have hle1 : ∀ j, ((ids1 : Memref sig .scVector .vmem S80 .i32).view.read (Elt F) C1 j).toNat ≤ 49408 := rowOf_le hE hrow1
  unfold k1_t2_body
  sl_exec (disch := (sl_unfold_run_names; exact effV_chk _ (fun x => hle0 _)))
  ihave HR := (Entails.of_eq (pts_outRow (F := F) d L off0 inb0 _)) $$ Hs6_dst
  ihave HD' := (out_join (n := 2 * k.val) hoff0 (by omega) hD hX0) $$ [HD HR]
  · isplitl [HD] <;> iassumption
  icases HD' with ⟨%fD, %hD, HD⟩
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 1 (G : S49424.Idx → Elt F .f32))) ?hp) $$ Hb0
  case hp => exact ZOff_restore' (View.readAt (Elt F) (ids0 : Memref sig .scVector .vmem S80 .i32).view (Rect.unit (s := S80) ![0] S16.size inb_S80_S16_0).toLoadRect C0) (chunkOf_readAt (ids0 : Memref sig .scVector .vmem S80 .i32).view C0 _ _ 0 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 2 (G : S49424.Idx → Elt F .f32))) ?hp) $$ Hb0
  case hp => exact ZOff_restore' (View.readAt (Elt F) (ids0 : Memref sig .scVector .vmem S80 .i32).view (Rect.unit (s := S80) ![16] S16.size inb_S80_S16_16).toLoadRect C0) (chunkOf_readAt (ids0 : Memref sig .scVector .vmem S80 .i32).view C0 _ _ 1 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 3 (G : S49424.Idx → Elt F .f32))) ?hp) $$ Hb0
  case hp => exact ZOff_restore' (View.readAt (Elt F) (ids0 : Memref sig .scVector .vmem S80 .i32).view (Rect.unit (s := S80) ![32] S16.size inb_S80_S16_32).toLoadRect C0) (chunkOf_readAt (ids0 : Memref sig .scVector .vmem S80 .i32).view C0 _ _ 2 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 4 (G : S49424.Idx → Elt F .f32))) ?hp) $$ Hb0
  case hp => exact ZOff_restore' (View.readAt (Elt F) (ids0 : Memref sig .scVector .vmem S80 .i32).view (Rect.unit (s := S80) ![48] S16.size inb_S80_S16_48).toLoadRect C0) (chunkOf_readAt (ids0 : Memref sig .scVector .vmem S80 .i32).view C0 _ _ 3 rfl) rfl _ rfl hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 5 (G : S49424.Idx → Elt F .f32))) ?hp) $$ Hb0
  case hp => exact ZOff_restore' (View.readAt (Elt F) (ids0 : Memref sig .scVector .vmem S80 .i32).view (Rect.unit (s := S80) ![64] S16.size inb_S80_S16_64).toLoadRect C0) (chunkOf_readAt (ids0 : Memref sig .scVector .vmem S80 .i32).view C0 _ _ 4 rfl) rfl _ rfl hG0
  icases Hb0' with ⟨%g0, %hG0, Hb0⟩
  sl_exec
  have hZ0 : ZAll (g0 : S49424.Idx → Elt F .f32) := ZAll_of_ZOff hG0
  have hoff7 : k1_off7 L k = ![32 * (wid L).val + 2 * k.val + 2, 0] := (by rw [k1_off7_eq]; congr 1; show _ = 32 * ((L 1).val * 2 + (L 0).val) + (2 * k.val + 2); omega)
  ihave Heid2 := (pointsTo_split_subset (ℓ := eidLoc d) (row80_subset (inb := k1_off7_inb L k) (hoff7) (by omega : 32 * (wid L).val ≤ 32 * (wid L).val + 2 * k.val + 2 ∧ 32 * (wid L).val + 2 * k.val + 2 < 32 * (wid L).val + 32))).1 $$ Heid
  icases Heid2 with ⟨HeidR, HeidX⟩
  ihave HeidR' := (Entails.of_eq (pts_eidRow (F := F) d L (k1_off7 L k) (k1_off7_inb L k) _).symm) $$ HeidR
  ihave Htok2 := (pointsTo_split_subset (ℓ := tokLoc d) (row80_subset (inb := k1_off7_inb L k) (hoff7) (by omega : 32 * (wid L).val ≤ 32 * (wid L).val + 2 * k.val + 2 ∧ 32 * (wid L).val + 2 * k.val + 2 < 32 * (wid L).val + 32))).1 $$ Htok
  icases Htok2 with ⟨HtokR, HtokX⟩
  ihave HtokR' := (Entails.of_eq (pts_tokRow (F := F) d L (k1_off7 L k) (k1_off7_inb L k) _).symm) $$ HtokR
  set_option sl_exec.maxSteps 4 in sl_exec
  ihave Hi0' := (restate (ℓ := (ids0 : Memref sig .scVector .vmem S80 .i32).view.loc (V d (cV L) (jV L))) (P := fun C => RowOf E80 (32 * (wid L).val + 2 * k.val + 2) ((ids0 : Memref sig .scVector .vmem S80 .i32).view.read (Elt F) C)) ?hp) $$ Hi0
  case hp =>
    rw [View.read_write_univ]
    exact (show (k1_off7 L k) 0 = 32 * (wid L).val + 2 * k.val + 2 from congrFun hoff7 0) ▸ rowOf_read (F := F) E80 (k1_off7 L k) (k1_off7_inb L k)
  icases Hi0' with ⟨%C0, %hrow0, Hi0⟩
  have hle0 : ∀ j, ((ids0 : Memref sig .scVector .vmem S80 .i32).view.read (Elt F) C0 j).toNat ≤ 49408 := rowOf_le hE hrow0
  ihave HeidR := (Entails.of_eq (pts_eidRow (F := F) d L (k1_off7 L k) (k1_off7_inb L k) _)) $$ HeidR'
  ihave Heid := (pointsTo_split_subset (ℓ := eidLoc d) (row80_subset (inb := k1_off7_inb L k) (hoff7) (by omega : 32 * (wid L).val ≤ 32 * (wid L).val + 2 * k.val + 2 ∧ 32 * (wid L).val + 2 * k.val + 2 < 32 * (wid L).val + 32))).2 $$ [HeidR HeidX]
  · isplitl [HeidR] <;> iassumption
  ihave HtokR := (Entails.of_eq (pts_tokRow (F := F) d L (k1_off7 L k) (k1_off7_inb L k) _)) $$ HtokR'
  ihave Htok := (pointsTo_split_subset (ℓ := tokLoc d) (row80_subset (inb := k1_off7_inb L k) (hoff7) (by omega : 32 * (wid L).val ≤ 32 * (wid L).val + 2 * k.val + 2 ∧ 32 * (wid L).val + 2 * k.val + 2 < 32 * (wid L).val + 32))).2 $$ [HtokR HtokX]
  · isplitl [HtokR] <;> iassumption
  have hG0 : ZOff ((ids0 : Memref sig .scVector .vmem S80 .i32).view.read (Elt F) C0) 0 (g0 : S49424.Idx → Elt F .f32) := ZOff_of_ZAll 0 hZ0
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![0] S16.size inb_S80_S16_0).toLoadRect C0) (chunkOf_readAt (ids0 : Memref sig .scVector .vmem S80 .i32).view C0 _ _ 0 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![16] S16.size inb_S80_S16_16).toLoadRect C0) (chunkOf_readAt (ids0 : Memref sig .scVector .vmem S80 .i32).view C0 _ _ 1 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![32] S16.size inb_S80_S16_32).toLoadRect C0) (chunkOf_readAt (ids0 : Memref sig .scVector .vmem S80 .i32).view C0 _ _ 2 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![48] S16.size inb_S80_S16_48).toLoadRect C0) (chunkOf_readAt (ids0 : Memref sig .scVector .vmem S80 .i32).view C0 _ _ 3 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![64] S16.size inb_S80_S16_64).toLoadRect C0) (chunkOf_readAt (ids0 : Memref sig .scVector .vmem S80 .i32).view C0 _ _ 4 rfl) rfl _ _ hG0
  icases Hb0' with ⟨%g0, %hG0, Hb0⟩
  have hoff8 : k1_off8 L k = ![32 * (wid L).val + 2 * k.val + 2, 0] := (by rw [k1_off8_eq]; congr 1; show _ = 32 * ((L 1).val * 2 + (L 0).val) + (2 * k.val + 2); omega)
  ihave Hout2 := (pointsTo_split_subset (ℓ := outLoc d) (row_subset_ge (n := 2 * k.val + 2) (inb := k1_off8_inb L k) hoff8 (by omega))).1 $$ Hout
  icases Hout2 with ⟨HoutR, Hout⟩
  rw [rowsGe_sdiff (n := 2 * k.val + 2) (inb := k1_off8_inb L k) hoff8 (by omega), show 2 * k.val + 2 + 1 = 2 * k.val + 2 + 1 from by omega]
  ihave HoutR' := (Entails.of_eq (pts_outRow (F := F) d L (k1_off8 L k) (k1_off8_inb L k) _).symm) $$ HoutR
  sl_exec
  ihave Hs6' := (flight_restate (F := F) d L (P := fun X => ∀ i ∈ (Rect.unit (s := S1024x49408) (k1_off8 L k) S1x49408.size (k1_off8_inb L k)).set, Clause E80 X i) ?hp) $$ Hs6
  case hp =>
    exact outRow_clauses (off := k1_off8 L k) (inb := k1_off8_inb L k) (congrFun hoff8 1) ((show (k1_off8 L k) 0 = 32 * (wid L).val + 2 * k.val + 2 from congrFun hoff8 0).symm ▸ hrow0) hG0 _
      (fun x => ⟨((buf0 : Memref sig .scVector .vmem S49424 .f32).slice (Rect.unit (s := S49424) ![0] S49408.size inb_S49424_S49408_0) (fun _ => rfl)).view.emb x, (by show 0 + 1 * (x 0).val = (x 0).val; omega), rfl⟩) fo
  icases Hs6' with ⟨%X0, %hX0, Hs6⟩
  sl_exec (disch := (sl_unfold_run_names; exact effV_chk _ (fun x => hle1 _)))
  ihave HR := (Entails.of_eq (pts_outRow (F := F) d L off1 inb1 _)) $$ Hs7_dst
  ihave HD' := (out_join (n := 2 * k.val + 1) hoff1 (by omega) hD hX1) $$ [HD HR]
  · isplitl [HD] <;> iassumption
  icases HD' with ⟨%fD, %hD, HD⟩
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 1 (G : S49424.Idx → Elt F .f32))) ?hp) $$ Hb1
  case hp => exact ZOff_restore' (View.readAt (Elt F) (ids1 : Memref sig .scVector .vmem S80 .i32).view (Rect.unit (s := S80) ![0] S16.size inb_S80_S16_0).toLoadRect C1) (chunkOf_readAt (ids1 : Memref sig .scVector .vmem S80 .i32).view C1 _ _ 0 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 2 (G : S49424.Idx → Elt F .f32))) ?hp) $$ Hb1
  case hp => exact ZOff_restore' (View.readAt (Elt F) (ids1 : Memref sig .scVector .vmem S80 .i32).view (Rect.unit (s := S80) ![16] S16.size inb_S80_S16_16).toLoadRect C1) (chunkOf_readAt (ids1 : Memref sig .scVector .vmem S80 .i32).view C1 _ _ 1 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 3 (G : S49424.Idx → Elt F .f32))) ?hp) $$ Hb1
  case hp => exact ZOff_restore' (View.readAt (Elt F) (ids1 : Memref sig .scVector .vmem S80 .i32).view (Rect.unit (s := S80) ![32] S16.size inb_S80_S16_32).toLoadRect C1) (chunkOf_readAt (ids1 : Memref sig .scVector .vmem S80 .i32).view C1 _ _ 2 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 4 (G : S49424.Idx → Elt F .f32))) ?hp) $$ Hb1
  case hp => exact ZOff_restore' (View.readAt (Elt F) (ids1 : Memref sig .scVector .vmem S80 .i32).view (Rect.unit (s := S80) ![48] S16.size inb_S80_S16_48).toLoadRect C1) (chunkOf_readAt (ids1 : Memref sig .scVector .vmem S80 .i32).view C1 _ _ 3 rfl) rfl _ rfl hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 5 (G : S49424.Idx → Elt F .f32))) ?hp) $$ Hb1
  case hp => exact ZOff_restore' (View.readAt (Elt F) (ids1 : Memref sig .scVector .vmem S80 .i32).view (Rect.unit (s := S80) ![64] S16.size inb_S80_S16_64).toLoadRect C1) (chunkOf_readAt (ids1 : Memref sig .scVector .vmem S80 .i32).view C1 _ _ 4 rfl) rfl _ rfl hG1
  icases Hb1' with ⟨%g1, %hG1, Hb1⟩
  sl_exec
  have hZ1 : ZAll (g1 : S49424.Idx → Elt F .f32) := ZAll_of_ZOff hG1
  have hoff10 : k1_off10 L k = ![32 * (wid L).val + 2 * k.val + 2 + 1, 0] := (by rw [k1_off10_eq]; congr 1; show _ = 32 * ((L 1).val * 2 + (L 0).val) + (2 * k.val + 2 + 1); omega)
  ihave Heid2 := (pointsTo_split_subset (ℓ := eidLoc d) (row80_subset (inb := k1_off10_inb L k) (hoff10) (by omega : 32 * (wid L).val ≤ 32 * (wid L).val + 2 * k.val + 2 + 1 ∧ 32 * (wid L).val + 2 * k.val + 2 + 1 < 32 * (wid L).val + 32))).1 $$ Heid
  icases Heid2 with ⟨HeidR, HeidX⟩
  ihave HeidR' := (Entails.of_eq (pts_eidRow (F := F) d L (k1_off10 L k) (k1_off10_inb L k) _).symm) $$ HeidR
  ihave Htok2 := (pointsTo_split_subset (ℓ := tokLoc d) (row80_subset (inb := k1_off10_inb L k) (hoff10) (by omega : 32 * (wid L).val ≤ 32 * (wid L).val + 2 * k.val + 2 + 1 ∧ 32 * (wid L).val + 2 * k.val + 2 + 1 < 32 * (wid L).val + 32))).1 $$ Htok
  icases Htok2 with ⟨HtokR, HtokX⟩
  ihave HtokR' := (Entails.of_eq (pts_tokRow (F := F) d L (k1_off10 L k) (k1_off10_inb L k) _).symm) $$ HtokR
  set_option sl_exec.maxSteps 4 in sl_exec
  ihave Hi1' := (restate (ℓ := (ids1 : Memref sig .scVector .vmem S80 .i32).view.loc (V d (cV L) (jV L))) (P := fun C => RowOf E80 (32 * (wid L).val + 2 * k.val + 2 + 1) ((ids1 : Memref sig .scVector .vmem S80 .i32).view.read (Elt F) C)) ?hp) $$ Hi1
  case hp =>
    rw [View.read_write_univ]
    exact (show (k1_off10 L k) 0 = 32 * (wid L).val + 2 * k.val + 2 + 1 from congrFun hoff10 0) ▸ rowOf_read (F := F) E80 (k1_off10 L k) (k1_off10_inb L k)
  icases Hi1' with ⟨%C1, %hrow1, Hi1⟩
  have hle1 : ∀ j, ((ids1 : Memref sig .scVector .vmem S80 .i32).view.read (Elt F) C1 j).toNat ≤ 49408 := rowOf_le hE hrow1
  ihave HeidR := (Entails.of_eq (pts_eidRow (F := F) d L (k1_off10 L k) (k1_off10_inb L k) _)) $$ HeidR'
  ihave Heid := (pointsTo_split_subset (ℓ := eidLoc d) (row80_subset (inb := k1_off10_inb L k) (hoff10) (by omega : 32 * (wid L).val ≤ 32 * (wid L).val + 2 * k.val + 2 + 1 ∧ 32 * (wid L).val + 2 * k.val + 2 + 1 < 32 * (wid L).val + 32))).2 $$ [HeidR HeidX]
  · isplitl [HeidR] <;> iassumption
  ihave HtokR := (Entails.of_eq (pts_tokRow (F := F) d L (k1_off10 L k) (k1_off10_inb L k) _)) $$ HtokR'
  ihave Htok := (pointsTo_split_subset (ℓ := tokLoc d) (row80_subset (inb := k1_off10_inb L k) (hoff10) (by omega : 32 * (wid L).val ≤ 32 * (wid L).val + 2 * k.val + 2 + 1 ∧ 32 * (wid L).val + 2 * k.val + 2 + 1 < 32 * (wid L).val + 32))).2 $$ [HtokR HtokX]
  · isplitl [HtokR] <;> iassumption
  have hG1 : ZOff ((ids1 : Memref sig .scVector .vmem S80 .i32).view.read (Elt F) C1) 0 (g1 : S49424.Idx → Elt F .f32) := ZOff_of_ZAll 0 hZ1
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![0] S16.size inb_S80_S16_0).toLoadRect C1) (chunkOf_readAt (ids1 : Memref sig .scVector .vmem S80 .i32).view C1 _ _ 0 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![16] S16.size inb_S80_S16_16).toLoadRect C1) (chunkOf_readAt (ids1 : Memref sig .scVector .vmem S80 .i32).view C1 _ _ 1 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![32] S16.size inb_S80_S16_32).toLoadRect C1) (chunkOf_readAt (ids1 : Memref sig .scVector .vmem S80 .i32).view C1 _ _ 2 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![48] S16.size inb_S80_S16_48).toLoadRect C1) (chunkOf_readAt (ids1 : Memref sig .scVector .vmem S80 .i32).view C1 _ _ 3 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![64] S16.size inb_S80_S16_64).toLoadRect C1) (chunkOf_readAt (ids1 : Memref sig .scVector .vmem S80 .i32).view C1 _ _ 4 rfl) rfl _ _ hG1
  icases Hb1' with ⟨%g1, %hG1, Hb1⟩
  have hoff11 : k1_off11 L k = ![32 * (wid L).val + 2 * k.val + 2 + 1, 0] := (by rw [k1_off11_eq]; congr 1; show _ = 32 * ((L 1).val * 2 + (L 0).val) + (2 * k.val + 2 + 1); omega)
  ihave Hout2 := (pointsTo_split_subset (ℓ := outLoc d) (row_subset_ge (n := 2 * k.val + 2 + 1) (inb := k1_off11_inb L k) hoff11 (by omega))).1 $$ Hout
  icases Hout2 with ⟨HoutR, Hout⟩
  rw [rowsGe_sdiff (n := 2 * k.val + 2 + 1) (inb := k1_off11_inb L k) hoff11 (by omega), show 2 * k.val + 2 + 1 + 1 = 2 * k.val + 2 + 2 from by omega]
  ihave HoutR' := (Entails.of_eq (pts_outRow (F := F) d L (k1_off11 L k) (k1_off11_inb L k) _).symm) $$ HoutR
  sl_exec
  ihave Hs7' := (flight_restate (F := F) d L (P := fun X => ∀ i ∈ (Rect.unit (s := S1024x49408) (k1_off11 L k) S1x49408.size (k1_off11_inb L k)).set, Clause E80 X i) ?hp) $$ Hs7
  case hp =>
    exact outRow_clauses (off := k1_off11 L k) (inb := k1_off11_inb L k) (congrFun hoff11 1) ((show (k1_off11 L k) 0 = 32 * (wid L).val + 2 * k.val + 2 + 1 from congrFun hoff11 0).symm ▸ hrow1) hG1 _
      (fun x => ⟨((buf1 : Memref sig .scVector .vmem S49424 .f32).slice (Rect.unit (s := S49424) ![0] S49408.size inb_S49424_S49408_0) (fun _ => rfl)).view.emb x, (by show 0 + 1 * (x 0).val = (x 0).val; omega), rfl⟩) fo
  icases Hs7' with ⟨%X1, %hX1, Hs7⟩
  sl_exec
  sl_step
  rw [show 2 * (k.val + 1) = 2 * k.val + 2 from by omega]
  rw [show 2 * k.val + 1 + 1 = 2 * k.val + 2 from by omega] at hD ⊢
  isplitl [Hmw]; · iexact Hmw
  isplitl [Htok]; · iexact Htok
  isplitl [Heid]; · iexact Heid
  isplitl [HD]
  · iexists fD; isplitr
    · ipureintro; exact hD
    · iexact HD
  isplitl [Hout]; · iexact Hout
  isplitl [Hs6 Hb0 Hi0 Ht0]
  · iexists (k1_off8 L k), (k1_off8_inb L k), X0, g0, C0
    isplitr; · ipureintro; exact hoff8
    isplitr; · ipureintro; exact hX0
    isplitr; · ipureintro; exact hrow0
    isplitr; · ipureintro; exact hG0
    isplitl [Hs6]; · iexact Hs6
    isplitl [Hb0]; · iexact Hb0
    isplitl [Hi0]; · iexact Hi0
    iexists _; iexact Ht0
  isplitl [Hs7 Hb1 Hi1 Ht1]
  · iexists (k1_off11 L k), (k1_off11_inb L k), X1, g1, C1
    isplitr; · ipureintro; exact hoff11
    isplitr; · ipureintro; exact hX1
    isplitr; · ipureintro; exact hrow1
    isplitr; · ipureintro; exact hG1
    isplitl [Hs7]; · iexact Hs7
    isplitl [Hb1]; · iexact Hb1
    isplitl [Hi1]; · iexact Hi1
    iexists _; iexact Ht1
  isplitl [Hc4]; · iexact Hc4
  isplitl [Hc5]; · iexact Hc5
  isplitl [Hc6]; · iexact Hc6
  isplitl [Hc7]; · iexact Hc7
  iexists _; isplitr
  rotate_left
  · iexact HO
  · ipureintro
    repeat apply waits_ok_insert
    exact hW'

set_option maxHeartbeats 40000000 in
/-- The task on vector subcore `(L 0, L 1)` of device `d`. -/
theorem tile_body (T80 : Buf (Elt F) (tokLoc d)) (E80 : Buf (Elt F) (eidLoc d)) (hE : ∀ i, (E80 i).toNat ≤ 49408)
    (hF : (K (F := F)).Facts) (O : CellTallies nD τ sig (HIx 1)) (W : Waits sig (HIx 1)) (hO : ∀ g, O g none = 0) :
    iprop(levAts (K (F := F)).L (K (F := F)).lev ∗ goRes d (wid L) T80 E80
        ∗ scopedBufs (V d (cV L) (jV L)) ∗ scopedSems0 (V d (cV L) (jV L)) ∗ owes (V d (cV L) (jV L)) O W)
      ⊢ wp frame (wpE (defs₀ (F := F)) Variants.none (V d (cV L) (jV L)) none) Set.univ
          (cc1_run L tokV (Memref.isWhole_whole _) eidV (Memref.isWhole_whole _) outV (Memref.isWhole_whole _)
            buf0 (Memref.isWhole_whole _) buf1 (Memref.isWhole_whole _) ids0 (Memref.isWhole_whole _) ids1 (Memref.isWhole_whole _)
            tw0 (Memref.isWhole_whole _) tw1 (Memref.isWhole_whole _)
            cc1_scratch6 cc1_scratch7 cc1_scoped0 cc1_scoped1 cc1_scoped2 cc1_scoped3 cc1_scoped4 cc1_scoped5 cc1_scoped6 cc1_scoped7)
          fun _ => iprop(tdRes d (wid L) T80 E80 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_run_eq_skeleton]; unfold cc1_run_skel
  rw [(K (F := F)).scopedBufs_V hF d (cV L) (jV L), SparseCore.Cfg.scopedSems0_V (Val := Elt F) d (cV L) (jV L), ownSems0_V, ownBufs_V]
  unfold goRes
  iintro ⟨#Hlv, ⟨Htok, Heid, %fo, Hout⟩, ⟨⟨%b0, Hb0⟩, ⟨%b1, Hb1⟩, ⟨%i0, Hi0⟩, ⟨%i1, Hi1⟩, ⟨%t0, Ht0⟩, ⟨%t1, Ht1⟩, Hbufs⟩, ⟨Hs6, Hs7, Hc0, Hc1, Hc2, Hc3, Hc4, Hc5, Hc6, Hc7, Hsems⟩, HO⟩
  ihave Hmw := ((K (F := F)).mayWaits_none (thr := (V d (cV L) (jV L))) hO) $$ Hlv
  sl_exec
  sl_for (invZ d L O) $$ [Hmw Hb0 Hb1]
  case region =>
    intro k _
    unfold invZ
    iintro ⟨Hmw, ⟨%g0, %hg0, Hb0⟩, ⟨%g1, %hg1, Hb1⟩⟩
    sl_exec
    sl_step
    isplitl [Hmw]; · iexact Hmw
    isplitl [Hb0]
    · iexists _; isplitr
      rotate_left
      · iexact Hb0
      · ipureintro; exact ZB_step buf0.view g0 k hg0
    · iexists _; isplitr
      rotate_left
      · iexact Hb1
      · ipureintro; exact ZB_step buf1.view g1 k hg1
  · unfold invZ
    isplitl [Hmw]; · iexact Hmw
    isplitl [Hb0]
    · iexists _; isplitr
      rotate_left
      · iexact Hb0
      · ipureintro; exact ZB_zero _
    · iexists _; isplitr
      rotate_left
      · iexact Hb1
      · ipureintro; exact ZB_zero _
  iintro %_ HI
  unfold invZ
  icases HI with ⟨#Hmw, ⟨%g0, %hg0, Hb0⟩, ⟨%g1, %hg1, Hb1⟩⟩

  rw [← rowsGe_zero (wid L)]
  have hoff2 : k1_off2 L = ![32 * (wid L).val + 0, 0] := (by rw [k1_off2_eq]; congr 1; show _ = 32 * ((L 1).val * 2 + (L 0).val) + 0; omega)
  ihave Heid2 := (pointsTo_split_subset (ℓ := eidLoc d) (row80_subset (inb := k1_off2_inb L) (hoff2) (by omega : 32 * (wid L).val ≤ 32 * (wid L).val + 0 ∧ 32 * (wid L).val + 0 < 32 * (wid L).val + 32))).1 $$ Heid
  icases Heid2 with ⟨HeidR, HeidX⟩
  ihave HeidR' := (Entails.of_eq (pts_eidRow (F := F) d L (k1_off2 L) (k1_off2_inb L) _).symm) $$ HeidR
  ihave Htok2 := (pointsTo_split_subset (ℓ := tokLoc d) (row80_subset (inb := k1_off2_inb L) (hoff2) (by omega : 32 * (wid L).val ≤ 32 * (wid L).val + 0 ∧ 32 * (wid L).val + 0 < 32 * (wid L).val + 32))).1 $$ Htok
  icases Htok2 with ⟨HtokR, HtokX⟩
  ihave HtokR' := (Entails.of_eq (pts_tokRow (F := F) d L (k1_off2 L) (k1_off2_inb L) _).symm) $$ HtokR
  set_option sl_exec.maxSteps 4 in sl_exec
  ihave Hi0' := (restate (ℓ := (ids0 : Memref sig .scVector .vmem S80 .i32).view.loc (V d (cV L) (jV L))) (P := fun C => RowOf E80 (32 * (wid L).val + 0) ((ids0 : Memref sig .scVector .vmem S80 .i32).view.read (Elt F) C)) ?hp) $$ Hi0
  case hp =>
    rw [View.read_write_univ]
    exact (show (k1_off2 L) 0 = 32 * (wid L).val + 0 from congrFun hoff2 0) ▸ rowOf_read (F := F) E80 (k1_off2 L) (k1_off2_inb L)
  icases Hi0' with ⟨%C0, %hrow0, Hi0⟩
  have hle0 : ∀ j, ((ids0 : Memref sig .scVector .vmem S80 .i32).view.read (Elt F) C0 j).toNat ≤ 49408 := rowOf_le hE hrow0
  ihave HeidR := (Entails.of_eq (pts_eidRow (F := F) d L (k1_off2 L) (k1_off2_inb L) _)) $$ HeidR'
  ihave Heid := (pointsTo_split_subset (ℓ := eidLoc d) (row80_subset (inb := k1_off2_inb L) (hoff2) (by omega : 32 * (wid L).val ≤ 32 * (wid L).val + 0 ∧ 32 * (wid L).val + 0 < 32 * (wid L).val + 32))).2 $$ [HeidR HeidX]
  · isplitl [HeidR] <;> iassumption
  ihave HtokR := (Entails.of_eq (pts_tokRow (F := F) d L (k1_off2 L) (k1_off2_inb L) _)) $$ HtokR'
  ihave Htok := (pointsTo_split_subset (ℓ := tokLoc d) (row80_subset (inb := k1_off2_inb L) (hoff2) (by omega : 32 * (wid L).val ≤ 32 * (wid L).val + 0 ∧ 32 * (wid L).val + 0 < 32 * (wid L).val + 32))).2 $$ [HtokR HtokX]
  · isplitl [HtokR] <;> iassumption
  have hG0 : ZOff ((ids0 : Memref sig .scVector .vmem S80 .i32).view.read (Elt F) C0) 0 (g0 : S49424.Idx → Elt F .f32) := ZOff_of_ZAll 0 (ZAll_of_ZB hg0)
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![0] S16.size inb_S80_S16_0).toLoadRect C0) (chunkOf_readAt (ids0 : Memref sig .scVector .vmem S80 .i32).view C0 _ _ 0 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![16] S16.size inb_S80_S16_16).toLoadRect C0) (chunkOf_readAt (ids0 : Memref sig .scVector .vmem S80 .i32).view C0 _ _ 1 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![32] S16.size inb_S80_S16_32).toLoadRect C0) (chunkOf_readAt (ids0 : Memref sig .scVector .vmem S80 .i32).view C0 _ _ 2 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![48] S16.size inb_S80_S16_48).toLoadRect C0) (chunkOf_readAt (ids0 : Memref sig .scVector .vmem S80 .i32).view C0 _ _ 3 rfl) rfl _ _ hG0
  icases Hb0' with ⟨%g0, %hG0, Hb0⟩
  sl_exec (disch := (sl_unfold_run_names; exact effV_chk _ (fun x => hle0 _)))
  ihave Hb0 := (Entails.of_eq (pts_access_whole (F := F) d L cc1_scratch0 _).symm) $$ Hb0
  iapply (SparseCore.wp_vectorStoreIdx Variants.none (V d (cV L) (jV L)) none Set.univ (base := buf0)) $$ Hb0; iintro Hb0
  ihave Hb0 := (Entails.of_eq (pts_stored (F := F) d L cc1_scratch0 _ _ _ _ _ _)) $$ Hb0
  ihave Hb0' := (restate (ℓ := (buf0 : Memref sig .scVector .vmem S49424 .f32).view.loc (V d (cV L) (jV L))) (P := (fun G => ZOff ((ids0 : Memref sig .scVector .vmem S80 .i32).view.read (Elt F) C0) 0 (G : S49424.Idx → Elt F .f32))) ?hp) $$ Hb0
  case hp => exact ZOff_scatter' (View.readAt (Elt F) (ids0 : Memref sig .scVector .vmem S80 .i32).view (Rect.unit (s := S80) ![64] S16.size inb_S80_S16_64).toLoadRect C0) (chunkOf_readAt (ids0 : Memref sig .scVector .vmem S80 .i32).view C0 _ _ 4 rfl) rfl _ _ hG0
  icases Hb0' with ⟨%g0, %hG0, Hb0⟩
  have hoff3 : k1_off3 L = ![32 * (wid L).val + 0, 0] := (by rw [k1_off3_eq]; congr 1; show _ = 32 * ((L 1).val * 2 + (L 0).val) + 0; omega)
  ihave Hout2 := (pointsTo_split_subset (ℓ := outLoc d) (row_subset_ge (n := 0) (inb := k1_off3_inb L) hoff3 (by omega))).1 $$ Hout
  icases Hout2 with ⟨HoutR, Hout⟩
  rw [rowsGe_sdiff (n := 0) (inb := k1_off3_inb L) hoff3 (by omega), show 0 + 1 = 1 from by omega]
  ihave HoutR' := (Entails.of_eq (pts_outRow (F := F) d L (k1_off3 L) (k1_off3_inb L) _).symm) $$ HoutR
  sl_exec
  ihave Hs6' := (flight_restate (F := F) d L (P := fun X => ∀ i ∈ (Rect.unit (s := S1024x49408) (k1_off3 L) S1x49408.size (k1_off3_inb L)).set, Clause E80 X i) ?hp) $$ Hs6
  case hp =>
    exact outRow_clauses (off := k1_off3 L) (inb := k1_off3_inb L) (congrFun hoff3 1) ((show (k1_off3 L) 0 = 32 * (wid L).val + 0 from congrFun hoff3 0).symm ▸ hrow0) hG0 _
      (fun x => ⟨((buf0 : Memref sig .scVector .vmem S49424 .f32).slice (Rect.unit (s := S49424) ![0] S49408.size inb_S49424_S49408_0) (fun _ => rfl)).view.emb x, (by show 0 + 1 * (x 0).val = (x 0).val; omega), rfl⟩) fo
  icases Hs6' with ⟨%X0, %hX0, Hs6⟩
  have hoff4 : k1_off4 L = ![32 * (wid L).val + 1, 0] := (by rw [k1_off4_eq]; congr 1; show _ = 32 * ((L 1).val * 2 + (L 0).val) + 1; omega)
  ihave Heid2 := (pointsTo_split_subset (ℓ := eidLoc d) (row80_subset (inb := k1_off4_inb L) (hoff4) (by omega : 32 * (wid L).val ≤ 32 * (wid L).val + 1 ∧ 32 * (wid L).val + 1 < 32 * (wid L).val + 32))).1 $$ Heid
  icases Heid2 with ⟨HeidR, HeidX⟩
  ihave HeidR' := (Entails.of_eq (pts_eidRow (F := F) d L (k1_off4 L) (k1_off4_inb L) _).symm) $$ HeidR
  ihave Htok2 := (pointsTo_split_subset (ℓ := tokLoc d) (row80_subset (inb := k1_off4_inb L) (hoff4) (by omega : 32 * (wid L).val ≤ 32 * (wid L).val + 1 ∧ 32 * (wid L).val + 1 < 32 * (wid L).val + 32))).1 $$ Htok
  icases Htok2 with ⟨HtokR, HtokX⟩
  ihave HtokR' := (Entails.of_eq (pts_tokRow (F := F) d L (k1_off4 L) (k1_off4_inb L) _).symm) $$ HtokR
  set_option sl_exec.maxSteps 4 in sl_exec
  ihave Hi1' := (restate (ℓ := (ids1 : Memref sig .scVector .vmem S80 .i32).view.loc (V d (cV L) (jV L))) (P := fun C => RowOf E80 (32 * (wid L).val + 1) ((ids1 : Memref sig .scVector .vmem S80 .i32).view.read (Elt F) C)) ?hp) $$ Hi1
  case hp =>
    rw [View.read_write_univ]
    exact (show (k1_off4 L) 0 = 32 * (wid L).val + 1 from congrFun hoff4 0) ▸ rowOf_read (F := F) E80 (k1_off4 L) (k1_off4_inb L)
  icases Hi1' with ⟨%C1, %hrow1, Hi1⟩
  have hle1 : ∀ j, ((ids1 : Memref sig .scVector .vmem S80 .i32).view.read (Elt F) C1 j).toNat ≤ 49408 := rowOf_le hE hrow1
  ihave HeidR := (Entails.of_eq (pts_eidRow (F := F) d L (k1_off4 L) (k1_off4_inb L) _)) $$ HeidR'
  ihave Heid := (pointsTo_split_subset (ℓ := eidLoc d) (row80_subset (inb := k1_off4_inb L) (hoff4) (by omega : 32 * (wid L).val ≤ 32 * (wid L).val + 1 ∧ 32 * (wid L).val + 1 < 32 * (wid L).val + 32))).2 $$ [HeidR HeidX]
  · isplitl [HeidR] <;> iassumption
  ihave HtokR := (Entails.of_eq (pts_tokRow (F := F) d L (k1_off4 L) (k1_off4_inb L) _)) $$ HtokR'
  ihave Htok := (pointsTo_split_subset (ℓ := tokLoc d) (row80_subset (inb := k1_off4_inb L) (hoff4) (by omega : 32 * (wid L).val ≤ 32 * (wid L).val + 1 ∧ 32 * (wid L).val + 1 < 32 * (wid L).val + 32))).2 $$ [HtokR HtokX]
  · isplitl [HtokR] <;> iassumption
  have hG1 : ZOff ((ids1 : Memref sig .scVector .vmem S80 .i32).view.read (Elt F) C1) 0 (g1 : S49424.Idx → Elt F .f32) := ZOff_of_ZAll 0 (ZAll_of_ZB hg1)
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![0] S16.size inb_S80_S16_0).toLoadRect C1) (chunkOf_readAt (ids1 : Memref sig .scVector .vmem S80 .i32).view C1 _ _ 0 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![16] S16.size inb_S80_S16_16).toLoadRect C1) (chunkOf_readAt (ids1 : Memref sig .scVector .vmem S80 .i32).view C1 _ _ 1 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![32] S16.size inb_S80_S16_32).toLoadRect C1) (chunkOf_readAt (ids1 : Memref sig .scVector .vmem S80 .i32).view C1 _ _ 2 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![48] S16.size inb_S80_S16_48).toLoadRect C1) (chunkOf_readAt (ids1 : Memref sig .scVector .vmem S80 .i32).view C1 _ _ 3 rfl) rfl _ _ hG1
  icases Hb1' with ⟨%g1, %hG1, Hb1⟩
  sl_exec (disch := (sl_unfold_run_names; exact effV_chk _ (fun x => hle1 _)))
  ihave Hb1 := (Entails.of_eq (pts_access_whole (F := F) d L cc1_scratch1 _).symm) $$ Hb1
  iapply (SparseCore.wp_vectorStoreIdx Variants.none (V d (cV L) (jV L)) none Set.univ (base := buf1)) $$ Hb1; iintro Hb1
  ihave Hb1 := (Entails.of_eq (pts_stored (F := F) d L cc1_scratch1 _ _ _ _ _ _)) $$ Hb1
  ihave Hb1' := (restate (ℓ := (buf1 : Memref sig .scVector .vmem S49424 .f32).view.loc (V d (cV L) (jV L))) (P := (fun G => ZOff ((ids1 : Memref sig .scVector .vmem S80 .i32).view.read (Elt F) C1) 0 (G : S49424.Idx → Elt F .f32))) ?hp) $$ Hb1
  case hp => exact ZOff_scatter' (View.readAt (Elt F) (ids1 : Memref sig .scVector .vmem S80 .i32).view (Rect.unit (s := S80) ![64] S16.size inb_S80_S16_64).toLoadRect C1) (chunkOf_readAt (ids1 : Memref sig .scVector .vmem S80 .i32).view C1 _ _ 4 rfl) rfl _ _ hG1
  icases Hb1' with ⟨%g1, %hG1, Hb1⟩
  have hoff5 : k1_off5 L = ![32 * (wid L).val + 1, 0] := (by rw [k1_off5_eq]; congr 1; show _ = 32 * ((L 1).val * 2 + (L 0).val) + 1; omega)
  ihave Hout2 := (pointsTo_split_subset (ℓ := outLoc d) (row_subset_ge (n := 1) (inb := k1_off5_inb L) hoff5 (by omega))).1 $$ Hout
  icases Hout2 with ⟨HoutR, Hout⟩
  rw [rowsGe_sdiff (n := 1) (inb := k1_off5_inb L) hoff5 (by omega), show 1 + 1 = 2 from by omega]
  ihave HoutR' := (Entails.of_eq (pts_outRow (F := F) d L (k1_off5 L) (k1_off5_inb L) _).symm) $$ HoutR
  sl_exec
  ihave Hs7' := (flight_restate (F := F) d L (P := fun X => ∀ i ∈ (Rect.unit (s := S1024x49408) (k1_off5 L) S1x49408.size (k1_off5_inb L)).set, Clause E80 X i) ?hp) $$ Hs7
  case hp =>
    exact outRow_clauses (off := k1_off5 L) (inb := k1_off5_inb L) (congrFun hoff5 1) ((show (k1_off5 L) 0 = 32 * (wid L).val + 1 from congrFun hoff5 0).symm ▸ hrow1) hG1 _
      (fun x => ⟨((buf1 : Memref sig .scVector .vmem S49424 .f32).slice (Rect.unit (s := S49424) ![0] S49408.size inb_S49424_S49408_0) (fun _ => rfl)).view.emb x, (by show 0 + 1 * (x 0).val = (x 0).val; omega), rfl⟩) fo
  icases Hs7' with ⟨%X1, %hX1, Hs7⟩
  sl_exec
  sl_for (invL d L T80 E80 fo O W) $$ [Hmw Htok Heid Hout Hs6 Hb0 Hi0 Ht0 Hs7 Hb1 Hi1 Ht1 Hc4 Hc5 Hc6 Hc7 HO]
  case region =>
    intro k acc
    exact trip d L T80 E80 hE fo O W _ _ _ k acc
  · unfold invL
    isplitl [Hmw]; · iexact Hmw
    isplitl [Htok]; · iexact Htok
    isplitl [Heid]; · iexact Heid
    isplitl []
    · iexists fo; isplitr
      · ipureintro; intro i hi; rw [rowsLt_zero] at hi; exact absurd hi (Finset.notMem_empty _)
      · rw [rowsLt_zero, pointsTo_empty]; iempintro
    isplitl [Hout]; · iexact Hout
    isplitl [Hs6 Hb0 Hi0 Ht0]
    · unfold bufSt0
      iexists (k1_off3 L), (k1_off3_inb L), X0, g0, C0
      isplitr; · ipureintro; exact hoff3
      isplitr; · ipureintro; exact hX0
      isplitr; · ipureintro; exact hrow0
      isplitr; · ipureintro; exact hG0
      isplitl [Hs6]; · iexact Hs6
      isplitl [Hb0]; · iexact Hb0
      isplitl [Hi0]; · iexact Hi0
      iexists _; iexact Ht0
    isplitl [Hs7 Hb1 Hi1 Ht1]
    · unfold bufSt1
      iexists (k1_off5 L), (k1_off5_inb L), X1, g1, C1
      isplitr; · ipureintro; exact hoff5
      isplitr; · ipureintro; exact hX1
      isplitr; · ipureintro; exact hrow1
      isplitr; · ipureintro; exact hG1
      isplitl [Hs7]; · iexact Hs7
      isplitl [Hb1]; · iexact Hb1
      isplitl [Hi1]; · iexact Hi1
      iexists _; iexact Ht1
    isplitl [Hc4]; · iexact Hc4
    isplitl [Hc5]; · iexact Hc5
    isplitl [Hc6]; · iexact Hc6
    isplitl [Hc7]; · iexact Hc7
    iexists _; isplitr
    rotate_left
    · iexact HO
    · ipureintro
      repeat apply waits_ok_insert
      exact fun p hp => .inl hp
  iintro %_ HI
  unfold invL bufSt0 bufSt1
  icases HI with ⟨#Hmw2, Htok, Heid, ⟨%fD, %hD, HD⟩, Hout, ⟨%off0, %inb0, %X0, %g0, %C0, %hoff0, %hX0, %hrow0, %hG0, Hs6, Hb0, Hi0, ⟨%t0, Ht0⟩⟩, ⟨%off1, %inb1, %X1, %g1, %C1, %hoff1, %hX1, %hrow1, %hG1, Hs7, Hb1, Hi1, ⟨%t1, Ht1⟩⟩, Hc4, Hc5, Hc6, Hc7, %W', %hW', HO⟩
  sl_exec
  have htr : Scf.trips k1_t2_loop.lb k1_t2_loop.ub k1_t2_loop.st = 15 := by decide
  rw [htr] at hD hoff0 hoff1 ⊢
  ihave HR0 := (Entails.of_eq (pts_outRow (F := F) d L off0 inb0 _)) $$ Hs6_dst
  ihave HD' := (out_join (n := 2 * 15) hoff0 (by omega) hD hX0) $$ [HD HR0]
  · isplitl [HD] <;> iassumption
  icases HD' with ⟨%fD, %hD, HD⟩
  ihave HR1 := (Entails.of_eq (pts_outRow (F := F) d L off1 inb1 _)) $$ Hs7_dst
  ihave HD' := (out_join (n := 2 * 15 + 1) hoff1 (by omega) hD hX1) $$ [HD HR1]
  · isplitl [HD] <;> iassumption
  icases HD' with ⟨%fD, %hD, HD⟩
  ihave Hres := (out_done (w := wid L) (T80 := T80) hD) $$ [Htok Heid HD]
  · isplitl [Htok]; · iexact Htok
    isplitl [Heid]; · iexact Heid
    iexact HD
  rw [show 2 * 15 + 2 = 32 from rfl, rowsGe_32, pointsTo_empty]
  sl_step
  isplitl [Hres]; · iexact Hres
  isplitl [Hb0 Hb1 Hi0 Hi1 Ht0 Ht1 Hbufs]
  · isplitl [Hb0]; · iexists _; iexact Hb0
    isplitl [Hb1]; · iexists _; iexact Hb1
    isplitl [Hi0]; · iexists _; iexact Hi0
    isplitl [Hi1]; · iexists _; iexact Hi1
    isplitl [Ht0]; · iexists _; iexact Ht0
    isplitl [Ht1]; · iexists _; iexact Ht1
    iexact Hbufs
  isplitl [Hs6 Hs7 Hc0 Hc1 Hc2 Hc3 Hc4 Hc5 Hc6 Hc7 Hsems]
  · isplitl [Hs6]; · iexact Hs6
    isplitl [Hs7]; · iexact Hs7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr
  rotate_left
  · iexact HO
  · ipureintro
    repeat apply waits_ok_insert
    exact hW'

end Tile

variable [FloatOps F]

/-- Every task's body, as the launch side consumes it: the indices in range on every device. -/
theorem tileBody_holds (T80 : (d : Dev nD) → Buf (Elt F) (tokLoc d)) (E80 : (d : Dev nD) → Buf (Elt F) (eidLoc d))
    (hE : ∀ d j, (E80 d j).toNat ≤ 49408) : TileBody T80 E80 :=
  fun d L O W hO => tile_body d L (T80 d) (E80 d) (hE d) facts O W hO

end Cert.Kernel.Pf

end
-- ==== Proof.Bits.TcPre.lean ====
/-
  The precondition read back at the ids: every id, a signed word between 0 and 49407, is its own value below 49408.
-/
import proofs.«211129_g5394478924152_cont_9to1c4b_288_8_alg».proof.Kernel
import proofs.«211129_g5394478924152_cont_9to1c4b_288_8_alg».proof.Pre_input_domain
import proofs.«211129_g5394478924152_cont_9to1c4b_288_8_alg».proof.Proof.Gen.Pre_input_domain
import Idealize.ShloMosaic.Lib.ReduceAll
import Idealize.ShloMosaic.Lib.ValueIdx

noncomputable section

namespace Cert.Kernel.Pf

open Cert.Kernel
open Idealize.ShloMosaic

variable {F : FTy → Type} [FloatOps F]

/-- A signed word at least 0 and at most 49407 is its own value, below 49408. -/
theorem word_in_range (v : BitVec 32) (e : IntOp.andi (IntOp.cmpi .sge v 0#32) (IntOp.cmpi .sle v 49407#32) = 1#1) :
    v.toNat < 49408 := by
  obtain ⟨h1, h2⟩ := IntOp.andi_eq_one.mp e
  rw [IntOp.cmpi_sge] at h1
  rw [IntOp.cmpi_sle] at h2
  have hv := v.isLt
  simp only [BitVec.toInt_eq_toNat_cond, BitVec.toNat_ofNat, Nat.reducePow, Nat.reduceMod] at h1 h2
  omega

/-- THE IDS' RANGE from the precondition: its last conjunct is `all ((ids ≥ 0) ∧ (ids ≤ 49407))`, a reduction by `and`
    over every index that came out 1. -/
theorem ids_in_range (a0 : Vec F S1024x77x768 .f32) (a1 : Vec F S1024x77 .f32) (a2 : Vec F S1x768 .f32) (a3 : Vec F S1 .f32)
    (a4 : Vec F S1024x77 .i32) (h : Cert.Pre_input_domain.fn (F := F) a0 a1 a2 a3 a4 = fun _ => 1#1) :
    ∀ j : S1024x77.Idx, (a4 j).toNat < 49408 := by
  intro j
  haveI : Subsingleton Cert.Pre_input_domain.S_.Idx := ⟨fun a b => funext fun d => d.elim0⟩
  have e := congrFun h ValueIdx.ix0
  unfold Cert.Pre_input_domain.fn Cert.Pre_input_domain.fn_part1 at e
  have e24 := (IntOp.andi_eq_one.mp e).2
  have ej := Host.reduce_andi_all _ _ _ _ _ e24 j
  exact word_in_range _ ej

end Cert.Kernel.Pf

end
-- ==== Proof.TcValueIdeal.lean ====
/-
  The first result at the ideal values, index by index: the logarithm of one plus the clamped affine score of a token,
  times its mask.
-/
import proofs.«211129_g5394478924152_cont_9to1c4b_288_8_alg».proof.Proof.TcValue
import Idealize.ShloMosaic.Lib.ValueIdx
import Idealize.ShloMosaic.Lib.Pipeline.Value
import Idealize.ShloMosaic.PureOps.Ideal.Laws

noncomputable section

open scoped BigOperators

namespace Cert.KernelIdeal.Pf

open Cert.KernelIdeal Cert.KernelIdeal.Gen
open Idealize.ShloMosaic Idealize.ShloMosaic.ValueIdx

/-- The weight row, broadcast over the block, read at an index: the row's element on the last axis. -/
theorem wrow_apply (x1 : FVec Ideal S1x768 .f32) (p : Fin 8) (q : Fin 77) (k : Fin 768) :
    broadcastTo S8x77x768 (shapeCast S1x1x768 x1 shapeCasts_S1x768_S1x1x768) broadcasts_S1x1x768_S8x77x768 (ix3 p q k)
      = x1 (ix2 (0 : Fin 1) k) := by
  refine (broadcastTo_apply _ broadcasts_S1x1x768_S8x77x768 (ix3 p q k) (ix3 (0 : Fin 1) (0 : Fin 1) k) (fun a => by
    match a with
    | ⟨0, _⟩ => rfl
    | ⟨1, _⟩ => rfl
    | ⟨2, _⟩ => rfl)).trans ?_
  refine (shapeCast_addUnit_apply ![1, 768] x1 shapeCasts_S1x768_S1x1x768 (ix3 (0 : Fin 1) (0 : Fin 1) k)).trans ?_
  refine congrArg x1 (funext fun a => ?_)
  match a with
  | ⟨0, _⟩ => rfl
  | ⟨1, _⟩ => rfl

/-- The lane sum of the first payload at an index. -/
theorem lane_sum (x0 : FVec Ideal S8x77x768 .f32) (x1 : FVec Ideal S1x768 .f32) (p : Fin 8) (q : Fin 77) :
    multiReduction (F := Ideal) .add [2] S8x77
        (mulf x0 (broadcastTo S8x77x768 (shapeCast S1x1x768 x1 shapeCasts_S1x768_S1x1x768) broadcasts_S1x1x768_S8x77x768))
        0x00000000#32 reduces_S8x77x768_S8x77 (.inl rfl) rfl (ix2 p q)
      = ∑ k : Fin 768, x0 (ix3 p q k) * x1 (ix2 (0 : Fin 1) k) := by
  refine (Ideal.multiReduction_add_single _ 0x00000000#32 reduces_S8x77x768_S8x77 (.inl rfl) rfl (ix2 p q)).trans ?_
  refine Finset.sum_congr rfl fun (k : Fin 768) _ => ?_
  have hl : reduces_S8x77x768_S8x77.lift (ix2 p q) k = ix3 p q k := by
    funext c; apply Fin.ext
    match c with
    | ⟨0, _⟩ => rfl
    | ⟨1, _⟩ => rfl
    | ⟨2, _⟩ => rfl
  rw [hl]
  show x0 (ix3 p q k) * broadcastTo S8x77x768 (shapeCast S1x1x768 x1 shapeCasts_S1x768_S1x1x768) broadcasts_S1x1x768_S8x77x768 (ix3 p q k) = _
  rw [wrow_apply]

/-- The first payload at an index, at the ideal values. -/
theorem pay1_apply (x0 : FVec Ideal S8x77x768 .f32) (x1 : FVec Ideal S1x768 .f32) (x6 : FVec Ideal S1x1 .f32)
    (x13 : FVec Ideal S8x77 .f32) (p : Fin 8) (q : Fin 77) :
    k0_pay1 (F := Ideal) x0 x1 x6 x13 (ix2 p q)
      = Ideal.log1p (max ((∑ k : Fin 768, x0 (ix3 p q k) * x1 (ix2 (0 : Fin 1) k)) + x6 (ix2 (0 : Fin 1) (0 : Fin 1))) 0) * x13 (ix2 p q) := by
  unfold k0_pay1
  show Ideal.log1p (max (multiReduction (F := Ideal) .add [2] S8x77
        (mulf x0 (broadcastTo S8x77x768 (shapeCast S1x1x768 x1 shapeCasts_S1x768_S1x1x768) broadcasts_S1x1x768_S8x77x768))
        0x00000000#32 reduces_S8x77x768_S8x77 (.inl rfl) rfl (ix2 p q) + extractAt ![0, 0] x6 inpos_S1x1_p0_0)
      (Ideal.ofBits .f32 0x00000000#32)) * x13 (ix2 p q) = _
  rw [lane_sum, Ideal.ofBits_zero_f32]
  have hx : extractAt ![0, 0] x6 inpos_S1x1_p0_0 = x6 (ix2 (0 : Fin 1) (0 : Fin 1)) := by
    unfold extractAt
    refine congrArg x6 (funext fun a => ?_)
    match a with
    | ⟨0, _⟩ => rfl
    | ⟨1, _⟩ => rfl
  rw [hx]

/-- THE FIRST RESULT at the ideal values: at batch row `b` and token `s`, the logarithm of one plus the token's score
    — the hidden state's inner product with the weight row plus the bias, clamped below at zero — times the mask. -/
theorem tokVal_apply (a0 : Vec Ideal S1024x77x768 .f32) (a1 : Vec Ideal S1024x77 .f32) (a2 : Vec Ideal S1x768 .f32)
    (v0 : Vec Ideal S1x1 .f32) (b : Fin 1024) (s : Fin 77) :
    tokVal (F := Ideal) a0 a1 a2 v0 (ix2 b s)
      = Ideal.log1p (max ((∑ k : Fin 768, a0 (ix3 b s k) * a2 (ix2 (0 : Fin 1) k)) + v0 (ix2 (0 : Fin 1) (0 : Fin 1))) 0) * a1 (ix2 b s) := by
  have hb : b.val < 1024 := b.isLt
  show tokBlk (F := Ideal) a0 a1 a2 v0 ⟨b.val / 8, by omega⟩ (ix2 (⟨b.val % 8, Nat.mod_lt _ (by decide)⟩ : Fin 8) s) = _
  unfold tokBlk
  refine (pay1_apply _ _ _ _ _ _).trans ?_
  have h3 : ∀ k : Fin 768, rows3 a0 ⟨b.val / 8, by omega⟩ (ix3 (⟨b.val % 8, Nat.mod_lt _ (by decide)⟩ : Fin 8) s k) = a0 (ix3 b s k) := fun k =>
    congrArg a0 (funext fun c => by
      match c with
      | ⟨0, _⟩ => exact Fin.ext (by show 8 * (b.val / 8) + b.val % 8 = b.val; omega)
      | ⟨1, _⟩ => rfl
      | ⟨2, _⟩ => rfl)
  have h2 : rows2 a1 ⟨b.val / 8, by omega⟩ (ix2 (⟨b.val % 8, Nat.mod_lt _ (by decide)⟩ : Fin 8) s) = a1 (ix2 b s) :=
    rows2_div_mod a1 (ix2 b s)
  rw [h2]
  simp only [h3]

end Cert.KernelIdeal.Pf

end
-- ==== Proof.TcRef.lean ====
/-
  The reference's result is the kernel program's: the scatter, by one record, of the same token weights at the same
  (row, id) indices into the same zero array.
-/
import proofs.«211129_g5394478924152_cont_9to1c4b_288_8_alg».proof.Proof.Gen.ReferenceIdeal.Read
import proofs.«211129_g5394478924152_cont_9to1c4b_288_8_alg».proof.Proof.Vals
import proofs.«211129_g5394478924152_cont_9to1c4b_288_8_alg».proof.Proof.TcValueIdeal

noncomputable section

open scoped BigOperators

namespace Cert.KernelIdeal.Pf

open Cert.KernelIdeal Cert.KernelIdeal.Gen
open Idealize.ShloMosaic Idealize.ShloMosaic.ValueIdx
open Cert.ReferenceIdeal.Read

/-- A one-element shape has one index. -/
theorem S1_idx_eq (p q : S1.Idx) : p = q := by
  funext a
  have h : a.val < 1 := a.isLt
  have ha : a = (0 : Fin 1) := Fin.ext (by show a.val = 0; omega)
  subst ha
  have h1 : (p 0).val < 1 := (p 0).isLt
  have h2 : (q 0).val < 1 := (q 0).isLt
  exact Fin.ext (by omega)

/-- The reference's token weights are the kernel's first result, index by index: both are the logarithm of one plus
    the clamped affine score, times the mask. -/
theorem ref_tok (x0 : Vec Ideal S1024x77x768 .f32) (x1 : Vec Ideal S1024x77 .f32) (x2 : Vec Ideal S1x768 .f32) (x3 : Vec Ideal S1 .f32) :
    val_main_v7 (F := Ideal) x0 x1 x2 x3 = tokVal (F := Ideal) x0 x1 x2 (v0K x3) := by
  funext i
  obtain ⟨b, s, rfl⟩ : ∃ (b : Fin 1024) (s : Fin 77), i = ix2 b s := ⟨i 0, i 1, eq_ix2 i⟩
  rw [tokVal_apply]
  rw [val_main_v7_apply, val_main_v6_apply, val_main_v5_apply, val_main_v4_apply, val_main_v3_apply, val_main_v0_apply,
    val_main_v2_apply, val_main_v1_apply, val_main_call0_v0_apply, val_main_call0_cst_apply]
  have hl : ∀ k : Fin 768, lidx_main_v0 (idx_main_v6 (ix2 b s)) k = ix3 b s k := fun k => funext fun a => Fin.ext (by
    have hb : b.val < 1024 := b.isLt
    have hs : s.val < 77 := s.isLt
    match a with
    | ⟨0, _⟩ => show (b.val * 77 + s.val) / 77 = b.val; omega
    | ⟨1, _⟩ => show (b.val * 77 + s.val) / 1 % 77 = s.val; omega
    | ⟨2, _⟩ => rfl)
  have hr : ∀ k : Fin 768, ridx_main_v0 (idx_main_v6 (ix2 b s)) k = ix2 (0 : Fin 1) k := fun k => funext fun a => Fin.ext (by
    match a with
    | ⟨0, _⟩ => rfl
    | ⟨1, _⟩ => rfl)
  have hb : x3 (idx_main_v1 (idx_main_v2 (idx_main_v6 (ix2 b s)))) = v0K x3 (ix2 (0 : Fin 1) (0 : Fin 1)) := by
    unfold v0K shapeCast
    exact congrArg x3 (S1_idx_eq _ _)
  simp only [hl, hr, hb]
  show Ideal.log1p (max ((∑ k : Fin 768, x0 (ix3 b s k) * x2 (ix2 (0 : Fin 1) k)) + v0K x3 (ix2 (0 : Fin 1) (0 : Fin 1)))
    (Ideal.ofBits .f32 0x00000000#32)) * x1 (ix2 b s) = _
  rw [Ideal.ofBits_zero_f32]

/-- THE REFERENCE'S RESULT is the kernel program's final array of the same inputs. -/
theorem ref_eq (x0 : Vec Ideal S1024x77x768 .f32) (x1 : Vec Ideal S1024x77 .f32) (x2 : Vec Ideal S1x768 .f32) (x3 : Vec Ideal S1 .f32)
    (x4 : Vec Ideal S1024x77 .i32) :
    val_main_v25 (F := Ideal) x0 x1 x2 x3 x4 = finalK (F := Ideal) x4 (tokVal (F := Ideal) x0 x1 x2 (v0K x3)) := by
  have hz : val_main_v11 (F := Ideal) = fun _ => (zeroF : Elt Ideal .f32) := by
    funext i
    rw [val_main_v11_apply, val_main_cst_apply]
    rfl
  have hidx : val_main_v24 (F := Ideal) x4 = idxK x4 := rfl
  unfold val_main_v25 finalK
  rw [hz, hidx, ref_tok]
  rfl

end Cert.KernelIdeal.Pf

end
-- ==== Proof.Claims.lean ====
/-
  The five claims of the certificate, assembled: the kernel program's run (at the word-level instance for the frame of
  the program as printed, at the ideal instance for the frame and the value of its idealization), the reference's
  generated run, and the equality of the two results at the ideal instance — both are the token weights scattered at
  (row, id) into zeros.
-/
import proofs.«211129_g5394478924152_cont_9to1c4b_288_8_alg».proof.Defs
import proofs.«211129_g5394478924152_cont_9to1c4b_288_8_alg».proof.Proof.MainTail
import proofs.«211129_g5394478924152_cont_9to1c4b_288_8_alg».proof.Proof.Bits.MainTail
import proofs.«211129_g5394478924152_cont_9to1c4b_288_8_alg».proof.Proof.TileBody
import proofs.«211129_g5394478924152_cont_9to1c4b_288_8_alg».proof.Proof.TcPre
import proofs.«211129_g5394478924152_cont_9to1c4b_288_8_alg».proof.Proof.Bits.TileBody
import proofs.«211129_g5394478924152_cont_9to1c4b_288_8_alg».proof.Proof.Bits.TcPre
import proofs.«211129_g5394478924152_cont_9to1c4b_288_8_alg».proof.Proof.TcRef
import proofs.«211129_g5394478924152_cont_9to1c4b_288_8_alg».proof.Proof.Gen.ReferenceIdeal.Run
import proofs.«211129_g5394478924152_cont_9to1c4b_288_8_alg».proof.Proof.Gen.ReferenceIdeal.Read
import proofs.«211129_g5394478924152_cont_9to1c4b_288_8_alg».proof.Proof.Gen.Pre_input_domain

noncomputable section

namespace Cert.Proof.Claims

open Idealize.ShloMosaic Idealize.ShloMosaic.TcCoe Idealize.SL.Sem

/-- The precondition gives the ids in range, on every device (word-level program). -/
theorem preOK_k (m : (ℓ : Loc Cert.Kernel.nD Cert.Kernel.τ Cert.Kernel.sig) → Buf (Elt Bits) ℓ) (h : Cert.Pre_Kernel m) :
    Cert.Kernel.Pf.PreOK (F := Bits) m :=
  fun d j => Cert.Kernel.Pf.ids_in_range _ _ _ _ _ (h d) j

/-- The same for the idealized program. -/
theorem preOK_ki (m : (ℓ : Loc Cert.KernelIdeal.nD Cert.KernelIdeal.τ Cert.KernelIdeal.sig) → Buf (Elt Ideal) ℓ) (h : Cert.Pre_KernelIdeal m) :
    Cert.KernelIdeal.Pf.PreOK (F := Ideal) m :=
  fun d j => Cert.KernelIdeal.Pf.ids_in_range _ _ _ _ _ (h d) j

/-- The vector subcore's task, at the padded arrays the run passes it (word-level program): the padded ids are in range of the
    buffer's index assumption. -/
theorem tileBody_k (m : (ℓ : Loc Cert.Kernel.nD Cert.Kernel.τ Cert.Kernel.sig) → Buf (Elt Bits) ℓ) (h : Cert.Kernel.Pf.PreOK (F := Bits) m) :
    Cert.Kernel.Pf.TileBody (F := Bits) (Cert.Kernel.Pf.T80K m) (Cert.Kernel.Pf.E80K m) :=
  Cert.Kernel.Pf.tileBody_holds (F := Bits) (Cert.Kernel.Pf.T80K m) (Cert.Kernel.Pf.E80K m)
    fun d j => Cert.Kernel.Pf.eid80_ok (F := Bits) (Cert.Kernel.Pf.a4K m d) (h d) j

/-- The same for the idealized program. -/
theorem tileBody_ki (m : (ℓ : Loc Cert.KernelIdeal.nD Cert.KernelIdeal.τ Cert.KernelIdeal.sig) → Buf (Elt Ideal) ℓ) (h : Cert.KernelIdeal.Pf.PreOK (F := Ideal) m) :
    Cert.KernelIdeal.Pf.TileBody (F := Ideal) (Cert.KernelIdeal.Pf.T80K m) (Cert.KernelIdeal.Pf.E80K m) :=
  Cert.KernelIdeal.Pf.tileBody_holds (F := Ideal) (Cert.KernelIdeal.Pf.T80K m) (Cert.KernelIdeal.Pf.E80K m)
    fun d j => Cert.KernelIdeal.Pf.eid80_ok (F := Ideal) (Cert.KernelIdeal.Pf.a4K m d) (h d) j

theorem frame_k : Cert.frame_Kernel := fun m ρ hpre =>
  (θ_run Cert.Kernel.defs _ _).mono (fun _ h c => (h c).2)
    (Cert.Kernel.Pf.run_main (F := Bits) m ρ (preOK_k m hpre) (tileBody_k m (preOK_k m hpre)))

theorem frame_ki : Cert.frame_KernelIdeal := fun m ρ hpre =>
  (θ_run Cert.KernelIdeal.defs _ _).mono (fun _ h c => (h c).2)
    (Cert.KernelIdeal.Pf.run_main (F := Ideal) m ρ (preOK_ki m hpre) (tileBody_ki m (preOK_ki m hpre)))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Pf.finalK (Cert.KernelIdeal.Pf.a4K m c) (Cert.KernelIdeal.Pf.tokK m c),
    Cert.KernelIdeal.Pf.run_main (F := Ideal) m ρ (preOK_ki m hpre) (tileBody_ki m (preOK_ki m hpre)), ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v25_eq, (hagree c).1, (hagree c).2.1, (hagree c).2.2.1, (hagree c).2.2.2.1, (hagree c).2.2.2.2]
  exact Cert.KernelIdeal.Pf.ref_eq _ _ _ _ _

end Cert.Proof.Claims

end
-- ==== Proof.lean ====
/-
  The certificate's proof: `Cert.Claim` from the five claims assembled in Proof/Claims.lean.
  The kernel program is a TensorCore call (the token weights `log1p (max (x · W + b) 0) · mask` and the ids with every
  earlier in-row duplicate replaced by a dump id), two pads, a SparseCore vector-subcore kernel that scatters each row's
  weights into a zeroed buffer and copies it out, and a final host scatter of the weights at (row, id) into that result.
  Off a row's ids the SparseCore result is zero and on them the host scatter overwrites it, so the result is the
  scatter into zeros — the reference's result, whose weights are the same function of the arguments at the ideal
  instance (a lane sum against a contraction, both the one sum of products).
-/
import proofs.«211129_g5394478924152_cont_9to1c4b_288_8_alg».proof.Defs
import proofs.«211129_g5394478924152_cont_9to1c4b_288_8_alg».proof.Proof.Gen.Kernel
import proofs.«211129_g5394478924152_cont_9to1c4b_288_8_alg».proof.Proof.Gen.KernelIdeal
import proofs.«211129_g5394478924152_cont_9to1c4b_288_8_alg».proof.Proof.Gen.ReferenceIdeal
import proofs.«211129_g5394478924152_cont_9to1c4b_288_8_alg».proof.Proof.Gen.Pre_input_domain
import proofs.«211129_g5394478924152_cont_9to1c4b_288_8_alg».proof.Proof.Gen.ReferenceIdeal.Run
import proofs.«211129_g5394478924152_cont_9to1c4b_288_8_alg».proof.Proof.Gen.ReferenceIdeal.Read
import proofs.«211129_g5394478924152_cont_9to1c4b_288_8_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
